-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.truncf_extf.Statement Cert.KernelIdeal.S400x8 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v70)) (v1 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_v71) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_v128) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x3 : Shape := ⟨3, ![4, 256, 3]⟩
abbrev S4x256 : Shape := ⟨2, ![4, 256]⟩
abbrev S4x128x256 : Shape := ⟨3, ![4, 128, 256]⟩
abbrev S4x40000x7 : Shape := ⟨3, ![4, 40000, 7]⟩
abbrev S4x40000 : Shape := ⟨2, ![4, 40000]⟩
abbrev S_ : Shape := ⟨0, ![]⟩

class Facts : Prop where
  bcast_S_S4x256x3 : S_.BroadcastsInDim S4x256x3 (![] : Fin 0 → Fin S4x256x3.rank)
  reducesTo_S4x256x3_S_d0_1_2 : S4x256x3.ReducesTo [0, 1, 2] S_
  h_S_ : 0 < S_.numel
  bcast_S_S4x256 : S_.BroadcastsInDim S4x256 (![] : Fin 0 → Fin S4x256.rank)
  reducesTo_S4x256_S_d0_1 : S4x256.ReducesTo [0, 1] S_
  bcast_S_S4x128x256 : S_.BroadcastsInDim S4x128x256 (![] : Fin 0 → Fin S4x128x256.rank)
  reducesTo_S4x128x256_S_d0_1_2 : S4x128x256.ReducesTo [0, 1, 2] S_
  bcast_S_S4x40000x7 : S_.BroadcastsInDim S4x40000x7 (![] : Fin 0 → Fin S4x40000x7.rank)
  reducesTo_S4x40000x7_S_d0_1_2 : S4x40000x7.ReducesTo [0, 1, 2] S_
  bcast_S_S4x40000 : S_.BroadcastsInDim S4x40000 (![] : Fin 0 → Fin S4x40000.rank)
  reducesTo_S4x40000_S_d0_1 : S4x40000.ReducesTo [0, 1] S_

variable [Facts]

def fn_part1 {F : FTy → Type} [FloatOps F] (main_arg4 : FVec F S4x40000 .f32) (main_v13 : IVec S_ 1) (main_v16 : IVec S4x40000x7 1) : IVec S_ 1 :=
  let main_c_5 : IVec S_ 1 := constantI S_ 1 1#1
  let main_v17 : IVec S_ 1 := (fun x v => Host.reduce IntOp.andi x v reducesTo_S4x40000x7_S_d0_1_2 h_S_) main_v16 main_c_5
  let main_v18 : IVec S_ 1 := andi main_v13 main_v17
  let main_v19 : FVec F S4x40000 .f32 := Host.absf main_arg4
  let main_cst_6 : FVec F S_ .f32 := constant S_ .f32 0x7F800000#32
  let main_v20 : FVec F S4x40000 .f32 := broadcastInDim S4x40000 ![] bcast_S_S4x40000 main_cst_6
  let main_v21 : IVec S4x40000 1 := cmpf .olt main_v19 main_v20
  let main_c_7 : IVec S_ 1 := constantI S_ 1 1#1
  let main_v22 : IVec S_ 1 := (fun x v => Host.reduce IntOp.andi x v reducesTo_S4x40000_S_d0_1 h_S_) main_v21 main_c_7
  let main_v23 : IVec S_ 1 := andi main_v18 main_v22
  main_v23

def fn {F : FTy → Type} [FloatOps F] (main_arg0 : FVec F S4x256x3 .f32) (main_arg1 : FVec F S4x256 .f32) (main_arg2 : FVec F S4x128x256 .f32) (main_arg3 : FVec F S4x40000x7 .f32) (main_arg4 : FVec F S4x40000 .f32) (main_arg5 : IVec S4x256 32) : IVec S_ 1 :=
  let main_v0 : FVec F S4x256x3 .f32 := Host.absf main_arg0
  let main_cst : FVec F S_ .f32 := constant S_ .f32 0x7F800000#32
  let main_v1 : FVec F S4x256x3 .f32 := broadcastInDim S4x256x3 ![] bcast_S_S4x256x3 main_cst
  let main_v2 : IVec S4x256x3 1 := cmpf .olt main_v0 main_v1
  let main_c : IVec S_ 1 := constantI S_ 1 1#1
  let main_v3 : IVec S_ 1 := (fun x v => Host.reduce IntOp.andi x v reducesTo_S4x256x3_S_d0_1_2 h_S_) main_v2 main_c
  let main_v4 : FVec F S4x256 .f32 := Host.absf main_arg1
  let main_cst_0 : FVec F S_ .f32 := constant S_ .f32 0x7F800000#32
  let main_v5 : FVec F S4x256 .f32 := broadcastInDim S4x256 ![] bcast_S_S4x256 main_cst_0
  let main_v6 : IVec S4x256 1 := cmpf .olt main_v4 main_v5
  let main_c_1 : IVec S_ 1 := constantI S_ 1 1#1
  let main_v7 : IVec S_ 1 := (fun x v => Host.reduce IntOp.andi x v reducesTo_S4x256_S_d0_1 h_S_) main_v6 main_c_1
  let main_v8 : IVec S_ 1 := andi main_v3 main_v7
  let main_v9 : FVec F S4x128x256 .f32 := Host.absf main_arg2
  let main_cst_2 : FVec F S_ .f32 := constant S_ .f32 0x7F800000#32
  let main_v10 : FVec F S4x128x256 .f32 := broadcastInDim S4x128x256 ![] bcast_S_S4x128x256 main_cst_2
  let main_v11 : IVec S4x128x256 1 := cmpf .olt main_v9 main_v10
  let main_c_3 : IVec S_ 1 := constantI S_ 1 1#1
  let main_v12 : IVec S_ 1 := (fun x v => Host.reduce IntOp.andi x v reducesTo_S4x128x256_S_d0_1_2 h_S_) main_v11 main_c_3
  let main_v13 : IVec S_ 1 := andi main_v8 main_v12
  let main_v14 : FVec F S4x40000x7 .f32 := Host.absf main_arg3
  let main_cst_4 : FVec F S_ .f32 := constant S_ .f32 0x7F800000#32
  let main_v15 : FVec F S4x40000x7 .f32 := broadcastInDim S4x40000x7 ![] bcast_S_S4x40000x7 main_cst_4
  let main_v16 : IVec S4x40000x7 1 := cmpf .olt main_v14 main_v15
  fn_part1 (F := F) main_arg4 main_v13 main_v16
-- ==== Kernel.lean ====
abbrev S4x256x3 : Shape := ⟨3, ![4, 256, 3]⟩
abbrev S4x256 : Shape := ⟨2, ![4, 256]⟩
abbrev S4x128x256 : Shape := ⟨3, ![4, 128, 256]⟩
abbrev S4x40000x7 : Shape := ⟨3, ![4, 40000, 7]⟩
abbrev S4x40000 : Shape := ⟨2, ![4, 40000]⟩
abbrev S4x40000x3 : Shape := ⟨3, ![4, 40000, 3]⟩
abbrev S4x40000x4 : Shape := ⟨3, ![4, 40000, 4]⟩
abbrev S4x40000x1 : Shape := ⟨3, ![4, 40000, 1]⟩
abbrev S4x40000x5 : Shape := ⟨3, ![4, 40000, 5]⟩
abbrev S4x40000x8 : Shape := ⟨3, ![4, 40000, 8]⟩
abbrev S4x256x1x3 : Shape := ⟨4, ![4, 256, 1, 3]⟩
abbrev S4x1x40000x3 : Shape := ⟨4, ![4, 1, 40000, 3]⟩
abbrev S4x256x40000x3 : Shape := ⟨4, ![4, 256, 40000, 3]⟩
abbrev S_ : Shape := ⟨0, ![]⟩
abbrev S4x256x40000 : Shape := ⟨3, ![4, 256, 40000]⟩
abbrev S4x256x1 : Shape := ⟨3, ![4, 256, 1]⟩
abbrev S40000 : Shape := ⟨1, ![40000]⟩
abbrev S4 : Shape := ⟨1, ![4]⟩
abbrev S4x1x1 : Shape := ⟨3, ![4, 1, 1]⟩
abbrev S256 : Shape := ⟨1, ![256]⟩
abbrev S1x256x1 : Shape := ⟨3, ![1, 256, 1]⟩
abbrev S4x256x513 : Shape := ⟨3, ![4, 256, 513]⟩
abbrev S4x256x40000x1 : Shape := ⟨4, ![4, 256, 40000, 1]⟩
abbrev S4x256x512 : Shape := ⟨3, ![4, 256, 512]⟩
abbrev S512 : Shape := ⟨1, ![512]⟩
abbrev S1x1x512 : Shape := ⟨3, ![1, 1, 512]⟩
abbrev S4x256x1x1 : Shape := ⟨4, ![4, 256, 1, 1]⟩
abbrev S4x256x512x3 : Shape := ⟨4, ![4, 256, 512, 3]⟩
abbrev S4x256x512x5 : Shape := ⟨4, ![4, 256, 512, 5]⟩
abbrev S1x16x512 : Shape := ⟨3, ![1, 16, 512]⟩
abbrev S1x400x8 : Shape := ⟨3, ![1, 400, 8]⟩
abbrev S1x16x1x3 : Shape := ⟨4, ![1, 16, 1, 3]⟩
abbrev S1x16x1x1 : Shape := ⟨4, ![1, 16, 1, 1]⟩
abbrev S1x16x512x3 : Shape := ⟨4, ![1, 16, 512, 3]⟩
abbrev S1x16x512x5 : Shape := ⟨4, ![1, 16, 512, 5]⟩
abbrev S16x512x8 : Shape := ⟨3, ![16, 512, 8]⟩
abbrev S400x8 : Shape := ⟨2, ![400, 8]⟩
abbrev S16x512 : Shape := ⟨2, ![16, 512]⟩
abbrev S1x1x400 : Shape := ⟨3, ![1, 1, 400]⟩
abbrev S16x512x1 : Shape := ⟨3, ![16, 512, 1]⟩
abbrev S16x512x400 : Shape := ⟨3, ![16, 512, 400]⟩
abbrev S8192x400 : Shape := ⟨2, ![8192, 400]⟩
abbrev S8192x8 : Shape := ⟨2, ![8192, 8]⟩
abbrev S16x512x3 : Shape := ⟨3, ![16, 512, 3]⟩
abbrev S16x512x5 : Shape := ⟨3, ![16, 512, 5]⟩
abbrev S16x1x3 : Shape := ⟨3, ![16, 1, 3]⟩
abbrev S16x1x1 : Shape := ⟨3, ![16, 1, 1]⟩
abbrev S256x4x512x3 : Shape := ⟨4, ![256, 4, 512, 3]⟩
abbrev S4x5x256x512 : Shape := ⟨4, ![4, 5, 256, 512]⟩

abbrev nBuf : Space → Nat
  | .hbm => 97
  | .vmem => 15
  | .smem => 0
  | _ => 0

abbrev bufTy : (tb : Table) → Fin (tcTables nBuf tb) → BufTy
  | .hbm, ⟨0, _⟩ => ⟨S4x256x3, .f32⟩
  | .hbm, ⟨1, _⟩ => ⟨S4x256, .f32⟩
  | .hbm, ⟨2, _⟩ => ⟨S4x128x256, .f32⟩
  | .hbm, ⟨3, _⟩ => ⟨S4x40000x7, .f32⟩
  | .hbm, ⟨4, _⟩ => ⟨S4x40000, .f32⟩
  | .hbm, ⟨5, _⟩ => ⟨S4x256, .i32⟩
  | .hbm, ⟨6, _⟩ => ⟨S4x40000x3, .f32⟩
  | .hbm, ⟨7, _⟩ => ⟨S4x40000x4, .f32⟩
  | .hbm, ⟨8, _⟩ => ⟨S4x40000x1, .f32⟩
  | .hbm, ⟨9, _⟩ => ⟨S4x40000x5, .f32⟩
  | .hbm, ⟨10, _⟩ => ⟨S4x40000x8, .f32⟩
  | .hbm, ⟨11, _⟩ => ⟨S4x256x1x3, .f32⟩
  | .hbm, ⟨12, _⟩ => ⟨S4x1x40000x3, .f32⟩
  | .hbm, ⟨13, _⟩ => ⟨S4x256x40000x3, .f32⟩
  | .hbm, ⟨14, _⟩ => ⟨S4x256x40000x3, .f32⟩
  | .hbm, ⟨15, _⟩ => ⟨S4x256x40000x3, .f32⟩
  | .hbm, ⟨16, _⟩ => ⟨S4x256x40000x3, .f32⟩
  | .hbm, ⟨17, _⟩ => ⟨S_, .f32⟩
  | .hbm, ⟨18, _⟩ => ⟨S4x256x40000, .f32⟩
  | .hbm, ⟨19, _⟩ => ⟨S_, .f32⟩
  | .hbm, ⟨20, _⟩ => ⟨S4x256x40000, .f32⟩
  | .hbm, ⟨21, _⟩ => ⟨S4x256x40000, .i1⟩
  | .hbm, ⟨22, _⟩ => ⟨S4x256x40000, .i32⟩
  | .hbm, ⟨23, _⟩ => ⟨S_, .i32⟩
  | .hbm, ⟨24, _⟩ => ⟨S_, .i32⟩
  | .hbm, ⟨25, _⟩ => ⟨S4x256x40000, .i32⟩
  | .hbm, ⟨26, _⟩ => ⟨S4x256x1, .i32⟩
  | .hbm, ⟨27, _⟩ => ⟨S4x256, .i32⟩
  | .hbm, ⟨28, _⟩ => ⟨S_, .i32⟩
  | .hbm, ⟨29, _⟩ => ⟨S4x256, .i32⟩
  | .hbm, ⟨30, _⟩ => ⟨S4x256, .i32⟩
  | .hbm, ⟨31, _⟩ => ⟨S_, .i32⟩
  | .hbm, ⟨32, _⟩ => ⟨S4x256x40000, .i32⟩
  | .hbm, ⟨33, _⟩ => ⟨S4x256x40000, .i1⟩
  | .hbm, ⟨34, _⟩ => ⟨S4x256x40000, .i1⟩
  | .hbm, ⟨35, _⟩ => ⟨S_, .i32⟩
  | .hbm, ⟨36, _⟩ => ⟨S4x256x40000, .i32⟩
  | .hbm, ⟨37, _⟩ => ⟨S4x256x40000, .i32⟩
  | .hbm, ⟨38, _⟩ => ⟨S_, .i32⟩
  | .hbm, ⟨39, _⟩ => ⟨S_, .i32⟩
  | .hbm, ⟨40, _⟩ => ⟨S4x256x40000, .i32⟩
  | .hbm, ⟨41, _⟩ => ⟨S4x256x40000, .i32⟩
  | .hbm, ⟨42, _⟩ => ⟨S40000, .i32⟩
  | .hbm, ⟨43, _⟩ => ⟨S4x256x40000, .i32⟩
  | .hbm, ⟨44, _⟩ => ⟨S4, .i32⟩
  | .hbm, ⟨45, _⟩ => ⟨S4x1x1, .i32⟩
  | .hbm, ⟨46, _⟩ => ⟨S256, .i32⟩
  | .hbm, ⟨47, _⟩ => ⟨S1x256x1, .i32⟩
  | .hbm, ⟨48, _⟩ => ⟨S_, .i32⟩
  | .hbm, ⟨49, _⟩ => ⟨S4x256x513, .i32⟩
  | .hbm, ⟨50, _⟩ => ⟨S_, .i32⟩
  | .hbm, ⟨51, _⟩ => ⟨S4x1x1, .i32⟩
  | .hbm, ⟨52, _⟩ => ⟨S4x1x1, .i1⟩
  | .hbm, ⟨53, _⟩ => ⟨S_, .i32⟩
  | .hbm, ⟨54, _⟩ => ⟨S4x1x1, .i32⟩
  | .hbm, ⟨55, _⟩ => ⟨S4x1x1, .i32⟩
  | .hbm, ⟨56, _⟩ => ⟨S4x1x1, .i32⟩
  | .hbm, ⟨57, _⟩ => ⟨S_, .i32⟩
  | .hbm, ⟨58, _⟩ => ⟨S1x256x1, .i32⟩
  | .hbm, ⟨59, _⟩ => ⟨S1x256x1, .i1⟩
  | .hbm, ⟨60, _⟩ => ⟨S_, .i32⟩
  | .hbm, ⟨61, _⟩ => ⟨S1x256x1, .i32⟩
  | .hbm, ⟨62, _⟩ => ⟨S1x256x1, .i32⟩
  | .hbm, ⟨63, _⟩ => ⟨S1x256x1, .i32⟩
  | .hbm, ⟨64, _⟩ => ⟨S_, .i32⟩
  | .hbm, ⟨65, _⟩ => ⟨S4x256x40000, .i32⟩
  | .hbm, ⟨66, _⟩ => ⟨S4x256x40000, .i1⟩
  | .hbm, ⟨67, _⟩ => ⟨S_, .i32⟩
  | .hbm, ⟨68, _⟩ => ⟨S4x256x40000, .i32⟩
  | .hbm, ⟨69, _⟩ => ⟨S4x256x40000, .i32⟩
  | .hbm, ⟨70, _⟩ => ⟨S4x256x40000, .i32⟩
  | .hbm, ⟨71, _⟩ => ⟨S4x256x40000, .i32⟩
  | .hbm, ⟨72, _⟩ => ⟨S4x256x40000, .i32⟩
  | .hbm, ⟨73, _⟩ => ⟨S4x256x40000x1, .i32⟩
  | .hbm, ⟨74, _⟩ => ⟨S4x256x40000x1, .i32⟩
  | .hbm, ⟨75, _⟩ => ⟨S4x256x40000x1, .i32⟩
  | .hbm, ⟨76, _⟩ => ⟨S4x256x40000x3, .i32⟩
  | .hbm, ⟨77, _⟩ => ⟨S4x256x513, .i32⟩
  | .hbm, ⟨78, _⟩ => ⟨S4x256x512, .i32⟩
  | .hbm, ⟨79, _⟩ => ⟨S4x256x1, .i32⟩
  | .hbm, ⟨80, _⟩ => ⟨S512, .i32⟩
  | .hbm, ⟨81, _⟩ => ⟨S1x1x512, .i32⟩
  | .hbm, ⟨82, _⟩ => ⟨S4x256x1, .i32⟩
  | .hbm, ⟨83, _⟩ => ⟨S4x256x512, .i32⟩
  | .hbm, ⟨84, _⟩ => ⟨S4x256x512, .i32⟩
  | .hbm, ⟨85, _⟩ => ⟨S4x256x512, .i1⟩
  | .hbm, ⟨86, _⟩ => ⟨S4x256x512, .i32⟩
  | .hbm, ⟨87, _⟩ => ⟨S4x256x512, .i32⟩
  | .hbm, ⟨88, _⟩ => ⟨S4x256x1x3, .f32⟩
  | .hbm, ⟨89, _⟩ => ⟨S4x256, .f32⟩
  | .hbm, ⟨90, _⟩ => ⟨S4x256x1x1, .f32⟩
  | .hbm, ⟨91, _⟩ => ⟨S4x256, .f32⟩
  | .hbm, ⟨92, _⟩ => ⟨S4x256x1x1, .f32⟩
  | .hbm, ⟨93, _⟩ => ⟨S4x256x512x3, .f32⟩
  | .hbm, ⟨94, _⟩ => ⟨S4x256x512x5, .f32⟩
  | .hbm, ⟨95, _⟩ => ⟨S256x4x512x3, .f32⟩
  | .hbm, ⟨96, _⟩ => ⟨S4x5x256x512, .f32⟩
  | .local _ .vmem, ⟨0, _⟩ => ⟨S1x16x512, .i32⟩
  | .local _ .vmem, ⟨1, _⟩ => ⟨S1x16x512, .i32⟩
  | .local _ .vmem, ⟨2, _⟩ => ⟨S1x400x8, .f32⟩
  | .local _ .vmem, ⟨3, _⟩ => ⟨S1x400x8, .f32⟩
  | .local _ .vmem, ⟨4, _⟩ => ⟨S1x16x1x3, .f32⟩
  | .local _ .vmem, ⟨5, _⟩ => ⟨S1x16x1x3, .f32⟩
  | .local _ .vmem, ⟨6, _⟩ => ⟨S1x16x1x1, .f32⟩
  | .local _ .vmem, ⟨7, _⟩ => ⟨S1x16x1x1, .f32⟩
  | .local _ .vmem, ⟨8, _⟩ => ⟨S1x16x1x1, .f32⟩
  | .local _ .vmem, ⟨9, _⟩ => ⟨S1x16x1x1, .f32⟩
  | .local _ .vmem, ⟨10, _⟩ => ⟨S1x16x512x3, .f32⟩
  | .local _ .vmem, ⟨11, _⟩ => ⟨S1x16x512x3, .f32⟩
  | .local _ .vmem, ⟨12, _⟩ => ⟨S1x16x512x5, .f32⟩
  | .local _ .vmem, ⟨13, _⟩ => ⟨S1x16x512x5, .f32⟩
  | .local _ .vmem, ⟨14, _⟩ => ⟨S16x512x8, .f32⟩
  | _, _ => ⟨S4x256x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_call0_c : Ref sig .tc := ⟨.hbm, 23, rfl⟩
abbrev main_call0_call0_v0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_v18 : Ref sig .tc := ⟨.hbm, 29, rfl⟩
abbrev main_v19 : Ref sig .tc := ⟨.hbm, 30, rfl⟩
abbrev main_c_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_2 : Ref sig .tc := ⟨.hbm, 35, rfl⟩
abbrev main_v23 : Ref sig .tc := ⟨.hbm, 36, rfl⟩
abbrev main_v24 : Ref sig .tc := ⟨.hbm, 37, rfl⟩
abbrev main_c_3 : Ref sig .tc := ⟨.hbm, 38, rfl⟩
abbrev main_call1_v0 : Ref sig .tc := ⟨.hbm, 39, rfl⟩
abbrev main_call1_v1 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_c_5 : Ref sig .tc := ⟨.hbm, 50, rfl⟩
abbrev main_v33 : Ref sig .tc := ⟨.hbm, 51, rfl⟩
abbrev main_v34 : Ref sig .tc := ⟨.hbm, 52, rfl⟩
abbrev main_c_6 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_7 : Ref sig .tc := ⟨.hbm, 57, rfl⟩
abbrev main_v38 : Ref sig .tc := ⟨.hbm, 58, rfl⟩
abbrev main_v39 : Ref sig .tc := ⟨.hbm, 59, rfl⟩
abbrev main_c_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_c_9 : Ref sig .tc := ⟨.hbm, 64, rfl⟩
abbrev main_v43 : Ref sig .tc := ⟨.hbm, 65, rfl⟩
abbrev main_v44 : Ref sig .tc := ⟨.hbm, 66, rfl⟩
abbrev main_c_10 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_call2_v0 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69_0 : Ref sig .tc := ⟨.hbm, 93, rfl⟩
abbrev main_v69_1 : Ref sig .tc := ⟨.hbm, 94, rfl⟩
abbrev main_v70 : Ref sig .tc := ⟨.hbm, 95, rfl⟩
abbrev main_v71 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 16, 100], ![false, false, false]⟩

def k0_cond2 (i : grid0.Coords) : BitVec 1 :=
  let arg2 : BitVec 32 := BitVec.ofNat 32 (i 2).val
  let c99_i32 : BitVec 32 := 99#32
  let v32 : BitVec 1 := Scalar.cmpi .eq arg2 c99_i32
  let v33 : BitVec 32 := Scalar.extui v32
  let c0_i32_13 : BitVec 32 := 0#32
  let v34 : BitVec 1 := Scalar.cmpi .ne v33 c0_i32_13
  v34

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x400x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x16x1x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x16x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x16x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x16x512x3 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x16x512x5 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

class Facts₀ : Prop where
  slices_S4x40000x7_S4x40000x3_0_0_0 : S4x40000x7.Slices ![0, 0, 0] S4x40000x3
  slices_S4x40000x7_S4x40000x4_0_0_3 : S4x40000x7.Slices ![0, 0, 3] S4x40000x4
  bcast_S4x40000_S4x40000x1_0_1 : S4x40000.BroadcastsInDim S4x40000x1 (![0, 1] : Fin 2 → Fin S4x40000x1.rank)
  concatenates_S4x40000x4_S4x40000x1_S4x40000x5_d2 : Shape.Concatenates [S4x40000x4, S4x40000x1] S4x40000x5 2
  concatenates_S4x40000x3_S4x40000x5_S4x40000x8_d2 : Shape.Concatenates [S4x40000x3, S4x40000x5] S4x40000x8 2
  bcast_S4x256x3_S4x256x1x3_0_1_3 : S4x256x3.BroadcastsInDim S4x256x1x3 (![0, 1, 3] : Fin 3 → Fin S4x256x1x3.rank)
  bcast_S4x40000x3_S4x1x40000x3_0_2_3 : S4x40000x3.BroadcastsInDim S4x1x40000x3 (![0, 2, 3] : Fin 3 → Fin S4x1x40000x3.rank)
  bcast_S4x256x1x3_S4x256x40000x3_0_1_2_3 : S4x256x1x3.BroadcastsInDim S4x256x40000x3 (![0, 1, 2, 3] : Fin 4 → Fin S4x256x40000x3.rank)
  bcast_S4x1x40000x3_S4x256x40000x3_0_1_2_3 : S4x1x40000x3.BroadcastsInDim S4x256x40000x3 (![0, 1, 2, 3] : Fin 4 → Fin S4x256x40000x3.rank)
  reducesTo_S4x256x40000x3_S4x256x40000_d3 : S4x256x40000x3.ReducesTo [3] S4x256x40000
  h_S_ : 0 < S_.numel
  bcast_S_S4x256x40000 : S_.BroadcastsInDim S4x256x40000 (![] : Fin 0 → Fin S4x256x40000.rank)
  natLt_1_32 : 1 < 32
  bcast_S_S_ : S_.BroadcastsInDim S_ (![] : Fin 0 → Fin S_.rank)
  reduceWindows_S4x256x40000_S4x256x40000_w1s1p0_0_w1s1p0_0_w40000s1p39999_0 : S4x256x40000.ReduceWindows (![1, 1, 40000] : Fin 3 → Nat) ![1, 1, 1] ![0, 0, 39999] ![0, 0, 0] S4x256x40000
  slices_S4x256x40000_S4x256x1_0_0_39999 : S4x256x40000.Slices ![0, 0, 39999] S4x256x1
  shapeCasts_S4x256x1_S4x256 : S4x256x1.ShapeCasts S4x256
  bcast_S_S4x256 : S_.BroadcastsInDim S4x256 (![] : Fin 0 → Fin S4x256.rank)
  bcast_S40000_S4x256x40000_2 : S40000.BroadcastsInDim S4x256x40000 (![2] : Fin 1 → Fin S4x256x40000.rank)
  bcast_S4_S4x1x1_0 : S4.BroadcastsInDim S4x1x1 (![0] : Fin 1 → Fin S4x1x1.rank)
  bcast_S256_S1x256x1_1 : S256.BroadcastsInDim S1x256x1 (![1] : Fin 1 → Fin S1x256x1.rank)
  bcast_S_S4x256x513 : S_.BroadcastsInDim S4x256x513 (![] : Fin 0 → Fin S4x256x513.rank)
  bcast_S_S4x1x1 : S_.BroadcastsInDim S4x1x1 (![] : Fin 0 → Fin S4x1x1.rank)
  bcast_S_S1x256x1 : S_.BroadcastsInDim S1x256x1 (![] : Fin 0 → Fin S1x256x1.rank)
  bcast_S4x1x1_S4x256x40000_0_1_2 : S4x1x1.BroadcastsInDim S4x256x40000 (![0, 1, 2] : Fin 3 → Fin S4x256x40000.rank)
  bcast_S1x256x1_S4x256x40000_0_1_2 : S1x256x1.BroadcastsInDim S4x256x40000 (![0, 1, 2] : Fin 3 → Fin S4x256x40000.rank)
  bcast_S4x256x40000_S4x256x40000x1_0_1_2 : S4x256x40000.BroadcastsInDim S4x256x40000x1 (![0, 1, 2] : Fin 3 → Fin S4x256x40000x1.rank)
  concatenates_S4x256x40000x1_S4x256x40000x1_S4x256x40000x1_S4x256x40000x3_d3 : Shape.Concatenates [S4x256x40000x1, S4x256x40000x1, S4x256x40000x1] S4x256x40000x3 3
  slices_S4x256x513_S4x256x512_0_0_0 : S4x256x513.Slices ![0, 0, 0] S4x256x512
  slices_S4x256x512_S4x256x1_0_0_0 : S4x256x512.Slices ![0, 0, 0] S4x256x1
  bcast_S512_S1x1x512_2 : S512.BroadcastsInDim S1x1x512 (![2] : Fin 1 → Fin S1x1x512.rank)
  bcast_S4x256_S4x256x1_0_1 : S4x256.BroadcastsInDim S4x256x1 (![0, 1] : Fin 2 → Fin S4x256x1.rank)
  bcast_S1x1x512_S4x256x512_0_1_2 : S1x1x512.BroadcastsInDim S4x256x512 (![0, 1, 2] : Fin 3 → Fin S4x256x512.rank)
  bcast_S4x256x1_S4x256x512_0_1_2 : S4x256x1.BroadcastsInDim S4x256x512 (![0, 1, 2] : Fin 3 → Fin S4x256x512.rank)
  bcast_S4x256_S4x256x1x1_0_1 : S4x256.BroadcastsInDim S4x256x1x1 (![0, 1] : Fin 2 → Fin S4x256x1x1.rank)
  inb_S16x512x8_S16x512x8_0_0_0 : ∀ a, (![0, 0, 0] : Fin 3 → Nat) a + S16x512x8.size a ≤ S16x512x8.size a
  h_S16x512x8 : 0 < S16x512x8.numel
  shapeCasts_S16x512x8_S16x512x8 : S16x512x8.ShapeCasts S16x512x8
  inb_S1x400x8_S1x400x8_0_0_0 : ∀ a, (![0, 0, 0] : Fin 3 → Nat) a + S1x400x8.size a ≤ S1x400x8.size a
  h_S1x400x8 : 0 < S1x400x8.numel
  shapeCasts_S1x400x8_S400x8 : S1x400x8.ShapeCasts S400x8
  bitsLt_bf16_f32 : FTy.bits .bf16 < FTy.bits .f32
  inb_S1x16x512_S1x16x512_0_0_0 : ∀ a, (![0, 0, 0] : Fin 3 → Nat) a + S1x16x512.size a ≤ S1x16x512.size a
  h_S1x16x512 : 0 < S1x16x512.numel
  shapeCasts_S1x16x512_S16x512 : S1x16x512.ShapeCasts S16x512
  iota_S1x1x400_d2_w32 : S1x1x400.Iotas .tc 32 [2]
  shapeCasts_S16x512_S16x512x1 : S16x512.ShapeCasts S16x512x1
  broadcasts_S16x512x1_S16x512x400 : S16x512x1.Broadcasts S16x512x400
  broadcasts_S1x1x400_S16x512x400 : S1x1x400.Broadcasts S16x512x400
  shapeCasts_S16x512x400_S8192x400 : S16x512x400.ShapeCasts S8192x400
  shapeCasts_S8192x8_S16x512x8 : S8192x8.ShapeCasts S16x512x8
  slices_S16x512x8_o0_0_0_S16x512x3 : S16x512x8.Slices ![0, 0, 0] S16x512x3
  slices_S16x512x8_o0_0_3_S16x512x5 : S16x512x8.Slices ![0, 0, 3] S16x512x5
  inb_S1x16x1x3_S1x16x1x3_0_0_0_0 : ∀ a, (![0, 0, 0, 0] : Fin 4 → Nat) a + S1x16x1x3.size a ≤ S1x16x1x3.size a
  h_S1x16x1x3 : 0 < S1x16x1x3.numel
  shapeCasts_S1x16x1x3_S16x1x3 : S1x16x1x3.ShapeCasts S16x1x3
  inb_S1x16x1x1_S1x16x1x1_0_0_0_0 : ∀ a, (![0, 0, 0, 0] : Fin 4 → Nat) a + S1x16x1x1.size a ≤ S1x16x1x1.size a
  h_S1x16x1x1 : 0 < S1x16x1x1.numel
  shapeCasts_S1x16x1x1_S16x1x1 : S1x16x1x1.ShapeCasts S16x1x1
  broadcasts_S16x1x3_S16x512x3 : S16x1x3.Broadcasts S16x512x3
  slices_S16x512x3_o0_0_0_S16x512x1 : S16x512x3.Slices ![0, 0, 0] S16x512x1
  slices_S16x512x3_o0_0_1_S16x512x1 : S16x512x3.Slices ![0, 0, 1] S16x512x1
  slices_S16x512x3_o0_0_2_S16x512x1 : S16x512x3.Slices ![0, 0, 2] S16x512x1
  broadcasts_S16x1x1_S16x512x1 : S16x1x1.Broadcasts S16x512x1
  concatenates_S16x512x1_S16x512x1_S16x512x1_S16x512x3_d2 : Shape.Concatenates [S16x512x1, S16x512x1, S16x512x1] S16x512x3 2
  inb_S1x16x512x3_S1x16x512x3_0_0_0_0 : ∀ a, (![0, 0, 0, 0] : Fin 4 → Nat) a + S1x16x512x3.size a ≤ S1x16x512x3.size a
  h_S1x16x512x3 : 0 < S1x16x512x3.numel
  shapeCasts_S1x16x512x3_S16x512x3 : S1x16x512x3.ShapeCasts S16x512x3
  shapeCasts_S16x512x3_S1x16x512x3 : S16x512x3.ShapeCasts S1x16x512x3
  inb_S1x16x512x5_S1x16x512x5_0_0_0_0 : ∀ a, (![0, 0, 0, 0] : Fin 4 → Nat) a + S1x16x512x5.size a ≤ S1x16x512x5.size a
  h_S1x16x512x5 : 0 < S1x16x512x5.numel
  shapeCasts_S1x16x512x5_S16x512x5 : S1x16x512x5.ShapeCasts S16x512x5
  shapeCasts_S16x512x5_S1x16x512x5 : S16x512x5.ShapeCasts S1x16x512x5
  transposes_S4x256x512x3_S256x4x512x3_1_0_2_3 : S4x256x512x3.Transposes [1, 0, 2, 3] S256x4x512x3
  transposes_S4x256x512x5_S4x5x256x512_0_3_1_2 : S4x256x512x5.Transposes [0, 3, 1, 2] S4x5x256x512
  scatter_S4x256x513_S4x256x40000x3_S4x256x40000_n_012_012_3_wf : ScatterDims.WF S4x256x513 S4x256x40000x3 S4x256x40000 [] [0, 1, 2] [0, 1, 2] 3
  dot_S8192x400_S400x8_S8192x8_1_0_0_1_n_n_wf : DotDims.WF S8192x400 S400x8 S8192x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x512.size a ≤ S4x256x512.size a
  hwx0_0 : ∀ i : grid0.Coords, EltTy.bits .i32 = 32 ∨ (Rect.block (s := S4x256x512) S1x16x512.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x400x8.size a ≤ S4x40000x8.size a
  hwx0_1 : ∀ i : grid0.Coords, EltTy.bits .f32 = 32 ∨ (Rect.block (s := S4x40000x8) S1x400x8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x1x3.size a ≤ S4x256x1x3.size a
  hwx0_2 : ∀ i : grid0.Coords, EltTy.bits .f32 = 32 ∨ (Rect.block (s := S4x256x1x3) S1x16x1x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x1x1.size a ≤ S4x256x1x1.size a
  hwx0_3 : ∀ i : grid0.Coords, EltTy.bits .f32 = 32 ∨ (Rect.block (s := S4x256x1x1) S1x16x1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x1x1.size a ≤ S4x256x1x1.size a
  hwx0_4 : ∀ i : grid0.Coords, EltTy.bits .f32 = 32 ∨ (Rect.block (s := S4x256x1x1) S1x16x1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x16x512x3.size a ≤ S4x256x512x3.size a
  hwx0_5 : ∀ i : grid0.Coords, EltTy.bits .f32 = 32 ∨ (Rect.block (s := S4x256x512x3) S1x16x512x3.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x16x512x5.size a ≤ S4x256x512x5.size a
  hwx0_6 : ∀ i : grid0.Coords, EltTy.bits .f32 = 32 ∨ (Rect.block (s := S4x256x512x5) S1x16x512x5.size (cc0_transform_6 i) (hinb0_6 i)).WholeWords (EltTy.packing .f32)

variable [Facts₀]

def scatter_S4x256x513_S4x256x40000x3_S4x256x40000_n_012_012_3 : ScatterDims S4x256x513 S4x256x40000x3 S4x256x40000 where
  updateWindowDims := []
  insertedWindowDims := [0, 1, 2]
  scatterDimsToOperandDims := [0, 1, 2]
  indexVectorDim := 3
  wf := scatter_S4x256x513_S4x256x40000x3_S4x256x40000_n_012_012_3_wf
def dot_S8192x400_S400x8_S8192x8_1_0_0_1_n_n : DotDims S8192x400 S400x8 S8192x8 where
  lhsContracting := [1]
  rhsContracting := [0]
  lhsNonContracting := [0]
  rhsNonContracting := [1]
  lhsBatch := []
  rhsBatch := []
  wf := dot_S8192x400_S400x8_S8192x8_1_0_0_1_n_n_wf

abbrev win0_0 : Pipeline.Window sig grid0 :=
  Pipeline.Window.ofSpec (Memref.whole main_v63) S1x16x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x400x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v64) S1x16x1x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v66) S1x16x1x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v68) S1x16x1x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v69_0) S1x16x512x3.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v69_1) S1x16x512x5.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond2 i == 1#1) | 6 => fun i => !(k0_cond2 i == 1#1) | ⟨_ + 7, h⟩ => absurd h (Nat.not_lt.2 (Nat.le_add_left _ _))

class Facts : Prop extends Facts₀ where

variable [Facts]
-- ==== ReferenceIdeal.lean ====
abbrev S4x256x3 : Shape := ⟨3, ![4, 256, 3]⟩
abbrev S4x256 : Shape := ⟨2, ![4, 256]⟩
abbrev S4x128x256 : Shape := ⟨3, ![4, 128, 256]⟩
abbrev S4x40000x7 : Shape := ⟨3, ![4, 40000, 7]⟩
abbrev S4x40000 : Shape := ⟨2, ![4, 40000]⟩
abbrev S4x40000x3 : Shape := ⟨3, ![4, 40000, 3]⟩
abbrev S4x40000x4 : Shape := ⟨3, ![4, 40000, 4]⟩
abbrev S4x4x40000 : Shape := ⟨3, ![4, 4, 40000]⟩
abbrev S4x1x40000 : Shape := ⟨3, ![4, 1, 40000]⟩
abbrev S4x5x40000 : Shape := ⟨3, ![4, 5, 40000]⟩
abbrev S4x256x1x3 : Shape := ⟨4, ![4, 256, 1, 3]⟩
abbrev S4x1x40000x3 : Shape := ⟨4, ![4, 1, 40000, 3]⟩
abbrev S4x256x40000x3 : Shape := ⟨4, ![4, 256, 40000, 3]⟩
abbrev S_ : Shape := ⟨0, ![]⟩
abbrev S4x256x40000 : Shape := ⟨3, ![4, 256, 40000]⟩
abbrev S4x256x1 : Shape := ⟨3, ![4, 256, 1]⟩
abbrev S40000 : Shape := ⟨1, ![40000]⟩
abbrev S4 : Shape := ⟨1, ![4]⟩
abbrev S4x1x1 : Shape := ⟨3, ![4, 1, 1]⟩
abbrev S256 : Shape := ⟨1, ![256]⟩
abbrev S1x256x1 : Shape := ⟨3, ![1, 256, 1]⟩
abbrev S4x256x513 : Shape := ⟨3, ![4, 256, 513]⟩
abbrev S4x256x40000x1 : Shape := ⟨4, ![4, 256, 40000, 1]⟩
abbrev S4x256x512 : Shape := ⟨3, ![4, 256, 512]⟩
abbrev S512 : Shape := ⟨1, ![512]⟩
abbrev S1x1x512 : Shape := ⟨3, ![1, 1, 512]⟩
abbrev S4x256x512x1 : Shape := ⟨4, ![4, 256, 512, 1]⟩
abbrev S4x256x512x2 : Shape := ⟨4, ![4, 256, 512, 2]⟩
abbrev S4x256x512x3 : Shape := ⟨4, ![4, 256, 512, 3]⟩
abbrev S4x3x256x512 : Shape := ⟨4, ![4, 3, 256, 512]⟩
abbrev S4x40000x5 : Shape := ⟨3, ![4, 40000, 5]⟩
abbrev S4x256x512x5 : Shape := ⟨4, ![4, 256, 512, 5]⟩
abbrev S4x5x256x512 : Shape := ⟨4, ![4, 5, 256, 512]⟩
abbrev S256x4x512x3 : Shape := ⟨4, ![256, 4, 512, 3]⟩

abbrev nBuf : Space → Nat
  | .hbm => 163
  | .vmem => 0
  | .smem => 0
  | _ => 0

abbrev hbmTy0_0 (i : Nat) : BufTy := match i % 128 with
  | 0 => ⟨S4x256x3, .f32⟩
  | 1 => ⟨S4x256, .f32⟩
  | 2 => ⟨S4x128x256, .f32⟩
  | 3 => ⟨S4x40000x7, .f32⟩
  | 4 => ⟨S4x40000, .f32⟩
  | 5 => ⟨S4x256, .i32⟩
  | 6 => ⟨S4x40000x3, .f32⟩
  | 7 => ⟨S4x40000x4, .f32⟩
  | 8 => ⟨S4x4x40000, .f32⟩
  | 9 => ⟨S4x1x40000, .f32⟩
  | 10 => ⟨S4x5x40000, .f32⟩
  | 11 => ⟨S4x256x1x3, .f32⟩
  | 12 => ⟨S4x1x40000x3, .f32⟩
  | 13 => ⟨S4x256x40000x3, .f32⟩
  | 14 => ⟨S4x256x40000x3, .f32⟩
  | 15 => ⟨S4x256x40000x3, .f32⟩
  | 16 => ⟨S4x256x40000x3, .f32⟩
  | 17 => ⟨S_, .f32⟩
  | 18 => ⟨S4x256x40000, .f32⟩
  | 19 => ⟨S_, .f32⟩
  | 20 => ⟨S4x256x40000, .f32⟩
  | 21 => ⟨S4x256x40000, .i1⟩
  | 22 => ⟨S4x256x40000, .i32⟩
  | 23 => ⟨S_, .i32⟩
  | 24 => ⟨S_, .i32⟩
  | 25 => ⟨S4x256x40000, .i32⟩
  | 26 => ⟨S4x256x1, .i32⟩
  | 27 => ⟨S4x256, .i32⟩
  | 28 => ⟨S_, .i32⟩
  | 29 => ⟨S4x256, .i32⟩
  | 30 => ⟨S4x256, .i32⟩
  | 31 => ⟨S_, .i32⟩
  | 32 => ⟨S4x256x40000, .i32⟩
  | 33 => ⟨S4x256x40000, .i1⟩
  | 34 => ⟨S4x256x40000, .i1⟩
  | 35 => ⟨S_, .i32⟩
  | 36 => ⟨S4x256x40000, .i32⟩
  | 37 => ⟨S4x256x40000, .i32⟩
  | 38 => ⟨S_, .i32⟩
  | 39 => ⟨S_, .i32⟩
  | 40 => ⟨S4x256x40000, .i32⟩
  | 41 => ⟨S4x256x40000, .i32⟩
  | 42 => ⟨S40000, .i32⟩
  | 43 => ⟨S4x256x40000, .i32⟩
  | 44 => ⟨S4, .i32⟩
  | 45 => ⟨S4x1x1, .i32⟩
  | 46 => ⟨S256, .i32⟩
  | 47 => ⟨S1x256x1, .i32⟩
  | 48 => ⟨S_, .i32⟩
  | 49 => ⟨S4x256x513, .i32⟩
  | 50 => ⟨S_, .i32⟩
  | 51 => ⟨S4x1x1, .i32⟩
  | 52 => ⟨S4x1x1, .i1⟩
  | 53 => ⟨S_, .i32⟩
  | 54 => ⟨S4x1x1, .i32⟩
  | 55 => ⟨S4x1x1, .i32⟩
  | 56 => ⟨S4x1x1, .i32⟩
  | 57 => ⟨S_, .i32⟩
  | 58 => ⟨S1x256x1, .i32⟩
  | 59 => ⟨S1x256x1, .i1⟩
  | 60 => ⟨S_, .i32⟩
  | 61 => ⟨S1x256x1, .i32⟩
  | 62 => ⟨S1x256x1, .i32⟩
  | 63 => ⟨S1x256x1, .i32⟩
  | 64 => ⟨S_, .i32⟩
  | 65 => ⟨S4x256x40000, .i32⟩
  | 66 => ⟨S4x256x40000, .i1⟩
  | 67 => ⟨S_, .i32⟩
  | 68 => ⟨S4x256x40000, .i32⟩
  | 69 => ⟨S4x256x40000, .i32⟩
  | 70 => ⟨S4x256x40000, .i32⟩
  | 71 => ⟨S4x256x40000, .i32⟩
  | 72 => ⟨S4x256x40000, .i32⟩
  | 73 => ⟨S4x256x40000x1, .i32⟩
  | 74 => ⟨S4x256x40000x1, .i32⟩
  | 75 => ⟨S4x256x40000x1, .i32⟩
  | 76 => ⟨S4x256x40000x3, .i32⟩
  | 77 => ⟨S4x256x513, .i32⟩
  | 78 => ⟨S4x256x512, .i32⟩
  | 79 => ⟨S4x256x1, .i32⟩
  | 80 => ⟨S512, .i32⟩
  | 81 => ⟨S1x1x512, .i32⟩
  | 82 => ⟨S4x256x1, .i32⟩
  | 83 => ⟨S4x256x512, .i32⟩
  | 84 => ⟨S4x256x512, .i32⟩
  | 85 => ⟨S4x256x512, .i1⟩
  | 86 => ⟨S4x256x512, .i32⟩
  | 87 => ⟨S4x256x512, .i32⟩
  | 88 => ⟨S4, .i32⟩
  | 89 => ⟨S4x1x1, .i32⟩
  | 90 => ⟨S_, .i32⟩
  | 91 => ⟨S4x1x1, .i32⟩
  | 92 => ⟨S4x1x1, .i1⟩
  | 93 => ⟨S_, .i32⟩
  | 94 => ⟨S4x1x1, .i32⟩
  | 95 => ⟨S4x1x1, .i32⟩
  | 96 => ⟨S4x1x1, .i32⟩
  | 97 => ⟨S_, .i32⟩
  | 98 => ⟨S4x256x512, .i32⟩
  | 99 => ⟨S4x256x512, .i1⟩
  | 100 => ⟨S_, .i32⟩
  | 101 => ⟨S4x256x512, .i32⟩
  | 102 => ⟨S4x256x512, .i32⟩
  | 103 => ⟨S4x256x512, .i32⟩
  | 104 => ⟨S4x256x512, .i32⟩
  | 105 => ⟨S4x256x512x1, .i32⟩
  | 106 => ⟨S4x256x512x1, .i32⟩
  | 107 => ⟨S4x256x512x2, .i32⟩
  | 108 => ⟨S4x256x512x3, .f32⟩
  | 109 => ⟨S4x256x1x3, .f32⟩
  | 110 => ⟨S4x256x512x3, .f32⟩
  | 111 => ⟨S4x256x512x3, .f32⟩
  | 112 => ⟨S4x256, .f32⟩
  | 113 => ⟨S4x256x1, .f32⟩
  | 114 => ⟨S4x256, .f32⟩
  | 115 => ⟨S4x256x1, .f32⟩
  | 116 => ⟨S4x256x512x1, .f32⟩
  | 117 => ⟨S4x256x512, .f32⟩
  | 118 => ⟨S4x256x512x1, .f32⟩
  | 119 => ⟨S4x256x512, .f32⟩
  | 120 => ⟨S4x256x512x1, .f32⟩
  | 121 => ⟨S4x256x512, .f32⟩
  | 122 => ⟨S4x256x512, .f32⟩
  | 123 => ⟨S4x256x512, .f32⟩
  | 124 => ⟨S4x256x512, .f32⟩
  | 125 => ⟨S4x256x512, .f32⟩
  | 126 => ⟨S4x256x512, .f32⟩
  | 127 => ⟨S4x256x1, .f32⟩
  | _ => ⟨S4x256x3, .f32⟩

abbrev hbmTy0_1 (i : Nat) : BufTy := match i % 128 with
  | 0 => ⟨S4x256x512, .f32⟩
  | 1 => ⟨S4x256x512, .f32⟩
  | 2 => ⟨S4x256x512, .f32⟩
  | 3 => ⟨S4x256x512, .f32⟩
  | 4 => ⟨S4x256x512, .f32⟩
  | 5 => ⟨S4x256x512x1, .f32⟩
  | 6 => ⟨S4x256x512x1, .f32⟩
  | 7 => ⟨S4x256x512x1, .f32⟩
  | 8 => ⟨S4x256x512x3, .f32⟩
  | 9 => ⟨S_, .f32⟩
  | 10 => ⟨S4x256x512x3, .f32⟩
  | 11 => ⟨S4x256x512x3, .f32⟩
  | 12 => ⟨S4x3x256x512, .f32⟩
  | 13 => ⟨S4x40000x5, .f32⟩
  | 14 => ⟨S_, .i32⟩
  | 15 => ⟨S4x1x1, .i32⟩
  | 16 => ⟨S4x1x1, .i1⟩
  | 17 => ⟨S_, .i32⟩
  | 18 => ⟨S4x1x1, .i32⟩
  | 19 => ⟨S4x1x1, .i32⟩
  | 20 => ⟨S4x1x1, .i32⟩
  | 21 => ⟨S_, .i32⟩
  | 22 => ⟨S4x256x512, .i32⟩
  | 23 => ⟨S4x256x512, .i1⟩
  | 24 => ⟨S_, .i32⟩
  | 25 => ⟨S4x256x512, .i32⟩
  | 26 => ⟨S4x256x512, .i32⟩
  | 27 => ⟨S4x256x512, .i32⟩
  | 28 => ⟨S4x256x512, .i32⟩
  | 29 => ⟨S4x256x512x1, .i32⟩
  | 30 => ⟨S4x256x512x1, .i32⟩
  | 31 => ⟨S4x256x512x2, .i32⟩
  | 32 => ⟨S4x256x512x5, .f32⟩
  | 33 => ⟨S4x5x256x512, .f32⟩
  | 34 => ⟨S256x4x512x3, .f32⟩
  | _ => ⟨S4x256x3, .f32⟩

abbrev hbmTy (i : Nat) : BufTy := match i / 128 with
  | 0 => hbmTy0_0 i
  | 1 => hbmTy0_1 i
  | _ => ⟨S4x256x3, .f32⟩

abbrev bufTy : (tb : Table) → Fin (tcTables nBuf tb) → BufTy
  | .hbm, ⟨i, _⟩ => hbmTy i
  | _, _ => ⟨S4x256x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_call0_c : Ref sig .tc := ⟨.hbm, 23, rfl⟩
abbrev main_call0_call0_v0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_v18 : Ref sig .tc := ⟨.hbm, 29, rfl⟩
abbrev main_v19 : Ref sig .tc := ⟨.hbm, 30, rfl⟩
abbrev main_c_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_2 : Ref sig .tc := ⟨.hbm, 35, rfl⟩
abbrev main_v23 : Ref sig .tc := ⟨.hbm, 36, rfl⟩
abbrev main_v24 : Ref sig .tc := ⟨.hbm, 37, rfl⟩
abbrev main_c_3 : Ref sig .tc := ⟨.hbm, 38, rfl⟩
abbrev main_call1_v0 : Ref sig .tc := ⟨.hbm, 39, rfl⟩
abbrev main_call1_v1 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_c_5 : Ref sig .tc := ⟨.hbm, 50, rfl⟩
abbrev main_v33 : Ref sig .tc := ⟨.hbm, 51, rfl⟩
abbrev main_v34 : Ref sig .tc := ⟨.hbm, 52, rfl⟩
abbrev main_c_6 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_7 : Ref sig .tc := ⟨.hbm, 57, rfl⟩
abbrev main_v38 : Ref sig .tc := ⟨.hbm, 58, rfl⟩
abbrev main_v39 : Ref sig .tc := ⟨.hbm, 59, rfl⟩
abbrev main_c_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_c_9 : Ref sig .tc := ⟨.hbm, 64, rfl⟩
abbrev main_v43 : Ref sig .tc := ⟨.hbm, 65, rfl⟩
abbrev main_v44 : Ref sig .tc := ⟨.hbm, 66, rfl⟩
abbrev main_c_10 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_call2_v0 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_c_11 : Ref sig .tc := ⟨.hbm, 90, rfl⟩
abbrev main_v66 : Ref sig .tc := ⟨.hbm, 91, rfl⟩
abbrev main_v67 : Ref sig .tc := ⟨.hbm, 92, rfl⟩
abbrev main_c_12 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_c_13 : Ref sig .tc := ⟨.hbm, 97, rfl⟩
abbrev main_v71 : Ref sig .tc := ⟨.hbm, 98, rfl⟩
abbrev main_v72 : Ref sig .tc := ⟨.hbm, 99, rfl⟩
abbrev main_c_14 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_cst_15 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_c_16 : Ref sig .tc := ⟨.hbm, 142, rfl⟩
abbrev main_v113 : Ref sig .tc := ⟨.hbm, 143, rfl⟩
abbrev main_v114 : Ref sig .tc := ⟨.hbm, 144, rfl⟩
abbrev main_c_17 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_c_18 : Ref sig .tc := ⟨.hbm, 149, rfl⟩
abbrev main_v118 : Ref sig .tc := ⟨.hbm, 150, rfl⟩
abbrev main_v119 : Ref sig .tc := ⟨.hbm, 151, rfl⟩
abbrev main_c_19 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩

abbrev nD : Nat := 1
abbrev τ : Topo := Topo.v7x

variable {F : FTy → Type} [FloatOps F]

class Facts₀ : Prop where
  slices_S4x40000x7_S4x40000x3_0_0_0 : S4x40000x7.Slices ![0, 0, 0] S4x40000x3
  slices_S4x40000x7_S4x40000x4_0_0_3 : S4x40000x7.Slices ![0, 0, 3] S4x40000x4
  transposes_S4x40000x4_S4x4x40000_0_2_1 : S4x40000x4.Transposes [0, 2, 1] S4x4x40000
  bcast_S4x40000_S4x1x40000_0_2 : S4x40000.BroadcastsInDim S4x1x40000 (![0, 2] : Fin 2 → Fin S4x1x40000.rank)
  concatenates_S4x4x40000_S4x1x40000_S4x5x40000_d1 : Shape.Concatenates [S4x4x40000, S4x1x40000] S4x5x40000 1
  bcast_S4x256x3_S4x256x1x3_0_1_3 : S4x256x3.BroadcastsInDim S4x256x1x3 (![0, 1, 3] : Fin 3 → Fin S4x256x1x3.rank)
  bcast_S4x40000x3_S4x1x40000x3_0_2_3 : S4x40000x3.BroadcastsInDim S4x1x40000x3 (![0, 2, 3] : Fin 3 → Fin S4x1x40000x3.rank)
  bcast_S4x256x1x3_S4x256x40000x3_0_1_2_3 : S4x256x1x3.BroadcastsInDim S4x256x40000x3 (![0, 1, 2, 3] : Fin 4 → Fin S4x256x40000x3.rank)
  bcast_S4x1x40000x3_S4x256x40000x3_0_1_2_3 : S4x1x40000x3.BroadcastsInDim S4x256x40000x3 (![0, 1, 2, 3] : Fin 4 → Fin S4x256x40000x3.rank)
  reducesTo_S4x256x40000x3_S4x256x40000_d3 : S4x256x40000x3.ReducesTo [3] S4x256x40000
  h_S_ : 0 < S_.numel
  bcast_S_S4x256x40000 : S_.BroadcastsInDim S4x256x40000 (![] : Fin 0 → Fin S4x256x40000.rank)
  natLt_1_32 : 1 < 32
  bcast_S_S_ : S_.BroadcastsInDim S_ (![] : Fin 0 → Fin S_.rank)
  reduceWindows_S4x256x40000_S4x256x40000_w1s1p0_0_w1s1p0_0_w40000s1p39999_0 : S4x256x40000.ReduceWindows (![1, 1, 40000] : Fin 3 → Nat) ![1, 1, 1] ![0, 0, 39999] ![0, 0, 0] S4x256x40000
  slices_S4x256x40000_S4x256x1_0_0_39999 : S4x256x40000.Slices ![0, 0, 39999] S4x256x1
  shapeCasts_S4x256x1_S4x256 : S4x256x1.ShapeCasts S4x256
  bcast_S_S4x256 : S_.BroadcastsInDim S4x256 (![] : Fin 0 → Fin S4x256.rank)
  bcast_S40000_S4x256x40000_2 : S40000.BroadcastsInDim S4x256x40000 (![2] : Fin 1 → Fin S4x256x40000.rank)
  bcast_S4_S4x1x1_0 : S4.BroadcastsInDim S4x1x1 (![0] : Fin 1 → Fin S4x1x1.rank)
  bcast_S256_S1x256x1_1 : S256.BroadcastsInDim S1x256x1 (![1] : Fin 1 → Fin S1x256x1.rank)
  bcast_S_S4x256x513 : S_.BroadcastsInDim S4x256x513 (![] : Fin 0 → Fin S4x256x513.rank)
  bcast_S_S4x1x1 : S_.BroadcastsInDim S4x1x1 (![] : Fin 0 → Fin S4x1x1.rank)
  bcast_S_S1x256x1 : S_.BroadcastsInDim S1x256x1 (![] : Fin 0 → Fin S1x256x1.rank)
  bcast_S4x1x1_S4x256x40000_0_1_2 : S4x1x1.BroadcastsInDim S4x256x40000 (![0, 1, 2] : Fin 3 → Fin S4x256x40000.rank)
  bcast_S1x256x1_S4x256x40000_0_1_2 : S1x256x1.BroadcastsInDim S4x256x40000 (![0, 1, 2] : Fin 3 → Fin S4x256x40000.rank)
  bcast_S4x256x40000_S4x256x40000x1_0_1_2 : S4x256x40000.BroadcastsInDim S4x256x40000x1 (![0, 1, 2] : Fin 3 → Fin S4x256x40000x1.rank)
  concatenates_S4x256x40000x1_S4x256x40000x1_S4x256x40000x1_S4x256x40000x3_d3 : Shape.Concatenates [S4x256x40000x1, S4x256x40000x1, S4x256x40000x1] S4x256x40000x3 3
  slices_S4x256x513_S4x256x512_0_0_0 : S4x256x513.Slices ![0, 0, 0] S4x256x512
  slices_S4x256x512_S4x256x1_0_0_0 : S4x256x512.Slices ![0, 0, 0] S4x256x1
  bcast_S512_S1x1x512_2 : S512.BroadcastsInDim S1x1x512 (![2] : Fin 1 → Fin S1x1x512.rank)
  bcast_S4x256_S4x256x1_0_1 : S4x256.BroadcastsInDim S4x256x1 (![0, 1] : Fin 2 → Fin S4x256x1.rank)
  bcast_S1x1x512_S4x256x512_0_1_2 : S1x1x512.BroadcastsInDim S4x256x512 (![0, 1, 2] : Fin 3 → Fin S4x256x512.rank)
  bcast_S4x256x1_S4x256x512_0_1_2 : S4x256x1.BroadcastsInDim S4x256x512 (![0, 1, 2] : Fin 3 → Fin S4x256x512.rank)
  bcast_S_S4x256x512 : S_.BroadcastsInDim S4x256x512 (![] : Fin 0 → Fin S4x256x512.rank)
  bcast_S4x1x1_S4x256x512_0_1_2 : S4x1x1.BroadcastsInDim S4x256x512 (![0, 1, 2] : Fin 3 → Fin S4x256x512.rank)
  bcast_S4x256x512_S4x256x512x1_0_1_2 : S4x256x512.BroadcastsInDim S4x256x512x1 (![0, 1, 2] : Fin 3 → Fin S4x256x512x1.rank)
  concatenates_S4x256x512x1_S4x256x512x1_S4x256x512x2_d3 : Shape.Concatenates [S4x256x512x1, S4x256x512x1] S4x256x512x2 3
  bcast_S4x256x1x3_S4x256x512x3_0_1_2_3 : S4x256x1x3.BroadcastsInDim S4x256x512x3 (![0, 1, 2, 3] : Fin 4 → Fin S4x256x512x3.rank)
  slices_S4x256x512x3_S4x256x512x1_0_0_0_0 : S4x256x512x3.Slices ![0, 0, 0, 0] S4x256x512x1
  shapeCasts_S4x256x512x1_S4x256x512 : S4x256x512x1.ShapeCasts S4x256x512
  slices_S4x256x512x3_S4x256x512x1_0_0_0_1 : S4x256x512x3.Slices ![0, 0, 0, 1] S4x256x512x1
  slices_S4x256x512x3_S4x256x512x1_0_0_0_2 : S4x256x512x3.Slices ![0, 0, 0, 2] S4x256x512x1
  concatenates_S4x256x512x1_S4x256x512x1_S4x256x512x1_S4x256x512x3_d3 : Shape.Concatenates [S4x256x512x1, S4x256x512x1, S4x256x512x1] S4x256x512x3 3
  bcast_S_S4x256x512x3 : S_.BroadcastsInDim S4x256x512x3 (![] : Fin 0 → Fin S4x256x512x3.rank)
  transposes_S4x256x512x3_S4x3x256x512_0_3_1_2 : S4x256x512x3.Transposes [0, 3, 1, 2] S4x3x256x512
  transposes_S4x5x40000_S4x40000x5_0_2_1 : S4x5x40000.Transposes [0, 2, 1] S4x40000x5
  transposes_S4x256x512x5_S4x5x256x512_0_3_1_2 : S4x256x512x5.Transposes [0, 3, 1, 2] S4x5x256x512
  transposes_S4x3x256x512_S256x4x512x3_2_0_3_1 : S4x3x256x512.Transposes [2, 0, 3, 1] S256x4x512x3
  scatter_S4x256x513_S4x256x40000x3_S4x256x40000_n_012_012_3_wf : ScatterDims.WF S4x256x513 S4x256x40000x3 S4x256x40000 [] [0, 1, 2] [0, 1, 2] 3
  gather_S4x40000x3_S4x256x512x2_S4x256x512x3_3_01_n_n_01_3_113_wf : GatherDims.WF S4x40000x3 S4x256x512x2 S4x256x512x3 [3] [0, 1] [] [0, 1] [] 3 ![1, 1, 3]
  gather_S4x40000x5_S4x256x512x2_S4x256x512x5_3_01_n_n_01_3_115_wf : GatherDims.WF S4x40000x5 S4x256x512x2 S4x256x512x5 [3] [0, 1] [] [0, 1] [] 3 ![1, 1, 5]

variable [Facts₀]

def scatter_S4x256x513_S4x256x40000x3_S4x256x40000_n_012_012_3 : ScatterDims S4x256x513 S4x256x40000x3 S4x256x40000 where
  updateWindowDims := []
  insertedWindowDims := [0, 1, 2]
  scatterDimsToOperandDims := [0, 1, 2]
  indexVectorDim := 3
  wf := scatter_S4x256x513_S4x256x40000x3_S4x256x40000_n_012_012_3_wf
def gather_S4x40000x3_S4x256x512x2_S4x256x512x3_3_01_n_n_01_3_113 : GatherDims S4x40000x3 S4x256x512x2 S4x256x512x3 where
  offsetDims := [3]
  collapsedSliceDims := [0, 1]
  operandBatchingDims := []
  startIndicesBatchingDims := []
  startIndexMap := [0, 1]
  indexVectorDim := 3
  sliceSizes := ![1, 1, 3]
  wf := gather_S4x40000x3_S4x256x512x2_S4x256x512x3_3_01_n_n_01_3_113_wf
def gather_S4x40000x5_S4x256x512x2_S4x256x512x5_3_01_n_n_01_3_115 : GatherDims S4x40000x5 S4x256x512x2 S4x256x512x5 where
  offsetDims := [3]
  collapsedSliceDims := [0, 1]
  operandBatchingDims := []
  startIndicesBatchingDims := []
  startIndexMap := [0, 1]
  indexVectorDim := 3
  sliceSizes := ![1, 1, 5]
  wf := gather_S4x40000x5_S4x256x512x2_S4x256x512x5_3_01_n_n_01_3_115_wf

class Facts : Prop extends Facts₀ where

variable [Facts]
-- ==== Proof.Kernel.Conds.lean ====
/-
  The two branch conditions of the region's body, in closed form over the grid 4 × 16 × 100: the first (zero the
  accumulator) holds where the point-tile coordinate is 0, i.e. at the linear points ≡ 0 (mod 100); the second (centre,
  rotate, store the outputs) where it is 99, i.e. at the points ≡ 99 (mod 100). Decided over the 6400 points.
-/
import proofs.«179565_j43817256354257_2_alg».proof.Proof.Gen.Kernel.Points

noncomputable section

namespace Cert.Kernel.Fr

open Idealize.ShloMosaic Idealize.SL.Sem
open Cert.Kernel.Gen

/-- The first branch (zero the accumulator): the point-tile coordinate is 0. -/
abbrev cond0_0 (i : grid0.Coords) : Prop := (Scalar.cmpi .ne (Scalar.extui (Scalar.cmpi .eq (BitVec.ofNat 32 (i 2).val) 0#32)) 0#32) = 1#1
/-- It holds at the points ≡ 0 (mod 100). -/
theorem hcond0_0 : ∀ t : Fin cfg0.N, cond0_0 (grid0.coords t) ↔ t.val % 100 = 0 :=
  (by decide +kernel : ∀ t : Fin grid0.N, cond0_0 (grid0.coords t) ↔ t.val % 100 = 0)

/-- The second branch (centre, rotate, store the outputs): the point-tile coordinate is 99. -/
abbrev cond0_1 (i : grid0.Coords) : Prop := k0_cond2 i = 1#1
/-- It holds at the points ≡ 99 (mod 100). -/
theorem hcond0_1 : ∀ t : Fin cfg0.N, cond0_1 (grid0.coords t) ↔ t.val % 100 = 99 :=
  (by decide +kernel : ∀ t : Fin grid0.N, cond0_1 (grid0.coords t) ↔ t.val % 100 = 99)

end Cert.Kernel.Fr

end
-- ==== Proof.Kernel.Runs.lean ====
/-
  The region of the ball-query grouping program, part 1 of its frame: what the runs of its three control cases share.
  The program is: host operations (the ball query: squared distances, the mask, its running count, the scatter of point
  numbers into slots; the point table; cos and sin of the orientations), ONE region over the grid 4 × 16 × 100
  (batch, tile of 16 boxes, tile of 400 points), two transposes. At a grid point the body adds to a scratch accumulator
  [16, 512, 8] the product of the one-hot matrix of the tile's sample numbers against the tile's 400 point rows; the
  accumulator is zeroed at the first point tile (coordinate 2 = 0) and, at the last (coordinate 2 = 99), centred, rotated
  and written to the two output blocks. So a grid point is in one of three cases: A (first tile), B (a middle tile),
  C (last tile); the two outputs are stored only in case C and are idle (not written back) elsewhere.
  Here: the buffers' contents when the region is entered (V0: the host operations before it, folded over the launch
  memory), that @main is those operations, the region, the two transposes (hmain), that no host operation writes an
  argument array (V_main_arg·, W_main_arg·), each window's block at a point (iblk), the frame claim's post from a run
  of the region (frame_of), the two branch conditions in closed form over the grid, and where the outputs are idle.
-/
import proofs.«179565_j43817256354257_2_alg».proof.Proof.Gen.Kernel.Launch
import proofs.«179565_j43817256354257_2_alg».proof.Proof.Gen.Kernel.Skeleton
import proofs.«179565_j43817256354257_2_alg».proof.Proof.Gen.Kernel.Points
import proofs.«179565_j43817256354257_2_alg».proof.Proof.Kernel.Conds
import Idealize.ShloMosaic.Lib.Pipeline.FrameBody
import Idealize.ShloMosaic.Lib.Pipeline.FrameSuffix
import Idealize.ShloMosaic.Lib.Ring
import Idealize.ShloMosaic.Lib.Tactic

-- membership in a rectangle of the kernel's extents recurses once per coordinate of the long axes
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered, as a valuation: the launch memory after the host operations
    before the region. -/
abbrev V0 (c : Dev nD) : Valuation τ sig (Elt F) := StableHlo.after (List.flatten [hostOps0, hostOps0_1, hostOps0_2, hostOps0_3, hostOps0_4, hostOps0_5, hostOps0_6]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the two transposes after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6] [hostOps1]
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- The two transposes touch only unscoped TensorCore buffers. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result, which is no array of a window. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does a transpose after it, and no window stages it: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does a transpose after it, and no window stages it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does a transpose after it, and no window stages it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does a transpose after it, and no window stages it: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the region writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does a transpose after it, and no window stages it: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host operation before the region writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does a transpose after it, and no window stages it: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (where it is not
    fetched its index has not moved), for any proof data over the entry contents whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not (where it is not
    fetched its index has not moved), for any proof data over the entry contents whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not (where it is not
    fetched its index has not moved), for any proof data over the entry contents whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not (where it is not
    fetched its index has not moved), for any proof data over the entry contents whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not (where it is not
    fetched its index has not moved), for any proof data over the entry contents whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run of the region -/

/-- From a run of @main whose post has every buffer no window stages as the transposes leave it, the six argument
    arrays end as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c)⟩) h

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
/-- Output 5 is idle exactly where the second branch is not taken, and is written back only where it is. -/
theorem idle0_5_iff (i : grid0.Coords) : cfg0.idle 5 i = true ↔ ¬cond0_1 i := by
  show (!(k0_cond2 i == 1#1)) = true ↔ ¬(k0_cond2 i = 1#1)
  simp only [Bool.not_eq_true', beq_eq_false_iff_ne, ne_eq]
theorem idleAt0_5 : ∀ t : Fin cfg0.N, ¬cond0_1 (grid0.coords t) → cfg0.idle 5 (grid0.coords t) = true :=
  fun t h => (idle0_5_iff _).mpr h
theorem noFlush0_5 : ∀ t : Fin cfg0.N, ¬cond0_1 (grid0.coords t) → (cfg0.win 5).flush t = false :=
  fun t h => eq_false_of_ne_true fun hf => h ((hcond0_1 t).mpr ((flush0_5 t).mp hf))
theorem liveAt0_5 : ∀ t : Fin cfg0.N, cond0_1 (grid0.coords t) → cfg0.idle 5 (grid0.coords t) = false :=
  fun t h => by
    have := (idle0_5_iff (grid0.coords t)).not.mpr (not_not.mpr h)
    exact eq_false_of_ne_true this
/-- Output 6 is idle exactly where the second branch is not taken, and is written back only where it is. -/
theorem idle0_6_iff (i : grid0.Coords) : cfg0.idle 6 i = true ↔ ¬cond0_1 i := by
  show (!(k0_cond2 i == 1#1)) = true ↔ ¬(k0_cond2 i = 1#1)
  simp only [Bool.not_eq_true', beq_eq_false_iff_ne, ne_eq]
theorem idleAt0_6 : ∀ t : Fin cfg0.N, ¬cond0_1 (grid0.coords t) → cfg0.idle 6 (grid0.coords t) = true :=
  fun t h => (idle0_6_iff _).mpr h
theorem noFlush0_6 : ∀ t : Fin cfg0.N, ¬cond0_1 (grid0.coords t) → (cfg0.win 6).flush t = false :=
  fun t h => eq_false_of_ne_true fun hf => h ((hcond0_1 t).mpr ((flush0_6 t).mp hf))
theorem liveAt0_6 : ∀ t : Fin cfg0.N, cond0_1 (grid0.coords t) → cfg0.idle 6 (grid0.coords t) = false :=
  fun t h => by
    have := (idle0_6_iff (grid0.coords t)).not.mpr (not_not.mpr h)
    exact eq_false_of_ne_true this

/-! ## The staging memrefs and the scratch -/

/-- One staging buffer of output window 5, through which its contents are stated (the choice does not matter). -/
abbrev VO0_5 : View sig .tc .vmem S1x16x512x3 .f32 := (Memref.whole cc0_stg5_0 : Memref sig .tc .vmem S1x16x512x3 .f32).view
/-- One staging buffer of output window 6, through which its contents are stated (the choice does not matter). -/
abbrev VO0_6 : View sig .tc .vmem S1x16x512x5 .f32 := (Memref.whole cc0_stg6_0 : Memref sig .tc .vmem S1x16x512x5 .f32).view
abbrev ms0_0 (t : Fin cfg0.N) : Memref sig .tc .vmem S1x16x512 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x400x8 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x16x1x3 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x16x1x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x16x1x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x16x512x3 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x16x512x5 .f32 := win0_6.stage (cfg0.slots t 6)
abbrev hs0_6 (t : Fin cfg0.N) : (ms0_6 t).IsWhole := hstage0_6 ((cfg0.slots t 6).cast nbuf0_6)
/-- The scratch accumulator: a whole scoped buffer of the kernel's own. -/
abbrev scM0_0 : Memref sig .tc .vmem S16x512x8 .f32 := Memref.whole cc0_scratch0
/-- As a view: what it holds is stated through it. -/
abbrev VS0_0 : View sig .tc .vmem S16x512x8 .f32 := scM0_0.view

/-- What the region's invariant holds beside the windows: the accumulator at some contents and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Fr

end
-- ==== Proof.Kernel.RunA.lean ====
/-
  The region's body in CASE A (the first point tile of a box tile: the accumulator is zeroed, then the tile's one-hot
  product is added; the outputs are not stored): its triple on any whole staging memrefs, the inputs' at their contents
  and handed back as they were, the two idle outputs' at contents handed back untouched, the accumulator at anything and
  left with the case's pieces written (the witness the symbolic run finds).
-/
import proofs.«179565_j43817256354257_2_alg».proof.Proof.Kernel.Runs

-- membership in a rectangle of the kernel's extents recurses once per coordinate of the long axes
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue walks it past the default budget)
set_option maxHeartbeats 4000000 in
/-- Case A: the pieces each output's buffer and the accumulator end with (last first), with the triple. -/
noncomputable def kernelRun0_A (c : Dev nD) (i : grid0.Coords) (arg3 : Memref sig .tc .vmem S1x16x512 .i32) (harg3 : arg3.IsWhole) (arg4 : Memref sig .tc .vmem S1x400x8 .f32) (harg4 : arg4.IsWhole) (arg5 : Memref sig .tc .vmem S1x16x1x3 .f32) (harg5 : arg5.IsWhole) (arg6 : Memref sig .tc .vmem S1x16x1x1 .f32) (harg6 : arg6.IsWhole) (arg7 : Memref sig .tc .vmem S1x16x1x1 .f32) (harg7 : arg7.IsWhole) (arg8 : Memref sig .tc .vmem S1x16x512x3 .f32) (harg8 : arg8.IsWhole) (arg9 : Memref sig .tc .vmem S1x16x512x5 .f32) (harg9 : arg9.IsWhole) (arg10 : Memref sig .tc .vmem S16x512x8 .f32) (harg10 : arg10.IsWhole) (hc0 : cond0_0 i) (hc1 : ¬cond0_1 i)
    (x0 : Vec F S1x16x512 .i32) (x1 : Vec F S1x400x8 .f32) (x2 : Vec F S1x16x1x3 .f32) (x3 : Vec F S1x16x1x1 .f32) (x4 : Vec F S1x16x1x1 .f32) :
    Σ' (L5 : List (View.Piece (Elt F) S1x16x512x3 .f32)) (L6 : List (View.Piece (Elt F) S1x16x512x5 .f32)), { LS0 : List (View.Piece (Elt F) S16x512x8 .f32) //
      ∀ (xi5 : Vec F S1x16x512x3 .f32) (xi6 : Vec F S1x16x512x5 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xi6 ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xi6 ∗ (∃ f, arg10.view.loc (c : Thread nD τ) ↦[arg10.view.set]{fullShare} arg10.view.writes (Elt F) f LS0)) -∗ K ⟨⟩))
          ⊢ wp frame (wpE (defs₀ (F := F)) Variants.none c none) E (cc0__group_align_kernel i arg3 harg3 arg4 harg4 arg5 harg5 arg6 harg6 arg7 harg7 arg8 harg8 arg9 harg9 arg10 harg10) K } := by
  refine ⟨[], [], ?_, fun xi5 xi6 E K => ?run⟩
  case run =>
    simp only [cc0__group_align_kernel_eq_skeleton]; unfold cc0__group_align_kernel_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    iexists _; iexact HS0

end Cert.Kernel.Fr

end
-- ==== Proof.Kernel.RunB.lean ====
/-
  The region's body in CASE B (a middle point tile: the tile's one-hot product is added to the accumulator the point
  before left; the outputs are not stored): its triple on any whole staging memrefs, as in case A but with the
  accumulator taken at the contents the point before left.
-/
import proofs.«179565_j43817256354257_2_alg».proof.Proof.Kernel.RunA

-- membership in a rectangle of the kernel's extents recurses once per coordinate of the long axes
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue walks it past the default budget)
set_option maxHeartbeats 4000000 in
/-- Case B: the pieces each output's buffer and the accumulator end with (last first), with the triple. -/
noncomputable def kernelRun0_B (c : Dev nD) (i : grid0.Coords) (arg3 : Memref sig .tc .vmem S1x16x512 .i32) (harg3 : arg3.IsWhole) (arg4 : Memref sig .tc .vmem S1x400x8 .f32) (harg4 : arg4.IsWhole) (arg5 : Memref sig .tc .vmem S1x16x1x3 .f32) (harg5 : arg5.IsWhole) (arg6 : Memref sig .tc .vmem S1x16x1x1 .f32) (harg6 : arg6.IsWhole) (arg7 : Memref sig .tc .vmem S1x16x1x1 .f32) (harg7 : arg7.IsWhole) (arg8 : Memref sig .tc .vmem S1x16x512x3 .f32) (harg8 : arg8.IsWhole) (arg9 : Memref sig .tc .vmem S1x16x512x5 .f32) (harg9 : arg9.IsWhole) (arg10 : Memref sig .tc .vmem S16x512x8 .f32) (harg10 : arg10.IsWhole) (hc0 : ¬cond0_0 i) (hc1 : ¬cond0_1 i)
    (x0 : Vec F S1x16x512 .i32) (x1 : Vec F S1x400x8 .f32) (x2 : Vec F S1x16x1x3 .f32) (x3 : Vec F S1x16x1x1 .f32) (x4 : Vec F S1x16x1x1 .f32) (xs0 : Vec F S16x512x8 .f32) :
    Σ' (L5 : List (View.Piece (Elt F) S1x16x512x3 .f32)) (L6 : List (View.Piece (Elt F) S1x16x512x5 .f32)), { LS0 : List (View.Piece (Elt F) S16x512x8 .f32) //
      ∀ (xi5 : Vec F S1x16x512x3 .f32) (xi6 : Vec F S1x16x512x5 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xi6 ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xi6 ∗ (∃ f, arg10.view.loc (c : Thread nD τ) ↦[arg10.view.set]{fullShare} arg10.view.writes (Elt F) f LS0)) -∗ K ⟨⟩))
          ⊢ wp frame (wpE (defs₀ (F := F)) Variants.none c none) E (cc0__group_align_kernel i arg3 harg3 arg4 harg4 arg5 harg5 arg6 harg6 arg7 harg7 arg8 harg8 arg9 harg9 arg10 harg10) K } := by
  refine ⟨[], [], ?_, fun xi5 xi6 E K => ?run⟩
  case run =>
    simp only [cc0__group_align_kernel_eq_skeleton]; unfold cc0__group_align_kernel_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    iexists _; iexact HS0

end Cert.Kernel.Fr

end
-- ==== Proof.Kernel.RunC.lean ====
/-
  The region's body in CASE C (the last point tile: the tile's one-hot product is added, then the accumulated rows are
  centred on the box, rotated by its orientation and stored to the two output blocks): its triple on any whole staging
  memrefs, the outputs' at anything and left with the case's pieces written.
-/
import proofs.«179565_j43817256354257_2_alg».proof.Proof.Kernel.RunB

-- membership in a rectangle of the kernel's extents recurses once per coordinate of the long axes
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue walks it past the default budget)
set_option maxHeartbeats 4000000 in
/-- Case C: the pieces each output's buffer and the accumulator end with (last first), with the triple. -/
noncomputable def kernelRun0_C (c : Dev nD) (i : grid0.Coords) (arg3 : Memref sig .tc .vmem S1x16x512 .i32) (harg3 : arg3.IsWhole) (arg4 : Memref sig .tc .vmem S1x400x8 .f32) (harg4 : arg4.IsWhole) (arg5 : Memref sig .tc .vmem S1x16x1x3 .f32) (harg5 : arg5.IsWhole) (arg6 : Memref sig .tc .vmem S1x16x1x1 .f32) (harg6 : arg6.IsWhole) (arg7 : Memref sig .tc .vmem S1x16x1x1 .f32) (harg7 : arg7.IsWhole) (arg8 : Memref sig .tc .vmem S1x16x512x3 .f32) (harg8 : arg8.IsWhole) (arg9 : Memref sig .tc .vmem S1x16x512x5 .f32) (harg9 : arg9.IsWhole) (arg10 : Memref sig .tc .vmem S16x512x8 .f32) (harg10 : arg10.IsWhole) (hc0 : ¬cond0_0 i) (hc1 : cond0_1 i)
    (x0 : Vec F S1x16x512 .i32) (x1 : Vec F S1x400x8 .f32) (x2 : Vec F S1x16x1x3 .f32) (x3 : Vec F S1x16x1x1 .f32) (x4 : Vec F S1x16x1x1 .f32) (xs0 : Vec F S16x512x8 .f32) :
    Σ' (L5 : List (View.Piece (Elt F) S1x16x512x3 .f32)) (L6 : List (View.Piece (Elt F) S1x16x512x5 .f32)), { LS0 : List (View.Piece (Elt F) S16x512x8 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0)) -∗ K ⟨⟩))
          ⊢ wp frame (wpE (defs₀ (F := F)) Variants.none c none) E (cc0__group_align_kernel i arg3 harg3 arg4 harg4 arg5 harg5 arg6 harg6 arg7 harg7 arg8 harg8 arg9 harg9 arg10 harg10) K } := by
  refine ⟨?_, ?_, ?_, fun E K => ?run⟩
  case run =>
    simp only [cc0__group_align_kernel_eq_skeleton]; unfold cc0__group_align_kernel_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg10.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [H6]; · iexists _; iexact H6
    iexists _; iexact HS0

end Cert.Kernel.Fr

end
-- ==== Proof.Kernel.Frame.lean ====
/-
  The region's frame, last part: what the two output blocks and the accumulator hold after each grid point, the proof
  data of the pipeline, the body obligation, the run of @main and the frame claim.
  After a point of case A or B an output's staging buffer is idle (nothing stored, not written back): a placeholder stands
  for it that nothing consults. After a point of case C it holds the case's stores read back. The accumulator holds, after
  every point, the case's stores read back — in cases B and C over what the point before left, so its contents are defined
  by recursion on the linear point (outsAt0). The region's invariant carries the accumulator at those contents between
  points (PhiS). Every input window's staging buffer holds its block of the array as the region found it.
-/
import proofs.«179565_j43817256354257_2_alg».proof.Proof.Kernel.RunC

-- membership in a rectangle of the kernel's extents recurses once per coordinate of the long axes
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What case A leaves in output 5's staging buffer: its stores read back (none: a placeholder nothing consults, the window being idle and not written back at the case's points). -/
def out0_A_5 (c : Dev nD) (i : grid0.Coords) (arg3 : Memref sig .tc .vmem S1x16x512 .i32) (harg3 : arg3.IsWhole) (arg4 : Memref sig .tc .vmem S1x400x8 .f32) (harg4 : arg4.IsWhole) (arg5 : Memref sig .tc .vmem S1x16x1x3 .f32) (harg5 : arg5.IsWhole) (arg6 : Memref sig .tc .vmem S1x16x1x1 .f32) (harg6 : arg6.IsWhole) (arg7 : Memref sig .tc .vmem S1x16x1x1 .f32) (harg7 : arg7.IsWhole) (arg8 : Memref sig .tc .vmem S1x16x512x3 .f32) (harg8 : arg8.IsWhole) (arg9 : Memref sig .tc .vmem S1x16x512x5 .f32) (harg9 : arg9.IsWhole) (arg10 : Memref sig .tc .vmem S16x512x8 .f32) (harg10 : arg10.IsWhole) (hc0 : cond0_0 i) (hc1 : ¬cond0_1 i)
    (x0 : Vec F S1x16x512 .i32) (x1 : Vec F S1x400x8 .f32) (x2 : Vec F S1x16x1x3 .f32) (x3 : Vec F S1x16x1x1 .f32) (x4 : Vec F S1x16x1x1 .f32) : Vec F S1x16x512x3 .f32 :=
  VO0_5.read (Elt F) (VO0_5.writes (Elt F) VO0_5.junk (kernelRun0_A c i arg3 harg3 arg4 harg4 arg5 harg5 arg6 harg6 arg7 harg7 arg8 harg8 arg9 harg9 arg10 harg10 hc0 hc1 x0 x1 x2 x3 x4).1)

/-- What case A leaves in output 6's staging buffer: its stores read back (none: a placeholder nothing consults, the window being idle and not written back at the case's points). -/
def out0_A_6 (c : Dev nD) (i : grid0.Coords) (arg3 : Memref sig .tc .vmem S1x16x512 .i32) (harg3 : arg3.IsWhole) (arg4 : Memref sig .tc .vmem S1x400x8 .f32) (harg4 : arg4.IsWhole) (arg5 : Memref sig .tc .vmem S1x16x1x3 .f32) (harg5 : arg5.IsWhole) (arg6 : Memref sig .tc .vmem S1x16x1x1 .f32) (harg6 : arg6.IsWhole) (arg7 : Memref sig .tc .vmem S1x16x1x1 .f32) (harg7 : arg7.IsWhole) (arg8 : Memref sig .tc .vmem S1x16x512x3 .f32) (harg8 : arg8.IsWhole) (arg9 : Memref sig .tc .vmem S1x16x512x5 .f32) (harg9 : arg9.IsWhole) (arg10 : Memref sig .tc .vmem S16x512x8 .f32) (harg10 : arg10.IsWhole) (hc0 : cond0_0 i) (hc1 : ¬cond0_1 i)
    (x0 : Vec F S1x16x512 .i32) (x1 : Vec F S1x400x8 .f32) (x2 : Vec F S1x16x1x3 .f32) (x3 : Vec F S1x16x1x1 .f32) (x4 : Vec F S1x16x1x1 .f32) : Vec F S1x16x512x5 .f32 :=
  VO0_6.read (Elt F) (VO0_6.writes (Elt F) VO0_6.junk (kernelRun0_A c i arg3 harg3 arg4 harg4 arg5 harg5 arg6 harg6 arg7 harg7 arg8 harg8 arg9 harg9 arg10 harg10 hc0 hc1 x0 x1 x2 x3 x4).2.1)

/-- Case A's stores into the accumulator tile it, so they cover it. -/
theorem scover0_A_0 (c : Dev nD) (i : grid0.Coords) (arg3 : Memref sig .tc .vmem S1x16x512 .i32) (harg3 : arg3.IsWhole) (arg4 : Memref sig .tc .vmem S1x400x8 .f32) (harg4 : arg4.IsWhole) (arg5 : Memref sig .tc .vmem S1x16x1x3 .f32) (harg5 : arg5.IsWhole) (arg6 : Memref sig .tc .vmem S1x16x1x1 .f32) (harg6 : arg6.IsWhole) (arg7 : Memref sig .tc .vmem S1x16x1x1 .f32) (harg7 : arg7.IsWhole) (arg8 : Memref sig .tc .vmem S1x16x512x3 .f32) (harg8 : arg8.IsWhole) (arg9 : Memref sig .tc .vmem S1x16x512x5 .f32) (harg9 : arg9.IsWhole) (arg10 : Memref sig .tc .vmem S16x512x8 .f32) (harg10 : arg10.IsWhole) (hc0 : cond0_0 i) (hc1 : ¬cond0_1 i)
    (x0 : Vec F S1x16x512 .i32) (x1 : Vec F S1x400x8 .f32) (x2 : Vec F S1x16x1x3 .f32) (x3 : Vec F S1x16x1x1 .f32) (x4 : Vec F S1x16x1x1 .f32) (y : S16x512x8.Idx) :
    ∃ pc ∈ (kernelRun0_A c i arg3 harg3 arg4 harg4 arg5 harg5 arg6 harg6 arg7 harg7 arg8 harg8 arg9 harg9 arg10 harg10 hc0 hc1 x0 x1 x2 x3 x4).2.2.1, y ∈ pc.1.set :=
  View.cover_of_tiledL (kernelRun0_A c i arg3 harg3 arg4 harg4 arg5 harg5 arg6 harg6 arg7 harg7 arg8 harg8 arg9 harg9 arg10 harg10 hc0 hc1 x0 x1 x2 x3 x4).2.2.1 S16x512x8.size (by sl_kernel_rfl) y

/-- What case A leaves in the accumulator: its stores read back. -/
def sout0_A_0 (c : Dev nD) (i : grid0.Coords) (arg3 : Memref sig .tc .vmem S1x16x512 .i32) (harg3 : arg3.IsWhole) (arg4 : Memref sig .tc .vmem S1x400x8 .f32) (harg4 : arg4.IsWhole) (arg5 : Memref sig .tc .vmem S1x16x1x3 .f32) (harg5 : arg5.IsWhole) (arg6 : Memref sig .tc .vmem S1x16x1x1 .f32) (harg6 : arg6.IsWhole) (arg7 : Memref sig .tc .vmem S1x16x1x1 .f32) (harg7 : arg7.IsWhole) (arg8 : Memref sig .tc .vmem S1x16x512x3 .f32) (harg8 : arg8.IsWhole) (arg9 : Memref sig .tc .vmem S1x16x512x5 .f32) (harg9 : arg9.IsWhole) (arg10 : Memref sig .tc .vmem S16x512x8 .f32) (harg10 : arg10.IsWhole) (hc0 : cond0_0 i) (hc1 : ¬cond0_1 i)
    (x0 : Vec F S1x16x512 .i32) (x1 : Vec F S1x400x8 .f32) (x2 : Vec F S1x16x1x3 .f32) (x3 : Vec F S1x16x1x1 .f32) (x4 : Vec F S1x16x1x1 .f32) : Vec F S16x512x8 .f32 :=
  VS0_0.read (Elt F) (VS0_0.writes (Elt F) VS0_0.junk (kernelRun0_A c i arg3 harg3 arg4 harg4 arg5 harg5 arg6 harg6 arg7 harg7 arg8 harg8 arg9 harg9 arg10 harg10 hc0 hc1 x0 x1 x2 x3 x4).2.2.1)

/-- What case B leaves in output 5's staging buffer: its stores read back (none: a placeholder nothing consults, the window being idle and not written back at the case's points). -/
def out0_B_5 (c : Dev nD) (i : grid0.Coords) (arg3 : Memref sig .tc .vmem S1x16x512 .i32) (harg3 : arg3.IsWhole) (arg4 : Memref sig .tc .vmem S1x400x8 .f32) (harg4 : arg4.IsWhole) (arg5 : Memref sig .tc .vmem S1x16x1x3 .f32) (harg5 : arg5.IsWhole) (arg6 : Memref sig .tc .vmem S1x16x1x1 .f32) (harg6 : arg6.IsWhole) (arg7 : Memref sig .tc .vmem S1x16x1x1 .f32) (harg7 : arg7.IsWhole) (arg8 : Memref sig .tc .vmem S1x16x512x3 .f32) (harg8 : arg8.IsWhole) (arg9 : Memref sig .tc .vmem S1x16x512x5 .f32) (harg9 : arg9.IsWhole) (arg10 : Memref sig .tc .vmem S16x512x8 .f32) (harg10 : arg10.IsWhole) (hc0 : ¬cond0_0 i) (hc1 : ¬cond0_1 i)
    (x0 : Vec F S1x16x512 .i32) (x1 : Vec F S1x400x8 .f32) (x2 : Vec F S1x16x1x3 .f32) (x3 : Vec F S1x16x1x1 .f32) (x4 : Vec F S1x16x1x1 .f32) (xs0 : Vec F S16x512x8 .f32) : Vec F S1x16x512x3 .f32 :=
  VO0_5.read (Elt F) (VO0_5.writes (Elt F) VO0_5.junk (kernelRun0_B c i arg3 harg3 arg4 harg4 arg5 harg5 arg6 harg6 arg7 harg7 arg8 harg8 arg9 harg9 arg10 harg10 hc0 hc1 x0 x1 x2 x3 x4 xs0).1)

/-- What case B leaves in output 6's staging buffer: its stores read back (none: a placeholder nothing consults, the window being idle and not written back at the case's points). -/
def out0_B_6 (c : Dev nD) (i : grid0.Coords) (arg3 : Memref sig .tc .vmem S1x16x512 .i32) (harg3 : arg3.IsWhole) (arg4 : Memref sig .tc .vmem S1x400x8 .f32) (harg4 : arg4.IsWhole) (arg5 : Memref sig .tc .vmem S1x16x1x3 .f32) (harg5 : arg5.IsWhole) (arg6 : Memref sig .tc .vmem S1x16x1x1 .f32) (harg6 : arg6.IsWhole) (arg7 : Memref sig .tc .vmem S1x16x1x1 .f32) (harg7 : arg7.IsWhole) (arg8 : Memref sig .tc .vmem S1x16x512x3 .f32) (harg8 : arg8.IsWhole) (arg9 : Memref sig .tc .vmem S1x16x512x5 .f32) (harg9 : arg9.IsWhole) (arg10 : Memref sig .tc .vmem S16x512x8 .f32) (harg10 : arg10.IsWhole) (hc0 : ¬cond0_0 i) (hc1 : ¬cond0_1 i)
    (x0 : Vec F S1x16x512 .i32) (x1 : Vec F S1x400x8 .f32) (x2 : Vec F S1x16x1x3 .f32) (x3 : Vec F S1x16x1x1 .f32) (x4 : Vec F S1x16x1x1 .f32) (xs0 : Vec F S16x512x8 .f32) : Vec F S1x16x512x5 .f32 :=
  VO0_6.read (Elt F) (VO0_6.writes (Elt F) VO0_6.junk (kernelRun0_B c i arg3 harg3 arg4 harg4 arg5 harg5 arg6 harg6 arg7 harg7 arg8 harg8 arg9 harg9 arg10 harg10 hc0 hc1 x0 x1 x2 x3 x4 xs0).2.1)

/-- Case B's stores into the accumulator tile it, so they cover it. -/
theorem scover0_B_0 (c : Dev nD) (i : grid0.Coords) (arg3 : Memref sig .tc .vmem S1x16x512 .i32) (harg3 : arg3.IsWhole) (arg4 : Memref sig .tc .vmem S1x400x8 .f32) (harg4 : arg4.IsWhole) (arg5 : Memref sig .tc .vmem S1x16x1x3 .f32) (harg5 : arg5.IsWhole) (arg6 : Memref sig .tc .vmem S1x16x1x1 .f32) (harg6 : arg6.IsWhole) (arg7 : Memref sig .tc .vmem S1x16x1x1 .f32) (harg7 : arg7.IsWhole) (arg8 : Memref sig .tc .vmem S1x16x512x3 .f32) (harg8 : arg8.IsWhole) (arg9 : Memref sig .tc .vmem S1x16x512x5 .f32) (harg9 : arg9.IsWhole) (arg10 : Memref sig .tc .vmem S16x512x8 .f32) (harg10 : arg10.IsWhole) (hc0 : ¬cond0_0 i) (hc1 : ¬cond0_1 i)
    (x0 : Vec F S1x16x512 .i32) (x1 : Vec F S1x400x8 .f32) (x2 : Vec F S1x16x1x3 .f32) (x3 : Vec F S1x16x1x1 .f32) (x4 : Vec F S1x16x1x1 .f32) (xs0 : Vec F S16x512x8 .f32) (y : S16x512x8.Idx) :
    ∃ pc ∈ (kernelRun0_B c i arg3 harg3 arg4 harg4 arg5 harg5 arg6 harg6 arg7 harg7 arg8 harg8 arg9 harg9 arg10 harg10 hc0 hc1 x0 x1 x2 x3 x4 xs0).2.2.1, y ∈ pc.1.set :=
  View.cover_of_tiledL (kernelRun0_B c i arg3 harg3 arg4 harg4 arg5 harg5 arg6 harg6 arg7 harg7 arg8 harg8 arg9 harg9 arg10 harg10 hc0 hc1 x0 x1 x2 x3 x4 xs0).2.2.1 S16x512x8.size (by sl_kernel_rfl) y

/-- What case B leaves in the accumulator: its stores read back. -/
def sout0_B_0 (c : Dev nD) (i : grid0.Coords) (arg3 : Memref sig .tc .vmem S1x16x512 .i32) (harg3 : arg3.IsWhole) (arg4 : Memref sig .tc .vmem S1x400x8 .f32) (harg4 : arg4.IsWhole) (arg5 : Memref sig .tc .vmem S1x16x1x3 .f32) (harg5 : arg5.IsWhole) (arg6 : Memref sig .tc .vmem S1x16x1x1 .f32) (harg6 : arg6.IsWhole) (arg7 : Memref sig .tc .vmem S1x16x1x1 .f32) (harg7 : arg7.IsWhole) (arg8 : Memref sig .tc .vmem S1x16x512x3 .f32) (harg8 : arg8.IsWhole) (arg9 : Memref sig .tc .vmem S1x16x512x5 .f32) (harg9 : arg9.IsWhole) (arg10 : Memref sig .tc .vmem S16x512x8 .f32) (harg10 : arg10.IsWhole) (hc0 : ¬cond0_0 i) (hc1 : ¬cond0_1 i)
    (x0 : Vec F S1x16x512 .i32) (x1 : Vec F S1x400x8 .f32) (x2 : Vec F S1x16x1x3 .f32) (x3 : Vec F S1x16x1x1 .f32) (x4 : Vec F S1x16x1x1 .f32) (xs0 : Vec F S16x512x8 .f32) : Vec F S16x512x8 .f32 :=
  VS0_0.read (Elt F) (VS0_0.writes (Elt F) VS0_0.junk (kernelRun0_B c i arg3 harg3 arg4 harg4 arg5 harg5 arg6 harg6 arg7 harg7 arg8 harg8 arg9 harg9 arg10 harg10 hc0 hc1 x0 x1 x2 x3 x4 xs0).2.2.1)

/-- Case C's stores into output 5 tile its block, so they cover it. -/
theorem cover0_C_5 (c : Dev nD) (i : grid0.Coords) (arg3 : Memref sig .tc .vmem S1x16x512 .i32) (harg3 : arg3.IsWhole) (arg4 : Memref sig .tc .vmem S1x400x8 .f32) (harg4 : arg4.IsWhole) (arg5 : Memref sig .tc .vmem S1x16x1x3 .f32) (harg5 : arg5.IsWhole) (arg6 : Memref sig .tc .vmem S1x16x1x1 .f32) (harg6 : arg6.IsWhole) (arg7 : Memref sig .tc .vmem S1x16x1x1 .f32) (harg7 : arg7.IsWhole) (arg8 : Memref sig .tc .vmem S1x16x512x3 .f32) (harg8 : arg8.IsWhole) (arg9 : Memref sig .tc .vmem S1x16x512x5 .f32) (harg9 : arg9.IsWhole) (arg10 : Memref sig .tc .vmem S16x512x8 .f32) (harg10 : arg10.IsWhole) (hc0 : ¬cond0_0 i) (hc1 : cond0_1 i)
    (x0 : Vec F S1x16x512 .i32) (x1 : Vec F S1x400x8 .f32) (x2 : Vec F S1x16x1x3 .f32) (x3 : Vec F S1x16x1x1 .f32) (x4 : Vec F S1x16x1x1 .f32) (xs0 : Vec F S16x512x8 .f32) (y : S1x16x512x3.Idx) :
    ∃ pc ∈ (kernelRun0_C c i arg3 harg3 arg4 harg4 arg5 harg5 arg6 harg6 arg7 harg7 arg8 harg8 arg9 harg9 arg10 harg10 hc0 hc1 x0 x1 x2 x3 x4 xs0).1, y ∈ pc.1.set :=
  View.cover_of_tiledL (kernelRun0_C c i arg3 harg3 arg4 harg4 arg5 harg5 arg6 harg6 arg7 harg7 arg8 harg8 arg9 harg9 arg10 harg10 hc0 hc1 x0 x1 x2 x3 x4 xs0).1 S1x16x512x3.size (by sl_kernel_rfl) y

/-- What case C leaves in output 5's staging buffer: its stores read back. -/
def out0_C_5 (c : Dev nD) (i : grid0.Coords) (arg3 : Memref sig .tc .vmem S1x16x512 .i32) (harg3 : arg3.IsWhole) (arg4 : Memref sig .tc .vmem S1x400x8 .f32) (harg4 : arg4.IsWhole) (arg5 : Memref sig .tc .vmem S1x16x1x3 .f32) (harg5 : arg5.IsWhole) (arg6 : Memref sig .tc .vmem S1x16x1x1 .f32) (harg6 : arg6.IsWhole) (arg7 : Memref sig .tc .vmem S1x16x1x1 .f32) (harg7 : arg7.IsWhole) (arg8 : Memref sig .tc .vmem S1x16x512x3 .f32) (harg8 : arg8.IsWhole) (arg9 : Memref sig .tc .vmem S1x16x512x5 .f32) (harg9 : arg9.IsWhole) (arg10 : Memref sig .tc .vmem S16x512x8 .f32) (harg10 : arg10.IsWhole) (hc0 : ¬cond0_0 i) (hc1 : cond0_1 i)
    (x0 : Vec F S1x16x512 .i32) (x1 : Vec F S1x400x8 .f32) (x2 : Vec F S1x16x1x3 .f32) (x3 : Vec F S1x16x1x1 .f32) (x4 : Vec F S1x16x1x1 .f32) (xs0 : Vec F S16x512x8 .f32) : Vec F S1x16x512x3 .f32 :=
  VO0_5.read (Elt F) (VO0_5.writes (Elt F) VO0_5.junk (kernelRun0_C c i arg3 harg3 arg4 harg4 arg5 harg5 arg6 harg6 arg7 harg7 arg8 harg8 arg9 harg9 arg10 harg10 hc0 hc1 x0 x1 x2 x3 x4 xs0).1)

/-- Case C's stores into output 6 tile its block, so they cover it. -/
theorem cover0_C_6 (c : Dev nD) (i : grid0.Coords) (arg3 : Memref sig .tc .vmem S1x16x512 .i32) (harg3 : arg3.IsWhole) (arg4 : Memref sig .tc .vmem S1x400x8 .f32) (harg4 : arg4.IsWhole) (arg5 : Memref sig .tc .vmem S1x16x1x3 .f32) (harg5 : arg5.IsWhole) (arg6 : Memref sig .tc .vmem S1x16x1x1 .f32) (harg6 : arg6.IsWhole) (arg7 : Memref sig .tc .vmem S1x16x1x1 .f32) (harg7 : arg7.IsWhole) (arg8 : Memref sig .tc .vmem S1x16x512x3 .f32) (harg8 : arg8.IsWhole) (arg9 : Memref sig .tc .vmem S1x16x512x5 .f32) (harg9 : arg9.IsWhole) (arg10 : Memref sig .tc .vmem S16x512x8 .f32) (harg10 : arg10.IsWhole) (hc0 : ¬cond0_0 i) (hc1 : cond0_1 i)
    (x0 : Vec F S1x16x512 .i32) (x1 : Vec F S1x400x8 .f32) (x2 : Vec F S1x16x1x3 .f32) (x3 : Vec F S1x16x1x1 .f32) (x4 : Vec F S1x16x1x1 .f32) (xs0 : Vec F S16x512x8 .f32) (y : S1x16x512x5.Idx) :
    ∃ pc ∈ (kernelRun0_C c i arg3 harg3 arg4 harg4 arg5 harg5 arg6 harg6 arg7 harg7 arg8 harg8 arg9 harg9 arg10 harg10 hc0 hc1 x0 x1 x2 x3 x4 xs0).2.1, y ∈ pc.1.set :=
  View.cover_of_tiledL (kernelRun0_C c i arg3 harg3 arg4 harg4 arg5 harg5 arg6 harg6 arg7 harg7 arg8 harg8 arg9 harg9 arg10 harg10 hc0 hc1 x0 x1 x2 x3 x4 xs0).2.1 S1x16x512x5.size (by sl_kernel_rfl) y

/-- What case C leaves in output 6's staging buffer: its stores read back. -/
def out0_C_6 (c : Dev nD) (i : grid0.Coords) (arg3 : Memref sig .tc .vmem S1x16x512 .i32) (harg3 : arg3.IsWhole) (arg4 : Memref sig .tc .vmem S1x400x8 .f32) (harg4 : arg4.IsWhole) (arg5 : Memref sig .tc .vmem S1x16x1x3 .f32) (harg5 : arg5.IsWhole) (arg6 : Memref sig .tc .vmem S1x16x1x1 .f32) (harg6 : arg6.IsWhole) (arg7 : Memref sig .tc .vmem S1x16x1x1 .f32) (harg7 : arg7.IsWhole) (arg8 : Memref sig .tc .vmem S1x16x512x3 .f32) (harg8 : arg8.IsWhole) (arg9 : Memref sig .tc .vmem S1x16x512x5 .f32) (harg9 : arg9.IsWhole) (arg10 : Memref sig .tc .vmem S16x512x8 .f32) (harg10 : arg10.IsWhole) (hc0 : ¬cond0_0 i) (hc1 : cond0_1 i)
    (x0 : Vec F S1x16x512 .i32) (x1 : Vec F S1x400x8 .f32) (x2 : Vec F S1x16x1x3 .f32) (x3 : Vec F S1x16x1x1 .f32) (x4 : Vec F S1x16x1x1 .f32) (xs0 : Vec F S16x512x8 .f32) : Vec F S1x16x512x5 .f32 :=
  VO0_6.read (Elt F) (VO0_6.writes (Elt F) VO0_6.junk (kernelRun0_C c i arg3 harg3 arg4 harg4 arg5 harg5 arg6 harg6 arg7 harg7 arg8 harg8 arg9 harg9 arg10 harg10 hc0 hc1 x0 x1 x2 x3 x4 xs0).2.1)

/-- Case C's stores into the accumulator tile it, so they cover it. -/
theorem scover0_C_0 (c : Dev nD) (i : grid0.Coords) (arg3 : Memref sig .tc .vmem S1x16x512 .i32) (harg3 : arg3.IsWhole) (arg4 : Memref sig .tc .vmem S1x400x8 .f32) (harg4 : arg4.IsWhole) (arg5 : Memref sig .tc .vmem S1x16x1x3 .f32) (harg5 : arg5.IsWhole) (arg6 : Memref sig .tc .vmem S1x16x1x1 .f32) (harg6 : arg6.IsWhole) (arg7 : Memref sig .tc .vmem S1x16x1x1 .f32) (harg7 : arg7.IsWhole) (arg8 : Memref sig .tc .vmem S1x16x512x3 .f32) (harg8 : arg8.IsWhole) (arg9 : Memref sig .tc .vmem S1x16x512x5 .f32) (harg9 : arg9.IsWhole) (arg10 : Memref sig .tc .vmem S16x512x8 .f32) (harg10 : arg10.IsWhole) (hc0 : ¬cond0_0 i) (hc1 : cond0_1 i)
    (x0 : Vec F S1x16x512 .i32) (x1 : Vec F S1x400x8 .f32) (x2 : Vec F S1x16x1x3 .f32) (x3 : Vec F S1x16x1x1 .f32) (x4 : Vec F S1x16x1x1 .f32) (xs0 : Vec F S16x512x8 .f32) (y : S16x512x8.Idx) :
    ∃ pc ∈ (kernelRun0_C c i arg3 harg3 arg4 harg4 arg5 harg5 arg6 harg6 arg7 harg7 arg8 harg8 arg9 harg9 arg10 harg10 hc0 hc1 x0 x1 x2 x3 x4 xs0).2.2.1, y ∈ pc.1.set :=
  View.cover_of_tiledL (kernelRun0_C c i arg3 harg3 arg4 harg4 arg5 harg5 arg6 harg6 arg7 harg7 arg8 harg8 arg9 harg9 arg10 harg10 hc0 hc1 x0 x1 x2 x3 x4 xs0).2.2.1 S16x512x8.size (by sl_kernel_rfl) y

/-- What case C leaves in the accumulator: its stores read back. -/
def sout0_C_0 (c : Dev nD) (i : grid0.Coords) (arg3 : Memref sig .tc .vmem S1x16x512 .i32) (harg3 : arg3.IsWhole) (arg4 : Memref sig .tc .vmem S1x400x8 .f32) (harg4 : arg4.IsWhole) (arg5 : Memref sig .tc .vmem S1x16x1x3 .f32) (harg5 : arg5.IsWhole) (arg6 : Memref sig .tc .vmem S1x16x1x1 .f32) (harg6 : arg6.IsWhole) (arg7 : Memref sig .tc .vmem S1x16x1x1 .f32) (harg7 : arg7.IsWhole) (arg8 : Memref sig .tc .vmem S1x16x512x3 .f32) (harg8 : arg8.IsWhole) (arg9 : Memref sig .tc .vmem S1x16x512x5 .f32) (harg9 : arg9.IsWhole) (arg10 : Memref sig .tc .vmem S16x512x8 .f32) (harg10 : arg10.IsWhole) (hc0 : ¬cond0_0 i) (hc1 : cond0_1 i)
    (x0 : Vec F S1x16x512 .i32) (x1 : Vec F S1x400x8 .f32) (x2 : Vec F S1x16x1x3 .f32) (x3 : Vec F S1x16x1x1 .f32) (x4 : Vec F S1x16x1x1 .f32) (xs0 : Vec F S16x512x8 .f32) : Vec F S16x512x8 .f32 :=
  VS0_0.read (Elt F) (VS0_0.writes (Elt F) VS0_0.junk (kernelRun0_C c i arg3 harg3 arg4 harg4 arg5 harg5 arg6 harg6 arg7 harg7 arg8 harg8 arg9 harg9 arg10 harg10 hc0 hc1 x0 x1 x2 x3 x4 xs0).2.2.1)

/-! ## What the outputs and the accumulator hold after each point -/

/-- After the body at linear point `n`: output 5's buffer, output 6's buffer, the accumulator — the case the closed forms
    select at `n`, run at the point's memrefs and input blocks, the accumulator (cases B, C) over what point `n - 1` left. -/
def outsAt0 (c : Dev nD) : (n : ℕ) → n < cfg0.N → Vec F S1x16x512x3 .f32 × Vec F S1x16x512x5 .f32 × Vec F S16x512x8 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 100 = 0 then
      if h1 : (n + 1) % 100 = 99 then
        False.elim (by omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      if h1 : (n + 1) % 100 = 99 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2, out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2)
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2)

/-- `outsAt0` at a point of case A. -/
theorem outsAt0_A (c : Dev nD) (t : Fin cfg0.N) (h0 : t.val % 100 = 0) (h1 : ¬t.val % 100 = 99) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk m c 0 t) (iblk m c 1 t) (iblk m c 2 t) (iblk m c 3 t) (iblk m c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_neg h1).trans rfl)

/-- `outsAt0` at a point of case B. -/
theorem outsAt0_B (c : Dev nD) (t : Fin cfg0.N) (h0 : ¬t.val % 100 = 0) (h1 : ¬t.val % 100 = 99) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C. -/
theorem outsAt0_C (c : Dev nD) (t : Fin cfg0.N) (h0 : ¬t.val % 100 = 0) (h1 : t.val % 100 = 99) :
    outsAt0 m c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2, out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region's invariant before linear point `n`: before the first point the accumulator at anything; afterwards at what
    the point before left in it; the generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

/-! ## The pipeline's proof data -/

/-- The arrays as the region finds them; after the body at point `t` each input's buffer at its block and the outputs' at
    `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
  Φ t := PhiS m c t.val (Nat.le_of_lt_succ t.isLt)
  q _ := fullShare
  owed _ := 0

/-- The proof data's arrays are the region-entry contents (projected, never unfolded). -/
theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 16000000 in
/-- The body at any point: the inputs' memrefs hold their blocks; the closed forms say which case the point is in; the
    case's run applies; the invariant hands the body the accumulator at what the point before left (at anything at the
    first point) and takes it back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 6400 := lt_of_lt_of_eq t.isLt (show cfg0.N = 6400 from N_0)
  by_cases h0 : t.val % 100 = 0
  · by_cases h1 : t.val % 100 = 99
    · exfalso; omega
    · -- case A
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [Dat.leavesExact_idle (dats m 0 c) 5 t (idleAt0_5 t (fun h => h1 ((hcond0_1 t).mp h))) (noFlush0_5 t (fun h => h1 ((hcond0_1 t).mp h)))]
      rw [Dat.leavesExact_idle (dats m 0 c) 6 t (idleAt0_6 t (fun h => h1 ((hcond0_1 t).mp h))) (noFlush0_6 t (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        iexists _; iexact H6
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        iintro ⟨H0, H1, H2, H3, H4, H5, H6, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        iexists _; iexact H6
  · by_cases h1 : t.val % 100 = 99
    · -- case C
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t ((hcond0_1 t).mpr h1)], after0_5]
      rw [show (dats m 0 c).leavesExact 6 t = owns (c : Thread nD τ) (ms0_6 t) fullShare ((dats m 0 c).after 6 t) from by
        unfold Dat.leavesExact; rw [liveAt0_6 t ((hcond0_1 t).mpr h1)], after0_6]
      rw [outsAt0_C m c t h0 h1]
      unfold out0_C_5 out0_C_6 sout0_C_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_C c (grid0.coords t) _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _).2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [HS0]; · iexact HS0
        iintro ⟨H0, H1, H2, H3, H4, ⟨%e5, H5⟩, ⟨%e6, H6⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover0_C_5 c _ _ _ _ _ _ _ _ _ _ _ _ _ _ _ _ _ _ _ _ _ _ _ _ _)
        unfold owns; iexists _; isplitr
        swap; · iexact H6
        ipureintro; exact View.read_writes_of_cover _ _ _ _ _ (cover0_C_6 c _ _ _ _ _ _ _ _ _ _ _ _ _ _ _ _ _ _ _ _ _ _ _ _ _)
    · -- case B
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [Dat.leavesExact_idle (dats m 0 c) 5 t (idleAt0_5 t (fun h => h1 ((hcond0_1 t).mp h))) (noFlush0_5 t (fun h => h1 ((hcond0_1 t).mp h)))]
      rw [Dat.leavesExact_idle (dats m 0 c) 6 t (idleAt0_6 t (fun h => h1 ((hcond0_1 t).mp h))) (noFlush0_6 t (fun h => h1 ((hcond0_1 t).mp h)))]
      rw [outsAt0_B m c t h0 h1]
      unfold sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_B c (grid0.coords t) _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) _).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's back: the accumulator's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 6400 := N_0; omega)

/-! ## The run and the frame -/

set_option backward.isDefEq.respectTransparency.types false in
/-- Every weakly fair execution of @main terminates, and every final state has every array of the pipeline at what the
    proof data gives and every other unscoped buffer as the two transposes leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim, at any instance of the float operations. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (run_main m ρ)

end Cert.Kernel.Fr

end
-- ==== Proof.KernelIdeal.Conds.lean ====
/-
  The two branch conditions of the region's body, in closed form over the grid 4 × 16 × 100: the first (zero the
  accumulator) holds where the point-tile coordinate is 0, i.e. at the linear points ≡ 0 (mod 100); the second (centre,
  rotate, store the outputs) where it is 99, i.e. at the points ≡ 99 (mod 100). Decided over the 6400 points.
-/
import proofs.«179565_j43817256354257_2_alg».proof.Proof.Gen.KernelIdeal.Points

noncomputable section

namespace Cert.KernelIdeal.Fr

open Idealize.ShloMosaic Idealize.SL.Sem
open Cert.KernelIdeal.Gen

/-- The first branch (zero the accumulator): the point-tile coordinate is 0. -/
abbrev cond0_0 (i : grid0.Coords) : Prop := (Scalar.cmpi .ne (Scalar.extui (Scalar.cmpi .eq (BitVec.ofNat 32 (i 2).val) 0#32)) 0#32) = 1#1
/-- It holds at the points ≡ 0 (mod 100). -/
theorem hcond0_0 : ∀ t : Fin cfg0.N, cond0_0 (grid0.coords t) ↔ t.val % 100 = 0 :=
  (by decide +kernel : ∀ t : Fin grid0.N, cond0_0 (grid0.coords t) ↔ t.val % 100 = 0)

/-- The second branch (centre, rotate, store the outputs): the point-tile coordinate is 99. -/
abbrev cond0_1 (i : grid0.Coords) : Prop := k0_cond2 i = 1#1
/-- It holds at the points ≡ 99 (mod 100). -/
theorem hcond0_1 : ∀ t : Fin cfg0.N, cond0_1 (grid0.coords t) ↔ t.val % 100 = 99 :=
  (by decide +kernel : ∀ t : Fin grid0.N, cond0_1 (grid0.coords t) ↔ t.val % 100 = 99)

end Cert.KernelIdeal.Fr

end
-- ==== Proof.KernelIdeal.Runs.lean ====
/-
  The region of the ball-query grouping program, part 1 of its frame: what the runs of its three control cases share.
  The program is: host operations (the ball query: squared distances, the mask, its running count, the scatter of point
  numbers into slots; the point table; cos and sin of the orientations), ONE region over the grid 4 × 16 × 100
  (batch, tile of 16 boxes, tile of 400 points), two transposes. At a grid point the body adds to a scratch accumulator
  [16, 512, 8] the product of the one-hot matrix of the tile's sample numbers against the tile's 400 point rows; the
  accumulator is zeroed at the first point tile (coordinate 2 = 0) and, at the last (coordinate 2 = 99), centred, rotated
  and written to the two output blocks. So a grid point is in one of three cases: A (first tile), B (a middle tile),
  C (last tile); the two outputs are stored only in case C and are idle (not written back) elsewhere.
  Here: the buffers' contents when the region is entered (V0: the host operations before it, folded over the launch
  memory), that @main is those operations, the region, the two transposes (hmain), that no host operation writes an
  argument array (V_main_arg·, W_main_arg·), each window's block at a point (iblk), the frame claim's post from a run
  of the region (frame_of), the two branch conditions in closed form over the grid, and where the outputs are idle.
-/
import proofs.«179565_j43817256354257_2_alg».proof.Proof.Gen.KernelIdeal.Launch
import proofs.«179565_j43817256354257_2_alg».proof.Proof.Gen.KernelIdeal.Skeleton
import proofs.«179565_j43817256354257_2_alg».proof.Proof.Gen.KernelIdeal.Points
import proofs.«179565_j43817256354257_2_alg».proof.Proof.KernelIdeal.Conds
import Idealize.ShloMosaic.Lib.Pipeline.FrameBody
import Idealize.ShloMosaic.Lib.Pipeline.FrameSuffix
import Idealize.ShloMosaic.Lib.Ring
import Idealize.ShloMosaic.Lib.Tactic

-- membership in a rectangle of the kernel's extents recurses once per coordinate of the long axes
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered, as a valuation: the launch memory after the host operations
    before the region. -/
abbrev V0 (c : Dev nD) : Valuation τ sig (Elt F) := StableHlo.after (List.flatten [hostOps0, hostOps0_1, hostOps0_2, hostOps0_3, hostOps0_4, hostOps0_5, hostOps0_6]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the two transposes after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6] [hostOps1]
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- The two transposes touch only unscoped TensorCore buffers. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result, which is no array of a window. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does a transpose after it, and no window stages it: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does a transpose after it, and no window stages it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does a transpose after it, and no window stages it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does a transpose after it, and no window stages it: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the region writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does a transpose after it, and no window stages it: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host operation before the region writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does a transpose after it, and no window stages it: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (where it is not
    fetched its index has not moved), for any proof data over the entry contents whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not (where it is not
    fetched its index has not moved), for any proof data over the entry contents whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not (where it is not
    fetched its index has not moved), for any proof data over the entry contents whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not (where it is not
    fetched its index has not moved), for any proof data over the entry contents whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not (where it is not
    fetched its index has not moved), for any proof data over the entry contents whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run of the region -/

/-- From a run of @main whose post has every buffer no window stages as the transposes leave it, the six argument
    arrays end as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c)⟩) h

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
/-- Output 5 is idle exactly where the second branch is not taken, and is written back only where it is. -/
theorem idle0_5_iff (i : grid0.Coords) : cfg0.idle 5 i = true ↔ ¬cond0_1 i := by
  show (!(k0_cond2 i == 1#1)) = true ↔ ¬(k0_cond2 i = 1#1)
  simp only [Bool.not_eq_true', beq_eq_false_iff_ne, ne_eq]
theorem idleAt0_5 : ∀ t : Fin cfg0.N, ¬cond0_1 (grid0.coords t) → cfg0.idle 5 (grid0.coords t) = true :=
  fun t h => (idle0_5_iff _).mpr h
theorem noFlush0_5 : ∀ t : Fin cfg0.N, ¬cond0_1 (grid0.coords t) → (cfg0.win 5).flush t = false :=
  fun t h => eq_false_of_ne_true fun hf => h ((hcond0_1 t).mpr ((flush0_5 t).mp hf))
theorem liveAt0_5 : ∀ t : Fin cfg0.N, cond0_1 (grid0.coords t) → cfg0.idle 5 (grid0.coords t) = false :=
  fun t h => by
    have := (idle0_5_iff (grid0.coords t)).not.mpr (not_not.mpr h)
    exact eq_false_of_ne_true this
/-- Output 6 is idle exactly where the second branch is not taken, and is written back only where it is. -/
theorem idle0_6_iff (i : grid0.Coords) : cfg0.idle 6 i = true ↔ ¬cond0_1 i := by
  show (!(k0_cond2 i == 1#1)) = true ↔ ¬(k0_cond2 i = 1#1)
  simp only [Bool.not_eq_true', beq_eq_false_iff_ne, ne_eq]
theorem idleAt0_6 : ∀ t : Fin cfg0.N, ¬cond0_1 (grid0.coords t) → cfg0.idle 6 (grid0.coords t) = true :=
  fun t h => (idle0_6_iff _).mpr h
theorem noFlush0_6 : ∀ t : Fin cfg0.N, ¬cond0_1 (grid0.coords t) → (cfg0.win 6).flush t = false :=
  fun t h => eq_false_of_ne_true fun hf => h ((hcond0_1 t).mpr ((flush0_6 t).mp hf))
theorem liveAt0_6 : ∀ t : Fin cfg0.N, cond0_1 (grid0.coords t) → cfg0.idle 6 (grid0.coords t) = false :=
  fun t h => by
    have := (idle0_6_iff (grid0.coords t)).not.mpr (not_not.mpr h)
    exact eq_false_of_ne_true this

/-! ## The staging memrefs and the scratch -/

/-- One staging buffer of output window 5, through which its contents are stated (the choice does not matter). -/
abbrev VO0_5 : View sig .tc .vmem S1x16x512x3 .f32 := (Memref.whole cc0_stg5_0 : Memref sig .tc .vmem S1x16x512x3 .f32).view
/-- One staging buffer of output window 6, through which its contents are stated (the choice does not matter). -/
abbrev VO0_6 : View sig .tc .vmem S1x16x512x5 .f32 := (Memref.whole cc0_stg6_0 : Memref sig .tc .vmem S1x16x512x5 .f32).view
abbrev ms0_0 (t : Fin cfg0.N) : Memref sig .tc .vmem S1x16x512 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x400x8 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x16x1x3 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x16x1x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x16x1x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x16x512x3 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x16x512x5 .f32 := win0_6.stage (cfg0.slots t 6)
abbrev hs0_6 (t : Fin cfg0.N) : (ms0_6 t).IsWhole := hstage0_6 ((cfg0.slots t 6).cast nbuf0_6)
/-- The scratch accumulator: a whole scoped buffer of the kernel's own. -/
abbrev scM0_0 : Memref sig .tc .vmem S16x512x8 .f32 := Memref.whole cc0_scratch0
/-- As a view: what it holds is stated through it. -/
abbrev VS0_0 : View sig .tc .vmem S16x512x8 .f32 := scM0_0.view

/-- What the region's invariant holds beside the windows: the accumulator at some contents and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Fr

end
-- ==== Proof.KernelIdeal.RunA.lean ====
/-
  The region's body in CASE A (the first point tile of a box tile: the accumulator is zeroed, then the tile's one-hot
  product is added; the outputs are not stored): its triple on any whole staging memrefs, the inputs' at their contents
  and handed back as they were, the two idle outputs' at contents handed back untouched, the accumulator at anything and
  left with the case's pieces written (the witness the symbolic run finds).
-/
import proofs.«179565_j43817256354257_2_alg».proof.Proof.KernelIdeal.Runs

-- membership in a rectangle of the kernel's extents recurses once per coordinate of the long axes
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue walks it past the default budget)
set_option maxHeartbeats 4000000 in
/-- Case A: the pieces each output's buffer and the accumulator end with (last first), with the triple. -/
noncomputable def kernelRun0_A (c : Dev nD) (i : grid0.Coords) (arg3 : Memref sig .tc .vmem S1x16x512 .i32) (harg3 : arg3.IsWhole) (arg4 : Memref sig .tc .vmem S1x400x8 .f32) (harg4 : arg4.IsWhole) (arg5 : Memref sig .tc .vmem S1x16x1x3 .f32) (harg5 : arg5.IsWhole) (arg6 : Memref sig .tc .vmem S1x16x1x1 .f32) (harg6 : arg6.IsWhole) (arg7 : Memref sig .tc .vmem S1x16x1x1 .f32) (harg7 : arg7.IsWhole) (arg8 : Memref sig .tc .vmem S1x16x512x3 .f32) (harg8 : arg8.IsWhole) (arg9 : Memref sig .tc .vmem S1x16x512x5 .f32) (harg9 : arg9.IsWhole) (arg10 : Memref sig .tc .vmem S16x512x8 .f32) (harg10 : arg10.IsWhole) (hc0 : cond0_0 i) (hc1 : ¬cond0_1 i)
    (x0 : Vec F S1x16x512 .i32) (x1 : Vec F S1x400x8 .f32) (x2 : Vec F S1x16x1x3 .f32) (x3 : Vec F S1x16x1x1 .f32) (x4 : Vec F S1x16x1x1 .f32) :
    Σ' (L5 : List (View.Piece (Elt F) S1x16x512x3 .f32)) (L6 : List (View.Piece (Elt F) S1x16x512x5 .f32)), { LS0 : List (View.Piece (Elt F) S16x512x8 .f32) //
      ∀ (xi5 : Vec F S1x16x512x3 .f32) (xi6 : Vec F S1x16x512x5 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xi6 ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xi6 ∗ (∃ f, arg10.view.loc (c : Thread nD τ) ↦[arg10.view.set]{fullShare} arg10.view.writes (Elt F) f LS0)) -∗ K ⟨⟩))
          ⊢ wp frame (wpE (defs₀ (F := F)) Variants.none c none) E (cc0__group_align_kernel i arg3 harg3 arg4 harg4 arg5 harg5 arg6 harg6 arg7 harg7 arg8 harg8 arg9 harg9 arg10 harg10) K } := by
  refine ⟨[], [], ?_, fun xi5 xi6 E K => ?run⟩
  case run =>
    simp only [cc0__group_align_kernel_eq_skeleton]; unfold cc0__group_align_kernel_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    iexists _; iexact HS0

end Cert.KernelIdeal.Fr

end
-- ==== Proof.KernelIdeal.RunB.lean ====
/-
  The region's body in CASE B (a middle point tile: the tile's one-hot product is added to the accumulator the point
  before left; the outputs are not stored): its triple on any whole staging memrefs, as in case A but with the
  accumulator taken at the contents the point before left.
-/
import proofs.«179565_j43817256354257_2_alg».proof.Proof.KernelIdeal.RunA

-- membership in a rectangle of the kernel's extents recurses once per coordinate of the long axes
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue walks it past the default budget)
set_option maxHeartbeats 4000000 in
/-- Case B: the pieces each output's buffer and the accumulator end with (last first), with the triple. -/
noncomputable def kernelRun0_B (c : Dev nD) (i : grid0.Coords) (arg3 : Memref sig .tc .vmem S1x16x512 .i32) (harg3 : arg3.IsWhole) (arg4 : Memref sig .tc .vmem S1x400x8 .f32) (harg4 : arg4.IsWhole) (arg5 : Memref sig .tc .vmem S1x16x1x3 .f32) (harg5 : arg5.IsWhole) (arg6 : Memref sig .tc .vmem S1x16x1x1 .f32) (harg6 : arg6.IsWhole) (arg7 : Memref sig .tc .vmem S1x16x1x1 .f32) (harg7 : arg7.IsWhole) (arg8 : Memref sig .tc .vmem S1x16x512x3 .f32) (harg8 : arg8.IsWhole) (arg9 : Memref sig .tc .vmem S1x16x512x5 .f32) (harg9 : arg9.IsWhole) (arg10 : Memref sig .tc .vmem S16x512x8 .f32) (harg10 : arg10.IsWhole) (hc0 : ¬cond0_0 i) (hc1 : ¬cond0_1 i)
    (x0 : Vec F S1x16x512 .i32) (x1 : Vec F S1x400x8 .f32) (x2 : Vec F S1x16x1x3 .f32) (x3 : Vec F S1x16x1x1 .f32) (x4 : Vec F S1x16x1x1 .f32) (xs0 : Vec F S16x512x8 .f32) :
    Σ' (L5 : List (View.Piece (Elt F) S1x16x512x3 .f32)) (L6 : List (View.Piece (Elt F) S1x16x512x5 .f32)), { LS0 : List (View.Piece (Elt F) S16x512x8 .f32) //
      ∀ (xi5 : Vec F S1x16x512x3 .f32) (xi6 : Vec F S1x16x512x5 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xi6 ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xi6 ∗ (∃ f, arg10.view.loc (c : Thread nD τ) ↦[arg10.view.set]{fullShare} arg10.view.writes (Elt F) f LS0)) -∗ K ⟨⟩))
          ⊢ wp frame (wpE (defs₀ (F := F)) Variants.none c none) E (cc0__group_align_kernel i arg3 harg3 arg4 harg4 arg5 harg5 arg6 harg6 arg7 harg7 arg8 harg8 arg9 harg9 arg10 harg10) K } := by
  refine ⟨[], [], ?_, fun xi5 xi6 E K => ?run⟩
  case run =>
    simp only [cc0__group_align_kernel_eq_skeleton]; unfold cc0__group_align_kernel_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    iexists _; iexact HS0

end Cert.KernelIdeal.Fr

end
-- ==== Proof.KernelIdeal.RunC.lean ====
/-
  The region's body in CASE C (the last point tile: the tile's one-hot product is added, then the accumulated rows are
  centred on the box, rotated by its orientation and stored to the two output blocks): its triple on any whole staging
  memrefs, the outputs' at anything and left with the case's pieces written.
-/
import proofs.«179565_j43817256354257_2_alg».proof.Proof.KernelIdeal.RunB

-- membership in a rectangle of the kernel's extents recurses once per coordinate of the long axes
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue walks it past the default budget)
set_option maxHeartbeats 4000000 in
/-- Case C: the pieces each output's buffer and the accumulator end with (last first), with the triple. -/
noncomputable def kernelRun0_C (c : Dev nD) (i : grid0.Coords) (arg3 : Memref sig .tc .vmem S1x16x512 .i32) (harg3 : arg3.IsWhole) (arg4 : Memref sig .tc .vmem S1x400x8 .f32) (harg4 : arg4.IsWhole) (arg5 : Memref sig .tc .vmem S1x16x1x3 .f32) (harg5 : arg5.IsWhole) (arg6 : Memref sig .tc .vmem S1x16x1x1 .f32) (harg6 : arg6.IsWhole) (arg7 : Memref sig .tc .vmem S1x16x1x1 .f32) (harg7 : arg7.IsWhole) (arg8 : Memref sig .tc .vmem S1x16x512x3 .f32) (harg8 : arg8.IsWhole) (arg9 : Memref sig .tc .vmem S1x16x512x5 .f32) (harg9 : arg9.IsWhole) (arg10 : Memref sig .tc .vmem S16x512x8 .f32) (harg10 : arg10.IsWhole) (hc0 : ¬cond0_0 i) (hc1 : cond0_1 i)
    (x0 : Vec F S1x16x512 .i32) (x1 : Vec F S1x400x8 .f32) (x2 : Vec F S1x16x1x3 .f32) (x3 : Vec F S1x16x1x1 .f32) (x4 : Vec F S1x16x1x1 .f32) (xs0 : Vec F S16x512x8 .f32) :
    Σ' (L5 : List (View.Piece (Elt F) S1x16x512x3 .f32)) (L6 : List (View.Piece (Elt F) S1x16x512x5 .f32)), { LS0 : List (View.Piece (Elt F) S16x512x8 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0)) -∗ K ⟨⟩))
          ⊢ wp frame (wpE (defs₀ (F := F)) Variants.none c none) E (cc0__group_align_kernel i arg3 harg3 arg4 harg4 arg5 harg5 arg6 harg6 arg7 harg7 arg8 harg8 arg9 harg9 arg10 harg10) K } := by
  refine ⟨?_, ?_, ?_, fun E K => ?run⟩
  case run =>
    simp only [cc0__group_align_kernel_eq_skeleton]; unfold cc0__group_align_kernel_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg10.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [H6]; · iexists _; iexact H6
    iexists _; iexact HS0

end Cert.KernelIdeal.Fr

end
-- ==== Proof.KernelIdeal.Frame.lean ====
/-
  The region's frame, last part: what the two output blocks and the accumulator hold after each grid point, the proof
  data of the pipeline, the body obligation, the run of @main and the frame claim.
  After a point of case A or B an output's staging buffer is idle (nothing stored, not written back): a placeholder stands
  for it that nothing consults. After a point of case C it holds the case's stores read back. The accumulator holds, after
  every point, the case's stores read back — in cases B and C over what the point before left, so its contents are defined
  by recursion on the linear point (outsAt0). The region's invariant carries the accumulator at those contents between
  points (PhiS). Every input window's staging buffer holds its block of the array as the region found it.
-/
import proofs.«179565_j43817256354257_2_alg».proof.Proof.KernelIdeal.RunC

-- membership in a rectangle of the kernel's extents recurses once per coordinate of the long axes
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What case A leaves in output 5's staging buffer: its stores read back (none: a placeholder nothing consults, the window being idle and not written back at the case's points). -/
def out0_A_5 (c : Dev nD) (i : grid0.Coords) (arg3 : Memref sig .tc .vmem S1x16x512 .i32) (harg3 : arg3.IsWhole) (arg4 : Memref sig .tc .vmem S1x400x8 .f32) (harg4 : arg4.IsWhole) (arg5 : Memref sig .tc .vmem S1x16x1x3 .f32) (harg5 : arg5.IsWhole) (arg6 : Memref sig .tc .vmem S1x16x1x1 .f32) (harg6 : arg6.IsWhole) (arg7 : Memref sig .tc .vmem S1x16x1x1 .f32) (harg7 : arg7.IsWhole) (arg8 : Memref sig .tc .vmem S1x16x512x3 .f32) (harg8 : arg8.IsWhole) (arg9 : Memref sig .tc .vmem S1x16x512x5 .f32) (harg9 : arg9.IsWhole) (arg10 : Memref sig .tc .vmem S16x512x8 .f32) (harg10 : arg10.IsWhole) (hc0 : cond0_0 i) (hc1 : ¬cond0_1 i)
    (x0 : Vec F S1x16x512 .i32) (x1 : Vec F S1x400x8 .f32) (x2 : Vec F S1x16x1x3 .f32) (x3 : Vec F S1x16x1x1 .f32) (x4 : Vec F S1x16x1x1 .f32) : Vec F S1x16x512x3 .f32 :=
  VO0_5.read (Elt F) (VO0_5.writes (Elt F) VO0_5.junk (kernelRun0_A c i arg3 harg3 arg4 harg4 arg5 harg5 arg6 harg6 arg7 harg7 arg8 harg8 arg9 harg9 arg10 harg10 hc0 hc1 x0 x1 x2 x3 x4).1)

/-- What case A leaves in output 6's staging buffer: its stores read back (none: a placeholder nothing consults, the window being idle and not written back at the case's points). -/
def out0_A_6 (c : Dev nD) (i : grid0.Coords) (arg3 : Memref sig .tc .vmem S1x16x512 .i32) (harg3 : arg3.IsWhole) (arg4 : Memref sig .tc .vmem S1x400x8 .f32) (harg4 : arg4.IsWhole) (arg5 : Memref sig .tc .vmem S1x16x1x3 .f32) (harg5 : arg5.IsWhole) (arg6 : Memref sig .tc .vmem S1x16x1x1 .f32) (harg6 : arg6.IsWhole) (arg7 : Memref sig .tc .vmem S1x16x1x1 .f32) (harg7 : arg7.IsWhole) (arg8 : Memref sig .tc .vmem S1x16x512x3 .f32) (harg8 : arg8.IsWhole) (arg9 : Memref sig .tc .vmem S1x16x512x5 .f32) (harg9 : arg9.IsWhole) (arg10 : Memref sig .tc .vmem S16x512x8 .f32) (harg10 : arg10.IsWhole) (hc0 : cond0_0 i) (hc1 : ¬cond0_1 i)
    (x0 : Vec F S1x16x512 .i32) (x1 : Vec F S1x400x8 .f32) (x2 : Vec F S1x16x1x3 .f32) (x3 : Vec F S1x16x1x1 .f32) (x4 : Vec F S1x16x1x1 .f32) : Vec F S1x16x512x5 .f32 :=
  VO0_6.read (Elt F) (VO0_6.writes (Elt F) VO0_6.junk (kernelRun0_A c i arg3 harg3 arg4 harg4 arg5 harg5 arg6 harg6 arg7 harg7 arg8 harg8 arg9 harg9 arg10 harg10 hc0 hc1 x0 x1 x2 x3 x4).2.1)

/-- Case A's stores into the accumulator tile it, so they cover it. -/
theorem scover0_A_0 (c : Dev nD) (i : grid0.Coords) (arg3 : Memref sig .tc .vmem S1x16x512 .i32) (harg3 : arg3.IsWhole) (arg4 : Memref sig .tc .vmem S1x400x8 .f32) (harg4 : arg4.IsWhole) (arg5 : Memref sig .tc .vmem S1x16x1x3 .f32) (harg5 : arg5.IsWhole) (arg6 : Memref sig .tc .vmem S1x16x1x1 .f32) (harg6 : arg6.IsWhole) (arg7 : Memref sig .tc .vmem S1x16x1x1 .f32) (harg7 : arg7.IsWhole) (arg8 : Memref sig .tc .vmem S1x16x512x3 .f32) (harg8 : arg8.IsWhole) (arg9 : Memref sig .tc .vmem S1x16x512x5 .f32) (harg9 : arg9.IsWhole) (arg10 : Memref sig .tc .vmem S16x512x8 .f32) (harg10 : arg10.IsWhole) (hc0 : cond0_0 i) (hc1 : ¬cond0_1 i)
    (x0 : Vec F S1x16x512 .i32) (x1 : Vec F S1x400x8 .f32) (x2 : Vec F S1x16x1x3 .f32) (x3 : Vec F S1x16x1x1 .f32) (x4 : Vec F S1x16x1x1 .f32) (y : S16x512x8.Idx) :
    ∃ pc ∈ (kernelRun0_A c i arg3 harg3 arg4 harg4 arg5 harg5 arg6 harg6 arg7 harg7 arg8 harg8 arg9 harg9 arg10 harg10 hc0 hc1 x0 x1 x2 x3 x4).2.2.1, y ∈ pc.1.set :=
  View.cover_of_tiledL (kernelRun0_A c i arg3 harg3 arg4 harg4 arg5 harg5 arg6 harg6 arg7 harg7 arg8 harg8 arg9 harg9 arg10 harg10 hc0 hc1 x0 x1 x2 x3 x4).2.2.1 S16x512x8.size (by sl_kernel_rfl) y

/-- What case A leaves in the accumulator: its stores read back. -/
def sout0_A_0 (c : Dev nD) (i : grid0.Coords) (arg3 : Memref sig .tc .vmem S1x16x512 .i32) (harg3 : arg3.IsWhole) (arg4 : Memref sig .tc .vmem S1x400x8 .f32) (harg4 : arg4.IsWhole) (arg5 : Memref sig .tc .vmem S1x16x1x3 .f32) (harg5 : arg5.IsWhole) (arg6 : Memref sig .tc .vmem S1x16x1x1 .f32) (harg6 : arg6.IsWhole) (arg7 : Memref sig .tc .vmem S1x16x1x1 .f32) (harg7 : arg7.IsWhole) (arg8 : Memref sig .tc .vmem S1x16x512x3 .f32) (harg8 : arg8.IsWhole) (arg9 : Memref sig .tc .vmem S1x16x512x5 .f32) (harg9 : arg9.IsWhole) (arg10 : Memref sig .tc .vmem S16x512x8 .f32) (harg10 : arg10.IsWhole) (hc0 : cond0_0 i) (hc1 : ¬cond0_1 i)
    (x0 : Vec F S1x16x512 .i32) (x1 : Vec F S1x400x8 .f32) (x2 : Vec F S1x16x1x3 .f32) (x3 : Vec F S1x16x1x1 .f32) (x4 : Vec F S1x16x1x1 .f32) : Vec F S16x512x8 .f32 :=
  VS0_0.read (Elt F) (VS0_0.writes (Elt F) VS0_0.junk (kernelRun0_A c i arg3 harg3 arg4 harg4 arg5 harg5 arg6 harg6 arg7 harg7 arg8 harg8 arg9 harg9 arg10 harg10 hc0 hc1 x0 x1 x2 x3 x4).2.2.1)

/-- What case B leaves in output 5's staging buffer: its stores read back (none: a placeholder nothing consults, the window being idle and not written back at the case's points). -/
def out0_B_5 (c : Dev nD) (i : grid0.Coords) (arg3 : Memref sig .tc .vmem S1x16x512 .i32) (harg3 : arg3.IsWhole) (arg4 : Memref sig .tc .vmem S1x400x8 .f32) (harg4 : arg4.IsWhole) (arg5 : Memref sig .tc .vmem S1x16x1x3 .f32) (harg5 : arg5.IsWhole) (arg6 : Memref sig .tc .vmem S1x16x1x1 .f32) (harg6 : arg6.IsWhole) (arg7 : Memref sig .tc .vmem S1x16x1x1 .f32) (harg7 : arg7.IsWhole) (arg8 : Memref sig .tc .vmem S1x16x512x3 .f32) (harg8 : arg8.IsWhole) (arg9 : Memref sig .tc .vmem S1x16x512x5 .f32) (harg9 : arg9.IsWhole) (arg10 : Memref sig .tc .vmem S16x512x8 .f32) (harg10 : arg10.IsWhole) (hc0 : ¬cond0_0 i) (hc1 : ¬cond0_1 i)
    (x0 : Vec F S1x16x512 .i32) (x1 : Vec F S1x400x8 .f32) (x2 : Vec F S1x16x1x3 .f32) (x3 : Vec F S1x16x1x1 .f32) (x4 : Vec F S1x16x1x1 .f32) (xs0 : Vec F S16x512x8 .f32) : Vec F S1x16x512x3 .f32 :=
  VO0_5.read (Elt F) (VO0_5.writes (Elt F) VO0_5.junk (kernelRun0_B c i arg3 harg3 arg4 harg4 arg5 harg5 arg6 harg6 arg7 harg7 arg8 harg8 arg9 harg9 arg10 harg10 hc0 hc1 x0 x1 x2 x3 x4 xs0).1)

/-- What case B leaves in output 6's staging buffer: its stores read back (none: a placeholder nothing consults, the window being idle and not written back at the case's points). -/
def out0_B_6 (c : Dev nD) (i : grid0.Coords) (arg3 : Memref sig .tc .vmem S1x16x512 .i32) (harg3 : arg3.IsWhole) (arg4 : Memref sig .tc .vmem S1x400x8 .f32) (harg4 : arg4.IsWhole) (arg5 : Memref sig .tc .vmem S1x16x1x3 .f32) (harg5 : arg5.IsWhole) (arg6 : Memref sig .tc .vmem S1x16x1x1 .f32) (harg6 : arg6.IsWhole) (arg7 : Memref sig .tc .vmem S1x16x1x1 .f32) (harg7 : arg7.IsWhole) (arg8 : Memref sig .tc .vmem S1x16x512x3 .f32) (harg8 : arg8.IsWhole) (arg9 : Memref sig .tc .vmem S1x16x512x5 .f32) (harg9 : arg9.IsWhole) (arg10 : Memref sig .tc .vmem S16x512x8 .f32) (harg10 : arg10.IsWhole) (hc0 : ¬cond0_0 i) (hc1 : ¬cond0_1 i)
    (x0 : Vec F S1x16x512 .i32) (x1 : Vec F S1x400x8 .f32) (x2 : Vec F S1x16x1x3 .f32) (x3 : Vec F S1x16x1x1 .f32) (x4 : Vec F S1x16x1x1 .f32) (xs0 : Vec F S16x512x8 .f32) : Vec F S1x16x512x5 .f32 :=
  VO0_6.read (Elt F) (VO0_6.writes (Elt F) VO0_6.junk (kernelRun0_B c i arg3 harg3 arg4 harg4 arg5 harg5 arg6 harg6 arg7 harg7 arg8 harg8 arg9 harg9 arg10 harg10 hc0 hc1 x0 x1 x2 x3 x4 xs0).2.1)

/-- Case B's stores into the accumulator tile it, so they cover it. -/
theorem scover0_B_0 (c : Dev nD) (i : grid0.Coords) (arg3 : Memref sig .tc .vmem S1x16x512 .i32) (harg3 : arg3.IsWhole) (arg4 : Memref sig .tc .vmem S1x400x8 .f32) (harg4 : arg4.IsWhole) (arg5 : Memref sig .tc .vmem S1x16x1x3 .f32) (harg5 : arg5.IsWhole) (arg6 : Memref sig .tc .vmem S1x16x1x1 .f32) (harg6 : arg6.IsWhole) (arg7 : Memref sig .tc .vmem S1x16x1x1 .f32) (harg7 : arg7.IsWhole) (arg8 : Memref sig .tc .vmem S1x16x512x3 .f32) (harg8 : arg8.IsWhole) (arg9 : Memref sig .tc .vmem S1x16x512x5 .f32) (harg9 : arg9.IsWhole) (arg10 : Memref sig .tc .vmem S16x512x8 .f32) (harg10 : arg10.IsWhole) (hc0 : ¬cond0_0 i) (hc1 : ¬cond0_1 i)
    (x0 : Vec F S1x16x512 .i32) (x1 : Vec F S1x400x8 .f32) (x2 : Vec F S1x16x1x3 .f32) (x3 : Vec F S1x16x1x1 .f32) (x4 : Vec F S1x16x1x1 .f32) (xs0 : Vec F S16x512x8 .f32) (y : S16x512x8.Idx) :
    ∃ pc ∈ (kernelRun0_B c i arg3 harg3 arg4 harg4 arg5 harg5 arg6 harg6 arg7 harg7 arg8 harg8 arg9 harg9 arg10 harg10 hc0 hc1 x0 x1 x2 x3 x4 xs0).2.2.1, y ∈ pc.1.set :=
  View.cover_of_tiledL (kernelRun0_B c i arg3 harg3 arg4 harg4 arg5 harg5 arg6 harg6 arg7 harg7 arg8 harg8 arg9 harg9 arg10 harg10 hc0 hc1 x0 x1 x2 x3 x4 xs0).2.2.1 S16x512x8.size (by sl_kernel_rfl) y

/-- What case B leaves in the accumulator: its stores read back. -/
def sout0_B_0 (c : Dev nD) (i : grid0.Coords) (arg3 : Memref sig .tc .vmem S1x16x512 .i32) (harg3 : arg3.IsWhole) (arg4 : Memref sig .tc .vmem S1x400x8 .f32) (harg4 : arg4.IsWhole) (arg5 : Memref sig .tc .vmem S1x16x1x3 .f32) (harg5 : arg5.IsWhole) (arg6 : Memref sig .tc .vmem S1x16x1x1 .f32) (harg6 : arg6.IsWhole) (arg7 : Memref sig .tc .vmem S1x16x1x1 .f32) (harg7 : arg7.IsWhole) (arg8 : Memref sig .tc .vmem S1x16x512x3 .f32) (harg8 : arg8.IsWhole) (arg9 : Memref sig .tc .vmem S1x16x512x5 .f32) (harg9 : arg9.IsWhole) (arg10 : Memref sig .tc .vmem S16x512x8 .f32) (harg10 : arg10.IsWhole) (hc0 : ¬cond0_0 i) (hc1 : ¬cond0_1 i)
    (x0 : Vec F S1x16x512 .i32) (x1 : Vec F S1x400x8 .f32) (x2 : Vec F S1x16x1x3 .f32) (x3 : Vec F S1x16x1x1 .f32) (x4 : Vec F S1x16x1x1 .f32) (xs0 : Vec F S16x512x8 .f32) : Vec F S16x512x8 .f32 :=
  VS0_0.read (Elt F) (VS0_0.writes (Elt F) VS0_0.junk (kernelRun0_B c i arg3 harg3 arg4 harg4 arg5 harg5 arg6 harg6 arg7 harg7 arg8 harg8 arg9 harg9 arg10 harg10 hc0 hc1 x0 x1 x2 x3 x4 xs0).2.2.1)

/-- Case C's stores into output 5 tile its block, so they cover it. -/
theorem cover0_C_5 (c : Dev nD) (i : grid0.Coords) (arg3 : Memref sig .tc .vmem S1x16x512 .i32) (harg3 : arg3.IsWhole) (arg4 : Memref sig .tc .vmem S1x400x8 .f32) (harg4 : arg4.IsWhole) (arg5 : Memref sig .tc .vmem S1x16x1x3 .f32) (harg5 : arg5.IsWhole) (arg6 : Memref sig .tc .vmem S1x16x1x1 .f32) (harg6 : arg6.IsWhole) (arg7 : Memref sig .tc .vmem S1x16x1x1 .f32) (harg7 : arg7.IsWhole) (arg8 : Memref sig .tc .vmem S1x16x512x3 .f32) (harg8 : arg8.IsWhole) (arg9 : Memref sig .tc .vmem S1x16x512x5 .f32) (harg9 : arg9.IsWhole) (arg10 : Memref sig .tc .vmem S16x512x8 .f32) (harg10 : arg10.IsWhole) (hc0 : ¬cond0_0 i) (hc1 : cond0_1 i)
    (x0 : Vec F S1x16x512 .i32) (x1 : Vec F S1x400x8 .f32) (x2 : Vec F S1x16x1x3 .f32) (x3 : Vec F S1x16x1x1 .f32) (x4 : Vec F S1x16x1x1 .f32) (xs0 : Vec F S16x512x8 .f32) (y : S1x16x512x3.Idx) :
    ∃ pc ∈ (kernelRun0_C c i arg3 harg3 arg4 harg4 arg5 harg5 arg6 harg6 arg7 harg7 arg8 harg8 arg9 harg9 arg10 harg10 hc0 hc1 x0 x1 x2 x3 x4 xs0).1, y ∈ pc.1.set :=
  View.cover_of_tiledL (kernelRun0_C c i arg3 harg3 arg4 harg4 arg5 harg5 arg6 harg6 arg7 harg7 arg8 harg8 arg9 harg9 arg10 harg10 hc0 hc1 x0 x1 x2 x3 x4 xs0).1 S1x16x512x3.size (by sl_kernel_rfl) y

/-- What case C leaves in output 5's staging buffer: its stores read back. -/
def out0_C_5 (c : Dev nD) (i : grid0.Coords) (arg3 : Memref sig .tc .vmem S1x16x512 .i32) (harg3 : arg3.IsWhole) (arg4 : Memref sig .tc .vmem S1x400x8 .f32) (harg4 : arg4.IsWhole) (arg5 : Memref sig .tc .vmem S1x16x1x3 .f32) (harg5 : arg5.IsWhole) (arg6 : Memref sig .tc .vmem S1x16x1x1 .f32) (harg6 : arg6.IsWhole) (arg7 : Memref sig .tc .vmem S1x16x1x1 .f32) (harg7 : arg7.IsWhole) (arg8 : Memref sig .tc .vmem S1x16x512x3 .f32) (harg8 : arg8.IsWhole) (arg9 : Memref sig .tc .vmem S1x16x512x5 .f32) (harg9 : arg9.IsWhole) (arg10 : Memref sig .tc .vmem S16x512x8 .f32) (harg10 : arg10.IsWhole) (hc0 : ¬cond0_0 i) (hc1 : cond0_1 i)
    (x0 : Vec F S1x16x512 .i32) (x1 : Vec F S1x400x8 .f32) (x2 : Vec F S1x16x1x3 .f32) (x3 : Vec F S1x16x1x1 .f32) (x4 : Vec F S1x16x1x1 .f32) (xs0 : Vec F S16x512x8 .f32) : Vec F S1x16x512x3 .f32 :=
  VO0_5.read (Elt F) (VO0_5.writes (Elt F) VO0_5.junk (kernelRun0_C c i arg3 harg3 arg4 harg4 arg5 harg5 arg6 harg6 arg7 harg7 arg8 harg8 arg9 harg9 arg10 harg10 hc0 hc1 x0 x1 x2 x3 x4 xs0).1)

/-- Case C's stores into output 6 tile its block, so they cover it. -/
theorem cover0_C_6 (c : Dev nD) (i : grid0.Coords) (arg3 : Memref sig .tc .vmem S1x16x512 .i32) (harg3 : arg3.IsWhole) (arg4 : Memref sig .tc .vmem S1x400x8 .f32) (harg4 : arg4.IsWhole) (arg5 : Memref sig .tc .vmem S1x16x1x3 .f32) (harg5 : arg5.IsWhole) (arg6 : Memref sig .tc .vmem S1x16x1x1 .f32) (harg6 : arg6.IsWhole) (arg7 : Memref sig .tc .vmem S1x16x1x1 .f32) (harg7 : arg7.IsWhole) (arg8 : Memref sig .tc .vmem S1x16x512x3 .f32) (harg8 : arg8.IsWhole) (arg9 : Memref sig .tc .vmem S1x16x512x5 .f32) (harg9 : arg9.IsWhole) (arg10 : Memref sig .tc .vmem S16x512x8 .f32) (harg10 : arg10.IsWhole) (hc0 : ¬cond0_0 i) (hc1 : cond0_1 i)
    (x0 : Vec F S1x16x512 .i32) (x1 : Vec F S1x400x8 .f32) (x2 : Vec F S1x16x1x3 .f32) (x3 : Vec F S1x16x1x1 .f32) (x4 : Vec F S1x16x1x1 .f32) (xs0 : Vec F S16x512x8 .f32) (y : S1x16x512x5.Idx) :
    ∃ pc ∈ (kernelRun0_C c i arg3 harg3 arg4 harg4 arg5 harg5 arg6 harg6 arg7 harg7 arg8 harg8 arg9 harg9 arg10 harg10 hc0 hc1 x0 x1 x2 x3 x4 xs0).2.1, y ∈ pc.1.set :=
  View.cover_of_tiledL (kernelRun0_C c i arg3 harg3 arg4 harg4 arg5 harg5 arg6 harg6 arg7 harg7 arg8 harg8 arg9 harg9 arg10 harg10 hc0 hc1 x0 x1 x2 x3 x4 xs0).2.1 S1x16x512x5.size (by sl_kernel_rfl) y

/-- What case C leaves in output 6's staging buffer: its stores read back. -/
def out0_C_6 (c : Dev nD) (i : grid0.Coords) (arg3 : Memref sig .tc .vmem S1x16x512 .i32) (harg3 : arg3.IsWhole) (arg4 : Memref sig .tc .vmem S1x400x8 .f32) (harg4 : arg4.IsWhole) (arg5 : Memref sig .tc .vmem S1x16x1x3 .f32) (harg5 : arg5.IsWhole) (arg6 : Memref sig .tc .vmem S1x16x1x1 .f32) (harg6 : arg6.IsWhole) (arg7 : Memref sig .tc .vmem S1x16x1x1 .f32) (harg7 : arg7.IsWhole) (arg8 : Memref sig .tc .vmem S1x16x512x3 .f32) (harg8 : arg8.IsWhole) (arg9 : Memref sig .tc .vmem S1x16x512x5 .f32) (harg9 : arg9.IsWhole) (arg10 : Memref sig .tc .vmem S16x512x8 .f32) (harg10 : arg10.IsWhole) (hc0 : ¬cond0_0 i) (hc1 : cond0_1 i)
    (x0 : Vec F S1x16x512 .i32) (x1 : Vec F S1x400x8 .f32) (x2 : Vec F S1x16x1x3 .f32) (x3 : Vec F S1x16x1x1 .f32) (x4 : Vec F S1x16x1x1 .f32) (xs0 : Vec F S16x512x8 .f32) : Vec F S1x16x512x5 .f32 :=
  VO0_6.read (Elt F) (VO0_6.writes (Elt F) VO0_6.junk (kernelRun0_C c i arg3 harg3 arg4 harg4 arg5 harg5 arg6 harg6 arg7 harg7 arg8 harg8 arg9 harg9 arg10 harg10 hc0 hc1 x0 x1 x2 x3 x4 xs0).2.1)

/-- Case C's stores into the accumulator tile it, so they cover it. -/
theorem scover0_C_0 (c : Dev nD) (i : grid0.Coords) (arg3 : Memref sig .tc .vmem S1x16x512 .i32) (harg3 : arg3.IsWhole) (arg4 : Memref sig .tc .vmem S1x400x8 .f32) (harg4 : arg4.IsWhole) (arg5 : Memref sig .tc .vmem S1x16x1x3 .f32) (harg5 : arg5.IsWhole) (arg6 : Memref sig .tc .vmem S1x16x1x1 .f32) (harg6 : arg6.IsWhole) (arg7 : Memref sig .tc .vmem S1x16x1x1 .f32) (harg7 : arg7.IsWhole) (arg8 : Memref sig .tc .vmem S1x16x512x3 .f32) (harg8 : arg8.IsWhole) (arg9 : Memref sig .tc .vmem S1x16x512x5 .f32) (harg9 : arg9.IsWhole) (arg10 : Memref sig .tc .vmem S16x512x8 .f32) (harg10 : arg10.IsWhole) (hc0 : ¬cond0_0 i) (hc1 : cond0_1 i)
    (x0 : Vec F S1x16x512 .i32) (x1 : Vec F S1x400x8 .f32) (x2 : Vec F S1x16x1x3 .f32) (x3 : Vec F S1x16x1x1 .f32) (x4 : Vec F S1x16x1x1 .f32) (xs0 : Vec F S16x512x8 .f32) (y : S16x512x8.Idx) :
    ∃ pc ∈ (kernelRun0_C c i arg3 harg3 arg4 harg4 arg5 harg5 arg6 harg6 arg7 harg7 arg8 harg8 arg9 harg9 arg10 harg10 hc0 hc1 x0 x1 x2 x3 x4 xs0).2.2.1, y ∈ pc.1.set :=
  View.cover_of_tiledL (kernelRun0_C c i arg3 harg3 arg4 harg4 arg5 harg5 arg6 harg6 arg7 harg7 arg8 harg8 arg9 harg9 arg10 harg10 hc0 hc1 x0 x1 x2 x3 x4 xs0).2.2.1 S16x512x8.size (by sl_kernel_rfl) y

/-- What case C leaves in the accumulator: its stores read back. -/
def sout0_C_0 (c : Dev nD) (i : grid0.Coords) (arg3 : Memref sig .tc .vmem S1x16x512 .i32) (harg3 : arg3.IsWhole) (arg4 : Memref sig .tc .vmem S1x400x8 .f32) (harg4 : arg4.IsWhole) (arg5 : Memref sig .tc .vmem S1x16x1x3 .f32) (harg5 : arg5.IsWhole) (arg6 : Memref sig .tc .vmem S1x16x1x1 .f32) (harg6 : arg6.IsWhole) (arg7 : Memref sig .tc .vmem S1x16x1x1 .f32) (harg7 : arg7.IsWhole) (arg8 : Memref sig .tc .vmem S1x16x512x3 .f32) (harg8 : arg8.IsWhole) (arg9 : Memref sig .tc .vmem S1x16x512x5 .f32) (harg9 : arg9.IsWhole) (arg10 : Memref sig .tc .vmem S16x512x8 .f32) (harg10 : arg10.IsWhole) (hc0 : ¬cond0_0 i) (hc1 : cond0_1 i)
    (x0 : Vec F S1x16x512 .i32) (x1 : Vec F S1x400x8 .f32) (x2 : Vec F S1x16x1x3 .f32) (x3 : Vec F S1x16x1x1 .f32) (x4 : Vec F S1x16x1x1 .f32) (xs0 : Vec F S16x512x8 .f32) : Vec F S16x512x8 .f32 :=
  VS0_0.read (Elt F) (VS0_0.writes (Elt F) VS0_0.junk (kernelRun0_C c i arg3 harg3 arg4 harg4 arg5 harg5 arg6 harg6 arg7 harg7 arg8 harg8 arg9 harg9 arg10 harg10 hc0 hc1 x0 x1 x2 x3 x4 xs0).2.2.1)

/-! ## What the outputs and the accumulator hold after each point -/

/-- After the body at linear point `n`: output 5's buffer, output 6's buffer, the accumulator — the case the closed forms
    select at `n`, run at the point's memrefs and input blocks, the accumulator (cases B, C) over what point `n - 1` left. -/
def outsAt0 (c : Dev nD) : (n : ℕ) → n < cfg0.N → Vec F S1x16x512x3 .f32 × Vec F S1x16x512x5 .f32 × Vec F S16x512x8 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 100 = 0 then
      if h1 : (n + 1) % 100 = 99 then
        False.elim (by omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      if h1 : (n + 1) % 100 = 99 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2, out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2)
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2)

/-- `outsAt0` at a point of case A. -/
theorem outsAt0_A (c : Dev nD) (t : Fin cfg0.N) (h0 : t.val % 100 = 0) (h1 : ¬t.val % 100 = 99) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk m c 0 t) (iblk m c 1 t) (iblk m c 2 t) (iblk m c 3 t) (iblk m c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_neg h1).trans rfl)

/-- `outsAt0` at a point of case B. -/
theorem outsAt0_B (c : Dev nD) (t : Fin cfg0.N) (h0 : ¬t.val % 100 = 0) (h1 : ¬t.val % 100 = 99) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C. -/
theorem outsAt0_C (c : Dev nD) (t : Fin cfg0.N) (h0 : ¬t.val % 100 = 0) (h1 : t.val % 100 = 99) :
    outsAt0 m c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2, out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region's invariant before linear point `n`: before the first point the accumulator at anything; afterwards at what
    the point before left in it; the generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

/-! ## The pipeline's proof data -/

/-- The arrays as the region finds them; after the body at point `t` each input's buffer at its block and the outputs' at
    `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
  Φ t := PhiS m c t.val (Nat.le_of_lt_succ t.isLt)
  q _ := fullShare
  owed _ := 0

/-- The proof data's arrays are the region-entry contents (projected, never unfolded). -/
theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 16000000 in
/-- The body at any point: the inputs' memrefs hold their blocks; the closed forms say which case the point is in; the
    case's run applies; the invariant hands the body the accumulator at what the point before left (at anything at the
    first point) and takes it back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 6400 := lt_of_lt_of_eq t.isLt (show cfg0.N = 6400 from N_0)
  by_cases h0 : t.val % 100 = 0
  · by_cases h1 : t.val % 100 = 99
    · exfalso; omega
    · -- case A
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [Dat.leavesExact_idle (dats m 0 c) 5 t (idleAt0_5 t (fun h => h1 ((hcond0_1 t).mp h))) (noFlush0_5 t (fun h => h1 ((hcond0_1 t).mp h)))]
      rw [Dat.leavesExact_idle (dats m 0 c) 6 t (idleAt0_6 t (fun h => h1 ((hcond0_1 t).mp h))) (noFlush0_6 t (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        iexists _; iexact H6
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        iintro ⟨H0, H1, H2, H3, H4, H5, H6, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        iexists _; iexact H6
  · by_cases h1 : t.val % 100 = 99
    · -- case C
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t ((hcond0_1 t).mpr h1)], after0_5]
      rw [show (dats m 0 c).leavesExact 6 t = owns (c : Thread nD τ) (ms0_6 t) fullShare ((dats m 0 c).after 6 t) from by
        unfold Dat.leavesExact; rw [liveAt0_6 t ((hcond0_1 t).mpr h1)], after0_6]
      rw [outsAt0_C m c t h0 h1]
      unfold out0_C_5 out0_C_6 sout0_C_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_C c (grid0.coords t) _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _).2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [HS0]; · iexact HS0
        iintro ⟨H0, H1, H2, H3, H4, ⟨%e5, H5⟩, ⟨%e6, H6⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover0_C_5 c _ _ _ _ _ _ _ _ _ _ _ _ _ _ _ _ _ _ _ _ _ _ _ _ _)
        unfold owns; iexists _; isplitr
        swap; · iexact H6
        ipureintro; exact View.read_writes_of_cover _ _ _ _ _ (cover0_C_6 c _ _ _ _ _ _ _ _ _ _ _ _ _ _ _ _ _ _ _ _ _ _ _ _ _)
    · -- case B
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [Dat.leavesExact_idle (dats m 0 c) 5 t (idleAt0_5 t (fun h => h1 ((hcond0_1 t).mp h))) (noFlush0_5 t (fun h => h1 ((hcond0_1 t).mp h)))]
      rw [Dat.leavesExact_idle (dats m 0 c) 6 t (idleAt0_6 t (fun h => h1 ((hcond0_1 t).mp h))) (noFlush0_6 t (fun h => h1 ((hcond0_1 t).mp h)))]
      rw [outsAt0_B m c t h0 h1]
      unfold sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_B c (grid0.coords t) _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) _).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's back: the accumulator's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 6400 := N_0; omega)

/-! ## The run and the frame -/

set_option backward.isDefEq.respectTransparency.types false in
/-- Every weakly fair execution of @main terminates, and every final state has every array of the pipeline at what the
    proof data gives and every other unscoped buffer as the two transposes leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim, at any instance of the float operations. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (run_main m ρ)

end Cert.KernelIdeal.Fr

end
-- ==== Proof.RefOps.lean ====
/- The TABLES of the reference's run, transcribed by the script named on line 1 from the printed reference program:
   @main's host operations in order as list literals, one list per printed window of @main, each outlined function's
   operations written at its call site over that call's buffer record, and per window the buffers its operations
   write. Nothing is proved here; the proofs about these lists are in Proof/RefRun.lean. -/
import proofs.«179565_j43817256354257_2_alg».proof.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Facts₀ Facts

variable {F : FTy → Type} [FloatOps F] [Facts]

/-- The 64 operations of window main_part0 of @main, in order, the called functions' operations in place of the calls. -/
abbrev ops0 : List (HloOp τ sig (Elt F)) :=
  [ unary main_arg3 main_v0 ((extractStridedSlice S4x40000x3 ![0, 0, 0] · slices_S4x40000x7_S4x40000x3_0_0_0) : (⟨S4x40000x7, .f32⟩ : BufTy).Contents (Elt F) → (⟨S4x40000x3, .f32⟩ : BufTy).Contents (Elt F)),
    unary main_arg3 main_v1 ((extractStridedSlice S4x40000x4 ![0, 0, 3] · slices_S4x40000x7_S4x40000x4_0_0_3) : (⟨S4x40000x7, .f32⟩ : BufTy).Contents (Elt F) → (⟨S4x40000x4, .f32⟩ : BufTy).Contents (Elt F)),
    unary main_v1 main_v2 ((transpose S4x4x40000 [0, 2, 1] · transposes_S4x40000x4_S4x4x40000_0_2_1) : (⟨S4x40000x4, .f32⟩ : BufTy).Contents (Elt F) → (⟨S4x4x40000, .f32⟩ : BufTy).Contents (Elt F)),
    unary main_arg4 main_v3 (broadcastInDim S4x1x40000 ![0, 2] bcast_S4x40000_S4x1x40000_0_2 : (⟨S4x40000, .f32⟩ : BufTy).Contents (Elt F) → (⟨S4x1x40000, .f32⟩ : BufTy).Contents (Elt F)),
    binary main_v2 main_v3 main_v4 ((fun a b => concatenate S4x5x40000 1 [⟨S4x4x40000, a⟩, ⟨S4x1x40000, b⟩] concatenates_S4x4x40000_S4x1x40000_S4x5x40000_d1) : (⟨S4x4x40000, .f32⟩ : BufTy).Contents (Elt F) → (⟨S4x1x40000, .f32⟩ : BufTy).Contents (Elt F) → (⟨S4x5x40000, .f32⟩ : BufTy).Contents (Elt F)),
    unary main_arg0 main_v5 (broadcastInDim S4x256x1x3 ![0, 1, 3] bcast_S4x256x3_S4x256x1x3_0_1_3 : (⟨S4x256x3, .f32⟩ : BufTy).Contents (Elt F) → (⟨S4x256x1x3, .f32⟩ : BufTy).Contents (Elt F)),
    unary main_v0 main_v6 (broadcastInDim S4x1x40000x3 ![0, 2, 3] bcast_S4x40000x3_S4x1x40000x3_0_2_3 : (⟨S4x40000x3, .f32⟩ : BufTy).Contents (Elt F) → (⟨S4x1x40000x3, .f32⟩ : BufTy).Contents (Elt F)),
    unary main_v5 main_v7 (broadcastInDim S4x256x40000x3 ![0, 1, 2, 3] bcast_S4x256x1x3_S4x256x40000x3_0_1_2_3 : (⟨S4x256x1x3, .f32⟩ : BufTy).Contents (Elt F) → (⟨S4x256x40000x3, .f32⟩ : BufTy).Contents (Elt F)),
    unary main_v6 main_v8 (broadcastInDim S4x256x40000x3 ![0, 1, 2, 3] bcast_S4x1x40000x3_S4x256x40000x3_0_1_2_3 : (⟨S4x1x40000x3, .f32⟩ : BufTy).Contents (Elt F) → (⟨S4x256x40000x3, .f32⟩ : BufTy).Contents (Elt F)),
    binary main_v7 main_v8 main_v9 (subf : (⟨S4x256x40000x3, .f32⟩ : BufTy).Contents (Elt F) → (⟨S4x256x40000x3, .f32⟩ : BufTy).Contents (Elt F) → (⟨S4x256x40000x3, .f32⟩ : BufTy).Contents (Elt F)),
    binary main_v9 main_v9 main_v10 (mulf : (⟨S4x256x40000x3, .f32⟩ : BufTy).Contents (Elt F) → (⟨S4x256x40000x3, .f32⟩ : BufTy).Contents (Elt F) → (⟨S4x256x40000x3, .f32⟩ : BufTy).Contents (Elt F)),
    nullary main_cst (constant S_ .f32 0x00000000#32),
    binary main_v10 main_cst main_v11 ((fun x v => Host.reduceAdd x v reducesTo_S4x256x40000x3_S4x256x40000_d3 h_S_) : (⟨S4x256x40000x3, .f32⟩ : BufTy).Contents (Elt F) → (⟨S_, .f32⟩ : BufTy).Contents (Elt F) → (⟨S4x256x40000, .f32⟩ : BufTy).Contents (Elt F)),
    nullary main_cst_0 (constant S_ .f32 0x3F800000#32),
    unary main_cst_0 main_v12 (broadcastInDim S4x256x40000 ![] bcast_S_S4x256x40000 : (⟨S_, .f32⟩ : BufTy).Contents (Elt F) → (⟨S4x256x40000, .f32⟩ : BufTy).Contents (Elt F)),
    binary main_v11 main_v12 main_v13 (cmpf .olt : (⟨S4x256x40000, .f32⟩ : BufTy).Contents (Elt F) → (⟨S4x256x40000, .f32⟩ : BufTy).Contents (Elt F) → (⟨S4x256x40000, .i1⟩ : BufTy).Contents (Elt F)),
    unary main_v13 main_v14 ((extui 32 · natLt_1_32) : (⟨S4x256x40000, .i1⟩ : BufTy).Contents (Elt F) → (⟨S4x256x40000, .i32⟩ : BufTy).Contents (Elt F)),
    TRef.nullary main_call0.call0.c (constantI S_ 32 0#32),
    TRef.unary main_call0.call0.c main_call0.call0.v0 (broadcastInDim S_ ![] bcast_S_S_),
    TRef.binary (.of main_v14 : TRef sig ⟨S4x256x40000, .i32⟩) main_call0.call0.v0 main_call0.call0.v1 (fun x v => Host.reduceWindow IntOp.addi ![1, 1, 40000] ![1, 1, 1] ![0, 0, 39999] ![0, 0, 0] x v reduceWindows_S4x256x40000_S4x256x40000_w1s1p0_0_w1s1p0_0_w40000s1p39999_0 h_S_),
    unary main_v15 main_v16 ((extractStridedSlice S4x256x1 ![0, 0, 39999] · slices_S4x256x40000_S4x256x1_0_0_39999) : (⟨S4x256x40000, .i32⟩ : BufTy).Contents (Elt F) → (⟨S4x256x1, .i32⟩ : BufTy).Contents (Elt F)),
    reshape main_v16 main_v17 rfl shapeCasts_S4x256x1_S4x256,
    nullary main_c (constantI S_ 32 512#32),
    unary main_c main_v18 (broadcastInDim S4x256 ![] bcast_S_S4x256 : (⟨S_, .i32⟩ : BufTy).Contents (Elt F) → (⟨S4x256, .i32⟩ : BufTy).Contents (Elt F)),
    binary main_v17 main_v18 main_v19 (minsi : (⟨S4x256, .i32⟩ : BufTy).Contents (Elt F) → (⟨S4x256, .i32⟩ : BufTy).Contents (Elt F) → (⟨S4x256, .i32⟩ : BufTy).Contents (Elt F)),
    nullary main_c_1 (constantI S_ 32 512#32),
    unary main_c_1 main_v20 (broadcastInDim S4x256x40000 ![] bcast_S_S4x256x40000 : (⟨S_, .i32⟩ : BufTy).Contents (Elt F) → (⟨S4x256x40000, .i32⟩ : BufTy).Contents (Elt F)),
    binary main_v15 main_v20 main_v21 (cmpi .sle : (⟨S4x256x40000, .i32⟩ : BufTy).Contents (Elt F) → (⟨S4x256x40000, .i32⟩ : BufTy).Contents (Elt F) → (⟨S4x256x40000, .i1⟩ : BufTy).Contents (Elt F)),
    binary main_v13 main_v21 main_v22 (andi : (⟨S4x256x40000, .i1⟩ : BufTy).Contents (Elt F) → (⟨S4x256x40000, .i1⟩ : BufTy).Contents (Elt F) → (⟨S4x256x40000, .i1⟩ : BufTy).Contents (Elt F)),
    nullary main_c_2 (constantI S_ 32 1#32),
    unary main_c_2 main_v23 (broadcastInDim S4x256x40000 ![] bcast_S_S4x256x40000 : (⟨S_, .i32⟩ : BufTy).Contents (Elt F) → (⟨S4x256x40000, .i32⟩ : BufTy).Contents (Elt F)),
    binary main_v15 main_v23 main_v24 (subi : (⟨S4x256x40000, .i32⟩ : BufTy).Contents (Elt F) → (⟨S4x256x40000, .i32⟩ : BufTy).Contents (Elt F) → (⟨S4x256x40000, .i32⟩ : BufTy).Contents (Elt F)),
    nullary main_c_3 (constantI S_ 32 512#32),
    TRef.unary (.of main_c_3 : TRef sig ⟨S_, .i32⟩) main_call1.v0 id,
    TRef.unary main_call1.v0 main_call1.v1 (broadcastInDim S4x256x40000 ![] bcast_S_S4x256x40000),
    TRef.ternary (.of main_v22 : TRef sig ⟨S4x256x40000, .i1⟩) (.of main_v24 : TRef sig ⟨S4x256x40000, .i32⟩) main_call1.v1 main_call1.v2 select,
    nullary main_v26 (iotaInDim S40000 32 0),
    unary main_v26 main_v27 (broadcastInDim S4x256x40000 ![2] bcast_S40000_S4x256x40000_2 : (⟨S40000, .i32⟩ : BufTy).Contents (Elt F) → (⟨S4x256x40000, .i32⟩ : BufTy).Contents (Elt F)),
    nullary main_v28 (iotaInDim S4 32 0),
    unary main_v28 main_v29 (broadcastInDim S4x1x1 ![0] bcast_S4_S4x1x1_0 : (⟨S4, .i32⟩ : BufTy).Contents (Elt F) → (⟨S4x1x1, .i32⟩ : BufTy).Contents (Elt F)),
    nullary main_v30 (iotaInDim S256 32 0),
    unary main_v30 main_v31 (broadcastInDim S1x256x1 ![1] bcast_S256_S1x256x1_1 : (⟨S256, .i32⟩ : BufTy).Contents (Elt F) → (⟨S1x256x1, .i32⟩ : BufTy).Contents (Elt F)),
    nullary main_c_4 (constantI S_ 32 0#32),
    unary main_c_4 main_v32 (broadcastInDim S4x256x513 ![] bcast_S_S4x256x513 : (⟨S_, .i32⟩ : BufTy).Contents (Elt F) → (⟨S4x256x513, .i32⟩ : BufTy).Contents (Elt F)),
    nullary main_c_5 (constantI S_ 32 0#32),
    unary main_c_5 main_v33 (broadcastInDim S4x1x1 ![] bcast_S_S4x1x1 : (⟨S_, .i32⟩ : BufTy).Contents (Elt F) → (⟨S4x1x1, .i32⟩ : BufTy).Contents (Elt F)),
    binary main_v29 main_v33 main_v34 (cmpi .slt : (⟨S4x1x1, .i32⟩ : BufTy).Contents (Elt F) → (⟨S4x1x1, .i32⟩ : BufTy).Contents (Elt F) → (⟨S4x1x1, .i1⟩ : BufTy).Contents (Elt F)),
    nullary main_c_6 (constantI S_ 32 4#32),
    unary main_c_6 main_v35 (broadcastInDim S4x1x1 ![] bcast_S_S4x1x1 : (⟨S_, .i32⟩ : BufTy).Contents (Elt F) → (⟨S4x1x1, .i32⟩ : BufTy).Contents (Elt F)),
    binary main_v29 main_v35 main_v36 (addi : (⟨S4x1x1, .i32⟩ : BufTy).Contents (Elt F) → (⟨S4x1x1, .i32⟩ : BufTy).Contents (Elt F) → (⟨S4x1x1, .i32⟩ : BufTy).Contents (Elt F)),
    ternary main_v34 main_v36 main_v29 main_v37 (select : (⟨S4x1x1, .i1⟩ : BufTy).Contents (Elt F) → (⟨S4x1x1, .i32⟩ : BufTy).Contents (Elt F) → (⟨S4x1x1, .i32⟩ : BufTy).Contents (Elt F) → (⟨S4x1x1, .i32⟩ : BufTy).Contents (Elt F)),
    nullary main_c_7 (constantI S_ 32 0#32),
    unary main_c_7 main_v38 (broadcastInDim S1x256x1 ![] bcast_S_S1x256x1 : (⟨S_, .i32⟩ : BufTy).Contents (Elt F) → (⟨S1x256x1, .i32⟩ : BufTy).Contents (Elt F)),
    binary main_v31 main_v38 main_v39 (cmpi .slt : (⟨S1x256x1, .i32⟩ : BufTy).Contents (Elt F) → (⟨S1x256x1, .i32⟩ : BufTy).Contents (Elt F) → (⟨S1x256x1, .i1⟩ : BufTy).Contents (Elt F)),
    nullary main_c_8 (constantI S_ 32 256#32),
    unary main_c_8 main_v40 (broadcastInDim S1x256x1 ![] bcast_S_S1x256x1 : (⟨S_, .i32⟩ : BufTy).Contents (Elt F) → (⟨S1x256x1, .i32⟩ : BufTy).Contents (Elt F)),
    binary main_v31 main_v40 main_v41 (addi : (⟨S1x256x1, .i32⟩ : BufTy).Contents (Elt F) → (⟨S1x256x1, .i32⟩ : BufTy).Contents (Elt F) → (⟨S1x256x1, .i32⟩ : BufTy).Contents (Elt F)),
    ternary main_v39 main_v41 main_v31 main_v42 (select : (⟨S1x256x1, .i1⟩ : BufTy).Contents (Elt F) → (⟨S1x256x1, .i32⟩ : BufTy).Contents (Elt F) → (⟨S1x256x1, .i32⟩ : BufTy).Contents (Elt F) → (⟨S1x256x1, .i32⟩ : BufTy).Contents (Elt F)),
    nullary main_c_9 (constantI S_ 32 0#32),
    unary main_c_9 main_v43 (broadcastInDim S4x256x40000 ![] bcast_S_S4x256x40000 : (⟨S_, .i32⟩ : BufTy).Contents (Elt F) → (⟨S4x256x40000, .i32⟩ : BufTy).Contents (Elt F)),
    binary main_v25 main_v43 main_v44 (cmpi .slt : (⟨S4x256x40000, .i32⟩ : BufTy).Contents (Elt F) → (⟨S4x256x40000, .i32⟩ : BufTy).Contents (Elt F) → (⟨S4x256x40000, .i1⟩ : BufTy).Contents (Elt F)),
    nullary main_c_10 (constantI S_ 32 513#32),
    unary main_c_10 main_v45 (broadcastInDim S4x256x40000 ![] bcast_S_S4x256x40000 : (⟨S_, .i32⟩ : BufTy).Contents (Elt F) → (⟨S4x256x40000, .i32⟩ : BufTy).Contents (Elt F)),
    binary main_v25 main_v45 main_v46 (addi : (⟨S4x256x40000, .i32⟩ : BufTy).Contents (Elt F) → (⟨S4x256x40000, .i32⟩ : BufTy).Contents (Elt F) → (⟨S4x256x40000, .i32⟩ : BufTy).Contents (Elt F)) ]

/-- The buffers the operations of ops0 write, in order. -/
abbrev W0 : List (Ref sig .tc) :=
  [main_v0, main_v1, main_v2, main_v3, main_v4, main_v5, main_v6, main_v7, main_v8, main_v9, main_v10, main_cst, main_v11, main_cst_0, main_v12, main_v13, main_v14, main_call0.call0.c.ref, main_call0.call0.v0.ref, main_call0.call0.v1.ref, main_v16, main_v17, main_c, main_v18, main_v19, main_c_1, main_v20, main_v21, main_v22, main_c_2, main_v23, main_v24, main_c_3, main_call1.v0.ref, main_call1.v1.ref, main_call1.v2.ref, main_v26, main_v27, main_v28, main_v29, main_v30, main_v31, main_c_4, main_v32, main_c_5, main_v33, main_v34, main_c_6, main_v35, main_v36, main_v37, main_c_7, main_v38, main_v39, main_c_8, main_v40, main_v41, main_v42, main_c_9, main_v43, main_v44, main_c_10, main_v45, main_v46]

/-- The 61 operations of window main_part1 of @main, in order, the called functions' operations in place of the calls. -/
abbrev ops1 : List (HloOp τ sig (Elt F)) :=
  [ ternary main_v44 main_v46 main_v25 main_v47 (select : (⟨S4x256x40000, .i1⟩ : BufTy).Contents (Elt F) → (⟨S4x256x40000, .i32⟩ : BufTy).Contents (Elt F) → (⟨S4x256x40000, .i32⟩ : BufTy).Contents (Elt F) → (⟨S4x256x40000, .i32⟩ : BufTy).Contents (Elt F)),
    unary main_v37 main_v48 (broadcastInDim S4x256x40000 ![0, 1, 2] bcast_S4x1x1_S4x256x40000_0_1_2 : (⟨S4x1x1, .i32⟩ : BufTy).Contents (Elt F) → (⟨S4x256x40000, .i32⟩ : BufTy).Contents (Elt F)),
    unary main_v42 main_v49 (broadcastInDim S4x256x40000 ![0, 1, 2] bcast_S1x256x1_S4x256x40000_0_1_2 : (⟨S1x256x1, .i32⟩ : BufTy).Contents (Elt F) → (⟨S4x256x40000, .i32⟩ : BufTy).Contents (Elt F)),
    unary main_v48 main_v50 (broadcastInDim S4x256x40000x1 ![0, 1, 2] bcast_S4x256x40000_S4x256x40000x1_0_1_2 : (⟨S4x256x40000, .i32⟩ : BufTy).Contents (Elt F) → (⟨S4x256x40000x1, .i32⟩ : BufTy).Contents (Elt F)),
    unary main_v49 main_v51 (broadcastInDim S4x256x40000x1 ![0, 1, 2] bcast_S4x256x40000_S4x256x40000x1_0_1_2 : (⟨S4x256x40000, .i32⟩ : BufTy).Contents (Elt F) → (⟨S4x256x40000x1, .i32⟩ : BufTy).Contents (Elt F)),
    unary main_v47 main_v52 (broadcastInDim S4x256x40000x1 ![0, 1, 2] bcast_S4x256x40000_S4x256x40000x1_0_1_2 : (⟨S4x256x40000, .i32⟩ : BufTy).Contents (Elt F) → (⟨S4x256x40000x1, .i32⟩ : BufTy).Contents (Elt F)),
    nary ![main_v50, main_v51, main_v52] main_v53 (fun u => concatenate S4x256x40000x3 3 [⟨S4x256x40000x1, u 0⟩, ⟨S4x256x40000x1, u 1⟩, ⟨S4x256x40000x1, u 2⟩] concatenates_S4x256x40000x1_S4x256x40000x1_S4x256x40000x1_S4x256x40000x3_d3),
    ternary main_v32 main_v53 main_v27 main_v54 ((fun x i u => Host.scatter scatter_S4x256x513_S4x256x40000x3_S4x256x40000_n_012_012_3 (fun _ b => b) x i u) : (⟨S4x256x513, .i32⟩ : BufTy).Contents (Elt F) → (⟨S4x256x40000x3, .i32⟩ : BufTy).Contents (Elt F) → (⟨S4x256x40000, .i32⟩ : BufTy).Contents (Elt F) → (⟨S4x256x513, .i32⟩ : BufTy).Contents (Elt F)),
    unary main_v54 main_v55 ((extractStridedSlice S4x256x512 ![0, 0, 0] · slices_S4x256x513_S4x256x512_0_0_0) : (⟨S4x256x513, .i32⟩ : BufTy).Contents (Elt F) → (⟨S4x256x512, .i32⟩ : BufTy).Contents (Elt F)),
    unary main_v55 main_v56 ((extractStridedSlice S4x256x1 ![0, 0, 0] · slices_S4x256x512_S4x256x1_0_0_0) : (⟨S4x256x512, .i32⟩ : BufTy).Contents (Elt F) → (⟨S4x256x1, .i32⟩ : BufTy).Contents (Elt F)),
    nullary main_v57 (iotaInDim S512 32 0),
    unary main_v57 main_v58 (broadcastInDim S1x1x512 ![2] bcast_S512_S1x1x512_2 : (⟨S512, .i32⟩ : BufTy).Contents (Elt F) → (⟨S1x1x512, .i32⟩ : BufTy).Contents (Elt F)),
    unary main_v19 main_v59 (broadcastInDim S4x256x1 ![0, 1] bcast_S4x256_S4x256x1_0_1 : (⟨S4x256, .i32⟩ : BufTy).Contents (Elt F) → (⟨S4x256x1, .i32⟩ : BufTy).Contents (Elt F)),
    unary main_v58 main_v60 (broadcastInDim S4x256x512 ![0, 1, 2] bcast_S1x1x512_S4x256x512_0_1_2 : (⟨S1x1x512, .i32⟩ : BufTy).Contents (Elt F) → (⟨S4x256x512, .i32⟩ : BufTy).Contents (Elt F)),
    unary main_v59 main_v61 (broadcastInDim S4x256x512 ![0, 1, 2] bcast_S4x256x1_S4x256x512_0_1_2 : (⟨S4x256x1, .i32⟩ : BufTy).Contents (Elt F) → (⟨S4x256x512, .i32⟩ : BufTy).Contents (Elt F)),
    binary main_v60 main_v61 main_v62 (cmpi .slt : (⟨S4x256x512, .i32⟩ : BufTy).Contents (Elt F) → (⟨S4x256x512, .i32⟩ : BufTy).Contents (Elt F) → (⟨S4x256x512, .i1⟩ : BufTy).Contents (Elt F)),
    TRef.unary (.of main_v56 : TRef sig ⟨S4x256x1, .i32⟩) main_call2.v0 (broadcastInDim S4x256x512 ![0, 1, 2] bcast_S4x256x1_S4x256x512_0_1_2),
    TRef.ternary (.of main_v62 : TRef sig ⟨S4x256x512, .i1⟩) (.of main_v55 : TRef sig ⟨S4x256x512, .i32⟩) main_call2.v0 main_call2.v1 select,
    nullary main_v64 (iotaInDim S4 32 0),
    unary main_v64 main_v65 (broadcastInDim S4x1x1 ![0] bcast_S4_S4x1x1_0 : (⟨S4, .i32⟩ : BufTy).Contents (Elt F) → (⟨S4x1x1, .i32⟩ : BufTy).Contents (Elt F)),
    nullary main_c_11 (constantI S_ 32 0#32),
    unary main_c_11 main_v66 (broadcastInDim S4x1x1 ![] bcast_S_S4x1x1 : (⟨S_, .i32⟩ : BufTy).Contents (Elt F) → (⟨S4x1x1, .i32⟩ : BufTy).Contents (Elt F)),
    binary main_v65 main_v66 main_v67 (cmpi .slt : (⟨S4x1x1, .i32⟩ : BufTy).Contents (Elt F) → (⟨S4x1x1, .i32⟩ : BufTy).Contents (Elt F) → (⟨S4x1x1, .i1⟩ : BufTy).Contents (Elt F)),
    nullary main_c_12 (constantI S_ 32 4#32),
    unary main_c_12 main_v68 (broadcastInDim S4x1x1 ![] bcast_S_S4x1x1 : (⟨S_, .i32⟩ : BufTy).Contents (Elt F) → (⟨S4x1x1, .i32⟩ : BufTy).Contents (Elt F)),
    binary main_v65 main_v68 main_v69 (addi : (⟨S4x1x1, .i32⟩ : BufTy).Contents (Elt F) → (⟨S4x1x1, .i32⟩ : BufTy).Contents (Elt F) → (⟨S4x1x1, .i32⟩ : BufTy).Contents (Elt F)),
    ternary main_v67 main_v69 main_v65 main_v70 (select : (⟨S4x1x1, .i1⟩ : BufTy).Contents (Elt F) → (⟨S4x1x1, .i32⟩ : BufTy).Contents (Elt F) → (⟨S4x1x1, .i32⟩ : BufTy).Contents (Elt F) → (⟨S4x1x1, .i32⟩ : BufTy).Contents (Elt F)),
    nullary main_c_13 (constantI S_ 32 0#32),
    unary main_c_13 main_v71 (broadcastInDim S4x256x512 ![] bcast_S_S4x256x512 : (⟨S_, .i32⟩ : BufTy).Contents (Elt F) → (⟨S4x256x512, .i32⟩ : BufTy).Contents (Elt F)),
    binary main_v63 main_v71 main_v72 (cmpi .slt : (⟨S4x256x512, .i32⟩ : BufTy).Contents (Elt F) → (⟨S4x256x512, .i32⟩ : BufTy).Contents (Elt F) → (⟨S4x256x512, .i1⟩ : BufTy).Contents (Elt F)),
    nullary main_c_14 (constantI S_ 32 40000#32),
    unary main_c_14 main_v73 (broadcastInDim S4x256x512 ![] bcast_S_S4x256x512 : (⟨S_, .i32⟩ : BufTy).Contents (Elt F) → (⟨S4x256x512, .i32⟩ : BufTy).Contents (Elt F)),
    binary main_v63 main_v73 main_v74 (addi : (⟨S4x256x512, .i32⟩ : BufTy).Contents (Elt F) → (⟨S4x256x512, .i32⟩ : BufTy).Contents (Elt F) → (⟨S4x256x512, .i32⟩ : BufTy).Contents (Elt F)),
    ternary main_v72 main_v74 main_v63 main_v75 (select : (⟨S4x256x512, .i1⟩ : BufTy).Contents (Elt F) → (⟨S4x256x512, .i32⟩ : BufTy).Contents (Elt F) → (⟨S4x256x512, .i32⟩ : BufTy).Contents (Elt F) → (⟨S4x256x512, .i32⟩ : BufTy).Contents (Elt F)),
    unary main_v70 main_v76 (broadcastInDim S4x256x512 ![0, 1, 2] bcast_S4x1x1_S4x256x512_0_1_2 : (⟨S4x1x1, .i32⟩ : BufTy).Contents (Elt F) → (⟨S4x256x512, .i32⟩ : BufTy).Contents (Elt F)),
    unary main_v76 main_v77 (broadcastInDim S4x256x512x1 ![0, 1, 2] bcast_S4x256x512_S4x256x512x1_0_1_2 : (⟨S4x256x512, .i32⟩ : BufTy).Contents (Elt F) → (⟨S4x256x512x1, .i32⟩ : BufTy).Contents (Elt F)),
    unary main_v75 main_v78 (broadcastInDim S4x256x512x1 ![0, 1, 2] bcast_S4x256x512_S4x256x512x1_0_1_2 : (⟨S4x256x512, .i32⟩ : BufTy).Contents (Elt F) → (⟨S4x256x512x1, .i32⟩ : BufTy).Contents (Elt F)),
    binary main_v77 main_v78 main_v79 ((fun a b => concatenate S4x256x512x2 3 [⟨S4x256x512x1, a⟩, ⟨S4x256x512x1, b⟩] concatenates_S4x256x512x1_S4x256x512x1_S4x256x512x2_d3) : (⟨S4x256x512x1, .i32⟩ : BufTy).Contents (Elt F) → (⟨S4x256x512x1, .i32⟩ : BufTy).Contents (Elt F) → (⟨S4x256x512x2, .i32⟩ : BufTy).Contents (Elt F)),
    binary main_v0 main_v79 main_v80 ((fun x i => Host.gather gather_S4x40000x3_S4x256x512x2_S4x256x512x3_3_01_n_n_01_3_113 x i) : (⟨S4x40000x3, .f32⟩ : BufTy).Contents (Elt F) → (⟨S4x256x512x2, .i32⟩ : BufTy).Contents (Elt F) → (⟨S4x256x512x3, .f32⟩ : BufTy).Contents (Elt F)),
    unary main_arg0 main_v81 (broadcastInDim S4x256x1x3 ![0, 1, 3] bcast_S4x256x3_S4x256x1x3_0_1_3 : (⟨S4x256x3, .f32⟩ : BufTy).Contents (Elt F) → (⟨S4x256x1x3, .f32⟩ : BufTy).Contents (Elt F)),
    unary main_v81 main_v82 (broadcastInDim S4x256x512x3 ![0, 1, 2, 3] bcast_S4x256x1x3_S4x256x512x3_0_1_2_3 : (⟨S4x256x1x3, .f32⟩ : BufTy).Contents (Elt F) → (⟨S4x256x512x3, .f32⟩ : BufTy).Contents (Elt F)),
    binary main_v80 main_v82 main_v83 (subf : (⟨S4x256x512x3, .f32⟩ : BufTy).Contents (Elt F) → (⟨S4x256x512x3, .f32⟩ : BufTy).Contents (Elt F) → (⟨S4x256x512x3, .f32⟩ : BufTy).Contents (Elt F)),
    unary main_arg1 main_v84 (Host.cos : (⟨S4x256, .f32⟩ : BufTy).Contents (Elt F) → (⟨S4x256, .f32⟩ : BufTy).Contents (Elt F)),
    unary main_v84 main_v85 (broadcastInDim S4x256x1 ![0, 1] bcast_S4x256_S4x256x1_0_1 : (⟨S4x256, .f32⟩ : BufTy).Contents (Elt F) → (⟨S4x256x1, .f32⟩ : BufTy).Contents (Elt F)),
    unary main_arg1 main_v86 (Host.sin : (⟨S4x256, .f32⟩ : BufTy).Contents (Elt F) → (⟨S4x256, .f32⟩ : BufTy).Contents (Elt F)),
    unary main_v86 main_v87 (broadcastInDim S4x256x1 ![0, 1] bcast_S4x256_S4x256x1_0_1 : (⟨S4x256, .f32⟩ : BufTy).Contents (Elt F) → (⟨S4x256x1, .f32⟩ : BufTy).Contents (Elt F)),
    unary main_v83 main_v88 ((extractStridedSlice S4x256x512x1 ![0, 0, 0, 0] · slices_S4x256x512x3_S4x256x512x1_0_0_0_0) : (⟨S4x256x512x3, .f32⟩ : BufTy).Contents (Elt F) → (⟨S4x256x512x1, .f32⟩ : BufTy).Contents (Elt F)),
    reshape main_v88 main_v89 rfl shapeCasts_S4x256x512x1_S4x256x512,
    unary main_v83 main_v90 ((extractStridedSlice S4x256x512x1 ![0, 0, 0, 1] · slices_S4x256x512x3_S4x256x512x1_0_0_0_1) : (⟨S4x256x512x3, .f32⟩ : BufTy).Contents (Elt F) → (⟨S4x256x512x1, .f32⟩ : BufTy).Contents (Elt F)),
    reshape main_v90 main_v91 rfl shapeCasts_S4x256x512x1_S4x256x512,
    unary main_v83 main_v92 ((extractStridedSlice S4x256x512x1 ![0, 0, 0, 2] · slices_S4x256x512x3_S4x256x512x1_0_0_0_2) : (⟨S4x256x512x3, .f32⟩ : BufTy).Contents (Elt F) → (⟨S4x256x512x1, .f32⟩ : BufTy).Contents (Elt F)),
    reshape main_v92 main_v93 rfl shapeCasts_S4x256x512x1_S4x256x512,
    unary main_v85 main_v94 (broadcastInDim S4x256x512 ![0, 1, 2] bcast_S4x256x1_S4x256x512_0_1_2 : (⟨S4x256x1, .f32⟩ : BufTy).Contents (Elt F) → (⟨S4x256x512, .f32⟩ : BufTy).Contents (Elt F)),
    binary main_v94 main_v89 main_v95 (mulf : (⟨S4x256x512, .f32⟩ : BufTy).Contents (Elt F) → (⟨S4x256x512, .f32⟩ : BufTy).Contents (Elt F) → (⟨S4x256x512, .f32⟩ : BufTy).Contents (Elt F)),
    unary main_v87 main_v96 (broadcastInDim S4x256x512 ![0, 1, 2] bcast_S4x256x1_S4x256x512_0_1_2 : (⟨S4x256x1, .f32⟩ : BufTy).Contents (Elt F) → (⟨S4x256x512, .f32⟩ : BufTy).Contents (Elt F)),
    binary main_v96 main_v91 main_v97 (mulf : (⟨S4x256x512, .f32⟩ : BufTy).Contents (Elt F) → (⟨S4x256x512, .f32⟩ : BufTy).Contents (Elt F) → (⟨S4x256x512, .f32⟩ : BufTy).Contents (Elt F)),
    binary main_v95 main_v97 main_v98 (addf : (⟨S4x256x512, .f32⟩ : BufTy).Contents (Elt F) → (⟨S4x256x512, .f32⟩ : BufTy).Contents (Elt F) → (⟨S4x256x512, .f32⟩ : BufTy).Contents (Elt F)),
    unary main_v87 main_v99 (Host.negf : (⟨S4x256x1, .f32⟩ : BufTy).Contents (Elt F) → (⟨S4x256x1, .f32⟩ : BufTy).Contents (Elt F)),
    unary main_v99 main_v100 (broadcastInDim S4x256x512 ![0, 1, 2] bcast_S4x256x1_S4x256x512_0_1_2 : (⟨S4x256x1, .f32⟩ : BufTy).Contents (Elt F) → (⟨S4x256x512, .f32⟩ : BufTy).Contents (Elt F)),
    binary main_v100 main_v89 main_v101 (mulf : (⟨S4x256x512, .f32⟩ : BufTy).Contents (Elt F) → (⟨S4x256x512, .f32⟩ : BufTy).Contents (Elt F) → (⟨S4x256x512, .f32⟩ : BufTy).Contents (Elt F)),
    unary main_v85 main_v102 (broadcastInDim S4x256x512 ![0, 1, 2] bcast_S4x256x1_S4x256x512_0_1_2 : (⟨S4x256x1, .f32⟩ : BufTy).Contents (Elt F) → (⟨S4x256x512, .f32⟩ : BufTy).Contents (Elt F)) ]

/-- The buffers the operations of ops1 write, in order. -/
abbrev W1 : List (Ref sig .tc) :=
  [main_v47, main_v48, main_v49, main_v50, main_v51, main_v52, main_v53, main_v54, main_v55, main_v56, main_v57, main_v58, main_v59, main_v60, main_v61, main_v62, main_call2.v0.ref, main_call2.v1.ref, main_v64, main_v65, main_c_11, main_v66, main_v67, main_c_12, main_v68, main_v69, main_v70, main_c_13, main_v71, main_v72, main_c_14, main_v73, main_v74, main_v75, main_v76, main_v77, main_v78, main_v79, main_v80, main_v81, main_v82, main_v83, main_v84, main_v85, main_v86, main_v87, main_v88, main_v89, main_v90, main_v91, main_v92, main_v93, main_v94, main_v95, main_v96, main_v97, main_v98, main_v99, main_v100, main_v101, main_v102]

/-- The 32 operations of window main_part2 of @main, in order, the called functions' operations in place of the calls. -/
abbrev ops2 : List (HloOp τ sig (Elt F)) :=
  [ binary main_v102 main_v91 main_v103 (mulf : (⟨S4x256x512, .f32⟩ : BufTy).Contents (Elt F) → (⟨S4x256x512, .f32⟩ : BufTy).Contents (Elt F) → (⟨S4x256x512, .f32⟩ : BufTy).Contents (Elt F)),
    binary main_v101 main_v103 main_v104 (addf : (⟨S4x256x512, .f32⟩ : BufTy).Contents (Elt F) → (⟨S4x256x512, .f32⟩ : BufTy).Contents (Elt F) → (⟨S4x256x512, .f32⟩ : BufTy).Contents (Elt F)),
    unary main_v98 main_v105 (broadcastInDim S4x256x512x1 ![0, 1, 2] bcast_S4x256x512_S4x256x512x1_0_1_2 : (⟨S4x256x512, .f32⟩ : BufTy).Contents (Elt F) → (⟨S4x256x512x1, .f32⟩ : BufTy).Contents (Elt F)),
    unary main_v104 main_v106 (broadcastInDim S4x256x512x1 ![0, 1, 2] bcast_S4x256x512_S4x256x512x1_0_1_2 : (⟨S4x256x512, .f32⟩ : BufTy).Contents (Elt F) → (⟨S4x256x512x1, .f32⟩ : BufTy).Contents (Elt F)),
    unary main_v93 main_v107 (broadcastInDim S4x256x512x1 ![0, 1, 2] bcast_S4x256x512_S4x256x512x1_0_1_2 : (⟨S4x256x512, .f32⟩ : BufTy).Contents (Elt F) → (⟨S4x256x512x1, .f32⟩ : BufTy).Contents (Elt F)),
    nary ![main_v105, main_v106, main_v107] main_v108 (fun u => concatenate S4x256x512x3 3 [⟨S4x256x512x1, u 0⟩, ⟨S4x256x512x1, u 1⟩, ⟨S4x256x512x1, u 2⟩] concatenates_S4x256x512x1_S4x256x512x1_S4x256x512x1_S4x256x512x3_d3),
    nullary main_cst_15 (constant S_ .f32 0x3F800000#32),
    unary main_cst_15 main_v109 (broadcastInDim S4x256x512x3 ![] bcast_S_S4x256x512x3 : (⟨S_, .f32⟩ : BufTy).Contents (Elt F) → (⟨S4x256x512x3, .f32⟩ : BufTy).Contents (Elt F)),
    binary main_v108 main_v109 main_v110 (Host.divf : (⟨S4x256x512x3, .f32⟩ : BufTy).Contents (Elt F) → (⟨S4x256x512x3, .f32⟩ : BufTy).Contents (Elt F) → (⟨S4x256x512x3, .f32⟩ : BufTy).Contents (Elt F)),
    unary main_v110 main_v111 ((transpose S4x3x256x512 [0, 3, 1, 2] · transposes_S4x256x512x3_S4x3x256x512_0_3_1_2) : (⟨S4x256x512x3, .f32⟩ : BufTy).Contents (Elt F) → (⟨S4x3x256x512, .f32⟩ : BufTy).Contents (Elt F)),
    unary main_v4 main_v112 ((transpose S4x40000x5 [0, 2, 1] · transposes_S4x5x40000_S4x40000x5_0_2_1) : (⟨S4x5x40000, .f32⟩ : BufTy).Contents (Elt F) → (⟨S4x40000x5, .f32⟩ : BufTy).Contents (Elt F)),
    nullary main_c_16 (constantI S_ 32 0#32),
    unary main_c_16 main_v113 (broadcastInDim S4x1x1 ![] bcast_S_S4x1x1 : (⟨S_, .i32⟩ : BufTy).Contents (Elt F) → (⟨S4x1x1, .i32⟩ : BufTy).Contents (Elt F)),
    binary main_v65 main_v113 main_v114 (cmpi .slt : (⟨S4x1x1, .i32⟩ : BufTy).Contents (Elt F) → (⟨S4x1x1, .i32⟩ : BufTy).Contents (Elt F) → (⟨S4x1x1, .i1⟩ : BufTy).Contents (Elt F)),
    nullary main_c_17 (constantI S_ 32 4#32),
    unary main_c_17 main_v115 (broadcastInDim S4x1x1 ![] bcast_S_S4x1x1 : (⟨S_, .i32⟩ : BufTy).Contents (Elt F) → (⟨S4x1x1, .i32⟩ : BufTy).Contents (Elt F)),
    binary main_v65 main_v115 main_v116 (addi : (⟨S4x1x1, .i32⟩ : BufTy).Contents (Elt F) → (⟨S4x1x1, .i32⟩ : BufTy).Contents (Elt F) → (⟨S4x1x1, .i32⟩ : BufTy).Contents (Elt F)),
    ternary main_v114 main_v116 main_v65 main_v117 (select : (⟨S4x1x1, .i1⟩ : BufTy).Contents (Elt F) → (⟨S4x1x1, .i32⟩ : BufTy).Contents (Elt F) → (⟨S4x1x1, .i32⟩ : BufTy).Contents (Elt F) → (⟨S4x1x1, .i32⟩ : BufTy).Contents (Elt F)),
    nullary main_c_18 (constantI S_ 32 0#32),
    unary main_c_18 main_v118 (broadcastInDim S4x256x512 ![] bcast_S_S4x256x512 : (⟨S_, .i32⟩ : BufTy).Contents (Elt F) → (⟨S4x256x512, .i32⟩ : BufTy).Contents (Elt F)),
    binary main_v63 main_v118 main_v119 (cmpi .slt : (⟨S4x256x512, .i32⟩ : BufTy).Contents (Elt F) → (⟨S4x256x512, .i32⟩ : BufTy).Contents (Elt F) → (⟨S4x256x512, .i1⟩ : BufTy).Contents (Elt F)),
    nullary main_c_19 (constantI S_ 32 40000#32),
    unary main_c_19 main_v120 (broadcastInDim S4x256x512 ![] bcast_S_S4x256x512 : (⟨S_, .i32⟩ : BufTy).Contents (Elt F) → (⟨S4x256x512, .i32⟩ : BufTy).Contents (Elt F)),
    binary main_v63 main_v120 main_v121 (addi : (⟨S4x256x512, .i32⟩ : BufTy).Contents (Elt F) → (⟨S4x256x512, .i32⟩ : BufTy).Contents (Elt F) → (⟨S4x256x512, .i32⟩ : BufTy).Contents (Elt F)),
    ternary main_v119 main_v121 main_v63 main_v122 (select : (⟨S4x256x512, .i1⟩ : BufTy).Contents (Elt F) → (⟨S4x256x512, .i32⟩ : BufTy).Contents (Elt F) → (⟨S4x256x512, .i32⟩ : BufTy).Contents (Elt F) → (⟨S4x256x512, .i32⟩ : BufTy).Contents (Elt F)),
    unary main_v117 main_v123 (broadcastInDim S4x256x512 ![0, 1, 2] bcast_S4x1x1_S4x256x512_0_1_2 : (⟨S4x1x1, .i32⟩ : BufTy).Contents (Elt F) → (⟨S4x256x512, .i32⟩ : BufTy).Contents (Elt F)),
    unary main_v123 main_v124 (broadcastInDim S4x256x512x1 ![0, 1, 2] bcast_S4x256x512_S4x256x512x1_0_1_2 : (⟨S4x256x512, .i32⟩ : BufTy).Contents (Elt F) → (⟨S4x256x512x1, .i32⟩ : BufTy).Contents (Elt F)),
    unary main_v122 main_v125 (broadcastInDim S4x256x512x1 ![0, 1, 2] bcast_S4x256x512_S4x256x512x1_0_1_2 : (⟨S4x256x512, .i32⟩ : BufTy).Contents (Elt F) → (⟨S4x256x512x1, .i32⟩ : BufTy).Contents (Elt F)),
    binary main_v124 main_v125 main_v126 ((fun a b => concatenate S4x256x512x2 3 [⟨S4x256x512x1, a⟩, ⟨S4x256x512x1, b⟩] concatenates_S4x256x512x1_S4x256x512x1_S4x256x512x2_d3) : (⟨S4x256x512x1, .i32⟩ : BufTy).Contents (Elt F) → (⟨S4x256x512x1, .i32⟩ : BufTy).Contents (Elt F) → (⟨S4x256x512x2, .i32⟩ : BufTy).Contents (Elt F)),
    binary main_v112 main_v126 main_v127 ((fun x i => Host.gather gather_S4x40000x5_S4x256x512x2_S4x256x512x5_3_01_n_n_01_3_115 x i) : (⟨S4x40000x5, .f32⟩ : BufTy).Contents (Elt F) → (⟨S4x256x512x2, .i32⟩ : BufTy).Contents (Elt F) → (⟨S4x256x512x5, .f32⟩ : BufTy).Contents (Elt F)),
    unary main_v127 main_v128 ((transpose S4x5x256x512 [0, 3, 1, 2] · transposes_S4x256x512x5_S4x5x256x512_0_3_1_2) : (⟨S4x256x512x5, .f32⟩ : BufTy).Contents (Elt F) → (⟨S4x5x256x512, .f32⟩ : BufTy).Contents (Elt F)),
    unary main_v111 main_v129 ((transpose S256x4x512x3 [2, 0, 3, 1] · transposes_S4x3x256x512_S256x4x512x3_2_0_3_1) : (⟨S4x3x256x512, .f32⟩ : BufTy).Contents (Elt F) → (⟨S256x4x512x3, .f32⟩ : BufTy).Contents (Elt F)) ]

/-- The buffers the operations of ops2 write, in order. -/
abbrev W2 : List (Ref sig .tc) :=
  [main_v103, main_v104, main_v105, main_v106, main_v107, main_v108, main_cst_15, main_v109, main_v110, main_v111, main_v112, main_c_16, main_v113, main_v114, main_c_17, main_v115, main_v116, main_v117, main_c_18, main_v118, main_v119, main_c_19, main_v120, main_v121, main_v122, main_v123, main_v124, main_v125, main_v126, main_v127, main_v128, main_v129]

end Cert.ReferenceIdeal.RefRun

end
-- ==== Proof.RefRun.lean ====
/- The run of the reference program's @main.

   @main is a straight line of host operations: three printed windows run in order, three of whose statements are
   calls of outlined functions (a cumulative sum, which itself calls its worker, and two selects), each of which is
   again a straight line over the buffers of that call. So @main on a device is the sequence of ALL those operations
   in order (ops0 ++ ops1 ++ ops2 of Proof/RefOps.lean, the callees' operations standing where the calls stood),
   and its run is the library's run of a sequence: every weakly fair execution terminates, and each buffer ends at
   the fold of the operations' results over the launch contents. Here that fold is kept folded at the two results;
   at the six arguments it is the launch contents, because no operation writes an argument. -/
import proofs.«179565_j43817256354257_2_alg».proof.Proof.RefOps
import Idealize.ShloMosaic.Lib.StableHlo.Run
import Idealize.ShloMosaic.Lib.Pipeline.Frame

noncomputable section

namespace Cert.ReferenceIdeal.RefRun

open Cert.ReferenceIdeal Idealize.ShloMosaic Idealize.ShloMosaic.TcCoe Idealize.SL.Sem Idealize.ShloMosaic.StableHlo
open Facts₀ Facts

variable {F : FTy → Type} [FloatOps F] [Facts]

/-- Every host operation of @main, in order: the three windows one after the other. -/
abbrev ops : List (HloOp τ sig (Elt F)) := ops0 ++ (ops1 ++ ops2)

/-! ## The program is the sequence

Each window is a chain of binds; a call unfolds to its callee's chain followed by a return, so after the
definitions are opened the only difference from seq of the list is how the binds are bracketed
(bind_assoc) and the callees' returns in the middle (pure_bind). -/

set_option maxRecDepth 8192 in
set_option maxHeartbeats 4000000 in
theorem main_part0_eq (c : Dev nD) : main_part0 (F := F) c = seq ops0 := by
  simp only [main_part0, fn_cumsum.body, fn_cumsum_0.body, fn_where.body, seq, bind_assoc, pure_bind]
  rfl

set_option maxRecDepth 8192 in
set_option maxHeartbeats 4000000 in
theorem main_part1_eq (c : Dev nD) : main_part1 (F := F) c = seq ops1 := by
  simp only [main_part1, fn_where_1.body, seq, bind_assoc, pure_bind]
  rfl

set_option maxRecDepth 8192 in
set_option maxHeartbeats 4000000 in
theorem main_part2_eq (c : Dev nD) : main_part2 (F := F) c = seq ops2 := rfl

/-- @main is the sequence of all its operations: window by window, a sequence of a concatenation being the
    sequences one after the other. -/
theorem main_eq (c : Dev nD) : main (F := F) c = seq ops := by
  simp only [ops, seq_append, ← main_part0_eq c, ← main_part1_eq c, ← main_part2_eq c]
  rfl

/-! ## The side conditions of the run -/

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only: each builder's own lemma, operation by operation. -/
theorem ops0_sub : (ops0 : List (HloOp τ sig (Elt F))).Forall fun op => op.bufs ⊆ tcRefs τ sig := by
  simp only [ops0, List.Forall, nullary_bufs_sub, unary_bufs_sub, binary_bufs_sub, ternary_bufs_sub, reshape_bufs_sub,
    nary_bufs_sub, and_self]
theorem ops1_sub : (ops1 : List (HloOp τ sig (Elt F))).Forall fun op => op.bufs ⊆ tcRefs τ sig := by
  simp only [ops1, List.Forall, nullary_bufs_sub, unary_bufs_sub, binary_bufs_sub, ternary_bufs_sub, reshape_bufs_sub,
    nary_bufs_sub, and_self]
theorem ops2_sub : (ops2 : List (HloOp τ sig (Elt F))).Forall fun op => op.bufs ⊆ tcRefs τ sig := by
  simp only [ops2, List.Forall, nullary_bufs_sub, unary_bufs_sub, binary_bufs_sub, ternary_bufs_sub, reshape_bufs_sub,
    nary_bufs_sub, and_self]
theorem ops_sub : (ops : List (HloOp τ sig (Elt F))).Forall fun op => op.bufs ⊆ tcRefs τ sig :=
  List.forall_iff_forall_mem.mpr fun op h => by
    rcases List.mem_append.mp h with h | h
    · exact List.forall_iff_forall_mem.mp ops0_sub op h
    · rcases List.mem_append.mp h with h | h
      · exact List.forall_iff_forall_mem.mp ops1_sub op h
      · exact List.forall_iff_forall_mem.mp ops2_sub op h

/-- Every operation determines what it writes (none is a bare allocation): by computation, operation by operation. -/
theorem ops0_fresh : (ops0 : List (HloOp τ sig (Elt F))).Forall fun op => op.fresh = ∅ := by
  simp only [ops0, List.Forall]; and_intros <;> rfl
theorem ops1_fresh : (ops1 : List (HloOp τ sig (Elt F))).Forall fun op => op.fresh = ∅ := by
  simp only [ops1, List.Forall]; and_intros <;> rfl
theorem ops2_fresh : (ops2 : List (HloOp τ sig (Elt F))).Forall fun op => op.fresh = ∅ := by
  simp only [ops2, List.Forall]; and_intros <;> rfl
theorem ops_fresh : ∀ op ∈ (ops : List (HloOp τ sig (Elt F))), op.fresh = ∅ := fun op h => by
  rcases List.mem_append.mp h with h | h
  · exact List.forall_iff_forall_mem.mp ops0_fresh op h
  · rcases List.mem_append.mp h with h | h
    · exact List.forall_iff_forall_mem.mp ops1_fresh op h
    · exact List.forall_iff_forall_mem.mp ops2_fresh op h

/-! ## What the operations leave alone

Each operation writes exactly its result buffer, and W0, W1, W2 list those buffers window by window. A buffer in
none of the three lists is written by no operation, so the fold leaves it at the launch contents. -/

theorem ops0_writes : (ops0 : List (HloOp τ sig (Elt F))).Forall fun op =>
    op.writes ⊆ (W0.map (Proc.devRef (τ := τ) .tc)).toFinset := by
  simp only [ops0, List.Forall, nullary_writes, unary_writes, binary_writes, ternary_writes, reshape_writes, nary_writes,
    Finset.singleton_subset_iff, List.mem_toFinset]
  and_intros <;> exact List.mem_map_of_mem (by decide)
theorem ops1_writes : (ops1 : List (HloOp τ sig (Elt F))).Forall fun op =>
    op.writes ⊆ (W1.map (Proc.devRef (τ := τ) .tc)).toFinset := by
  simp only [ops1, List.Forall, nullary_writes, unary_writes, binary_writes, ternary_writes, reshape_writes, nary_writes,
    Finset.singleton_subset_iff, List.mem_toFinset]
  and_intros <;> exact List.mem_map_of_mem (by decide)
theorem ops2_writes : (ops2 : List (HloOp τ sig (Elt F))).Forall fun op =>
    op.writes ⊆ (W2.map (Proc.devRef (τ := τ) .tc)).toFinset := by
  simp only [ops2, List.Forall, nullary_writes, unary_writes, binary_writes, ternary_writes, reshape_writes, nary_writes,
    Finset.singleton_subset_iff, List.mem_toFinset]
  and_intros <;> exact List.mem_map_of_mem (by decide)

/-- A buffer that no window writes holds after the whole line what it held before. -/
theorem keep (V : Valuation τ sig (Elt F)) (r : Ref sig .tc) (h0 : r ∉ W0) (h1 : r ∉ W1) (h2 : r ∉ W2) :
    after ops V (Proc.devRef .tc r) = V (Proc.devRef .tc r) :=
  (congrFun (after_append ops0 (ops1 ++ ops2) V) _).trans
    ((congrFun (after_append ops1 ops2 _) _).trans
      ((after_of_writes_sub ops2 _ ops2_writes h2).trans
        ((after_of_writes_sub ops1 _ ops1_writes h1).trans (after_of_writes_sub ops0 V ops0_writes h0))))

/-! ## The run -/

/-- On every device, for any float values, from any memory with zero counters: every weakly fair execution of @main
    terminates; each of the two results ends at the fold of all the operations over the launch contents (left
    folded), and each of the six arguments ends as it was launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v129) = after ops (launchContents m c) (Proc.devRef .tc main_v129)
      ∧ r.2.mem ((c.tc : Thread nD τ).loc main_v128) = after ops (launchContents m c) (Proc.devRef .tc main_v128)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨h c main_v129, h c main_v128,
      (h c main_arg0).trans (keep (launchContents m c) main_arg0 (by decide) (by decide) (by decide)),
      (h c main_arg1).trans (keep (launchContents m c) main_arg1 (by decide) (by decide) (by decide)),
      (h c main_arg2).trans (keep (launchContents m c) main_arg2 (by decide) (by decide) (by decide)),
      (h c main_arg3).trans (keep (launchContents m c) main_arg3 (by decide) (by decide) (by decide)),
      (h c main_arg4).trans (keep (launchContents m c) main_arg4 (by decide) (by decide) (by decide)),
      (h c main_arg5).trans (keep (launchContents m c) main_arg5 (by decide) (by decide) (by decide))⟩)
    (run_seq scopedRefs_eq scopedSems_eq defs main (fun _ => ops) main_eq (fun _ => ops_sub) m ρ (fun _ => ops_fresh))

end Cert.ReferenceIdeal.RefRun

end
-- ==== Proof.Claims.lean ====
/-
  Four of the certificate's five claims. The two kernel programs' frames are the region's frame proved at any instance
  of the float operations (the word-level program and its idealization differ in one operation of the body, which the
  frame never opens). The reference's frame is its run with the results dropped. The idealization removed one
  round trip through the 16-bit format, of the tile's point rows: at the ideal instance both format changes are the
  identity, which is the rule's statement at that shape.
-/
import proofs.«179565_j43817256354257_2_alg».proof.Defs
import proofs.«179565_j43817256354257_2_alg».proof.Proof.Gen.Kernel
import proofs.«179565_j43817256354257_2_alg».proof.Proof.Gen.KernelIdeal
import proofs.«179565_j43817256354257_2_alg».proof.Proof.Gen.ReferenceIdeal
import proofs.«179565_j43817256354257_2_alg».proof.Proof.Gen.Pre_finite_inputs
import proofs.«179565_j43817256354257_2_alg».proof.Proof.Kernel.Frame
import proofs.«179565_j43817256354257_2_alg».proof.Proof.KernelIdeal.Frame
import proofs.«179565_j43817256354257_2_alg».proof.Proof.RefRun
import Idealize.ShloMosaic.PureOps.IdealRules

noncomputable section

namespace Cert.Proof.Claims

open Idealize.ShloMosaic Idealize.SL.Sem

theorem frame_k : Cert.frame_Kernel (hKernel := Cert.Kernel.Gen.facts) (hPre_finite_inputs := Cert.Pre_finite_inputs.Gen.facts) :=
  fun m ρ _ => Cert.Kernel.Fr.frame m ρ

theorem frame_ki : Cert.frame_KernelIdeal (hKernelIdeal := Cert.KernelIdeal.Gen.facts) (hPre_finite_inputs := Cert.Pre_finite_inputs.Gen.facts) :=
  fun m ρ _ => Cert.KernelIdeal.Fr.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.RefRun.run (F := Ideal) m ρ)

theorem preserves : Cert.preserves_Kernel_KernelIdeal :=
  IdealRules.truncf_extf.statement _ .f32 .bf16

end Cert.Proof.Claims

end
-- ==== Proof.KernelIdeal.Pieces.lean ====
/-
  What each case of the region's body leaves, as VALUES: the stores the symbolic runs found, read back, are the body's
  payloads of the point's input blocks. Every store covers its whole buffer, so the last store into a buffer is what the
  buffer holds, and a load after a store reads that store's payload. Case B and case C leave in the accumulator the
  accumulate step (payload 4) of the point's point rows, sample numbers and what the point before left; case A the same
  over the zero block (payload 3) it has just stored. Case C leaves in output 5 the rotation (payload 2) of the
  accumulator it has just completed, the box centres, cos and sin, and in output 6 the accumulator's last five channels
  (payloads 1 and 5).
-/
import proofs.«179565_j43817256354257_2_alg».proof.Proof.KernelIdeal.Frame
import Idealize.ShloMosaic.Lib.Pipeline.Value

-- membership in a rectangle of the kernel's extents recurses once per coordinate of the long axes
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- Case B leaves the accumulate step over what the point before left. -/
theorem sout0_B_0_eq (c : Dev nD) (i : grid0.Coords) (arg3 : Memref sig .tc .vmem S1x16x512 .i32) (harg3 : arg3.IsWhole) (arg4 : Memref sig .tc .vmem S1x400x8 .f32) (harg4 : arg4.IsWhole) (arg5 : Memref sig .tc .vmem S1x16x1x3 .f32) (harg5 : arg5.IsWhole) (arg6 : Memref sig .tc .vmem S1x16x1x1 .f32) (harg6 : arg6.IsWhole) (arg7 : Memref sig .tc .vmem S1x16x1x1 .f32) (harg7 : arg7.IsWhole) (arg8 : Memref sig .tc .vmem S1x16x512x3 .f32) (harg8 : arg8.IsWhole) (arg9 : Memref sig .tc .vmem S1x16x512x5 .f32) (harg9 : arg9.IsWhole) (arg10 : Memref sig .tc .vmem S16x512x8 .f32) (harg10 : arg10.IsWhole) (hc0 : ¬cond0_0 i) (hc1 : ¬cond0_1 i)
    (x0 : Vec F S1x16x512 .i32) (x1 : Vec F S1x400x8 .f32) (x2 : Vec F S1x16x1x3 .f32) (x3 : Vec F S1x16x1x1 .f32) (x4 : Vec F S1x16x1x1 .f32) (xs0 : Vec F S16x512x8 .f32) :
    sout0_B_0 c i arg3 harg3 arg4 harg4 arg5 harg5 arg6 harg6 arg7 harg7 arg8 harg8 arg9 harg9 arg10 harg10 hc0 hc1 x0 x1 x2 x3 x4 xs0 = k0_pay4 i x1 x0 xs0 := by
  unfold sout0_B_0
  rw [View.read_writes_eq_canon _ _ _ (scover0_B_0 c i arg3 harg3 arg4 harg4 arg5 harg5 arg6 harg6 arg7 harg7 arg8 harg8 arg9 harg9 arg10 harg10 hc0 hc1 x0 x1 x2 x3 x4 xs0)]
  unfold kernelRun0_B
  dsimp only
  sl_unfold_words
  rw [View.canon_unit_zero hz3]
  simp only [View.readAt_eq_ld, harg3.read_unread, harg4.read_unread, harg5.read_unread, harg6.read_unread, harg7.read_unread, harg8.read_unread, harg9.read_unread, harg10.read_unread, View.ld_unit_zero (S := S16x512x8) hz3, View.ld_unit_zero (S := S1x16x512) hz3, View.ld_unit_zero (S := S1x400x8) hz3, View.ld_unit_zero (S := S1x16x1x3) hz4, View.ld_unit_zero (S := S1x16x1x1) hz4, View.ld_unit_zero (S := S1x16x512x3) hz4, View.ld_unit_zero (S := S1x16x512x5) hz4]

/-- Case C leaves the same in the accumulator. -/
theorem sout0_C_0_eq (c : Dev nD) (i : grid0.Coords) (arg3 : Memref sig .tc .vmem S1x16x512 .i32) (harg3 : arg3.IsWhole) (arg4 : Memref sig .tc .vmem S1x400x8 .f32) (harg4 : arg4.IsWhole) (arg5 : Memref sig .tc .vmem S1x16x1x3 .f32) (harg5 : arg5.IsWhole) (arg6 : Memref sig .tc .vmem S1x16x1x1 .f32) (harg6 : arg6.IsWhole) (arg7 : Memref sig .tc .vmem S1x16x1x1 .f32) (harg7 : arg7.IsWhole) (arg8 : Memref sig .tc .vmem S1x16x512x3 .f32) (harg8 : arg8.IsWhole) (arg9 : Memref sig .tc .vmem S1x16x512x5 .f32) (harg9 : arg9.IsWhole) (arg10 : Memref sig .tc .vmem S16x512x8 .f32) (harg10 : arg10.IsWhole) (hc0 : ¬cond0_0 i) (hc1 : cond0_1 i)
    (x0 : Vec F S1x16x512 .i32) (x1 : Vec F S1x400x8 .f32) (x2 : Vec F S1x16x1x3 .f32) (x3 : Vec F S1x16x1x1 .f32) (x4 : Vec F S1x16x1x1 .f32) (xs0 : Vec F S16x512x8 .f32) :
    sout0_C_0 c i arg3 harg3 arg4 harg4 arg5 harg5 arg6 harg6 arg7 harg7 arg8 harg8 arg9 harg9 arg10 harg10 hc0 hc1 x0 x1 x2 x3 x4 xs0 = k0_pay4 i x1 x0 xs0 := by
  unfold sout0_C_0
  rw [View.read_writes_eq_canon _ _ _ (scover0_C_0 c i arg3 harg3 arg4 harg4 arg5 harg5 arg6 harg6 arg7 harg7 arg8 harg8 arg9 harg9 arg10 harg10 hc0 hc1 x0 x1 x2 x3 x4 xs0)]
  unfold kernelRun0_C
  dsimp only
  sl_unfold_words
  rw [View.canon_unit_zero hz3]
  simp only [View.readAt_eq_ld, harg3.read_unread, harg4.read_unread, harg5.read_unread, harg6.read_unread, harg7.read_unread, harg8.read_unread, harg9.read_unread, harg10.read_unread, View.ld_unit_zero (S := S16x512x8) hz3, View.ld_unit_zero (S := S1x16x512) hz3, View.ld_unit_zero (S := S1x400x8) hz3, View.ld_unit_zero (S := S1x16x1x3) hz4, View.ld_unit_zero (S := S1x16x1x1) hz4, View.ld_unit_zero (S := S1x16x512x3) hz4, View.ld_unit_zero (S := S1x16x512x5) hz4]

/-- Case A stores the zero block, reads it back, and leaves the accumulate step over it. -/
theorem sout0_A_0_eq (c : Dev nD) (i : grid0.Coords) (arg3 : Memref sig .tc .vmem S1x16x512 .i32) (harg3 : arg3.IsWhole) (arg4 : Memref sig .tc .vmem S1x400x8 .f32) (harg4 : arg4.IsWhole) (arg5 : Memref sig .tc .vmem S1x16x1x3 .f32) (harg5 : arg5.IsWhole) (arg6 : Memref sig .tc .vmem S1x16x1x1 .f32) (harg6 : arg6.IsWhole) (arg7 : Memref sig .tc .vmem S1x16x1x1 .f32) (harg7 : arg7.IsWhole) (arg8 : Memref sig .tc .vmem S1x16x512x3 .f32) (harg8 : arg8.IsWhole) (arg9 : Memref sig .tc .vmem S1x16x512x5 .f32) (harg9 : arg9.IsWhole) (arg10 : Memref sig .tc .vmem S16x512x8 .f32) (harg10 : arg10.IsWhole) (hc0 : cond0_0 i) (hc1 : ¬cond0_1 i)
    (x0 : Vec F S1x16x512 .i32) (x1 : Vec F S1x400x8 .f32) (x2 : Vec F S1x16x1x3 .f32) (x3 : Vec F S1x16x1x1 .f32) (x4 : Vec F S1x16x1x1 .f32) :
    sout0_A_0 c i arg3 harg3 arg4 harg4 arg5 harg5 arg6 harg6 arg7 harg7 arg8 harg8 arg9 harg9 arg10 harg10 hc0 hc1 x0 x1 x2 x3 x4 = k0_pay4 i x1 x0 (k0_pay3 (F := F)) := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S16x512x8) hz3]
  simp only [View.readCov_unit_zero (S := S16x512x8) _ hz3, View.readAt_eq_ld, harg3.read_unread, harg4.read_unread, harg5.read_unread, harg6.read_unread, harg7.read_unread, harg8.read_unread, harg9.read_unread, harg10.read_unread, View.ld_unit_zero (S := S16x512x8) hz3, View.ld_unit_zero (S := S1x16x512) hz3, View.ld_unit_zero (S := S1x400x8) hz3, View.ld_unit_zero (S := S1x16x1x3) hz4, View.ld_unit_zero (S := S1x16x1x1) hz4, View.ld_unit_zero (S := S1x16x512x3) hz4, View.ld_unit_zero (S := S1x16x512x5) hz4]

/-- Case C leaves in output 5 the rotation of the completed accumulator. -/
theorem out0_C_5_eq (c : Dev nD) (i : grid0.Coords) (arg3 : Memref sig .tc .vmem S1x16x512 .i32) (harg3 : arg3.IsWhole) (arg4 : Memref sig .tc .vmem S1x400x8 .f32) (harg4 : arg4.IsWhole) (arg5 : Memref sig .tc .vmem S1x16x1x3 .f32) (harg5 : arg5.IsWhole) (arg6 : Memref sig .tc .vmem S1x16x1x1 .f32) (harg6 : arg6.IsWhole) (arg7 : Memref sig .tc .vmem S1x16x1x1 .f32) (harg7 : arg7.IsWhole) (arg8 : Memref sig .tc .vmem S1x16x512x3 .f32) (harg8 : arg8.IsWhole) (arg9 : Memref sig .tc .vmem S1x16x512x5 .f32) (harg9 : arg9.IsWhole) (arg10 : Memref sig .tc .vmem S16x512x8 .f32) (harg10 : arg10.IsWhole) (hc0 : ¬cond0_0 i) (hc1 : cond0_1 i)
    (x0 : Vec F S1x16x512 .i32) (x1 : Vec F S1x400x8 .f32) (x2 : Vec F S1x16x1x3 .f32) (x3 : Vec F S1x16x1x1 .f32) (x4 : Vec F S1x16x1x1 .f32) (xs0 : Vec F S16x512x8 .f32) :
    out0_C_5 c i arg3 harg3 arg4 harg4 arg5 harg5 arg6 harg6 arg7 harg7 arg8 harg8 arg9 harg9 arg10 harg10 hc0 hc1 x0 x1 x2 x3 x4 xs0 = k0_pay2 (k0_pay4 i x1 x0 xs0) x2 x3 x4 := by
  unfold out0_C_5
  rw [View.read_writes_eq_canon _ _ _ (cover0_C_5 c i arg3 harg3 arg4 harg4 arg5 harg5 arg6 harg6 arg7 harg7 arg8 harg8 arg9 harg9 arg10 harg10 hc0 hc1 x0 x1 x2 x3 x4 xs0)]
  unfold kernelRun0_C
  dsimp only
  sl_unfold_words
  rw [View.canon_unit_zero hz4]
  simp only [View.readCov_unit_zero (S := S16x512x8) _ hz3, View.readAt_eq_ld, harg3.read_unread, harg4.read_unread, harg5.read_unread, harg6.read_unread, harg7.read_unread, harg8.read_unread, harg9.read_unread, harg10.read_unread, View.ld_unit_zero (S := S16x512x8) hz3, View.ld_unit_zero (S := S1x16x512) hz3, View.ld_unit_zero (S := S1x400x8) hz3, View.ld_unit_zero (S := S1x16x1x3) hz4, View.ld_unit_zero (S := S1x16x1x1) hz4, View.ld_unit_zero (S := S1x16x512x3) hz4, View.ld_unit_zero (S := S1x16x512x5) hz4]

/-- And in output 6 the completed accumulator's last five channels. -/
theorem out0_C_6_eq (c : Dev nD) (i : grid0.Coords) (arg3 : Memref sig .tc .vmem S1x16x512 .i32) (harg3 : arg3.IsWhole) (arg4 : Memref sig .tc .vmem S1x400x8 .f32) (harg4 : arg4.IsWhole) (arg5 : Memref sig .tc .vmem S1x16x1x3 .f32) (harg5 : arg5.IsWhole) (arg6 : Memref sig .tc .vmem S1x16x1x1 .f32) (harg6 : arg6.IsWhole) (arg7 : Memref sig .tc .vmem S1x16x1x1 .f32) (harg7 : arg7.IsWhole) (arg8 : Memref sig .tc .vmem S1x16x512x3 .f32) (harg8 : arg8.IsWhole) (arg9 : Memref sig .tc .vmem S1x16x512x5 .f32) (harg9 : arg9.IsWhole) (arg10 : Memref sig .tc .vmem S16x512x8 .f32) (harg10 : arg10.IsWhole) (hc0 : ¬cond0_0 i) (hc1 : cond0_1 i)
    (x0 : Vec F S1x16x512 .i32) (x1 : Vec F S1x400x8 .f32) (x2 : Vec F S1x16x1x3 .f32) (x3 : Vec F S1x16x1x1 .f32) (x4 : Vec F S1x16x1x1 .f32) (xs0 : Vec F S16x512x8 .f32) :
    out0_C_6 c i arg3 harg3 arg4 harg4 arg5 harg5 arg6 harg6 arg7 harg7 arg8 harg8 arg9 harg9 arg10 harg10 hc0 hc1 x0 x1 x2 x3 x4 xs0 = k0_pay5 (k0_pay1 (k0_pay4 i x1 x0 xs0)) := by
  unfold out0_C_6
  rw [View.read_writes_eq_canon _ _ _ (cover0_C_6 c i arg3 harg3 arg4 harg4 arg5 harg5 arg6 harg6 arg7 harg7 arg8 harg8 arg9 harg9 arg10 harg10 hc0 hc1 x0 x1 x2 x3 x4 xs0)]
  unfold kernelRun0_C
  dsimp only
  sl_unfold_words
  rw [View.canon_unit_zero hz4]
  simp only [View.readCov_unit_zero (S := S16x512x8) _ hz3, View.readAt_eq_ld, harg3.read_unread, harg4.read_unread, harg5.read_unread, harg6.read_unread, harg7.read_unread, harg8.read_unread, harg9.read_unread, harg10.read_unread, View.ld_unit_zero (S := S16x512x8) hz3, View.ld_unit_zero (S := S1x16x512) hz3, View.ld_unit_zero (S := S1x400x8) hz3, View.ld_unit_zero (S := S1x16x1x3) hz4, View.ld_unit_zero (S := S1x16x1x1) hz4, View.ld_unit_zero (S := S1x16x512x3) hz4, View.ld_unit_zero (S := S1x16x512x5) hz4]

end Cert.KernelIdeal.Fr

end
-- ==== Proof.KernelIdeal.Acc.lean ====
/-
  The accumulator in closed form. After linear point n the accumulator holds the accumulate step (payload 4) of the
  point's point rows and sample numbers over the zero block (payload 3) when n is a first point tile (n ≡ 0 mod 100), over
  what point n − 1 left otherwise: a recursion on the point that mentions no run. The proof data's accumulator component is
  this (by induction on the point, from the three cases' values), and at a last point tile (n ≡ 99 mod 100) the two
  outputs' buffers hold the rotation (payload 2) and the last five channels (payloads 1, 5) of it.
-/
import proofs.«179565_j43817256354257_2_alg».proof.Proof.KernelIdeal.Pieces

-- membership in a rectangle of the kernel's extents recurses once per coordinate of the long axes
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data's components at a point of each case, as payloads -/

set_option maxHeartbeats 4000000 in
theorem scr_A (c : Dev nD) (t : Fin cfg0.N) (h0 : t.val % 100 = 0) (h1 : ¬t.val % 100 = 99) :
    (outsAt0 m c t.val t.isLt).2.2 = k0_pay4 (grid0.coords t) (iblk m c 1 t) (iblk m c 0 t) (k0_pay3 (F := F)) :=
  (congrArg (fun p => p.2.2) (outsAt0_A m c t h0 h1)).trans
    (sout0_A_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk m c 0 t) (iblk m c 1 t) (iblk m c 2 t) (iblk m c 3 t) (iblk m c 4 t))

set_option maxHeartbeats 4000000 in
theorem scr_B (c : Dev nD) (t : Fin cfg0.N) (h0 : ¬t.val % 100 = 0) (h1 : ¬t.val % 100 = 99) :
    (outsAt0 m c t.val t.isLt).2.2 = k0_pay4 (grid0.coords t) (iblk m c 1 t) (iblk m c 0 t) (outsAt0 m c (t.val - 1) (Nat.lt_of_le_of_lt (Nat.sub_le _ _) t.isLt)).2.2 :=
  (congrArg (fun p => p.2.2) (outsAt0_B m c t h0 h1)).trans
    (sout0_B_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2)

set_option maxHeartbeats 4000000 in
theorem scr_C (c : Dev nD) (t : Fin cfg0.N) (h0 : ¬t.val % 100 = 0) (h1 : t.val % 100 = 99) :
    (outsAt0 m c t.val t.isLt).2.2 = k0_pay4 (grid0.coords t) (iblk m c 1 t) (iblk m c 0 t) (outsAt0 m c (t.val - 1) (Nat.lt_of_le_of_lt (Nat.sub_le _ _) t.isLt)).2.2 :=
  (congrArg (fun p => p.2.2) (outsAt0_C m c t h0 h1)).trans
    (sout0_C_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2)

set_option maxHeartbeats 4000000 in
theorem out5_C (c : Dev nD) (t : Fin cfg0.N) (h0 : ¬t.val % 100 = 0) (h1 : t.val % 100 = 99) :
    (outsAt0 m c t.val t.isLt).1 = k0_pay2 (k0_pay4 (grid0.coords t) (iblk m c 1 t) (iblk m c 0 t) (outsAt0 m c (t.val - 1) (Nat.lt_of_le_of_lt (Nat.sub_le _ _) t.isLt)).2.2) (iblk m c 2 t) (iblk m c 3 t) (iblk m c 4 t) :=
  (congrArg (fun p => p.1) (outsAt0_C m c t h0 h1)).trans
    (out0_C_5_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2)

set_option maxHeartbeats 4000000 in
theorem out6_C (c : Dev nD) (t : Fin cfg0.N) (h0 : ¬t.val % 100 = 0) (h1 : t.val % 100 = 99) :
    (outsAt0 m c t.val t.isLt).2.1 = k0_pay5 (k0_pay1 (k0_pay4 (grid0.coords t) (iblk m c 1 t) (iblk m c 0 t) (outsAt0 m c (t.val - 1) (Nat.lt_of_le_of_lt (Nat.sub_le _ _) t.isLt)).2.2)) :=
  (congrArg (fun p => p.2.1) (outsAt0_C m c t h0 h1)).trans
    (out0_C_6_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2)

/-! ## The closed form -/

/-- The accumulator after linear point `n`. -/
def acc (c : Dev nD) : (n : ℕ) → n < cfg0.N → Vec F S16x512x8 .f32
  | 0, h => k0_pay4 (grid0.coords ⟨0, h⟩) (iblk m c 1 ⟨0, h⟩) (iblk m c 0 ⟨0, h⟩) (k0_pay3 (F := F))
  | n + 1, h => k0_pay4 (grid0.coords ⟨n + 1, h⟩) (iblk m c 1 ⟨n + 1, h⟩) (iblk m c 0 ⟨n + 1, h⟩)
      (if (n + 1) % 100 = 0 then (k0_pay3 (F := F)) else acc c n (Nat.lt_of_succ_lt h))

theorem acc_succ_of_ne (c : Dev nD) (n : ℕ) (h : n + 1 < cfg0.N) (h0 : ¬(n + 1) % 100 = 0) :
    acc m c (n + 1) h = k0_pay4 (grid0.coords ⟨n + 1, h⟩) (iblk m c 1 ⟨n + 1, h⟩) (iblk m c 0 ⟨n + 1, h⟩) (acc m c n (Nat.lt_of_succ_lt h)) := by
  show k0_pay4 _ _ _ (if _ then _ else _) = _
  rw [if_neg h0]

theorem acc_of_first (c : Dev nD) (t : Fin cfg0.N) (h0 : t.val % 100 = 0) :
    acc m c t.val t.isLt = k0_pay4 (grid0.coords t) (iblk m c 1 t) (iblk m c 0 t) (k0_pay3 (F := F)) := by
  obtain ⟨n, hn⟩ := t
  cases n with
  | zero => rfl
  | succ n => show k0_pay4 _ _ _ (if _ then _ else _) = _; rw [if_pos h0]

/-- The proof data's accumulator component is the closed form. -/
theorem outsAt_acc (c : Dev nD) : ∀ (n : ℕ) (h : n < cfg0.N), (outsAt0 m c n h).2.2 = acc m c n h
  | 0, h => scr_A m c ⟨0, h⟩ (Nat.zero_mod 100) (by show ¬0 % 100 = 99; decide)
  | n + 1, h => by
    by_cases h0 : (n + 1) % 100 = 0
    · have h1 : ¬(n + 1) % 100 = 99 := by omega
      exact (scr_A m c ⟨n + 1, h⟩ h0 h1).trans (acc_of_first m c ⟨n + 1, h⟩ h0).symm
    · have ih : (outsAt0 m c n (Nat.lt_of_succ_lt h)).2.2 = acc m c n (Nat.lt_of_succ_lt h) := outsAt_acc c n _
      by_cases h1 : (n + 1) % 100 = 99
      · refine (scr_C m c ⟨n + 1, h⟩ h0 h1).trans ?_
        rw [acc_succ_of_ne m c n h h0]
        exact congrArg (k0_pay4 (grid0.coords ⟨n + 1, h⟩) (iblk m c 1 ⟨n + 1, h⟩) (iblk m c 0 ⟨n + 1, h⟩)) ih
      · refine (scr_B m c ⟨n + 1, h⟩ h0 h1).trans ?_
        rw [acc_succ_of_ne m c n h h0]
        exact congrArg (k0_pay4 (grid0.coords ⟨n + 1, h⟩) (iblk m c 1 ⟨n + 1, h⟩) (iblk m c 0 ⟨n + 1, h⟩)) ih

/-- The accumulate step over what the point before left IS the closed form, away from a first point tile. -/
theorem step_acc (c : Dev nD) (t : Fin cfg0.N) (h0 : ¬t.val % 100 = 0) :
    k0_pay4 (grid0.coords t) (iblk m c 1 t) (iblk m c 0 t) (outsAt0 m c (t.val - 1) (Nat.lt_of_le_of_lt (Nat.sub_le _ _) t.isLt)).2.2 = acc m c t.val t.isLt := by
  obtain ⟨n, hn⟩ := t
  cases n with
  | zero => exact absurd (Nat.zero_mod 100) h0
  | succ n =>
    rw [acc_succ_of_ne m c n hn h0]
    exact congrArg (k0_pay4 (grid0.coords ⟨n + 1, hn⟩) (iblk m c 1 ⟨n + 1, hn⟩) (iblk m c 0 ⟨n + 1, hn⟩)) (outsAt_acc m c n _)

/-- At a last point tile output 5's buffer holds the rotation of the completed accumulator. -/
theorem outsAt_out5 (c : Dev nD) (t : Fin cfg0.N) (h1 : t.val % 100 = 99) :
    (outsAt0 m c t.val t.isLt).1 = k0_pay2 (acc m c t.val t.isLt) (iblk m c 2 t) (iblk m c 3 t) (iblk m c 4 t) := by
  have h0 : ¬t.val % 100 = 0 := by omega
  refine (out5_C m c t h0 h1).trans ?_
  exact congrArg (fun a => k0_pay2 a (iblk m c 2 t) (iblk m c 3 t) (iblk m c 4 t)) (step_acc m c t h0)

/-- And output 6's its last five channels. -/
theorem outsAt_out6 (c : Dev nD) (t : Fin cfg0.N) (h1 : t.val % 100 = 99) :
    (outsAt0 m c t.val t.isLt).2.1 = k0_pay5 (k0_pay1 (acc m c t.val t.isLt)) := by
  have h0 : ¬t.val % 100 = 0 := by omega
  refine (out6_C m c t h0 h1).trans ?_
  exact congrArg (fun a => k0_pay5 (k0_pay1 a)) (step_acc m c t h0)

end Cert.KernelIdeal.Fr

end
-- ==== Proof.KernelIdeal.IdxFacts.lean ====
/-
  The windows' block indices in closed form over the grid 4 × 16 × 100, linear point t = (batch · 16 + box tile) · 100 +
  point tile: every window but the point rows' sits at block (t / 1600, t / 100 mod 16, 0, …) of its array, the point rows'
  at (t / 1600, t mod 100, 0); and the body's third grid coordinate is t mod 100. Decided over the 6400 points.
-/
import proofs.«179565_j43817256354257_2_alg».proof.Proof.Gen.KernelIdeal.Points

noncomputable section

namespace Cert.KernelIdeal.Fr

open Idealize.ShloMosaic Idealize.SL.Sem
open Cert.KernelIdeal.Gen

theorem idx_facts01 : ∀ t : Fin cfg0.N, win0_0.index t (0 : Fin 3) = t.val / 1600 ∧ win0_0.index t (1 : Fin 3) = t.val / 100 % 16 ∧ win0_0.index t (2 : Fin 3) = 0
    ∧ win0_1.index t (0 : Fin 3) = t.val / 1600 ∧ win0_1.index t (1 : Fin 3) = t.val % 100 ∧ win0_1.index t (2 : Fin 3) = 0 ∧ (grid0.coords t (2 : Fin 3)).val = t.val % 100 :=
  (by decide +kernel : ∀ t : Fin grid0.N, _)

theorem idx_facts234 : ∀ t : Fin cfg0.N, win0_2.index t (0 : Fin 4) = t.val / 1600 ∧ win0_2.index t (1 : Fin 4) = t.val / 100 % 16 ∧ win0_2.index t (2 : Fin 4) = 0 ∧ win0_2.index t (3 : Fin 4) = 0
    ∧ win0_3.index t (0 : Fin 4) = t.val / 1600 ∧ win0_3.index t (1 : Fin 4) = t.val / 100 % 16 ∧ win0_3.index t (2 : Fin 4) = 0 ∧ win0_3.index t (3 : Fin 4) = 0
    ∧ win0_4.index t (0 : Fin 4) = t.val / 1600 ∧ win0_4.index t (1 : Fin 4) = t.val / 100 % 16 ∧ win0_4.index t (2 : Fin 4) = 0 ∧ win0_4.index t (3 : Fin 4) = 0 :=
  (by decide +kernel : ∀ t : Fin grid0.N, _)

theorem idx_facts56 : ∀ t : Fin cfg0.N, win0_5.index t (0 : Fin 4) = t.val / 1600 ∧ win0_5.index t (1 : Fin 4) = t.val / 100 % 16 ∧ win0_5.index t (2 : Fin 4) = 0 ∧ win0_5.index t (3 : Fin 4) = 0
    ∧ win0_6.index t (0 : Fin 4) = t.val / 1600 ∧ win0_6.index t (1 : Fin 4) = t.val / 100 % 16 ∧ win0_6.index t (2 : Fin 4) = 0 ∧ win0_6.index t (3 : Fin 4) = 0 :=
  (by decide +kernel : ∀ t : Fin grid0.N, _)

end Cert.KernelIdeal.Fr

end
-- ==== Proof.KernelIdeal.Blocks.lean ====
/-
  The input windows' blocks read at explicit coordinates. Linear point t is batch t / 1600, box tile t / 100 mod 16, point
  tile t mod 100. Row r of the box tile is box (t / 100 mod 16) · 16 + r of the batch; row k of the point tile is point
  (t mod 100) · 400 + k of the batch. So the sample-number block at (r, s) is the sample-number array at (batch, box, s);
  the point-row block at (k, ch) is the point table at (batch, point, ch); and the centre, cosine and sine blocks at row r
  are those arrays at (batch, box). Each fact is stated for an arbitrary array of the window's shape.
-/
import proofs.«179565_j43817256354257_2_alg».proof.Proof.KernelIdeal.Frame
import proofs.«179565_j43817256354257_2_alg».proof.Proof.KernelIdeal.IdxFacts
import Idealize.ShloMosaic.Lib.ValueIdx

-- membership in a rectangle of the kernel's extents recurses once per coordinate of the long axes
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
open Idealize.ShloMosaic.ValueIdx

theorem hN (t : Fin cfg0.N) : t.val < 6400 := lt_of_lt_of_eq t.isLt (show cfg0.N = 6400 from N_0)

/-- The batch of linear point `t`. -/
def bOf (t : Fin cfg0.N) : Fin 4 := ⟨t.val / 1600, by have := hN t; omega⟩
/-- Row `r` of its box tile, as a box of the batch. -/
def rowOf (t : Fin cfg0.N) (r : Fin 16) : Fin 256 :=
  ⟨t.val / 100 % 16 * 16 + r.val, by have := r.isLt; have : t.val / 100 % 16 < 16 := Nat.mod_lt _ (by norm_num); omega⟩
/-- Row `k` of its point tile, as a point of the batch. -/
def ptOf (t : Fin cfg0.N) (k : Fin 400) : Fin 40000 :=
  ⟨t.val % 100 * 400 + k.val, by have := k.isLt; have : t.val % 100 < 100 := Nat.mod_lt _ (by norm_num); omega⟩

theorem coords2 (t : Fin cfg0.N) : (grid0.coords t (2 : Fin 3)).val = t.val % 100 := (idx_facts01 t).2.2.2.2.2.2

/-- Where window 0's block at point `t` sits in its array. -/
theorem emb0 (t : Fin cfg0.N) (r : Fin 16) (s : Fin 512) :
    ((cfg0.win 0).blk t).view.emb (ix3 (0 : Fin 1) r s) = ix3 (bOf t) (rowOf t r) s := by
  obtain ⟨e0, e1, e2, -⟩ := idx_facts01 t
  funext a; apply Fin.ext
  match a with
  | ⟨0, _⟩ => show win0_0.index t (0 : Fin 3) * 1 + 1 * 0 = t.val / 1600; omega
  | ⟨1, _⟩ => show win0_0.index t (1 : Fin 3) * 16 + 1 * r.val = t.val / 100 % 16 * 16 + r.val; omega
  | ⟨2, _⟩ => show win0_0.index t (2 : Fin 3) * 512 + 1 * s.val = s.val; omega

theorem blk0_read (A : S4x256x512.Idx → Elt F .i32) (t : Fin cfg0.N) (r : Fin 16) (s : Fin 512) :
    ((cfg0.win 0).blk t).view.read (Elt F) A (ix3 (0 : Fin 1) r s) = A (ix3 (bOf t) (rowOf t r) s) :=
  congrArg A (emb0 t r s)

/-- Where window 1's block at point `t` sits in its array. -/
theorem emb1 (t : Fin cfg0.N) (k : Fin 400) (ch : Fin 8) :
    ((cfg0.win 1).blk t).view.emb (ix3 (0 : Fin 1) k ch) = ix3 (bOf t) (ptOf t k) ch := by
  obtain ⟨-, -, -, e0, e1, e2, -⟩ := idx_facts01 t
  funext a; apply Fin.ext
  match a with
  | ⟨0, _⟩ => show win0_1.index t (0 : Fin 3) * 1 + 1 * 0 = t.val / 1600; omega
  | ⟨1, _⟩ => show win0_1.index t (1 : Fin 3) * 400 + 1 * k.val = t.val % 100 * 400 + k.val; omega
  | ⟨2, _⟩ => show win0_1.index t (2 : Fin 3) * 8 + 1 * ch.val = ch.val; omega

theorem blk1_read (A : S4x40000x8.Idx → Elt F .f32) (t : Fin cfg0.N) (k : Fin 400) (ch : Fin 8) :
    ((cfg0.win 1).blk t).view.read (Elt F) A (ix3 (0 : Fin 1) k ch) = A (ix3 (bOf t) (ptOf t k) ch) :=
  congrArg A (emb1 t k ch)

/-- Where window 2's block at point `t` sits in its array. -/
theorem emb2 (t : Fin cfg0.N) (r : Fin 16) (k : Fin 3) :
    ((cfg0.win 2).blk t).view.emb (ix4 (0 : Fin 1) r (0 : Fin 1) k) = ix4 (bOf t) (rowOf t r) (0 : Fin 1) k := by
  obtain ⟨e0, e1, e2, e3, -⟩ := idx_facts234 t
  funext a; apply Fin.ext
  match a with
  | ⟨0, _⟩ => show win0_2.index t (0 : Fin 4) * 1 + 1 * 0 = t.val / 1600; omega
  | ⟨1, _⟩ => show win0_2.index t (1 : Fin 4) * 16 + 1 * r.val = t.val / 100 % 16 * 16 + r.val; omega
  | ⟨2, _⟩ => show win0_2.index t (2 : Fin 4) * 1 + 1 * 0 = 0; omega
  | ⟨3, _⟩ => show win0_2.index t (3 : Fin 4) * 3 + 1 * k.val = k.val; omega

theorem blk2_read (A : S4x256x1x3.Idx → Elt F .f32) (t : Fin cfg0.N) (r : Fin 16) (k : Fin 3) :
    ((cfg0.win 2).blk t).view.read (Elt F) A (ix4 (0 : Fin 1) r (0 : Fin 1) k) = A (ix4 (bOf t) (rowOf t r) (0 : Fin 1) k) :=
  congrArg A (emb2 t r k)

/-- Where window 3's block at point `t` sits in its array. -/
theorem emb3 (t : Fin cfg0.N) (r : Fin 16) :
    ((cfg0.win 3).blk t).view.emb (ix4 (0 : Fin 1) r (0 : Fin 1) (0 : Fin 1)) = ix4 (bOf t) (rowOf t r) (0 : Fin 1) (0 : Fin 1) := by
  obtain ⟨-, -, -, -, e0, e1, e2, e3, -⟩ := idx_facts234 t
  funext a; apply Fin.ext
  match a with
  | ⟨0, _⟩ => show win0_3.index t (0 : Fin 4) * 1 + 1 * 0 = t.val / 1600; omega
  | ⟨1, _⟩ => show win0_3.index t (1 : Fin 4) * 16 + 1 * r.val = t.val / 100 % 16 * 16 + r.val; omega
  | ⟨2, _⟩ => show win0_3.index t (2 : Fin 4) * 1 + 1 * 0 = 0; omega
  | ⟨3, _⟩ => show win0_3.index t (3 : Fin 4) * 1 + 1 * 0 = 0; omega

theorem blk3_read (A : S4x256x1x1.Idx → Elt F .f32) (t : Fin cfg0.N) (r : Fin 16) :
    ((cfg0.win 3).blk t).view.read (Elt F) A (ix4 (0 : Fin 1) r (0 : Fin 1) (0 : Fin 1)) = A (ix4 (bOf t) (rowOf t r) (0 : Fin 1) (0 : Fin 1)) :=
  congrArg A (emb3 t r)

/-- Where window 4's block at point `t` sits in its array. -/
theorem emb4 (t : Fin cfg0.N) (r : Fin 16) :
    ((cfg0.win 4).blk t).view.emb (ix4 (0 : Fin 1) r (0 : Fin 1) (0 : Fin 1)) = ix4 (bOf t) (rowOf t r) (0 : Fin 1) (0 : Fin 1) := by
  obtain ⟨-, -, -, -, -, -, -, -, e0, e1, e2, e3⟩ := idx_facts234 t
  funext a; apply Fin.ext
  match a with
  | ⟨0, _⟩ => show win0_4.index t (0 : Fin 4) * 1 + 1 * 0 = t.val / 1600; omega
  | ⟨1, _⟩ => show win0_4.index t (1 : Fin 4) * 16 + 1 * r.val = t.val / 100 % 16 * 16 + r.val; omega
  | ⟨2, _⟩ => show win0_4.index t (2 : Fin 4) * 1 + 1 * 0 = 0; omega
  | ⟨3, _⟩ => show win0_4.index t (3 : Fin 4) * 1 + 1 * 0 = 0; omega

theorem blk4_read (A : S4x256x1x1.Idx → Elt F .f32) (t : Fin cfg0.N) (r : Fin 16) :
    ((cfg0.win 4).blk t).view.read (Elt F) A (ix4 (0 : Fin 1) r (0 : Fin 1) (0 : Fin 1)) = A (ix4 (bOf t) (rowOf t r) (0 : Fin 1) (0 : Fin 1)) :=
  congrArg A (emb4 t r)

end Cert.KernelIdeal.Fr

end
-- ==== Proof.KernelIdeal.Arr.lean ====
/-
  The five arrays the region reads, as it finds them, under names of their own: the point table Pt [4, 40000, 8], the sample
  numbers Ix [4, 256, 512], the box centres Ct [4, 256, 1, 3], the cosines Cs and the sines Sn [4, 256, 1, 1]. Each is the
  launch memory after the host operations before the region, read at one buffer; the value proofs never open that, so the
  names are sealed once the two facts that need the definition are stated: each input window's block is a read of its
  array through the point's rectangle, and each name is the region-entry contents of the program's buffer.
-/
import proofs.«179565_j43817256354257_2_alg».proof.Proof.KernelIdeal.Blocks

noncomputable section

namespace Cert.KernelIdeal.KV

open Idealize.ShloMosaic Idealize.ShloMosaic.TcCoe Idealize.SL.Sem Idealize.ShloMosaic.ValueIdx
open Cert.KernelIdeal Cert.KernelIdeal.Gen Cert.KernelIdeal.Fr

variable (m : (ℓ : Loc nD τ sig) → Buf (Elt Ideal) ℓ) (c : Dev nD)

def Ix : S4x256x512.Idx → BitVec 32 := V m c (Pipeline.arrRef spec0 0)
def Pt : S4x40000x8.Idx → EReal := V m c (Pipeline.arrRef spec0 1)
def Ct : S4x256x1x3.Idx → EReal := V m c (Pipeline.arrRef spec0 2)
def Cs : S4x256x1x1.Idx → EReal := V m c (Pipeline.arrRef spec0 3)
def Sn : S4x256x1x1.Idx → EReal := V m c (Pipeline.arrRef spec0 4)

theorem iblk0_eq (t : Fin cfg0.N) : (iblk m c 0 t : Vec Ideal S1x16x512 .i32) = ((cfg0.win 0).blk t).view.read (Elt Ideal) (Ix m c) := rfl
theorem iblk1_eq (t : Fin cfg0.N) : (iblk m c 1 t : Vec Ideal S1x400x8 .f32) = ((cfg0.win 1).blk t).view.read (Elt Ideal) (Pt m c) := rfl
theorem iblk2_eq (t : Fin cfg0.N) : (iblk m c 2 t : Vec Ideal S1x16x1x3 .f32) = ((cfg0.win 2).blk t).view.read (Elt Ideal) (Ct m c) := rfl
theorem iblk3_eq (t : Fin cfg0.N) : (iblk m c 3 t : Vec Ideal S1x16x1x1 .f32) = ((cfg0.win 3).blk t).view.read (Elt Ideal) (Cs m c) := rfl
theorem iblk4_eq (t : Fin cfg0.N) : (iblk m c 4 t : Vec Ideal S1x16x1x1 .f32) = ((cfg0.win 4).blk t).view.read (Elt Ideal) (Sn m c) := rfl

theorem Ix_def : Ix m c = (V m c main_v63 : S4x256x512.Idx → BitVec 32) := rfl
theorem Pt_def : Pt m c = (V m c main_v4 : S4x40000x8.Idx → EReal) := rfl
theorem Ct_def : Ct m c = (V m c main_v64 : S4x256x1x3.Idx → EReal) := rfl
theorem Cs_def : Cs m c = (V m c main_v66 : S4x256x1x1.Idx → EReal) := rfl
theorem Sn_def : Sn m c = (V m c main_v68 : S4x256x1x1.Idx → EReal) := rfl

attribute [irreducible] Ix Pt Ct Cs Sn

theorem iblk0_apply (t : Fin cfg0.N) (r : Fin 16) (s : Fin 512) :
    (iblk m c 0 t : Vec Ideal S1x16x512 .i32) (ix3 (0 : Fin 1) r s) = Ix m c (ix3 (bOf t) (rowOf t r) s) := by
  rw [iblk0_eq]; exact blk0_read (F := Ideal) (Ix m c) t r s
theorem iblk1_apply (t : Fin cfg0.N) (k : Fin 400) (ch : Fin 8) :
    (iblk m c 1 t : Vec Ideal S1x400x8 .f32) (ix3 (0 : Fin 1) k ch) = Pt m c (ix3 (bOf t) (ptOf t k) ch) := by
  rw [iblk1_eq]; exact blk1_read (F := Ideal) (Pt m c) t k ch
theorem iblk2_apply (t : Fin cfg0.N) (r : Fin 16) (k : Fin 3) :
    (iblk m c 2 t : Vec Ideal S1x16x1x3 .f32) (ix4 (0 : Fin 1) r (0 : Fin 1) k) = Ct m c (ix4 (bOf t) (rowOf t r) (0 : Fin 1) k) := by
  rw [iblk2_eq]; exact blk2_read (F := Ideal) (Ct m c) t r k
theorem iblk3_apply (t : Fin cfg0.N) (r : Fin 16) :
    (iblk m c 3 t : Vec Ideal S1x16x1x1 .f32) (ix4 (0 : Fin 1) r (0 : Fin 1) (0 : Fin 1)) = Cs m c (ix4 (bOf t) (rowOf t r) (0 : Fin 1) (0 : Fin 1)) := by
  rw [iblk3_eq]; exact blk3_read (F := Ideal) (Cs m c) t r
theorem iblk4_apply (t : Fin cfg0.N) (r : Fin 16) :
    (iblk m c 4 t : Vec Ideal S1x16x1x1 .f32) (ix4 (0 : Fin 1) r (0 : Fin 1) (0 : Fin 1)) = Sn m c (ix4 (bOf t) (rowOf t r) (0 : Fin 1) (0 : Fin 1)) := by
  rw [iblk4_eq]; exact blk4_read (F := Ideal) (Sn m c) t r

/-- A point-row block's entries are entries of the point table. -/
theorem iblk1_mem (t : Fin cfg0.N) (j : S1x400x8.Idx) : ∃ i, (iblk m c 1 t : Vec Ideal S1x400x8 .f32) j = Pt m c i := by
  rw [iblk1_eq]; exact ⟨_, rfl⟩

end Cert.KernelIdeal.KV

end
-- ==== Proof.LibGatherOneHot.lean ====
/-
  A gather written as a one-hot contraction, and the host operations that produce and consume its
  indices, read at one index: general lemmas at the ideal instance (floats are extended reals).

  (A) A sum of an indicator times a function is the function at the indicated place, on the extended
      reals, with no finiteness assumption (`0 * x = 0` and `x + 0 = x` hold for every extended real);
      its two-level form over `T` tiles of `K` places; the 32-bit word comparison that decides the
      indicator; and the indicator's value as an extended real.
  (B) A scatter whose body returns the update: every element of the result is the operand's element
      there or one of the updates.
  (C) A gather of rows `(batch, point)` of a rank-3 operand at a rank-4 array of index pairs.
  Then one tile and all tiles of the one-hot contraction with the indicator decided by the 32-bit comparison, the
  normalisation of a non-negative index, and (D) the range of an array made of slots by slices, a broadcast and a select.
-/
import Mathlib
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Lib.GatherOneHot

open Idealize.ShloMosaic
open Idealize.ShloMosaic.ValueIdx

/-! ## (A) A one-hot sum is a read -/

/-- The sum over `n` of the indicator of `n = j` times `p n` is `p j`: every other term is `0 * p n = 0`,
    which holds for every extended real, infinite ones included. -/
theorem sum_onehot_mul {N : ℕ} (p : Fin N → EReal) (j : Fin N) :
    (∑ n : Fin N, (if n = j then (1 : EReal) else 0) * p n) = p j := by
  rw [Finset.sum_eq_single j]
  · rw [if_pos rfl, one_mul]
  · intro n _ hn
    rw [if_neg hn, zero_mul]
  · intro h
    exact absurd (Finset.mem_univ j) h

/-- The same with the indicator on the right of the product. -/
theorem sum_mul_onehot {N : ℕ} (p : Fin N → EReal) (j : Fin N) :
    (∑ n : Fin N, p n * (if n = j then (1 : EReal) else 0)) = p j := by
  rw [Finset.sum_eq_single j]
  · rw [if_pos rfl, mul_one]
  · intro n _ hn
    rw [if_neg hn, mul_zero]
  · intro h
    exact absurd (Finset.mem_univ j) h

/-- A place `t * K + k` of tile `t` is below `T * K`. -/
theorem tile_place_lt {T K : ℕ} (t : Fin T) (k : Fin K) : t.val * K + k.val < T * K := by
  have h1 : t.val * K + k.val < (t.val + 1) * K := by
    rw [Nat.add_mul, Nat.one_mul]; exact Nat.add_lt_add_left k.isLt _
  exact lt_of_lt_of_le h1 (Nat.mul_le_mul_right K t.isLt)

/-- TWO LEVELS, the function given by tile and place: the sum over the tiles `t` of the sums over the
    places `k` of the indicator of `t * K + k = j` times `q t k` is `q t₀ k₀` when `j = t₀ * K + k₀`. -/
theorem sum_tiles_onehot_mul' {T K : ℕ} (q : Fin T → Fin K → EReal) (t₀ : Fin T) (k₀ : Fin K) (j : ℕ)
    (hj : j = t₀.val * K + k₀.val) :
    (∑ t : Fin T, ∑ k : Fin K, (if t.val * K + k.val = j then (1 : EReal) else 0) * q t k) = q t₀ k₀ := by
  subst hj
  have hK : 0 < K := Nat.pos_of_ne_zero (fun h => by have := k₀.isLt; omega)
  have key : ∀ (t : Fin T) (k : Fin K), t.val * K + k.val = t₀.val * K + k₀.val → t = t₀ ∧ k = k₀ := by
    intro t k h
    have ht : t.val = t₀.val := by
      have h1 := congrArg (· / K) h
      simp only [Nat.mul_comm _ K] at h1
      rwa [Nat.mul_add_div hK, Nat.mul_add_div hK, Nat.div_eq_of_lt k.isLt, Nat.div_eq_of_lt k₀.isLt,
        Nat.add_zero, Nat.add_zero] at h1
    have hk : k.val = k₀.val := by rw [ht] at h; exact Nat.add_left_cancel h
    exact ⟨Fin.ext ht, Fin.ext hk⟩
  rw [Finset.sum_eq_single t₀]
  · rw [Finset.sum_eq_single k₀]
    · rw [if_pos rfl, one_mul]
    · intro k _ hk
      rw [if_neg (fun h => hk (key t₀ k h).2), zero_mul]
    · intro h
      exact absurd (Finset.mem_univ k₀) h
  · intro t _ ht
    refine Finset.sum_eq_zero ?_
    intro k _
    rw [if_neg (fun h => ht (key t k h).1), zero_mul]
  · intro h
    exact absurd (Finset.mem_univ t₀) h

/-- TWO LEVELS, the function given on `Fin (T * K)`: the sum over the tiles `t` of the sums over the places
    `k` of the indicator of `t * K + k = j` times `p (t * K + k)` is `p j`. -/
theorem sum_tiles_onehot_mul {T K : ℕ} (p : Fin (T * K) → EReal) (j : Fin (T * K)) :
    (∑ t : Fin T, ∑ k : Fin K,
      (if t.val * K + k.val = j.val then (1 : EReal) else 0) * p ⟨t.val * K + k.val, tile_place_lt t k⟩) = p j := by
  have hK : 0 < K := Nat.pos_of_ne_zero (fun h => by have := j.isLt; subst h; simp at this)
  have hjT : j.val / K < T := Nat.div_lt_of_lt_mul (lt_of_lt_of_eq j.isLt (Nat.mul_comm T K))
  have hjK : j.val % K < K := Nat.mod_lt _ hK
  have hj : j.val = (⟨j.val / K, hjT⟩ : Fin T).val * K + (⟨j.val % K, hjK⟩ : Fin K).val := by
    show j.val = j.val / K * K + j.val % K
    exact (Nat.div_add_mod' j.val K).symm
  rw [sum_tiles_onehot_mul' (fun t k => p ⟨t.val * K + k.val, tile_place_lt t k⟩) ⟨j.val / K, hjT⟩ ⟨j.val % K, hjK⟩
    j.val hj]
  exact congrArg p (Fin.ext hj.symm)

/-! ### The word comparison that decides the indicator -/

/-- The 32-bit word `t * 400 + k` computed in wrapping arithmetic is the number `t * 400 + k` when `t < 100` and
    `k < 400` (the number is below `40000`, far from `2 ^ 32`). -/
theorem toNat_tile_word (t k : ℕ) (ht : t < 100) (hk : k < 400) :
    (BitVec.ofNat 32 t * 400#32 + BitVec.ofNat 32 k).toNat = t * 400 + k := by
  rw [BitVec.toNat_add, BitVec.toNat_mul, BitVec.toNat_ofNat, BitVec.toNat_ofNat, BitVec.toNat_ofNat]
  omega

/-- A word equals the word `t * 400 + k` exactly when its number is `t * 400 + k`. -/
theorem eq_tile_word_iff (w : BitVec 32) (t k : ℕ) (ht : t < 100) (hk : k < 400) :
    w = BitVec.ofNat 32 t * 400#32 + BitVec.ofNat 32 k ↔ w.toNat = t * 400 + k := by
  rw [← toNat_tile_word t k ht hk]
  exact BitVec.toNat_inj.symm

/-- The same, the place spelt `0 * 400 + k` as a one-axis iota over the last axis of a `1 × 1 × 400`
    vector computes it, and the product and the sum spelt with the integer operations. -/
theorem eq_tile_word_iff' (w : BitVec 32) (t k : ℕ) (ht : t < 100) (hk : k < 400) :
    w = IntOp.addi (Scalar.muli (BitVec.ofNat 32 t) 400#32) (BitVec.ofNat 32 (0 * 400 + k)) ↔ w.toNat = t * 400 + k := by
  rw [Nat.zero_mul, Nat.zero_add]
  exact eq_tile_word_iff w t k ht hk

/-! ### The indicator's value -/

/-- The one-bit word `1`, widened to 32 bits and converted as a signed integer, is the extended real `1`. -/
theorem sitofp_extui_one : (FloatOps.sitofp (F := Ideal) .f32 ((1#1 : BitVec 1).setWidth 32) : EReal) = 1 := by
  show (((((1#1 : BitVec 1).setWidth 32).toInt : ℤ) : ℝ) : EReal) = 1
  have : ((1#1 : BitVec 1).setWidth 32).toInt = 1 := by decide
  rw [this]; norm_num
/-- The one-bit word `0`, widened to 32 bits and converted as a signed integer, is the extended real `0`. -/
theorem sitofp_extui_zero : (FloatOps.sitofp (F := Ideal) .f32 ((0#1 : BitVec 1).setWidth 32) : EReal) = 0 := by
  show (((((0#1 : BitVec 1).setWidth 32).toInt : ℤ) : ℝ) : EReal) = 0
  have : ((0#1 : BitVec 1).setWidth 32).toInt = 0 := by decide
  rw [this]; norm_num

/-- The equality test of two words is the bit `1` when they are equal and `0` when they are not. -/
theorem cmpi_eq_word {w : ℕ} (x y : BitVec w) : IntOp.cmpi .eq x y = if x = y then 1#1 else 0#1 := by
  unfold IntOp.cmpi
  by_cases h : x = y
  · rw [if_pos h]; subst h; simp
  · rw [if_neg h, show (x == y) = false from beq_eq_false_iff_ne.mpr h]; rfl

/-- THE INDICATOR: the equality test of two 32-bit words, widened and converted, is the extended real `1` when
    the words are equal and `0` when they are not. -/
theorem sitofp_extui_cmpi_eq (x y : BitVec 32) :
    (FloatOps.sitofp (F := Ideal) .f32 ((IntOp.cmpi .eq x y).setWidth 32) : EReal) = if x = y then 1 else 0 := by
  rw [cmpi_eq_word]
  by_cases h : x = y
  · rw [if_pos h, if_pos h]; exact sitofp_extui_one
  · rw [if_neg h, if_neg h]; exact sitofp_extui_zero

/-- The same for vectors, read at an index: compare, widen, convert (and narrow the float format, the identity
    on extended reals). -/
theorem sitofp_extui_cmpi_eq_apply {s : Shape} (a b : IVec s 32) (h : 1 < 32) (i : s.Idx) :
    (sitofp .f32 (extui 32 (cmpi .eq a b) h) : FVec Ideal s .f32) i = if a i = b i then 1 else 0 :=
  sitofp_extui_cmpi_eq (a i) (b i)

/-! ## (B) A scatter's range -/

section Scatter
variable {α : Type} {s si u : Shape} {w : ℕ}

/-- INVARIANCE: a property of elements (which may depend on the place) that the operand's elements have and that the
    body keeps when it combines an element having it with an update, holds of every element of the scatter's result.
    By induction on the fold over the update positions. -/
theorem scatter_inv (P : s.Idx → α → Prop) (d : ScatterDims s si u) (f : α → α → α) (x : s.Idx → α) (idx : IVec si w)
    (upd : u.Idx → α) (hx : ∀ i, P i (x i)) (hf : ∀ i a j, P i a → P i (f a (upd j))) :
    ∀ i, P i (Host.scatter d f x idx upd i) := by
  unfold Host.scatter
  generalize List.finRange u.numel = l
  induction l generalizing x with
  | nil => exact hx
  | cons n l ih =>
    rw [List.foldl_cons]
    apply ih
    intro i
    generalize d.resultIdx? (u.rowMajor.symm n) idx = o
    cases o with
    | none => exact hx i
    | some i₀ =>
      show P i (if i = i₀ then f (x i₀) (upd (u.rowMajor.symm n)) else x i)
      by_cases h : i = i₀
      · rw [if_pos h]; subst h; exact hf i _ _ (hx i)
      · rw [if_neg h]; exact hx i

/-- THE RANGE of a scatter whose body returns the update (`x.at[idx].set(upd)`): every element of the result is the
    operand's element at that place or one of the updates' elements. -/
theorem scatter_set_range (d : ScatterDims s si u) (x : s.Idx → α) (idx : IVec si w) (upd : u.Idx → α) (i : s.Idx) :
    Host.scatter d (fun _ b => b) x idx upd i = x i ∨ ∃ j, Host.scatter d (fun _ b => b) x idx upd i = upd j :=
  scatter_inv (fun i a => a = x i ∨ ∃ j, a = upd j) d (fun _ b => b) x idx upd (fun _ => Or.inl rfl)
    (fun _ _ j _ => Or.inr ⟨j, rfl⟩) i

/-- A property of words that every operand element and every update has, every element of the set-scatter has. -/
theorem scatter_set_all (Q : α → Prop) (d : ScatterDims s si u) (x : s.Idx → α) (idx : IVec si w) (upd : u.Idx → α)
    (hx : ∀ i, Q (x i)) (hu : ∀ j, Q (upd j)) (i : s.Idx) : Q (Host.scatter d (fun _ b => b) x idx upd i) :=
  scatter_inv (fun _ a => Q a) d (fun _ b => b) x idx upd hx (fun _ _ j _ => hu j) i

/-- BOUNDED WORDS stay bounded: if every operand element and every update is a word whose number is below `B`, so is every
    element of the set-scatter. -/
theorem scatter_set_toNat_lt {v : ℕ} (B : ℕ) (d : ScatterDims s si u) (x : IVec s v) (idx : IVec si w) (upd : IVec u v)
    (hx : ∀ i, (x i).toNat < B) (hu : ∀ j, (upd j).toNat < B) (i : s.Idx) :
    (Host.scatter d (fun _ b => b) x idx upd i).toNat < B :=
  scatter_set_all (fun a => a.toNat < B) d x idx upd hx hu i

end Scatter

/-- The shapes of a scatter of `4 × 256 × 40000` point numbers into `4 × 256 × 513` slots. -/
abbrev S4x256x513 : Shape := ⟨3, ![4, 256, 513]⟩
abbrev S4x256x40000x3 : Shape := ⟨4, ![4, 256, 40000, 3]⟩
abbrev S4x256x40000 : Shape := ⟨3, ![4, 256, 40000]⟩

/-- At those shapes, from an operand of zeros: every slot holds a word below `40000` when every update is below `40000`. -/
theorem scatter_slots_lt (d : ScatterDims S4x256x513 S4x256x40000x3 S4x256x40000) (x : IVec S4x256x513 32)
    (idx : IVec S4x256x40000x3 32) (upd : IVec S4x256x40000 32)
    (hx : ∀ i, (x i).toNat < 40000) (hu : ∀ j, (upd j).toNat < 40000) (i : S4x256x513.Idx) :
    (Host.scatter d (fun _ b => b) x idx upd i).toNat < 40000 :=
  scatter_set_toNat_lt 40000 d x idx upd hx hu i

/-! ## (C) A gather of rows at pairs of indices -/

section Gather
variable {α : Type}

/-- The dimension numbers of the gather `x[b, n, :]` of rows of an operand `[B, N, C]` at start indices `[B', M, S, 2]`
    holding pairs `(b, n)`: the result `[B', M, S, C]` has the one offset axis 3, the operand's axes 0 and 1 are collapsed
    and indexed by the pair's two components, the index vector is the start indices' axis 3, the slice is `1 × 1 × C`.
    Their conditions `wf` are decided on a program's literal shapes. -/
abbrev rowsDims (B N C B' M S : ℕ)
    (wf : GatherDims.WF ⟨3, ![B, N, C]⟩ ⟨4, ![B', M, S, 2]⟩ ⟨4, ![B', M, S, C]⟩ [3] [0, 1] [] [0, 1] [] 3 ![1, 1, C]) :
    GatherDims ⟨3, ![B, N, C]⟩ ⟨4, ![B', M, S, 2]⟩ ⟨4, ![B', M, S, C]⟩ where
  offsetDims := [3]
  collapsedSliceDims := [0, 1]
  operandBatchingDims := []
  startIndicesBatchingDims := []
  startIndexMap := [0, 1]
  indexVectorDim := 3
  sliceSizes := ![1, 1, C]
  wf := wf

/-- THE GATHER READ AT `(b', m, s, c)`: the operand at row `(idx[b', m, s, 0], idx[b', m, s, 1])`, each component read
    signed and clamped into its axis, and column `c`. -/
theorem gather_rows_apply {B N C B' M S w : ℕ} (hB : 0 < B) (hN : 0 < N)
    (wf : GatherDims.WF ⟨3, ![B, N, C]⟩ ⟨4, ![B', M, S, 2]⟩ ⟨4, ![B', M, S, C]⟩ [3] [0, 1] [] [0, 1] [] 3 ![1, 1, C])
    (x : (⟨3, ![B, N, C]⟩ : Shape).Idx → α) (idx : IVec ⟨4, ![B', M, S, 2]⟩ w)
    (b' : Fin B') (m : Fin M) (s : Fin S) (c : Fin C) :
    Host.gather (rowsDims B N C B' M S wf) x idx (ix4 b' m s c) =
      x (ix3 (⟨min (idx (ix4 b' m s (0 : Fin 2))).toInt.toNat (B - 1), by omega⟩ : Fin B)
             (⟨min (idx (ix4 b' m s (1 : Fin 2))).toInt.toNat (N - 1), by omega⟩ : Fin N) c) := by
  unfold Host.gather
  congr 1
  funext a
  refine Fin.ext ?_
  have hsi0 : (rowsDims B N C B' M S wf).siIdx (ix4 b' m s c) ⟨List.idxOf (0 : Fin 3) (rowsDims B N C B' M S wf).startIndexMap,
      List.idxOf_lt_length_iff.2 (by decide : (0 : Fin 3) ∈ ([0, 1] : List (Fin 3)))⟩ = ix4 b' m s (0 : Fin 2) := by
    funext b; refine Fin.ext ?_
    match b with
    | ⟨0, _⟩ => rfl
    | ⟨1, _⟩ => rfl
    | ⟨2, _⟩ => rfl
    | ⟨3, _⟩ => rfl
  have hsi1 : (rowsDims B N C B' M S wf).siIdx (ix4 b' m s c) ⟨List.idxOf (1 : Fin 3) (rowsDims B N C B' M S wf).startIndexMap,
      List.idxOf_lt_length_iff.2 (by decide : (1 : Fin 3) ∈ ([0, 1] : List (Fin 3)))⟩ = ix4 b' m s (1 : Fin 2) := by
    funext b; refine Fin.ext ?_
    match b with
    | ⟨0, _⟩ => rfl
    | ⟨1, _⟩ => rfl
    | ⟨2, _⟩ => rfl
    | ⟨3, _⟩ => rfl
  match a with
  | ⟨0, _⟩ =>
    show (rowsDims B N C B' M S wf).start (ix4 b' m s c) idx 0 + (rowsDims B N C B' M S wf).batchCoord (ix4 b' m s c) 0
      + (rowsDims B N C B' M S wf).offCoord (ix4 b' m s c) 0 = _
    rw [GatherDims.batchCoord_eq_zero _ _ _ List.not_mem_nil,
      GatherDims.offCoord_eq_zero _ _ _ (fun h => ((GatherDims.mem_sKept _ _).mp h).1
        (by decide : (0 : Fin 3) ∈ ([0, 1] : List (Fin 3))))]
    simp only [Nat.add_zero]
    unfold GatherDims.start
    rw [dif_pos (show (0 : Fin 3) ∈ (rowsDims B N C B' M S wf).startIndexMap from
      (by decide : (0 : Fin 3) ∈ ([0, 1] : List (Fin 3)))), hsi0]
    rfl
  | ⟨1, _⟩ =>
    show (rowsDims B N C B' M S wf).start (ix4 b' m s c) idx 1 + (rowsDims B N C B' M S wf).batchCoord (ix4 b' m s c) 1
      + (rowsDims B N C B' M S wf).offCoord (ix4 b' m s c) 1 = _
    rw [GatherDims.batchCoord_eq_zero _ _ _ List.not_mem_nil,
      GatherDims.offCoord_eq_zero _ _ _ (fun h => ((GatherDims.mem_sKept _ _).mp h).1
        (by decide : (1 : Fin 3) ∈ ([0, 1] : List (Fin 3))))]
    simp only [Nat.add_zero]
    unfold GatherDims.start
    rw [dif_pos (show (1 : Fin 3) ∈ (rowsDims B N C B' M S wf).startIndexMap from
      (by decide : (1 : Fin 3) ∈ ([0, 1] : List (Fin 3)))), hsi1]
    rfl
  | ⟨2, _⟩ =>
    show (rowsDims B N C B' M S wf).start (ix4 b' m s c) idx 2 + (rowsDims B N C B' M S wf).batchCoord (ix4 b' m s c) 2
      + (rowsDims B N C B' M S wf).offCoord (ix4 b' m s c) 2 = _
    rw [GatherDims.batchCoord_eq_zero _ _ _ List.not_mem_nil]
    have hst : (rowsDims B N C B' M S wf).start (ix4 b' m s c) idx 2 = 0 := by
      unfold GatherDims.start
      rw [dif_neg (show (2 : Fin 3) ∉ (rowsDims B N C B' M S wf).startIndexMap from
        (by decide : (2 : Fin 3) ∉ ([0, 1] : List (Fin 3))))]
    rw [hst]
    simp only [Nat.add_zero, Nat.zero_add]
    unfold GatherDims.offCoord
    rw [dif_pos ((GatherDims.mem_sKept _ _).mpr ⟨(by decide : (2 : Fin 3) ∉ ([0, 1] : List (Fin 3))), List.not_mem_nil⟩)]
    rfl

/-- A 32-bit word whose number is below `2 ^ 31`, read signed, is that number. -/
theorem toInt_toNat_of_lt (v : BitVec 32) (h : v.toNat < 2 ^ 31) : v.toInt.toNat = v.toNat := by
  rw [BitVec.toInt_eq_toNat_cond, if_pos (by omega)]
  exact Int.toNat_natCast _

/-- THE GATHER AT IN-RANGE INDICES: when the pair's words are in range (`b < B`, `n < N`, the extents below `2 ^ 31`) no
    clamp acts, and the result at `(b', m, s, c)` is the operand at `(b, n, c)`. -/
theorem gather_rows_apply_of_lt {B N C B' M S : ℕ} (hB31 : B ≤ 2 ^ 31) (hN31 : N ≤ 2 ^ 31)
    (wf : GatherDims.WF ⟨3, ![B, N, C]⟩ ⟨4, ![B', M, S, 2]⟩ ⟨4, ![B', M, S, C]⟩ [3] [0, 1] [] [0, 1] [] 3 ![1, 1, C])
    (x : (⟨3, ![B, N, C]⟩ : Shape).Idx → α) (idx : IVec ⟨4, ![B', M, S, 2]⟩ 32)
    (b' : Fin B') (m : Fin M) (s : Fin S) (c : Fin C)
    (hb : (idx (ix4 b' m s (0 : Fin 2))).toNat < B) (hn : (idx (ix4 b' m s (1 : Fin 2))).toNat < N) :
    Host.gather (rowsDims B N C B' M S wf) x idx (ix4 b' m s c) =
      x (ix3 (⟨(idx (ix4 b' m s (0 : Fin 2))).toNat, hb⟩ : Fin B) (⟨(idx (ix4 b' m s (1 : Fin 2))).toNat, hn⟩ : Fin N) c) := by
  rw [gather_rows_apply (by omega) (by omega) wf x idx b' m s c]
  have e0 : min (idx (ix4 b' m s (0 : Fin 2))).toInt.toNat (B - 1) = (idx (ix4 b' m s (0 : Fin 2))).toNat := by
    rw [toInt_toNat_of_lt _ (by omega)]; omega
  have e1 : min (idx (ix4 b' m s (1 : Fin 2))).toInt.toNat (N - 1) = (idx (ix4 b' m s (1 : Fin 2))).toNat := by
    rw [toInt_toNat_of_lt _ (by omega)]; omega
  congr 1
  funext a
  match a with
  | ⟨0, _⟩ => exact Fin.ext e0
  | ⟨1, _⟩ => exact Fin.ext e1
  | ⟨2, _⟩ => rfl

/-- The shapes of the two gathers of rows of `4 × 40000` points at `4 × 256 × 512` index pairs. -/
abbrev S4x40000x3 : Shape := ⟨3, ![4, 40000, 3]⟩
abbrev S4x40000x5 : Shape := ⟨3, ![4, 40000, 5]⟩
abbrev S4x256x512x2 : Shape := ⟨4, ![4, 256, 512, 2]⟩
abbrev S4x256x512x3 : Shape := ⟨4, ![4, 256, 512, 3]⟩
abbrev S4x256x512x5 : Shape := ⟨4, ![4, 256, 512, 5]⟩

/-- At those shapes, rows of three: in-range index pairs read the operand's row. -/
theorem gather_rows3_apply
    (wf : GatherDims.WF S4x40000x3 S4x256x512x2 S4x256x512x3 [3] [0, 1] [] [0, 1] [] 3 ![1, 1, 3])
    (x : S4x40000x3.Idx → α) (idx : IVec S4x256x512x2 32) (b' : Fin 4) (m : Fin 256) (s : Fin 512) (c : Fin 3)
    (hb : (idx (ix4 b' m s (0 : Fin 2))).toNat < 4) (hn : (idx (ix4 b' m s (1 : Fin 2))).toNat < 40000) :
    Host.gather (rowsDims 4 40000 3 4 256 512 wf) x idx (ix4 b' m s c) =
      x (ix3 (⟨(idx (ix4 b' m s (0 : Fin 2))).toNat, hb⟩ : Fin 4) (⟨(idx (ix4 b' m s (1 : Fin 2))).toNat, hn⟩ : Fin 40000) c) :=
  gather_rows_apply_of_lt (by norm_num) (by norm_num) wf x idx b' m s c hb hn

/-- At those shapes, rows of five: in-range index pairs read the operand's row. -/
theorem gather_rows5_apply
    (wf : GatherDims.WF S4x40000x5 S4x256x512x2 S4x256x512x5 [3] [0, 1] [] [0, 1] [] 3 ![1, 1, 5])
    (x : S4x40000x5.Idx → α) (idx : IVec S4x256x512x2 32) (b' : Fin 4) (m : Fin 256) (s : Fin 512) (c : Fin 5)
    (hb : (idx (ix4 b' m s (0 : Fin 2))).toNat < 4) (hn : (idx (ix4 b' m s (1 : Fin 2))).toNat < 40000) :
    Host.gather (rowsDims 4 40000 5 4 256 512 wf) x idx (ix4 b' m s c) =
      x (ix3 (⟨(idx (ix4 b' m s (0 : Fin 2))).toNat, hb⟩ : Fin 4) (⟨(idx (ix4 b' m s (1 : Fin 2))).toNat, hn⟩ : Fin 40000) c) :=
  gather_rows_apply_of_lt (by norm_num) (by norm_num) wf x idx b' m s c hb hn

end Gather

/-! ## One tile of the one-hot contraction, and the index words around it -/

/-- ONE TILE: the sum over the places `k` of tile `t` of the indicator of `t * K + k = j` times `q k` is `q (j - t * K)` when
    `j` lies in the tile and `0` when it does not. -/
theorem sum_tile_onehot_mul {K : ℕ} (q : Fin K → EReal) (t j : ℕ) :
    (∑ k : Fin K, (if t * K + k.val = j then (1 : EReal) else 0) * q k) =
      if h : t * K ≤ j ∧ j < t * K + K then q ⟨j - t * K, by omega⟩ else 0 := by
  by_cases h : t * K ≤ j ∧ j < t * K + K
  · rw [dif_pos h, Finset.sum_eq_single (⟨j - t * K, by omega⟩ : Fin K)]
    · rw [if_pos (show t * K + (j - t * K) = j by omega), one_mul]
    · intro k _ hk
      rw [if_neg (fun e => hk (Fin.ext (by show k.val = j - t * K; omega))), zero_mul]
    · intro h'
      exact absurd (Finset.mem_univ _) h'
  · rw [dif_neg h]
    refine Finset.sum_eq_zero ?_
    intro k _
    rw [if_neg (fun e => h ⟨by omega, by have := k.isLt; omega⟩), zero_mul]

/-- ONE TILE, the indicator decided by the 32-bit comparison: for tile `t < 100` of `400` places, the sum over the places of
    the indicator of `w = t * 400 + k` (in wrapping word arithmetic) times `q k` is `q (w - t * 400)` when the number of `w`
    lies in the tile and `0` when it does not. -/
theorem sum_tile_word_onehot_mul (w : BitVec 32) (t : ℕ) (ht : t < 100) (q : Fin 400 → EReal) :
    (∑ k : Fin 400,
      (if w = IntOp.addi (Scalar.muli (BitVec.ofNat 32 t) 400#32) (BitVec.ofNat 32 (0 * 400 + k.val)) then (1 : EReal) else 0)
        * q k) =
      if h : t * 400 ≤ w.toNat ∧ w.toNat < t * 400 + 400 then q ⟨w.toNat - t * 400, by omega⟩ else 0 := by
  rw [← sum_tile_onehot_mul q t w.toNat]
  refine Finset.sum_congr rfl ?_
  intro k _
  have e : (w = IntOp.addi (Scalar.muli (BitVec.ofNat 32 t) 400#32) (BitVec.ofNat 32 (0 * 400 + k.val))) ↔
      t * 400 + k.val = w.toNat := (eq_tile_word_iff' w t k.val ht k.isLt).trans eq_comm
  by_cases hw : t * 400 + k.val = w.toNat
  · rw [if_pos (e.mpr hw), if_pos hw]
  · rw [if_neg (fun h => hw (e.mp h)), if_neg hw]

/-- ALL TILES, the indicator decided by the 32-bit comparison: for a word `w` whose number is below `40000`, the sum over
    the `100` tiles and their `400` places of the indicator of `w = t * 400 + k` times `q t k` is `q` at the tile and place of
    `w`'s number. -/
theorem sum_tiles_word_onehot_mul (w : BitVec 32) (hw : w.toNat < 40000) (q : Fin 100 → Fin 400 → EReal) :
    (∑ t : Fin 100, ∑ k : Fin 400,
      (if w = IntOp.addi (Scalar.muli (BitVec.ofNat 32 t.val) 400#32) (BitVec.ofNat 32 (0 * 400 + k.val)) then (1 : EReal) else 0)
        * q t k) =
      q ⟨w.toNat / 400, by omega⟩ ⟨w.toNat % 400, Nat.mod_lt _ (by norm_num)⟩ := by
  rw [← sum_tiles_onehot_mul' q ⟨w.toNat / 400, by omega⟩ ⟨w.toNat % 400, Nat.mod_lt _ (by norm_num)⟩ w.toNat
    (by show w.toNat = w.toNat / 400 * 400 + w.toNat % 400; omega)]
  refine Finset.sum_congr rfl ?_
  intro t _
  refine Finset.sum_congr rfl ?_
  intro k _
  have e : (w = IntOp.addi (Scalar.muli (BitVec.ofNat 32 t.val) 400#32) (BitVec.ofNat 32 (0 * 400 + k.val))) ↔
      t.val * 400 + k.val = w.toNat := (eq_tile_word_iff' w t.val k.val t.isLt k.isLt).trans eq_comm
  by_cases hk : t.val * 400 + k.val = w.toNat
  · rw [if_pos (e.mpr hk), if_pos hk]
  · rw [if_neg (fun h => hk (e.mp h)), if_neg hk]

/-- A 32-bit word whose number is below `2 ^ 31` is not negative: the signed test `w < 0` is the bit `0`. -/
theorem cmpi_slt_zero_of_lt (w : BitVec 32) (h : w.toNat < 2 ^ 31) : IntOp.cmpi .slt w 0#32 = 0#1 := by
  have hi : w.toInt = (w.toNat : ℤ) := by rw [BitVec.toInt_eq_toNat_cond, if_pos (by omega)]
  have hs : w.slt 0#32 = false := by
    rw [BitVec.slt, hi]
    exact decide_eq_false (by simp)
  show BitVec.ofBool (w.slt 0#32) = 0#1
  rw [hs]; rfl

/-- The normalisation of a possibly negative index, `select (w < 0) (w + n) w`, leaves a word whose number is below `2 ^ 31`
    as it is. -/
theorem select_slt_zero_of_lt (w a : BitVec 32) (h : w.toNat < 2 ^ 31) :
    Scalar.select (IntOp.cmpi .slt w 0#32) a w = w := by
  rw [cmpi_slt_zero_of_lt w h]; exact select_zero a w

/-- The same for vectors, read at an index. -/
theorem select_slt_zero_apply {s : Shape} (x z a : IVec s 32) (i : s.Idx) (hz : z i = 0#32) (h : (x i).toNat < 2 ^ 31) :
    select (cmpi .slt x z) a x i = x i := by
  show Scalar.select (IntOp.cmpi .slt (x i) (z i)) (a i) (x i) = x i
  rw [hz]; exact select_slt_zero_of_lt (x i) (a i) h

/-! ## (D) The index array's range: slices, a broadcast and a select only move elements -/

section IdxRange
variable {α : Type}

/-- A slice, a broadcast and a select produce no new elements: every element of
    `select mask (slice sc) (broadcast (slice (slice sc)))` is an element of `sc`, so a property every element of `sc` has,
    every element of the result has. Generic in the shapes. -/
theorem select_slice_broadcast_all {s t u : Shape} (Q : α → Prop) (sc : s.Idx → α) (mask : IVec t 1)
    (offA : Fin s.rank → Nat) (hA : s.Slices offA t) (offB : Fin t.rank → Nat) (hB : t.Slices offB u)
    (dims : Fin u.rank → Fin t.rank) (hC : u.BroadcastsInDim t dims) (hsc : ∀ i, Q (sc i)) (j : t.Idx) :
    Q (select mask (extractStridedSlice t offA sc hA)
        (broadcastInDim t dims hC (extractStridedSlice u offB (extractStridedSlice t offA sc hA) hB)) j) := by
  show Q (Scalar.select (mask j) (extractStridedSlice t offA sc hA j)
    (broadcastInDim t dims hC (extractStridedSlice u offB (extractStridedSlice t offA sc hA) hB) j))
  unfold Scalar.select
  split
  · unfold extractStridedSlice; exact hsc _
  · unfold broadcastInDim extractStridedSlice; exact hsc _

end IdxRange

abbrev S4x256x512 : Shape := ⟨3, ![4, 256, 512]⟩
abbrev S4x256x1 : Shape := ⟨3, ![4, 256, 1]⟩

/-- THE INDEX ARRAY'S RANGE at the literal shapes: from `4 × 256 × 513` slots whose words are all below `B`, the array
    `select mask (slots[:, :, 0:512]) (broadcast (slots[:, :, 0:1]))` has all its words below `B`, whatever the mask. -/
theorem idx_toNat_lt (B : ℕ) (sc : IVec S4x256x513 32) (mask : IVec S4x256x512 1)
    (hA : S4x256x513.Slices ![0, 0, 0] S4x256x512) (hB : S4x256x512.Slices ![0, 0, 0] S4x256x1)
    (hC : S4x256x1.BroadcastsInDim S4x256x512 (![0, 1, 2] : Fin 3 → Fin S4x256x512.rank))
    (hsc : ∀ i, (sc i).toNat < B) (j : S4x256x512.Idx) :
    (select mask (extractStridedSlice S4x256x512 ![0, 0, 0] sc hA)
      (broadcastInDim S4x256x512 ![0, 1, 2] hC
        (extractStridedSlice S4x256x1 ![0, 0, 0] (extractStridedSlice S4x256x512 ![0, 0, 0] sc hA) hB)) j).toNat < B :=
  select_slice_broadcast_all (fun a => a.toNat < B) sc mask ![0, 0, 0] hA ![0, 0, 0] hB ![0, 1, 2] hC hsc j

end Cert.Lib.GatherOneHot

end
-- ==== Proof.PayloadAtIdx.lean ====
/-
  The pure values the body stores, read at one index at the ideal instance (floats are extended reals, a change of float
  format the identity): the accumulator's reset, the accumulate step — a contraction of a 0/1 matrix with the tile's point
  rows —, the rotation of the gathered coordinates about the box centre, and the copy of the gathered features.
-/
import proofs.«179565_j43817256354257_2_alg».proof.Proof.Gen.KernelIdeal.Skeleton
import proofs.«179565_j43817256354257_2_alg».proof.Proof.LibGatherOneHot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayIdx

open Idealize.ShloMosaic Idealize.ShloMosaic.ValueIdx Cert.KernelIdeal Cert.KernelIdeal.Gen

/-! ## Two literals -/

/-- The 32-bit pattern of `1.0` is the extended real `1`. -/
theorem ofBits_one_f32 : Ideal.ofBits .f32 0x3F800000#32 = 1 := by
  simp [Ideal.ofBits, Ideal.ieee]
  first
    | (rw [← EReal.coe_mul]; norm_num; done)
    | (norm_cast; norm_num; done)
    | (norm_num [← EReal.coe_mul]; done)

/-! ## The reset: the accumulator's zeros -/

/-- The value the first tile stores before accumulating is `0` everywhere. -/
theorem pay3_apply (j : S16x512x8.Idx) : Gen.k0_pay3 (F := Ideal) j = 0 := by
  unfold Gen.k0_pay3
  refine (congrFun (shapeCast_self _ shapeCasts_S16x512x8_S16x512x8) j).trans ?_
  exact Ideal.ofBits_zero_f32

/-! ## The features: columns 3 to 7 of the accumulated rows -/

/-- The features stored for box `r`, sample `s`, channel `c` are the accumulator's column `c + 3`. -/
theorem pay5_pay1_apply (v35 : Vec Ideal S16x512x8 .f32) (u : Fin 1) (r : Fin 16) (s : Fin 512) (c : Fin 5) :
    Gen.k0_pay5 (F := Ideal) (Gen.k0_pay1 v35) (ix4 u r s c) = v35 (ix3 r s (⟨c.val + 3, by omega⟩ : Fin 8)) := by
  unfold Gen.k0_pay5 Gen.k0_pay1
  refine (shapeCast_abc_1abc_apply _ shapeCasts_S16x512x5_S1x16x512x5 u r s c).trans ?_
  exact extractStridedSlice_apply ![0, 0, 3] v35 slices_S16x512x8_o0_0_3_S16x512x5 (ix3 r s c)
    (ix3 r s (⟨c.val + 3, by omega⟩ : Fin 8)) (fun a => match a with
      | ⟨0, _⟩ => by show r.val = 0 + r.val; omega
      | ⟨1, _⟩ => by show s.val = 0 + s.val; omega
      | ⟨2, _⟩ => by show c.val + 3 = 3 + c.val; omega)

/-! ## The accumulate step: a 0/1 matrix times the tile's point rows -/

/-- The tile's `400` point rows as a `400 × 8` matrix. -/
def ptsMat (x1 : Vec Ideal S1x400x8 .f32) : FVec Ideal S400x8 .f32 :=
  shapeCast S400x8 x1 shapeCasts_S1x400x8_S400x8

/-- Its entry `(k, c)` is row `k`, column `c` of the tile. -/
theorem ptsMat_apply (x1 : Vec Ideal S1x400x8 .f32) (k : Fin 400) (c : Fin 8) :
    ptsMat x1 (ix2 k c) = x1 (ix3 (0 : Fin 1) k c) :=
  shapeCast_1ab_ab_apply x1 shapeCasts_S1x400x8_S400x8 k c

/-- The `8192 × 400` matrix of indicators: row `r * 512 + s` (box `r`, sample `s`), column `k` holds `1` when the
    sample's point number is the `k`-th point of tile `i 2`, and `0` when it is not. -/
def onehot (i : grid0.Coords) (x0 : Vec Ideal S1x16x512 .i32) : FVec Ideal S8192x400 .bf16 :=
  shapeCast S8192x400
    (truncf .bf16
      (sitofp .f32
        (extui 32
          (cmpi .eq
            (broadcastTo S16x512x400
              (shapeCast S16x512x1 (shapeCast S16x512 x0 shapeCasts_S1x16x512_S16x512) shapeCasts_S16x512_S16x512x1)
              broadcasts_S16x512x1_S16x512x400)
            (broadcastTo S16x512x400
              (addi (broadcast S1x1x400 (Scalar.muli (BitVec.ofNat 32 (i 2).val) 400#32))
                (iota .tc S1x1x400 32 [2] iota_S1x1x400_d2_w32))
              broadcasts_S1x1x400_S16x512x400))
          natLt_1_32) : FVec Ideal S16x512x400 .f32)
      bitsLt_bf16_f32)
    shapeCasts_S16x512x400_S8192x400

/-- A row number `r * 512 + s` of the `8192` rows. -/
theorem row_lt (r : Fin 16) (s : Fin 512) : r.val * 512 + s.val < 8192 := by omega

/-- THE INDICATOR'S ENTRY: at row `r * 512 + s` and column `k` it is `1` when the sample's word equals the word
    `(i 2) * 400 + k` and `0` when it does not. -/
theorem onehot_apply (i : grid0.Coords) (x0 : Vec Ideal S1x16x512 .i32) (r : Fin 16) (s : Fin 512) (k : Fin 400) :
    onehot i x0 (ix2 (⟨r.val * 512 + s.val, row_lt r s⟩ : Fin 8192) k) =
      if x0 (ix3 (0 : Fin 1) r s) = BitVec.ofNat 32 (i 2).val * 400#32 + BitVec.ofNat 32 k.val then (1 : EReal) else 0 := by
  unfold onehot
  refine (shapeCast_apply _ shapeCasts_S16x512x400_S8192x400 (ix2 (⟨r.val * 512 + s.val, row_lt r s⟩ : Fin 8192) k)
    (ix3 r s k) (by
      rw [Shape.rowMajor_val_three, Shape.rowMajor_val_two]
      show (r.val * 512 + s.val) * 400 + k.val = (r.val * 512 + s.val) * 400 + k.val
      rfl)).trans ?_
  refine (Cert.Lib.GatherOneHot.sitofp_extui_cmpi_eq_apply _ _ natLt_1_32 (ix3 r s k)).trans ?_
  have hA : broadcastTo S16x512x400
      (shapeCast S16x512x1 (shapeCast S16x512 x0 shapeCasts_S1x16x512_S16x512) shapeCasts_S16x512_S16x512x1)
      broadcasts_S16x512x1_S16x512x400 (ix3 r s k) = x0 (ix3 (0 : Fin 1) r s) := by
    refine (broadcastTo_apply _ broadcasts_S16x512x1_S16x512x400 (ix3 r s k) (ix3 r s (0 : Fin 1)) (fun a => match a with
      | ⟨0, _⟩ => rfl
      | ⟨1, _⟩ => rfl
      | ⟨2, _⟩ => rfl)).trans ?_
    refine (shapeCast_apply _ shapeCasts_S16x512_S16x512x1 (ix3 r s (0 : Fin 1)) (ix2 r s) (by
      rw [Shape.rowMajor_val_three, Shape.rowMajor_val_two]
      show r.val * 512 + s.val = (r.val * 512 + s.val) * 1 + 0
      omega)).trans ?_
    exact shapeCast_1ab_ab_apply x0 shapeCasts_S1x16x512_S16x512 r s
  have hB : broadcastTo S16x512x400
      (addi (broadcast S1x1x400 (Scalar.muli (BitVec.ofNat 32 (i 2).val) 400#32))
        (iota .tc S1x1x400 32 [2] iota_S1x1x400_d2_w32))
      broadcasts_S1x1x400_S16x512x400 (ix3 r s k) = BitVec.ofNat 32 (i 2).val * 400#32 + BitVec.ofNat 32 k.val := by
    refine (broadcastTo_apply _ broadcasts_S1x1x400_S16x512x400 (ix3 r s k) (ix3 (0 : Fin 1) (0 : Fin 1) k) (fun a => match a with
      | ⟨0, _⟩ => rfl
      | ⟨1, _⟩ => rfl
      | ⟨2, _⟩ => rfl)).trans ?_
    show IntOp.addi (Scalar.muli (BitVec.ofNat 32 (i 2).val) 400#32)
      (iota .tc S1x1x400 32 [2] iota_S1x1x400_d2_w32 (ix3 (0 : Fin 1) (0 : Fin 1) k)) = _
    rw [iota_single_apply]
    rfl
  rw [hA, hB]

/-- The tile product at an index: the `8192 × 400` by `400 × 8` product into a zero accumulator is, at `(R, c)`, the sum over
    the `400` places of the products of the entries. -/
theorem matmul_rows_apply (A : FVec Ideal S8192x400 .bf16) (B : FVec Ideal S400x8 .bf16) (R : Fin 8192) (c : Fin 8) :
    matmul dot_S8192x400_S400x8_S8192x8_1_0_0_1_n_n none A B (constant (F := Ideal) S8192x8 .f32 0x00000000#32) (ix2 R c) =
      ∑ k : Fin 400, A (ix2 R k) * B (ix2 k c) := by
  show FloatOps.matmul dot_S8192x400_S400x8_S8192x8_1_0_0_1_n_n none A B _ (ix2 R c) = _
  rw [Ideal.matmul_constant_zero_apply,
    ← Equiv.sum_comp (contrEquiv1 dot_S8192x400_S400x8_S8192x8_1_0_0_1_n_n 400 rfl rfl).symm]
  refine Finset.sum_congr rfl fun k _ => ?_
  have c2 := contrEquiv1_symm_val dot_S8192x400_S400x8_S8192x8_1_0_0_1_n_n 400 rfl rfl k
  have l2 : dot_S8192x400_S400x8_S8192x8_1_0_0_1_n_n.lhsIdx (ix2 R c)
      ((contrEquiv1 dot_S8192x400_S400x8_S8192x8_1_0_0_1_n_n 400 rfl rfl).symm k) = ix2 R k := by
    funext ax; apply Fin.ext
    match ax with
    | ⟨0, _⟩ => simp [DotDims.lhsIdx, dot_S8192x400_S400x8_S8192x8_1_0_0_1_n_n]; rfl
    | ⟨1, _⟩ => simp [DotDims.lhsIdx, dot_S8192x400_S400x8_S8192x8_1_0_0_1_n_n]; exact c2
  have r2 : dot_S8192x400_S400x8_S8192x8_1_0_0_1_n_n.rhsIdx (ix2 R c)
      ((contrEquiv1 dot_S8192x400_S400x8_S8192x8_1_0_0_1_n_n 400 rfl rfl).symm k) = ix2 k c := by
    funext ax; apply Fin.ext
    match ax with
    | ⟨0, _⟩ => simp [DotDims.rhsIdx, dot_S8192x400_S400x8_S8192x8_1_0_0_1_n_n]; exact c2
    | ⟨1, _⟩ => simp [DotDims.rhsIdx, dot_S8192x400_S400x8_S8192x8_1_0_0_1_n_n]; rfl
  rw [l2, r2]

/-- The stored value, with the 0/1 matrix and the point matrix named. -/
theorem pay4_eq (i : grid0.Coords) (x1 : Vec Ideal S1x400x8 .f32) (x0 : Vec Ideal S1x16x512 .i32)
    (xs0 : Vec Ideal S16x512x8 .f32) :
    Gen.k0_pay4 (F := Ideal) i x1 x0 xs0 =
      shapeCast S16x512x8
        (addf xs0
          (shapeCast S16x512x8
            (addf
              (matmul dot_S8192x400_S400x8_S8192x8_1_0_0_1_n_n none (onehot i x0)
                (truncf .bf16 (ptsMat x1) bitsLt_bf16_f32) (constant (F := Ideal) S8192x8 .f32 0x00000000#32))
              (matmul dot_S8192x400_S400x8_S8192x8_1_0_0_1_n_n none (onehot i x0)
                (truncf .bf16 (subf (ptsMat x1) (ptsMat x1)) bitsLt_bf16_f32)
                (constant (F := Ideal) S8192x8 .f32 0x00000000#32)))
            shapeCasts_S8192x8_S16x512x8))
        shapeCasts_S16x512x8_S16x512x8 := rfl

/-- THE ACCUMULATE STEP at box `r`, sample `s`, column `c`: the accumulator there plus the sum over the tile's `400` places
    of the indicator "the sample's word is `(i 2) * 400 + k`" times the tile's row `k`, column `c`. The second product — the
    indicators times the difference of the point rows and themselves — is a sum of zeros, the point rows being finite. -/
theorem pay4_apply (i : grid0.Coords) (x1 : Vec Ideal S1x400x8 .f32) (x0 : Vec Ideal S1x16x512 .i32)
    (xs0 : Vec Ideal S16x512x8 .f32) (hfin : ∀ j, ∃ q : ℝ, x1 j = (q : EReal)) (r : Fin 16) (s : Fin 512) (c : Fin 8) :
    Gen.k0_pay4 (F := Ideal) i x1 x0 xs0 (ix3 r s c) =
      xs0 (ix3 r s c) + ∑ k : Fin 400,
        (if x0 (ix3 (0 : Fin 1) r s) = BitVec.ofNat 32 (i 2).val * 400#32 + BitVec.ofNat 32 k.val then (1 : EReal) else 0)
          * x1 (ix3 (0 : Fin 1) k c) := by
  rw [pay4_eq]
  refine (congrFun (shapeCast_self _ shapeCasts_S16x512x8_S16x512x8) (ix3 r s c)).trans ?_
  show xs0 (ix3 r s c) + shapeCast S16x512x8 _ shapeCasts_S8192x8_S16x512x8 (ix3 r s c) = _
  refine congrArg (xs0 (ix3 r s c) + ·) ?_
  refine (shapeCast_apply _ shapeCasts_S8192x8_S16x512x8 (ix3 r s c) (ix2 (⟨r.val * 512 + s.val, row_lt r s⟩ : Fin 8192) c) (by
    rw [Shape.rowMajor_val_three, Shape.rowMajor_val_two]
    show (r.val * 512 + s.val) * 8 + c.val = (r.val * 512 + s.val) * 8 + c.val
    rfl)).trans ?_
  show matmul dot_S8192x400_S400x8_S8192x8_1_0_0_1_n_n none (onehot i x0) _ _ (ix2 _ c)
    + matmul dot_S8192x400_S400x8_S8192x8_1_0_0_1_n_n none (onehot i x0) _ _ (ix2 _ c) = _
  rw [matmul_rows_apply, matmul_rows_apply]
  have h2 : (∑ k : Fin 400, onehot i x0 (ix2 (⟨r.val * 512 + s.val, row_lt r s⟩ : Fin 8192) k)
      * (truncf .bf16 (subf (ptsMat x1) (ptsMat x1)) bitsLt_bf16_f32 : FVec Ideal S400x8 .bf16) (ix2 k c)) = 0 := by
    refine Finset.sum_eq_zero fun k _ => ?_
    have hz : (truncf .bf16 (subf (ptsMat x1) (ptsMat x1)) bitsLt_bf16_f32 : FVec Ideal S400x8 .bf16) (ix2 k c) = 0 := by
      show ptsMat x1 (ix2 k c) - ptsMat x1 (ix2 k c) = 0
      rw [ptsMat_apply]
      obtain ⟨q, hq⟩ := hfin (ix3 (0 : Fin 1) k c)
      rw [hq, ← EReal.coe_sub, sub_self]; rfl
    rw [hz, mul_zero]
  rw [h2, add_zero]
  refine Finset.sum_congr rfl fun k _ => ?_
  rw [onehot_apply]
  show _ * ptsMat x1 (ix2 k c) = _
  rw [ptsMat_apply]

/-! ## The rotation of the gathered coordinates about the box centre -/

/-- The gathered coordinates (columns 0 to 2 of the accumulator) less the box centre. -/
def centred (v35 : Vec Ideal S16x512x8 .f32) (v38 : Vec Ideal S1x16x1x3 .f32) : FVec Ideal S16x512x3 .f32 :=
  subf (extractStridedSlice S16x512x3 ![0, 0, 0] v35 slices_S16x512x8_o0_0_0_S16x512x3)
    (broadcastTo S16x512x3 (shapeCast S16x1x3 v38 shapeCasts_S1x16x1x3_S16x1x3) broadcasts_S16x1x3_S16x512x3)

/-- At box `r`, sample `s`, coordinate `c`: the accumulator's column `c` less the centre's coordinate `c`. -/
theorem centred_apply (v35 : Vec Ideal S16x512x8 .f32) (v38 : Vec Ideal S1x16x1x3 .f32) (r : Fin 16) (s : Fin 512) (c : Fin 3) :
    centred v35 v38 (ix3 r s c) =
      v35 (ix3 r s (⟨c.val, by omega⟩ : Fin 8)) - v38 (ix4 (0 : Fin 1) r (0 : Fin 1) c) := by
  unfold centred
  show extractStridedSlice S16x512x3 ![0, 0, 0] v35 slices_S16x512x8_o0_0_0_S16x512x3 (ix3 r s c)
    - broadcastTo S16x512x3 (shapeCast S16x1x3 v38 shapeCasts_S1x16x1x3_S16x1x3) broadcasts_S16x1x3_S16x512x3 (ix3 r s c) = _
  have hA : extractStridedSlice S16x512x3 ![0, 0, 0] v35 slices_S16x512x8_o0_0_0_S16x512x3 (ix3 r s c)
      = v35 (ix3 r s (⟨c.val, by omega⟩ : Fin 8)) :=
    extractStridedSlice_apply ![0, 0, 0] v35 slices_S16x512x8_o0_0_0_S16x512x3 (ix3 r s c)
      (ix3 r s (⟨c.val, by omega⟩ : Fin 8)) (fun a => match a with
        | ⟨0, _⟩ => by show r.val = 0 + r.val; omega
        | ⟨1, _⟩ => by show s.val = 0 + s.val; omega
        | ⟨2, _⟩ => by show c.val = 0 + c.val; omega)
  have hB : broadcastTo S16x512x3 (shapeCast S16x1x3 v38 shapeCasts_S1x16x1x3_S16x1x3) broadcasts_S16x1x3_S16x512x3 (ix3 r s c)
      = v38 (ix4 (0 : Fin 1) r (0 : Fin 1) c) := by
    refine (broadcastTo_apply _ broadcasts_S16x1x3_S16x512x3 (ix3 r s c) (ix3 r (0 : Fin 1) c) (fun a => match a with
      | ⟨0, _⟩ => rfl
      | ⟨1, _⟩ => rfl
      | ⟨2, _⟩ => rfl)).trans ?_
    exact shapeCast_1abc_abc_apply v38 shapeCasts_S1x16x1x3_S16x1x3 r (0 : Fin 1) c
  rw [hA, hB]

/-- A per-box scalar (the cosine or the sine of the box's angle) spread over the box's samples. -/
def col (v : Vec Ideal S1x16x1x1 .f32) : FVec Ideal S16x512x1 .f32 :=
  broadcastTo S16x512x1 (shapeCast S16x1x1 v shapeCasts_S1x16x1x1_S16x1x1) broadcasts_S16x1x1_S16x512x1

/-- At box `r` it is the box's scalar, whatever the sample. -/
theorem col_apply (v : Vec Ideal S1x16x1x1 .f32) (r : Fin 16) (s : Fin 512) :
    col v (ix3 r s (0 : Fin 1)) = v (ix4 (0 : Fin 1) r (0 : Fin 1) (0 : Fin 1)) := by
  unfold col
  refine (broadcastTo_apply _ broadcasts_S16x1x1_S16x512x1 (ix3 r s (0 : Fin 1)) (ix3 r (0 : Fin 1) (0 : Fin 1)) (fun a => match a with
    | ⟨0, _⟩ => rfl
    | ⟨1, _⟩ => rfl
    | ⟨2, _⟩ => rfl)).trans ?_
  exact shapeCast_1abc_abc_apply v shapeCasts_S1x16x1x1_S16x1x1 r (0 : Fin 1) (0 : Fin 1)

/-- Zero less a per-box scalar, spread over the box's samples. -/
def negcol (v : Vec Ideal S1x16x1x1 .f32) : FVec Ideal S16x512x1 .f32 :=
  broadcastTo S16x512x1
    (subf (broadcast S16x1x1 (Scalar.ofBits .f32 0x00000000#32 : Ideal .f32)) (shapeCast S16x1x1 v shapeCasts_S1x16x1x1_S16x1x1))
    broadcasts_S16x1x1_S16x512x1

/-- At box `r` it is `0` less the box's scalar. -/
theorem negcol_apply (v : Vec Ideal S1x16x1x1 .f32) (r : Fin 16) (s : Fin 512) :
    negcol v (ix3 r s (0 : Fin 1)) = 0 - v (ix4 (0 : Fin 1) r (0 : Fin 1) (0 : Fin 1)) := by
  unfold negcol
  refine (broadcastTo_apply _ broadcasts_S16x1x1_S16x512x1 (ix3 r s (0 : Fin 1)) (ix3 r (0 : Fin 1) (0 : Fin 1)) (fun a => match a with
    | ⟨0, _⟩ => rfl
    | ⟨1, _⟩ => rfl
    | ⟨2, _⟩ => rfl)).trans ?_
  show Ideal.ofBits .f32 0x00000000#32 - shapeCast S16x1x1 v shapeCasts_S1x16x1x1_S16x1x1 (ix3 r (0 : Fin 1) (0 : Fin 1)) = _
  rw [Ideal.ofBits_zero_f32, shapeCast_1abc_abc_apply v shapeCasts_S1x16x1x1_S16x1x1 r (0 : Fin 1) (0 : Fin 1)]

/-- Column `n` of a `16 × 512 × 3` array as a `16 × 512 × 1` array, read at an index. -/
theorem slice0_apply (x : FVec Ideal S16x512x3 .f32) (r : Fin 16) (s : Fin 512) :
    extractStridedSlice S16x512x1 ![0, 0, 0] x slices_S16x512x3_o0_0_0_S16x512x1 (ix3 r s (0 : Fin 1)) = x (ix3 r s (0 : Fin 3)) :=
  extractStridedSlice_apply ![0, 0, 0] x slices_S16x512x3_o0_0_0_S16x512x1 (ix3 r s (0 : Fin 1)) (ix3 r s (0 : Fin 3))
    (fun a => match a with
      | ⟨0, _⟩ => by show r.val = 0 + r.val; omega
      | ⟨1, _⟩ => by show s.val = 0 + s.val; omega
      | ⟨2, _⟩ => rfl)
theorem slice1_apply (x : FVec Ideal S16x512x3 .f32) (r : Fin 16) (s : Fin 512) :
    extractStridedSlice S16x512x1 ![0, 0, 1] x slices_S16x512x3_o0_0_1_S16x512x1 (ix3 r s (0 : Fin 1)) = x (ix3 r s (1 : Fin 3)) :=
  extractStridedSlice_apply ![0, 0, 1] x slices_S16x512x3_o0_0_1_S16x512x1 (ix3 r s (0 : Fin 1)) (ix3 r s (1 : Fin 3))
    (fun a => match a with
      | ⟨0, _⟩ => by show r.val = 0 + r.val; omega
      | ⟨1, _⟩ => by show s.val = 0 + s.val; omega
      | ⟨2, _⟩ => rfl)
theorem slice2_apply (x : FVec Ideal S16x512x3 .f32) (r : Fin 16) (s : Fin 512) :
    extractStridedSlice S16x512x1 ![0, 0, 2] x slices_S16x512x3_o0_0_2_S16x512x1 (ix3 r s (0 : Fin 1)) = x (ix3 r s (2 : Fin 3)) :=
  extractStridedSlice_apply ![0, 0, 2] x slices_S16x512x3_o0_0_2_S16x512x1 (ix3 r s (0 : Fin 1)) (ix3 r s (2 : Fin 3))
    (fun a => match a with
      | ⟨0, _⟩ => by show r.val = 0 + r.val; omega
      | ⟨1, _⟩ => by show s.val = 0 + s.val; omega
      | ⟨2, _⟩ => rfl)

/-- The three rotated columns, before they are joined. -/
def rotX (v35 : Vec Ideal S16x512x8 .f32) (v38 : Vec Ideal S1x16x1x3 .f32) (v40 v42 : Vec Ideal S1x16x1x1 .f32) :
    FVec Ideal S16x512x1 .f32 :=
  addf (mulf (col v40) (extractStridedSlice S16x512x1 ![0, 0, 0] (centred v35 v38) slices_S16x512x3_o0_0_0_S16x512x1))
    (mulf (col v42) (extractStridedSlice S16x512x1 ![0, 0, 1] (centred v35 v38) slices_S16x512x3_o0_0_1_S16x512x1))
def rotY (v35 : Vec Ideal S16x512x8 .f32) (v38 : Vec Ideal S1x16x1x3 .f32) (v40 v42 : Vec Ideal S1x16x1x1 .f32) :
    FVec Ideal S16x512x1 .f32 :=
  addf (mulf (negcol v42) (extractStridedSlice S16x512x1 ![0, 0, 0] (centred v35 v38) slices_S16x512x3_o0_0_0_S16x512x1))
    (mulf (col v40) (extractStridedSlice S16x512x1 ![0, 0, 1] (centred v35 v38) slices_S16x512x3_o0_0_1_S16x512x1))
def rotZ (v35 : Vec Ideal S16x512x8 .f32) (v38 : Vec Ideal S1x16x1x3 .f32) : FVec Ideal S16x512x1 .f32 :=
  extractStridedSlice S16x512x1 ![0, 0, 2] (centred v35 v38) slices_S16x512x3_o0_0_2_S16x512x1

/-- The stored value, with its parts named. -/
theorem pay2_eq (v35 : Vec Ideal S16x512x8 .f32) (v38 : Vec Ideal S1x16x1x3 .f32) (v40 v42 : Vec Ideal S1x16x1x1 .f32) :
    Gen.k0_pay2 (F := Ideal) v35 v38 v40 v42 =
      shapeCast S1x16x512x3
        (mulf
          (concatenate S16x512x3 2
            [⟨S16x512x1, rotX v35 v38 v40 v42⟩, ⟨S16x512x1, rotY v35 v38 v40 v42⟩, ⟨S16x512x1, rotZ v35 v38⟩]
            concatenates_S16x512x1_S16x512x1_S16x512x1_S16x512x3_d2)
          (broadcast S16x512x3 (Scalar.ofBits .f32 0x3F800000#32 : Ideal .f32)))
        shapeCasts_S16x512x3_S1x16x512x3 := rfl

/-- The joined columns read at column `0`, `1`, `2`. -/
theorem joined_apply0 (a b c : FVec Ideal S16x512x1 .f32) (r : Fin 16) (s : Fin 512) :
    concatenate S16x512x3 2 [⟨S16x512x1, a⟩, ⟨S16x512x1, b⟩, ⟨S16x512x1, c⟩]
      concatenates_S16x512x1_S16x512x1_S16x512x1_S16x512x3_d2 (ix3 r s (0 : Fin 3)) = a (ix3 r s (0 : Fin 1)) :=
  concatenate_apply_piece (t := S16x512x3) 2 [⟨S16x512x1, a⟩, ⟨S16x512x1, b⟩, ⟨S16x512x1, c⟩]
    concatenates_S16x512x1_S16x512x1_S16x512x1_S16x512x3_d2 (ix3 r s (0 : Fin 3))
    0 (by show 0 < 3; omega) S16x512x1 a rfl rfl 0 rfl (ix3 r s (0 : Fin 1))
    (fun b hb => match b with
      | ⟨0, _⟩ => rfl
      | ⟨1, _⟩ => rfl
      | ⟨2, _⟩ => absurd rfl hb)
    rfl
theorem joined_apply1 (a b c : FVec Ideal S16x512x1 .f32) (r : Fin 16) (s : Fin 512) :
    concatenate S16x512x3 2 [⟨S16x512x1, a⟩, ⟨S16x512x1, b⟩, ⟨S16x512x1, c⟩]
      concatenates_S16x512x1_S16x512x1_S16x512x1_S16x512x3_d2 (ix3 r s (1 : Fin 3)) = b (ix3 r s (0 : Fin 1)) :=
  concatenate_apply_piece (t := S16x512x3) 2 [⟨S16x512x1, a⟩, ⟨S16x512x1, b⟩, ⟨S16x512x1, c⟩]
    concatenates_S16x512x1_S16x512x1_S16x512x1_S16x512x3_d2 (ix3 r s (1 : Fin 3))
    1 (by show 1 < 3; omega) S16x512x1 b rfl rfl 1 rfl (ix3 r s (0 : Fin 1))
    (fun b hb => match b with
      | ⟨0, _⟩ => rfl
      | ⟨1, _⟩ => rfl
      | ⟨2, _⟩ => absurd rfl hb)
    rfl
theorem joined_apply2 (a b c : FVec Ideal S16x512x1 .f32) (r : Fin 16) (s : Fin 512) :
    concatenate S16x512x3 2 [⟨S16x512x1, a⟩, ⟨S16x512x1, b⟩, ⟨S16x512x1, c⟩]
      concatenates_S16x512x1_S16x512x1_S16x512x1_S16x512x3_d2 (ix3 r s (2 : Fin 3)) = c (ix3 r s (0 : Fin 1)) :=
  concatenate_apply_piece (t := S16x512x3) 2 [⟨S16x512x1, a⟩, ⟨S16x512x1, b⟩, ⟨S16x512x1, c⟩]
    concatenates_S16x512x1_S16x512x1_S16x512x1_S16x512x3_d2 (ix3 r s (2 : Fin 3))
    2 (by show 2 < 3; omega) S16x512x1 c rfl rfl 2 rfl (ix3 r s (0 : Fin 1))
    (fun b hb => match b with
      | ⟨0, _⟩ => rfl
      | ⟨1, _⟩ => rfl
      | ⟨2, _⟩ => absurd rfl hb)
    rfl

/-- The stored value at box `r`, sample `s`, column `c`: the joined columns there (the factor `1.0` drops). -/
theorem pay2_apply_joined (v35 : Vec Ideal S16x512x8 .f32) (v38 : Vec Ideal S1x16x1x3 .f32) (v40 v42 : Vec Ideal S1x16x1x1 .f32)
    (u : Fin 1) (r : Fin 16) (s : Fin 512) (c : Fin 3) :
    Gen.k0_pay2 (F := Ideal) v35 v38 v40 v42 (ix4 u r s c) =
      concatenate S16x512x3 2
        [⟨S16x512x1, rotX v35 v38 v40 v42⟩, ⟨S16x512x1, rotY v35 v38 v40 v42⟩, ⟨S16x512x1, rotZ v35 v38⟩]
        concatenates_S16x512x1_S16x512x1_S16x512x1_S16x512x3_d2 (ix3 r s c) := by
  rw [pay2_eq]
  refine (shapeCast_abc_1abc_apply _ shapeCasts_S16x512x3_S1x16x512x3 u r s c).trans ?_
  show _ * Ideal.ofBits .f32 0x3F800000#32 = _
  rw [ofBits_one_f32, mul_one]

/-- THE ROTATION, first coordinate: `cos · (X − nx) + sin · (Y − ny)`. -/
theorem pay2_apply0 (v35 : Vec Ideal S16x512x8 .f32) (v38 : Vec Ideal S1x16x1x3 .f32) (v40 v42 : Vec Ideal S1x16x1x1 .f32)
    (u : Fin 1) (r : Fin 16) (s : Fin 512) :
    Gen.k0_pay2 (F := Ideal) v35 v38 v40 v42 (ix4 u r s (0 : Fin 3)) =
      v40 (ix4 (0 : Fin 1) r (0 : Fin 1) (0 : Fin 1)) * (v35 (ix3 r s (0 : Fin 8)) - v38 (ix4 (0 : Fin 1) r (0 : Fin 1) (0 : Fin 3)))
        + v42 (ix4 (0 : Fin 1) r (0 : Fin 1) (0 : Fin 1)) * (v35 (ix3 r s (1 : Fin 8)) - v38 (ix4 (0 : Fin 1) r (0 : Fin 1) (1 : Fin 3))) := by
  rw [pay2_apply_joined, joined_apply0]
  unfold rotX
  show col v40 (ix3 r s (0 : Fin 1)) * extractStridedSlice S16x512x1 ![0, 0, 0] (centred v35 v38) slices_S16x512x3_o0_0_0_S16x512x1 (ix3 r s (0 : Fin 1))
    + col v42 (ix3 r s (0 : Fin 1)) * extractStridedSlice S16x512x1 ![0, 0, 1] (centred v35 v38) slices_S16x512x3_o0_0_1_S16x512x1 (ix3 r s (0 : Fin 1)) = _
  rw [col_apply, col_apply, slice0_apply, slice1_apply, centred_apply, centred_apply]
  rfl

/-- THE ROTATION, second coordinate: `(0 − sin) · (X − nx) + cos · (Y − ny)`. -/
theorem pay2_apply1 (v35 : Vec Ideal S16x512x8 .f32) (v38 : Vec Ideal S1x16x1x3 .f32) (v40 v42 : Vec Ideal S1x16x1x1 .f32)
    (u : Fin 1) (r : Fin 16) (s : Fin 512) :
    Gen.k0_pay2 (F := Ideal) v35 v38 v40 v42 (ix4 u r s (1 : Fin 3)) =
      (0 - v42 (ix4 (0 : Fin 1) r (0 : Fin 1) (0 : Fin 1))) * (v35 (ix3 r s (0 : Fin 8)) - v38 (ix4 (0 : Fin 1) r (0 : Fin 1) (0 : Fin 3)))
        + v40 (ix4 (0 : Fin 1) r (0 : Fin 1) (0 : Fin 1)) * (v35 (ix3 r s (1 : Fin 8)) - v38 (ix4 (0 : Fin 1) r (0 : Fin 1) (1 : Fin 3))) := by
  rw [pay2_apply_joined, joined_apply1]
  unfold rotY
  show negcol v42 (ix3 r s (0 : Fin 1)) * extractStridedSlice S16x512x1 ![0, 0, 0] (centred v35 v38) slices_S16x512x3_o0_0_0_S16x512x1 (ix3 r s (0 : Fin 1))
    + col v40 (ix3 r s (0 : Fin 1)) * extractStridedSlice S16x512x1 ![0, 0, 1] (centred v35 v38) slices_S16x512x3_o0_0_1_S16x512x1 (ix3 r s (0 : Fin 1)) = _
  rw [negcol_apply, col_apply, slice0_apply, slice1_apply, centred_apply, centred_apply]
  rfl

/-- THE ROTATION, third coordinate: `Z − nz`. -/
theorem pay2_apply2 (v35 : Vec Ideal S16x512x8 .f32) (v38 : Vec Ideal S1x16x1x3 .f32) (v40 v42 : Vec Ideal S1x16x1x1 .f32)
    (u : Fin 1) (r : Fin 16) (s : Fin 512) :
    Gen.k0_pay2 (F := Ideal) v35 v38 v40 v42 (ix4 u r s (2 : Fin 3)) =
      v35 (ix3 r s (2 : Fin 8)) - v38 (ix4 (0 : Fin 1) r (0 : Fin 1) (2 : Fin 3)) := by
  rw [pay2_apply_joined, joined_apply2]
  unfold rotZ
  rw [slice2_apply, centred_apply]
  rfl

end Cert.KernelIdeal.PayIdx

end
-- ==== Proof.KernelIdeal.AccIdeal.lean ====
/-
  The accumulator on the extended reals. One tile's accumulate step adds, at row r, sample position s and channel ch, the
  sum over the tile's 400 points of [the sample's point number is this point] times the point's channel; the low residual's
  product vanishes because the point rows are finite. So after point tile p of a box tile the accumulator holds the double
  sum over tiles 0 … p; and after the last tile (p = 99), the sample's point number being below 40000 = 100 · 400, exactly
  one term survives: the accumulator holds the point table's row at the sampled point.
-/
import proofs.«179565_j43817256354257_2_alg».proof.Proof.KernelIdeal.Acc
import proofs.«179565_j43817256354257_2_alg».proof.Proof.KernelIdeal.Arr
import proofs.«179565_j43817256354257_2_alg».proof.Proof.PayloadAtIdx
import proofs.«179565_j43817256354257_2_alg».proof.Proof.LibGatherOneHot

noncomputable section

namespace Cert.KernelIdeal.KV

open Idealize.ShloMosaic Idealize.ShloMosaic.TcCoe Idealize.SL.Sem Idealize.ShloMosaic.ValueIdx
open Cert.KernelIdeal Cert.KernelIdeal.Gen Cert.KernelIdeal.Fr

variable (m : (ℓ : Loc nD τ sig) → Buf (Elt Ideal) ℓ) (c : Dev nD)

/-- The point table's entry of batch `b`, channel `ch`, at a point given as a natural number (0 beyond the table). -/
def rowAt (b : Fin 4) (ch : Fin 8) (n : ℕ) : EReal :=
  if h : n < 40000 then Pt m c (ix3 b ⟨n, h⟩ ch) else 0

theorem rowAt_lt (b : Fin 4) (ch : Fin 8) (n : ℕ) (h : n < 40000) : rowAt m c b ch n = Pt m c (ix3 b ⟨n, h⟩ ch) := dif_pos h

/-- The sample's point number, for row `r` of point `t`'s box tile. -/
def numAt (t : Fin cfg0.N) (r : Fin 16) (s : Fin 512) : ℕ := (Ix m c (ix3 (bOf t) (rowOf t r) s)).toNat

/-- One point tile's term: the one-hot sum over its 400 points. -/
def tileSum (b : Fin 4) (ch : Fin 8) (num p : ℕ) : EReal :=
  ∑ k : Fin 400, (if p * 400 + k.val = num then (1 : EReal) else 0) * rowAt m c b ch (p * 400 + k.val)

/-- The sum of the first `P` point tiles' terms. -/
def S (b : Fin 4) (ch : Fin 8) (num P : ℕ) : EReal := ∑ p ∈ Finset.range P, tileSum m c b ch num p

theorem S_one (b : Fin 4) (ch : Fin 8) (num : ℕ) : S m c b ch num 1 = tileSum m c b ch num 0 := by
  unfold S; rw [Finset.range_one, Finset.sum_singleton]

theorem S_succ (b : Fin 4) (ch : Fin 8) (num P : ℕ) : S m c b ch num (P + 1) = S m c b ch num P + tileSum m c b ch num P :=
  Finset.sum_range_succ _ _

/-- One tile's accumulate step. -/
theorem tile_term (hP : ∀ j, ∃ q : ℝ, Pt m c j = (q : EReal)) (t : Fin cfg0.N) (p : ℕ) (hp : t.val % 100 = p)
    (xs0 : Vec Ideal S16x512x8 .f32) (r : Fin 16) (s : Fin 512) (ch : Fin 8) :
    k0_pay4 (F := Ideal) (grid0.coords t) (iblk m c 1 t) (iblk m c 0 t) xs0 (ix3 r s ch)
      = xs0 (ix3 r s ch) + tileSum m c (bOf t) ch (numAt m c t r s) p := by
  subst hp
  have hfin : ∀ j, ∃ q : ℝ, (iblk m c 1 t : Vec Ideal S1x400x8 .f32) j = (q : EReal) := fun j => by
    obtain ⟨i, hi⟩ := iblk1_mem m c t j
    rw [hi]; exact hP i
  refine (Cert.KernelIdeal.PayIdx.pay4_apply (grid0.coords t) (iblk m c 1 t) (iblk m c 0 t) xs0 hfin r s ch).trans ?_
  unfold tileSum
  refine congrArg (fun z => xs0 (ix3 r s ch) + z) (Finset.sum_congr rfl fun k _ => ?_)
  have hp : t.val % 100 < 100 := Nat.mod_lt _ (by norm_num)
  have e1 : (iblk m c 1 t : Vec Ideal S1x400x8 .f32) (ix3 (0 : Fin 1) k ch) = rowAt m c (bOf t) ch (t.val % 100 * 400 + k.val) := by
    exact (iblk1_apply m c t k ch).trans (rowAt_lt m c (bOf t) ch (t.val % 100 * 400 + k.val) (ptOf t k).isLt).symm
  have e0 : ((iblk m c 0 t : Vec Ideal S1x16x512 .i32) (ix3 (0 : Fin 1) r s)
      = BitVec.ofNat 32 (grid0.coords t (2 : Fin 3)).val * 400#32 + BitVec.ofNat 32 k.val) ↔ t.val % 100 * 400 + k.val = numAt m c t r s := by
    rw [iblk0_apply, coords2, Cert.Lib.GatherOneHot.eq_tile_word_iff _ _ _ hp k.isLt]
    exact eq_comm
  refine congrArg₂ (fun (x y : EReal) => x * y) ?_ e1
  exact if_congr e0 rfl rfl

/-- The first point tile of a box tile: the accumulator holds that tile's term. -/
theorem acc_first (hP : ∀ j, ∃ q : ℝ, Pt m c j = (q : EReal)) (t : Fin cfg0.N) (h0 : t.val % 100 = 0)
    (r : Fin 16) (s : Fin 512) (ch : Fin 8) :
    acc m c t.val t.isLt (ix3 r s ch) = S m c (bOf t) ch (numAt m c t r s) 1 := by
  refine (congrFun (acc_of_first m c t h0) (ix3 r s ch)).trans ?_
  refine (tile_term m c hP t 0 h0 (k0_pay3 (F := Ideal)) r s ch).trans ?_
  rw [Cert.KernelIdeal.PayIdx.pay3_apply, zero_add, S_one]

/-- After linear point `n` the accumulator holds the sum of the terms of the point tiles so far of its box tile. -/
theorem acc_apply (hP : ∀ j, ∃ q : ℝ, Pt m c j = (q : EReal)) :
    ∀ (n : ℕ) (h : n < cfg0.N) (r : Fin 16) (s : Fin 512) (ch : Fin 8),
      acc m c n h (ix3 r s ch) = S m c (bOf ⟨n, h⟩) ch (numAt m c ⟨n, h⟩ r s) (n % 100 + 1)
  | 0, h, r, s, ch => acc_first m c hP ⟨0, h⟩ (Nat.zero_mod 100) r s ch
  | n + 1, h, r, s, ch => by
    by_cases h0 : (n + 1) % 100 = 0
    · rw [show (n + 1) % 100 + 1 = 1 from by omega]
      exact acc_first m c hP ⟨n + 1, h⟩ h0 r s ch
    · have hN : n + 1 < 6400 := hN ⟨n + 1, h⟩
      have hmod : (n + 1) % 100 = n % 100 + 1 := by omega
      have hb : bOf (⟨n, Nat.lt_of_succ_lt h⟩ : Fin cfg0.N) = bOf ⟨n + 1, h⟩ := Fin.ext (by show n / 1600 = (n + 1) / 1600; omega)
      have hr : rowOf (⟨n, Nat.lt_of_succ_lt h⟩ : Fin cfg0.N) r = rowOf ⟨n + 1, h⟩ r :=
        Fin.ext (by show n / 100 % 16 * 16 + r.val = (n + 1) / 100 % 16 * 16 + r.val; omega)
      have hnum : numAt m c ⟨n, Nat.lt_of_succ_lt h⟩ r s = numAt m c ⟨n + 1, h⟩ r s := by unfold numAt; rw [hb, hr]
      refine (congrFun (acc_succ_of_ne m c n h h0) (ix3 r s ch)).trans ?_
      refine (tile_term m c hP ⟨n + 1, h⟩ (n % 100 + 1) hmod (acc m c n (Nat.lt_of_succ_lt h)) r s ch).trans ?_
      rw [hmod, S_succ, acc_apply hP n (Nat.lt_of_succ_lt h) r s ch, hb, hnum]

/-- A hundred point tiles' terms: the sample's point number being below 40000 = 100 · 400, one term survives. -/
theorem S_hundred (b : Fin 4) (ch : Fin 8) (num : ℕ) (hw : num < 40000) :
    S m c b ch num 100 = Pt m c (ix3 b ⟨num, hw⟩ ch) := by
  have h1 : S m c b ch num 100 = ∑ p : Fin 100, ∑ k : Fin 400,
      (if p.val * 400 + k.val = num then (1 : EReal) else 0) * rowAt m c b ch (p.val * 400 + k.val) :=
    Finset.sum_range (fun p => tileSum m c b ch num p)
  refine h1.trans ?_
  refine (Cert.Lib.GatherOneHot.sum_tiles_onehot_mul' (T := 100) (K := 400) (fun p k => rowAt m c b ch (p.val * 400 + k.val))
    ⟨num / 400, by omega⟩ ⟨num % 400, Nat.mod_lt _ (by norm_num)⟩ num (by show _ = _ / 400 * 400 + _ % 400; omega)).trans ?_
  show rowAt m c b ch (num / 400 * 400 + num % 400) = _
  rw [show num / 400 * 400 + num % 400 = num by omega]
  exact rowAt_lt m c b ch _ hw

/-- After the last point tile the accumulator holds the point table's row at the sampled point. -/
theorem acc_last (hP : ∀ j, ∃ q : ℝ, Pt m c j = (q : EReal)) (hI : ∀ j, (Ix m c j).toNat < 40000)
    (t : Fin cfg0.N) (h99 : t.val % 100 = 99) (r : Fin 16) (s : Fin 512) (ch : Fin 8) :
    acc m c t.val t.isLt (ix3 r s ch) = Pt m c (ix3 (bOf t) ⟨numAt m c t r s, hI _⟩ ch) := by
  refine (acc_apply m c hP t.val t.isLt r s ch).trans ?_
  rw [h99]
  exact S_hundred m c (bOf t) ch (numAt m c t r s) (hI _)

end Cert.KernelIdeal.KV

end
-- ==== Proof.KernelIdeal.KFinal.lean ====
/-
  The kernel program's two results on the extended reals, as functions of the buffers the region finds: the point table
  P [4, 40000, 8], the sample numbers I [4, 256, 512], the box centres C, and the cosines and sines of the orientations.
  Output 5's array [4, 256, 512, 3] is written once per box tile, at the tile's last point tile, with the rotation of the
  completed accumulator: at (b, M, s, ·) it holds ( cs·X + sn·Y, (0 − sn)·X + cs·Y, Z ) with (X, Y, Z) the coordinates
  of point n = I (b, M, s) of batch b centred on box M. Output 6's array [4, 256, 512, 5] holds at (b, M, s, c) channel
  c + 3 of that point. Each box tile's block is written by exactly one flushing point, and the 64 blocks cover the arrays.
  The program's results are the two arrays transposed.
-/
import proofs.«179565_j43817256354257_2_alg».proof.Proof.KernelIdeal.AccIdeal
import Idealize.ShloMosaic.Lib.Pipeline.Value
import Idealize.ShloMosaic.Lib.StableHlo.Run

set_option maxRecDepth 16384

noncomputable section

namespace Cert.KernelIdeal.KV

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Fr

variable (m : (ℓ : Loc nD τ sig) → Buf (Elt Ideal) ℓ) (c : Dev nD)
variable (hP : ∀ j, ∃ q : ℝ, Pt m c j = (q : EReal))
variable (hI : ∀ j, (Ix m c j).toNat < 40000)

/-- The point sampled for box `M` of batch `b` at position `s`. -/
def nOf (b : Fin 4) (M : Fin 256) (s : Fin 512) : Fin 40000 :=
  ⟨(Ix m c (ix3 b M s)).toNat, hI _⟩

def g5x (b : Fin 4) (M : Fin 256) (s : Fin 512) : EReal :=
  Cs m c (ix4 b M (0 : Fin 1) (0 : Fin 1))
      * (Pt m c (ix3 b (nOf m c hI b M s) (0 : Fin 8)) - Ct m c (ix4 b M (0 : Fin 1) (0 : Fin 3)))
    + Sn m c (ix4 b M (0 : Fin 1) (0 : Fin 1))
      * (Pt m c (ix3 b (nOf m c hI b M s) (1 : Fin 8)) - Ct m c (ix4 b M (0 : Fin 1) (1 : Fin 3)))

def g5y (b : Fin 4) (M : Fin 256) (s : Fin 512) : EReal :=
  (0 - Sn m c (ix4 b M (0 : Fin 1) (0 : Fin 1)))
      * (Pt m c (ix3 b (nOf m c hI b M s) (0 : Fin 8)) - Ct m c (ix4 b M (0 : Fin 1) (0 : Fin 3)))
    + Cs m c (ix4 b M (0 : Fin 1) (0 : Fin 1))
      * (Pt m c (ix3 b (nOf m c hI b M s) (1 : Fin 8)) - Ct m c (ix4 b M (0 : Fin 1) (1 : Fin 3)))

def g5z (b : Fin 4) (M : Fin 256) (s : Fin 512) : EReal :=
  Pt m c (ix3 b (nOf m c hI b M s) (2 : Fin 8)) - Ct m c (ix4 b M (0 : Fin 1) (2 : Fin 3))

/-- Output 5's array after the run. -/
def G5 : S4x256x512x3.Idx → EReal := fun j =>
  if (j 3).val = 0 then g5x m c hI (j 0) (j 1) (j 2) else if (j 3).val = 1 then g5y m c hI (j 0) (j 1) (j 2) else g5z m c hI (j 0) (j 1) (j 2)

theorem G5_0 (b : Fin 4) (M : Fin 256) (s : Fin 512) : G5 m c hI (ix4 b M s (0 : Fin 3)) = g5x m c hI b M s := if_pos rfl
theorem G5_1 (b : Fin 4) (M : Fin 256) (s : Fin 512) : G5 m c hI (ix4 b M s (1 : Fin 3)) = g5y m c hI b M s :=
  (if_neg (show ¬((1 : Fin 3) : ℕ) = 0 by decide)).trans (if_pos rfl)
theorem G5_2 (b : Fin 4) (M : Fin 256) (s : Fin 512) : G5 m c hI (ix4 b M s (2 : Fin 3)) = g5z m c hI b M s :=
  (if_neg (show ¬((2 : Fin 3) : ℕ) = 0 by decide)).trans (if_neg (show ¬((2 : Fin 3) : ℕ) = 1 by decide))

/-- Output 6's array after the run. -/
def G6 : S4x256x512x5.Idx → EReal := fun j =>
  let cc : Fin 5 := j 3
  Pt m c (ix3 (j 0) (nOf m c hI (j 0) (j 1) (j 2)) (⟨cc.val + 3, by have := cc.isLt; omega⟩ : Fin 8))

/-! ## What a last point tile writes back -/

theorem emb5 (t : Fin cfg0.N) (u : Fin 1) (r : Fin 16) (s : Fin 512) (k : Fin 3) :
    ((cfg0.win 5).blk t).view.emb (ix4 u r s k) = ix4 (bOf t) (rowOf t r) s k := by
  obtain ⟨e0, e1, e2, e3, -⟩ := idx_facts56 t
  funext a; apply Fin.ext
  match a with
  | ⟨0, _⟩ => show win0_5.index t (0 : Fin 4) * 1 + 1 * u.val = t.val / 1600; have := u.isLt; omega
  | ⟨1, _⟩ => show win0_5.index t (1 : Fin 4) * 16 + 1 * r.val = t.val / 100 % 16 * 16 + r.val; omega
  | ⟨2, _⟩ => show win0_5.index t (2 : Fin 4) * 512 + 1 * s.val = s.val; omega
  | ⟨3, _⟩ => show win0_5.index t (3 : Fin 4) * 3 + 1 * k.val = k.val; omega

theorem emb6 (t : Fin cfg0.N) (u : Fin 1) (r : Fin 16) (s : Fin 512) (k : Fin 5) :
    ((cfg0.win 6).blk t).view.emb (ix4 u r s k) = ix4 (bOf t) (rowOf t r) s k := by
  obtain ⟨-, -, -, -, e0, e1, e2, e3⟩ := idx_facts56 t
  funext a; apply Fin.ext
  match a with
  | ⟨0, _⟩ => show win0_6.index t (0 : Fin 4) * 1 + 1 * u.val = t.val / 1600; have := u.isLt; omega
  | ⟨1, _⟩ => show win0_6.index t (1 : Fin 4) * 16 + 1 * r.val = t.val / 100 % 16 * 16 + r.val; omega
  | ⟨2, _⟩ => show win0_6.index t (2 : Fin 4) * 512 + 1 * s.val = s.val; omega
  | ⟨3, _⟩ => show win0_6.index t (3 : Fin 4) * 5 + 1 * k.val = k.val; omega

theorem nOf_eq (t : Fin cfg0.N) (r : Fin 16) (s : Fin 512) :
    (⟨numAt m c t r s, hI _⟩ : Fin 40000) = nOf m c hI (bOf t) (rowOf t r) s := rfl

include hP in
theorem flushed5_eq (t : Fin cfg0.N) (hf : (cfg0.win 5).flush t = true) :
    (dats m 0 c).flushed 5 t = ((cfg0.win 5).blk t).view.read (Elt Ideal) (G5 m c hI) := by
  have h99 : t.val % 100 = 99 := (flush0_5 t).mp hf
  show (cfg0.win 5).cut (grid0.coords t) ((dats m 0 c).after 5 t) = _
  rw [after0_5, outsAt_out5 m c t h99]
  funext y
  obtain ⟨u, r, s, k, rfl⟩ : ∃ (u : Fin 1) (r : Fin 16) (s : Fin 512) (k : Fin 3), y = ix4 u r s k := ⟨y 0, y 1, y 2, y 3, eq_ix4 y⟩
  show k0_pay2 (F := Ideal) (acc m c t.val t.isLt) (iblk m c 2 t) (iblk m c 3 t) (iblk m c 4 t) (ix4 u r s k)
    = G5 m c hI (((cfg0.win 5).blk t).view.emb (ix4 u r s k))
  rw [emb5]
  have a0 := acc_last m c hP hI t h99 r s (0 : Fin 8)
  have a1 := acc_last m c hP hI t h99 r s (1 : Fin 8)
  have a2 := acc_last m c hP hI t h99 r s (2 : Fin 8)
  have c0 := iblk2_apply m c t r (0 : Fin 3)
  have c1 := iblk2_apply m c t r (1 : Fin 3)
  have c2 := iblk2_apply m c t r (2 : Fin 3)
  have ecs := iblk3_apply m c t r
  have esn := iblk4_apply m c t r
  match k with
  | ⟨0, _⟩ =>
    refine (Cert.KernelIdeal.PayIdx.pay2_apply0 _ _ _ _ u r s).trans ?_
    refine (congrArg₂ (fun (x y : EReal) => x + y)
      (congrArg₂ (fun (x y : EReal) => x * y) ecs (congrArg₂ (fun (x y : EReal) => x - y) a0 c0))
      (congrArg₂ (fun (x y : EReal) => x * y) esn (congrArg₂ (fun (x y : EReal) => x - y) a1 c1))).trans ?_
    exact (G5_0 m c hI _ _ _).symm
  | ⟨1, _⟩ =>
    refine (Cert.KernelIdeal.PayIdx.pay2_apply1 _ _ _ _ u r s).trans ?_
    refine (congrArg₂ (fun (x y : EReal) => x + y)
      (congrArg₂ (fun (x y : EReal) => x * y) (congrArg (fun (x : EReal) => 0 - x) esn) (congrArg₂ (fun (x y : EReal) => x - y) a0 c0))
      (congrArg₂ (fun (x y : EReal) => x * y) ecs (congrArg₂ (fun (x y : EReal) => x - y) a1 c1))).trans ?_
    exact (G5_1 m c hI _ _ _).symm
  | ⟨2, _⟩ =>
    refine (Cert.KernelIdeal.PayIdx.pay2_apply2 _ _ _ _ u r s).trans ?_
    refine (congrArg₂ (fun (x y : EReal) => x - y) a2 c2).trans ?_
    exact (G5_2 m c hI _ _ _).symm

include hP in
theorem flushed6_eq (t : Fin cfg0.N) (hf : (cfg0.win 6).flush t = true) :
    (dats m 0 c).flushed 6 t = ((cfg0.win 6).blk t).view.read (Elt Ideal) (G6 m c hI) := by
  have h99 : t.val % 100 = 99 := (flush0_6 t).mp hf
  show (cfg0.win 6).cut (grid0.coords t) ((dats m 0 c).after 6 t) = _
  rw [after0_6, outsAt_out6 m c t h99]
  funext y
  obtain ⟨u, r, s, k, rfl⟩ : ∃ (u : Fin 1) (r : Fin 16) (s : Fin 512) (k : Fin 5), y = ix4 u r s k := ⟨y 0, y 1, y 2, y 3, eq_ix4 y⟩
  show k0_pay5 (F := Ideal) (k0_pay1 (acc m c t.val t.isLt)) (ix4 u r s k)
    = G6 m c hI (((cfg0.win 6).blk t).view.emb (ix4 u r s k))
  rw [emb6]
  refine (Cert.KernelIdeal.PayIdx.pay5_pay1_apply _ u r s k).trans ?_
  exact acc_last m c hP hI t h99 r s _

/-! ## The blocks cover the arrays -/

theorem mem_blk5 (t : Fin cfg0.N) (i : S4x256x512x3.Idx) :
    i ∈ ((cfg0.win 5).blk t).view.set ↔ ∀ a : Fin 4, win0_5.index t a * S1x16x512x3.size a ≤ (i a).val ∧ (i a).val < win0_5.index t a * S1x16x512x3.size a + S1x16x512x3.size a := by
  show i ∈ ((View.whole main_v69_0).slice (win0_5.rect t)).set ↔ _
  rw [View.set_slice_whole, Rect.mem_set_unit]
  exact Iff.rfl

theorem mem_blk6 (t : Fin cfg0.N) (i : S4x256x512x5.Idx) :
    i ∈ ((cfg0.win 6).blk t).view.set ↔ ∀ a : Fin 4, win0_6.index t a * S1x16x512x5.size a ≤ (i a).val ∧ (i a).val < win0_6.index t a * S1x16x512x5.size a + S1x16x512x5.size a := by
  show i ∈ ((View.whole main_v69_1).slice (win0_6.rect t)).set ↔ _
  rw [View.set_slice_whole, Rect.mem_set_unit]
  exact Iff.rfl

theorem lastPt_lt (b M : ℕ) (hb : b < 4) (hM : M < 256) : (b * 16 + M / 16) * 100 + 99 < cfg0.N := by
  rw [show cfg0.N = 6400 from N_0]; omega

theorem cover5 (i : S4x256x512x3.Idx) : ∃ t : Fin cfg0.N, (cfg0.win 5).flush t = true ∧ i ∈ ((cfg0.win 5).blk t).view.set := by
  have h0 : (i 0).val < 4 := (i 0).isLt
  have h1 : (i 1).val < 256 := (i 1).isLt
  have h2 : (i 2).val < 512 := (i 2).isLt
  have h3 : (i 3).val < 3 := (i 3).isLt
  refine ⟨⟨((i 0).val * 16 + (i 1).val / 16) * 100 + 99, lastPt_lt _ _ h0 h1⟩, (flush0_5 _).mpr (by show (((i 0).val * 16 + (i 1).val / 16) * 100 + 99) % 100 = 99; omega), ?_⟩
  rw [mem_blk5]
  obtain ⟨e0, e1, e2, e3, -⟩ := idx_facts56 ⟨((i 0).val * 16 + (i 1).val / 16) * 100 + 99, lastPt_lt _ _ h0 h1⟩
  have e0' : win0_5.index ⟨((i 0).val * 16 + (i 1).val / 16) * 100 + 99, lastPt_lt _ _ h0 h1⟩ (0 : Fin 4) = (((i 0).val * 16 + (i 1).val / 16) * 100 + 99) / 1600 := e0
  have e1' : win0_5.index ⟨((i 0).val * 16 + (i 1).val / 16) * 100 + 99, lastPt_lt _ _ h0 h1⟩ (1 : Fin 4) = (((i 0).val * 16 + (i 1).val / 16) * 100 + 99) / 100 % 16 := e1
  intro a
  match a with
  | ⟨0, _⟩ => show win0_5.index _ (0 : Fin 4) * 1 ≤ (i 0).val ∧ (i 0).val < win0_5.index _ (0 : Fin 4) * 1 + 1; omega
  | ⟨1, _⟩ => show win0_5.index _ (1 : Fin 4) * 16 ≤ (i 1).val ∧ (i 1).val < win0_5.index _ (1 : Fin 4) * 16 + 16; omega
  | ⟨2, _⟩ => show win0_5.index _ (2 : Fin 4) * 512 ≤ (i 2).val ∧ (i 2).val < win0_5.index _ (2 : Fin 4) * 512 + 512; omega
  | ⟨3, _⟩ => show win0_5.index _ (3 : Fin 4) * 3 ≤ (i 3).val ∧ (i 3).val < win0_5.index _ (3 : Fin 4) * 3 + 3; omega

theorem cover6 (i : S4x256x512x5.Idx) : ∃ t : Fin cfg0.N, (cfg0.win 6).flush t = true ∧ i ∈ ((cfg0.win 6).blk t).view.set := by
  have h0 : (i 0).val < 4 := (i 0).isLt
  have h1 : (i 1).val < 256 := (i 1).isLt
  have h2 : (i 2).val < 512 := (i 2).isLt
  have h3 : (i 3).val < 5 := (i 3).isLt
  refine ⟨⟨((i 0).val * 16 + (i 1).val / 16) * 100 + 99, lastPt_lt _ _ h0 h1⟩, (flush0_6 _).mpr (by show (((i 0).val * 16 + (i 1).val / 16) * 100 + 99) % 100 = 99; omega), ?_⟩
  rw [mem_blk6]
  obtain ⟨-, -, -, -, e0, e1, e2, e3⟩ := idx_facts56 ⟨((i 0).val * 16 + (i 1).val / 16) * 100 + 99, lastPt_lt _ _ h0 h1⟩
  have e0' : win0_6.index ⟨((i 0).val * 16 + (i 1).val / 16) * 100 + 99, lastPt_lt _ _ h0 h1⟩ (0 : Fin 4) = (((i 0).val * 16 + (i 1).val / 16) * 100 + 99) / 1600 := e0
  have e1' : win0_6.index ⟨((i 0).val * 16 + (i 1).val / 16) * 100 + 99, lastPt_lt _ _ h0 h1⟩ (1 : Fin 4) = (((i 0).val * 16 + (i 1).val / 16) * 100 + 99) / 100 % 16 := e1
  intro a
  match a with
  | ⟨0, _⟩ => show win0_6.index _ (0 : Fin 4) * 1 ≤ (i 0).val ∧ (i 0).val < win0_6.index _ (0 : Fin 4) * 1 + 1; omega
  | ⟨1, _⟩ => show win0_6.index _ (1 : Fin 4) * 16 ≤ (i 1).val ∧ (i 1).val < win0_6.index _ (1 : Fin 4) * 16 + 16; omega
  | ⟨2, _⟩ => show win0_6.index _ (2 : Fin 4) * 512 ≤ (i 2).val ∧ (i 2).val < win0_6.index _ (2 : Fin 4) * 512 + 512; omega
  | ⟨3, _⟩ => show win0_6.index _ (3 : Fin 4) * 5 ≤ (i 3).val ∧ (i 3).val < win0_6.index _ (3 : Fin 4) * 5 + 5; omega

/-! ## The arrays after the run -/

include hP in
theorem final5 : (dats m 0 c).arrAt 5 cfg0.N = G5 m c hI :=
  (dats m 0 c).arrAt_eq_of_cover 5 (G5 m c hI) (fun t hf => flushed5_eq m c hP hI t hf) cover5

include hP in
theorem final6 : (dats m 0 c).arrAt 6 cfg0.N = G6 m c hI :=
  (dats m 0 c).arrAt_eq_of_cover 6 (G6 m c hI) (fun t hf => flushed6_eq m c hP hI t hf) cover6

end Cert.KernelIdeal.KV

end
-- ==== Proof.Spec.lean ====
/-
  The specification both programs are proved to compute, index by index on the extended reals.
  Inputs: the point cloud pc [4, 40000, 7] (three coordinates, four features), the point labels lab [4, 40000], the box
  centres ctr [4, 256, 3], the cosines cs and sines sn of the box orientations [4, 256], and the ball query's sample
  numbers idx [4, 256, 512] (32-bit words, each below 40000).
  The point table T [4, 40000, 8] has the point cloud's seven channels and the label as its eighth. For box m of batch b
  and sample s, with n = idx (b, m, s) the sampled point: the first result holds at (m, b, s, ·) the point's coordinates
  centred on the box and rotated about the vertical axis by the box's orientation,
      ( cs·X + sn·Y,  −sn·X + cs·Y,  Z ),   (X, Y, Z) = T b n (0,1,2) − ctr (b, m, ·),
  and the second result holds at (b, c, m, s) the point's channel c + 3 (its four features and its label).
-/
import Idealize.ShloMosaic.PureOps.Ideal
import Idealize.ShloMosaic.Lib.ValueIdx

noncomputable section

namespace Cert.Spec

open Idealize.ShloMosaic Idealize.ShloMosaic.ValueIdx

/-- The point table: channel `ch < 7` of point `n` of batch `b` is the point cloud's, channel 7 its label. -/
def table (pc : (⟨3, ![4, 40000, 7]⟩ : Shape).Idx → EReal) (lab : (⟨2, ![4, 40000]⟩ : Shape).Idx → EReal)
    (b : Fin 4) (n : Fin 40000) (ch : Fin 8) : EReal :=
  if h : ch.val < 7 then pc (ix3 b n ⟨ch.val, h⟩) else lab (ix2 b n)

/-- The point sampled for box `m` of batch `b` at sample position `s`. -/
def pick (idx : (⟨3, ![4, 256, 512]⟩ : Shape).Idx → BitVec 32) (hidx : ∀ j, (idx j).toNat < 40000)
    (b : Fin 4) (m : Fin 256) (s : Fin 512) : Fin 40000 :=
  ⟨(idx (ix3 b m s)).toNat, hidx _⟩

/-- Coordinate `k` of point `n` centred on box `m` of batch `b` and rotated by the box's orientation. -/
def xyzAt (T : Fin 4 → Fin 40000 → Fin 8 → EReal) (ctr : (⟨3, ![4, 256, 3]⟩ : Shape).Idx → EReal)
    (cs sn : (⟨2, ![4, 256]⟩ : Shape).Idx → EReal) (b : Fin 4) (m : Fin 256) (n : Fin 40000) (k : Fin 3) : EReal :=
  if k.val = 0 then cs (ix2 b m) * (T b n 0 - ctr (ix3 b m 0)) + sn (ix2 b m) * (T b n 1 - ctr (ix3 b m 1))
  else if k.val = 1 then -(sn (ix2 b m)) * (T b n 0 - ctr (ix3 b m 0)) + cs (ix2 b m) * (T b n 1 - ctr (ix3 b m 1))
  else T b n 2 - ctr (ix3 b m 2)

/-- The first result [256, 4, 512, 3]. -/
def Gxyz (T : Fin 4 → Fin 40000 → Fin 8 → EReal) (ctr : (⟨3, ![4, 256, 3]⟩ : Shape).Idx → EReal)
    (cs sn : (⟨2, ![4, 256]⟩ : Shape).Idx → EReal) (idx : (⟨3, ![4, 256, 512]⟩ : Shape).Idx → BitVec 32)
    (hidx : ∀ j, (idx j).toNat < 40000) : (⟨4, ![256, 4, 512, 3]⟩ : Shape).Idx → EReal := fun j =>
  xyzAt T ctr cs sn (j 1) (j 0) (pick idx hidx (j 1) (j 0) (j 2)) (j 3)

/-- The second result [4, 5, 256, 512]. -/
def Gfeat (T : Fin 4 → Fin 40000 → Fin 8 → EReal) (idx : (⟨3, ![4, 256, 512]⟩ : Shape).Idx → BitVec 32)
    (hidx : ∀ j, (idx j).toNat < 40000) : (⟨4, ![4, 5, 256, 512]⟩ : Shape).Idx → EReal := fun j =>
  let c : Fin 5 := j 1
  T (j 0) (pick idx hidx (j 0) (j 2) (j 3)) ⟨c.val + 3, by have := c.isLt; omega⟩

end Cert.Spec

end
-- ==== Proof.KernelIdeal.HostVals.lean ====
/-
  The contents of the buffers the region reads, when it is entered, read at an index at the ideal instance: the point
  table (the point cloud's seven channels and the label as the eighth), the box centres, the cosines and sines of the
  box orientations, the range of the sample numbers, and the finiteness of the float inputs.
-/
import proofs.«179565_j43817256354257_2_alg».proof.Proof.KernelIdeal.Runs
import proofs.«179565_j43817256354257_2_alg».proof.Proof.Spec
import proofs.«179565_j43817256354257_2_alg».proof.Proof.LibGatherOneHot
import proofs.«179565_j43817256354257_2_alg».proof.Defs
import proofs.«179565_j43817256354257_2_alg».proof.Proof.Gen.Pre_finite_inputs
import Idealize.ShloMosaic.Lib.ReduceAll
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.HV

open Idealize.ShloMosaic Idealize.ShloMosaic.TcCoe Idealize.ShloMosaic.ValueIdx Idealize.ShloMosaic.StableHlo
open Cert.KernelIdeal Cert.KernelIdeal.Gen Cert.KernelIdeal.Fr

variable (m : (ℓ : Loc nD τ sig) → Buf (Elt Ideal) ℓ) (c : Dev nD)

/-! ## The point table -/

/-- The point table as the operations' term over the two argument arrays: the point cloud's first three channels, then
    its last four joined with the label. -/
theorem v4_eq :
    (V m c main_v4 : S4x40000x8.Idx → EReal) =
      concatenate S4x40000x8 2
        [⟨S4x40000x3, extractStridedSlice S4x40000x3 ![0, 0, 0] (m ((c : Thread nD τ).loc main_arg3)) slices_S4x40000x7_S4x40000x3_0_0_0⟩,
         ⟨S4x40000x5, concatenate S4x40000x5 2
            [⟨S4x40000x4, extractStridedSlice S4x40000x4 ![0, 0, 3] (m ((c : Thread nD τ).loc main_arg3)) slices_S4x40000x7_S4x40000x4_0_0_3⟩,
             ⟨S4x40000x1, broadcastInDim S4x40000x1 ![0, 1] bcast_S4x40000_S4x40000x1_0_1 (m ((c : Thread nD τ).loc main_arg4))⟩]
            concatenates_S4x40000x4_S4x40000x1_S4x40000x5_d2⟩]
        concatenates_S4x40000x3_S4x40000x5_S4x40000x8_d2 := by
  dsimp only [V, V0]
  simp only [hostOps0, hostOps0_1, hostOps0_2, hostOps0_3, hostOps0_4, hostOps0_5, hostOps0_6, List.flatten_cons, List.flatten_nil,
    List.append_nil, List.cons_append, List.nil_append]
  after_results_simp
  try rfl

/-- The joined table read at an index, over any two arrays: channel `ch < 7` is the first array's channel `ch`, channel
    `7` the second array's entry. -/
theorem table_term_apply (pc : S4x40000x7.Idx → EReal) (lab : S4x40000.Idx → EReal) (b : Fin 4) (n : Fin 40000) (ch : Fin 8) :
    concatenate S4x40000x8 2
        [⟨S4x40000x3, extractStridedSlice S4x40000x3 ![0, 0, 0] pc slices_S4x40000x7_S4x40000x3_0_0_0⟩,
         ⟨S4x40000x5, concatenate S4x40000x5 2
            [⟨S4x40000x4, extractStridedSlice S4x40000x4 ![0, 0, 3] pc slices_S4x40000x7_S4x40000x4_0_0_3⟩,
             ⟨S4x40000x1, broadcastInDim S4x40000x1 ![0, 1] bcast_S4x40000_S4x40000x1_0_1 lab⟩]
            concatenates_S4x40000x4_S4x40000x1_S4x40000x5_d2⟩]
        concatenates_S4x40000x3_S4x40000x5_S4x40000x8_d2 (ix3 b n ch) = Cert.Spec.table pc lab b n ch := by
  unfold Cert.Spec.table
  by_cases h3 : ch.val < 3
  · -- the first piece: channels 0 to 2
    rw [dif_pos (show ch.val < 7 by omega)]
    refine (concatenate_pair_apply_left (t := S4x40000x8) 2 _ _ concatenates_S4x40000x3_S4x40000x5_S4x40000x8_d2 (ix3 b n ch) rfl
      (ix3 b n (⟨ch.val, h3⟩ : Fin 3)) (fun a => match a with
        | ⟨0, _⟩ => rfl
        | ⟨1, _⟩ => rfl
        | ⟨2, _⟩ => rfl)).trans ?_
    exact extractStridedSlice_apply ![0, 0, 0] pc slices_S4x40000x7_S4x40000x3_0_0_0 (ix3 b n (⟨ch.val, h3⟩ : Fin 3))
      (ix3 b n (⟨ch.val, by omega⟩ : Fin 7)) (fun a => match a with
        | ⟨0, _⟩ => by show b.val = 0 + b.val; omega
        | ⟨1, _⟩ => by show n.val = 0 + n.val; omega
        | ⟨2, _⟩ => by show ch.val = 0 + ch.val; omega)
  · -- the second piece: channels 3 to 7
    have hc5 : ch.val - 3 < 5 := by have := ch.isLt; omega
    refine (concatenate_pair_apply_right (t := S4x40000x8) 2 _ _ concatenates_S4x40000x3_S4x40000x5_S4x40000x8_d2 (ix3 b n ch) rfl rfl
      (ix3 b n (⟨ch.val - 3, hc5⟩ : Fin 5)) (fun a ha => match a with
        | ⟨0, _⟩ => rfl
        | ⟨1, _⟩ => rfl
        | ⟨2, _⟩ => absurd rfl ha)
      (by show ch.val - 3 + 3 = ch.val; omega)).trans ?_
    by_cases h7 : ch.val < 7
    · -- the point cloud's channels 3 to 6
      rw [dif_pos h7]
      have hc4 : ch.val - 3 < 4 := by omega
      refine (concatenate_pair_apply_left (t := S4x40000x5) 2 _ _ concatenates_S4x40000x4_S4x40000x1_S4x40000x5_d2
        (ix3 b n (⟨ch.val - 3, hc5⟩ : Fin 5)) rfl (ix3 b n (⟨ch.val - 3, hc4⟩ : Fin 4)) (fun a => match a with
          | ⟨0, _⟩ => rfl
          | ⟨1, _⟩ => rfl
          | ⟨2, _⟩ => rfl)).trans ?_
      exact extractStridedSlice_apply ![0, 0, 3] pc slices_S4x40000x7_S4x40000x4_0_0_3 (ix3 b n (⟨ch.val - 3, hc4⟩ : Fin 4))
        (ix3 b n (⟨ch.val, h7⟩ : Fin 7)) (fun a => match a with
          | ⟨0, _⟩ => by show b.val = 0 + b.val; omega
          | ⟨1, _⟩ => by show n.val = 0 + n.val; omega
          | ⟨2, _⟩ => by show ch.val = 3 + (ch.val - 3); omega)
    · -- the label
      rw [dif_neg h7]
      refine (concatenate_pair_apply_right (t := S4x40000x5) 2 _ _ concatenates_S4x40000x4_S4x40000x1_S4x40000x5_d2
        (ix3 b n (⟨ch.val - 3, hc5⟩ : Fin 5)) rfl rfl (ix3 b n (0 : Fin 1)) (fun a ha => match a with
          | ⟨0, _⟩ => rfl
          | ⟨1, _⟩ => rfl
          | ⟨2, _⟩ => absurd rfl ha)
        (by show 0 + 4 = ch.val - 3; have := ch.isLt; omega)).trans ?_
      exact broadcastInDim_apply ![0, 1] bcast_S4x40000_S4x40000x1_0_1 lab (ix3 b n (0 : Fin 1)) (ix2 b n) (fun a => match a with
        | ⟨0, _⟩ => rfl
        | ⟨1, _⟩ => rfl)

/-- (K1) THE POINT TABLE at batch `b`, point `n`, channel `ch`. -/
theorem v4_apply (b : Fin 4) (n : Fin 40000) (ch : Fin 8) :
    V m c main_v4 (ix3 b n ch) =
      Cert.Spec.table (m ((c : Thread nD τ).loc main_arg3)) (m ((c : Thread nD τ).loc main_arg4)) b n ch := by
  have e := congrFun (v4_eq m c) (ix3 b n ch)
  exact e.trans (table_term_apply _ _ b n ch)

/-! ## The box centres, and the cosines and sines of the orientations -/

/-- The centres as the operation's term. -/
theorem v64_eq :
    (V m c main_v64 : S4x256x1x3.Idx → EReal) =
      broadcastInDim S4x256x1x3 ![0, 1, 3] bcast_S4x256x3_S4x256x1x3_0_1_3 (m ((c : Thread nD τ).loc main_arg0)) := by
  dsimp only [V, V0]
  simp only [hostOps0, hostOps0_1, hostOps0_2, hostOps0_3, hostOps0_4, hostOps0_5, hostOps0_6, List.flatten_cons, List.flatten_nil,
    List.append_nil, List.cons_append, List.nil_append]
  after_results_simp
  try rfl

/-- (K2) THE CENTRES at batch `b`, box `M`, coordinate `k`. -/
theorem v64_apply (b : Fin 4) (M : Fin 256) (k : Fin 3) :
    V m c main_v64 (ix4 b M (0 : Fin 1) k) = m ((c : Thread nD τ).loc main_arg0) (ix3 b M k) := by
  have e := congrFun (v64_eq m c) (ix4 b M (0 : Fin 1) k)
  refine e.trans ?_
  exact broadcastInDim_apply ![0, 1, 3] bcast_S4x256x3_S4x256x1x3_0_1_3 _ (ix4 b M (0 : Fin 1) k) (ix3 b M k) (fun a => match a with
    | ⟨0, _⟩ => rfl
    | ⟨1, _⟩ => rfl
    | ⟨2, _⟩ => rfl)

/-- The cosines as the operations' term. -/
theorem v66_eq :
    (V m c main_v66 : S4x256x1x1.Idx → EReal) =
      broadcastInDim S4x256x1x1 ![0, 1] bcast_S4x256_S4x256x1x1_0_1
        (Host.cos (F := Ideal) (s := S4x256) (φ := .f32) (m ((c : Thread nD τ).loc main_arg1))) := by
  dsimp only [V, V0]
  simp only [hostOps0, hostOps0_1, hostOps0_2, hostOps0_3, hostOps0_4, hostOps0_5, hostOps0_6, List.flatten_cons, List.flatten_nil,
    List.append_nil, List.cons_append, List.nil_append]
  after_results_simp
  try rfl

/-- (K3) THE COSINES at batch `b`, box `M`. -/
theorem v66_apply (b : Fin 4) (M : Fin 256) :
    V m c main_v66 (ix4 b M (0 : Fin 1) (0 : Fin 1)) =
      Host.cos (F := Ideal) (s := S4x256) (φ := .f32) (m ((c : Thread nD τ).loc main_arg1)) (ix2 b M) := by
  have e := congrFun (v66_eq m c) (ix4 b M (0 : Fin 1) (0 : Fin 1))
  refine e.trans ?_
  exact broadcastInDim_apply ![0, 1] bcast_S4x256_S4x256x1x1_0_1 _ (ix4 b M (0 : Fin 1) (0 : Fin 1)) (ix2 b M) (fun a => match a with
    | ⟨0, _⟩ => rfl
    | ⟨1, _⟩ => rfl)

/-- The sines as the operations' term. -/
theorem v68_eq :
    (V m c main_v68 : S4x256x1x1.Idx → EReal) =
      broadcastInDim S4x256x1x1 ![0, 1] bcast_S4x256_S4x256x1x1_0_1
        (Host.sin (F := Ideal) (s := S4x256) (φ := .f32) (m ((c : Thread nD τ).loc main_arg1))) := by
  dsimp only [V, V0]
  simp only [hostOps0, hostOps0_1, hostOps0_2, hostOps0_3, hostOps0_4, hostOps0_5, hostOps0_6, List.flatten_cons, List.flatten_nil,
    List.append_nil, List.cons_append, List.nil_append]
  after_results_simp
  try rfl

/-- (K4) THE SINES at batch `b`, box `M`. -/
theorem v68_apply (b : Fin 4) (M : Fin 256) :
    V m c main_v68 (ix4 b M (0 : Fin 1) (0 : Fin 1)) =
      Host.sin (F := Ideal) (s := S4x256) (φ := .f32) (m ((c : Thread nD τ).loc main_arg1)) (ix2 b M) := by
  have e := congrFun (v68_eq m c) (ix4 b M (0 : Fin 1) (0 : Fin 1))
  refine e.trans ?_
  exact broadcastInDim_apply ![0, 1] bcast_S4x256_S4x256x1x1_0_1 _ (ix4 b M (0 : Fin 1) (0 : Fin 1)) (ix2 b M) (fun a => match a with
    | ⟨0, _⟩ => rfl
    | ⟨1, _⟩ => rfl)

/-! ## The sample numbers are in range -/

/-- Operations run one list after another are their concatenation run as one. -/
theorem after_append {τ' : Topo} {sig' : RefSig} {Val : EltTy → Type} (l₁ l₂ : List (HloOp τ' sig' Val))
    (W : Valuation τ' sig' Val) : StableHlo.after (l₁ ++ l₂) W = StableHlo.after l₂ (StableHlo.after l₁ W) := by
  induction l₁ generalizing W with
  | nil => rfl
  | cons op l ih =>
    show StableHlo.after (l ++ l₂) (op.result W) = StableHlo.after l₂ (StableHlo.after l (op.result W))
    exact ih _

/-- An iota's entry along an axis of extent `40000` is a word whose number is below `40000`. -/
theorem iotaInDim_toNat_lt (j : S40000.Idx) : ((iotaInDim S40000 32 0 : IVec S40000 32) j).toNat < 40000 := by
  show (BitVec.ofNat 32 (j 0).val).toNat < 40000
  rw [BitVec.toNat_ofNat]
  have h2 : (j 0).val < 40000 := (j 0).isLt
  omega

/-- The slots the scatter fills — zeros overwritten by point numbers — hold words below `40000`, from any contents `X`
    of the buffers before the stretch of operations that holds the scatter. -/
theorem slots_lt (X : Valuation τ sig (Elt Ideal)) (i : S4x256x513.Idx) :
    ((StableHlo.after hostOps0_4 X (Proc.devRef .tc main_v54) : S4x256x513.Idx → BitVec 32) i).toNat < 40000 := by
  simp only [hostOps0_4]
  after_results_simp
  refine Cert.Lib.GatherOneHot.scatter_slots_lt _ _ _ _ ?_ ?_ i
  · intro i'
    show ((0#32 : BitVec 32)).toNat < 40000
    decide
  · intro j'
    exact iotaInDim_toNat_lt _

/-- The slots' first `512` of each row. -/
theorem v55_eq (X : Valuation τ sig (Elt Ideal)) :
    (StableHlo.after hostOps0_4 X (Proc.devRef .tc main_v55) : S4x256x512.Idx → BitVec 32) =
      extractStridedSlice S4x256x512 ![0, 0, 0]
        (StableHlo.after hostOps0_4 X (Proc.devRef .tc main_v54) : S4x256x513.Idx → BitVec 32) slices_S4x256x513_S4x256x512_0_0_0 := by
  simp only [hostOps0_4]
  after_results_simp

/-- The slots' first one of each row. -/
theorem v56_eq (X : Valuation τ sig (Elt Ideal)) :
    (StableHlo.after hostOps0_4 X (Proc.devRef .tc main_v56) : S4x256x1.Idx → BitVec 32) =
      extractStridedSlice S4x256x1 ![0, 0, 0]
        (StableHlo.after hostOps0_4 X (Proc.devRef .tc main_v55) : S4x256x512.Idx → BitVec 32) slices_S4x256x512_S4x256x1_0_0_0 := by
  simp only [hostOps0_4]
  after_results_simp

/-- The sample numbers: a select between the slots' first `512` and their first one, broadcast, from any contents `Y` of
    the buffers before the last two stretches of operations. -/
theorem v63_eq (Y : Valuation τ sig (Elt Ideal)) :
    (StableHlo.after hostOps0_6 (StableHlo.after hostOps0_5 Y) (Proc.devRef .tc main_v63) : S4x256x512.Idx → BitVec 32) =
      select (Y (Proc.devRef .tc main_v62) : S4x256x512.Idx → BitVec 1) (Y (Proc.devRef .tc main_v55) : S4x256x512.Idx → BitVec 32)
        (broadcastInDim S4x256x512 ![0, 1, 2] bcast_S4x256x1_S4x256x512_0_1_2 (Y (Proc.devRef .tc main_v56) : S4x256x1.Idx → BitVec 32)) := by
  simp only [hostOps0_5, hostOps0_6]
  after_results_simp
  rfl

/-- The range of an array put together from slots by two slices, a broadcast and a select, the parts given by equations. -/
theorem lt_of_parts (T : S4x256x512.Idx → BitVec 32) (M : S4x256x512.Idx → BitVec 1) (A54 : S4x256x513.Idx → BitVec 32)
    (A55 : S4x256x512.Idx → BitVec 32) (A56 : S4x256x1.Idx → BitVec 32)
    (e : T = select M A55 (broadcastInDim S4x256x512 ![0, 1, 2] bcast_S4x256x1_S4x256x512_0_1_2 A56))
    (h55 : A55 = extractStridedSlice S4x256x512 ![0, 0, 0] A54 slices_S4x256x513_S4x256x512_0_0_0)
    (h56 : A56 = extractStridedSlice S4x256x1 ![0, 0, 0] A55 slices_S4x256x512_S4x256x1_0_0_0)
    (h54 : ∀ i, (A54 i).toNat < 40000) (j : S4x256x512.Idx) : (T j).toNat < 40000 := by
  subst e; subst h56; subst h55
  exact Cert.Lib.GatherOneHot.idx_toNat_lt 40000 A54 M _ _ _ h54 j

/-- (K5) THE SAMPLE NUMBERS ARE IN RANGE: every word of the sample-number array is below `40000`. The array is a select
    between slices of the slots a scatter fills; the scatter writes point numbers (an iota below `40000`) into zeros, and
    slices, a broadcast and a select only move elements. What the scatter's indices and the select's mask are does not
    matter, so the operations before them stay folded. -/
theorem v63_lt (j : S4x256x512.Idx) : ((V m c main_v63 : S4x256x512.Idx → BitVec 32) j).toNat < 40000 := by
  dsimp only [V, V0]
  simp only [List.flatten_cons, List.flatten_nil, List.append_nil]
  rw [after_append, after_append, after_append, after_append, after_append, after_append]
  generalize StableHlo.after hostOps0_3 (StableHlo.after hostOps0_2 (StableHlo.after hostOps0_1
    (StableHlo.after hostOps0 (fun b => m (c, b))))) = X
  exact lt_of_parts _ _ _ _ _ (v63_eq (StableHlo.after hostOps0_4 X)) (v55_eq X) (v56_eq X) (fun i => slots_lt X i) j

/-! ## Finiteness of the float inputs, from the precondition -/

instance : Subsingleton Cert.Pre_finite_inputs.S_.Idx := ⟨fun a b => funext fun d => d.elim0⟩

/-- The 32-bit pattern `0x7F800000` is `+∞`. -/
theorem ofBits_inf_f32 : Ideal.ofBits .f32 0x7F800000#32 = ⊤ := by
  simp [Ideal.ofBits, Ideal.ieee]

/-- An extended real whose absolute value `max x (−x)` compares below `+∞` is a real number. -/
theorem real_of_abs_lt_inf (x : EReal) (h : Ideal.cmp .olt (max x (-x)) (Ideal.ofBits .f32 0x7F800000#32) = 1#1) :
    ∃ q : ℝ, x = (q : EReal) := by
  rw [ofBits_inf_f32] at h
  have hlt : max x (-x) < ⊤ := by
    by_contra hn
    have : Ideal.cmp .olt (max x (-x)) ⊤ = 0#1 := by
      show BitVec.ofBool (decide (max x (-x) < ⊤)) = 0#1
      rw [decide_eq_false hn]; rfl
    rw [this] at h
    exact absurd h (by decide)
  have h1 : x ≠ ⊤ := fun e => by rw [e] at hlt; simp at hlt
  have h2 : x ≠ ⊥ := fun e => by rw [e] at hlt; simp at hlt
  exact ⟨x.toReal, (EReal.coe_toReal h1 h2).symm⟩

/-- One `jnp.all(|a| < +∞)` of the precondition, read back: every entry of the array is a real number. -/
theorem real_of_all_abs_lt_inf {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hS : 0 < Cert.Pre_finite_inputs.S_.numel)
    (e : Host.reduce IntOp.andi
        (cmpf .olt (Host.absf a) (broadcastInDim s ![] hb (constant (F := Ideal) Cert.Pre_finite_inputs.S_ .f32 0x7F800000#32)))
        (constantI Cert.Pre_finite_inputs.S_ 1 1#1) hr hS ix0 = 1#1) (j : s.Idx) :
    ∃ q : ℝ, a j = (q : EReal) := by
  have hj := Host.reduce_andi_all _ _ hr hS ix0 e j
  exact real_of_abs_lt_inf (a j) hj

/-- (K6) FINITENESS FROM THE PRECONDITION: every entry of the five float argument arrays is a real number. -/
theorem finite_args (h : Cert.Pre_KernelIdeal (hPre_finite_inputs := Cert.Pre_finite_inputs.Gen.facts) m) :
    (∀ j : S4x256x3.Idx, ∃ q : ℝ, m ((c : Thread nD τ).loc main_arg0) j = (q : EReal)) ∧
    (∀ j : S4x256.Idx, ∃ q : ℝ, m ((c : Thread nD τ).loc main_arg1) j = (q : EReal)) ∧
    (∀ j : S4x128x256.Idx, ∃ q : ℝ, m ((c : Thread nD τ).loc main_arg2) j = (q : EReal)) ∧
    (∀ j : S4x40000x7.Idx, ∃ q : ℝ, m ((c : Thread nD τ).loc main_arg3) j = (q : EReal)) ∧
    (∀ j : S4x40000.Idx, ∃ q : ℝ, m ((c : Thread nD τ).loc main_arg4) j = (q : EReal)) := by
  have h0 := congrFun (h c) ix0
  dsimp only [Cert.Pre_finite_inputs.fn, Cert.Pre_finite_inputs.fn_part1] at h0
  obtain ⟨h0123, h4⟩ := IntOp.andi_eq_one.1 h0
  obtain ⟨h012, h3⟩ := IntOp.andi_eq_one.1 h0123
  obtain ⟨h01, h2⟩ := IntOp.andi_eq_one.1 h012
  obtain ⟨h0', h1⟩ := IntOp.andi_eq_one.1 h01
  exact ⟨real_of_all_abs_lt_inf _ _ _ _ h0', real_of_all_abs_lt_inf _ _ _ _ h1, real_of_all_abs_lt_inf _ _ _ _ h2,
    real_of_all_abs_lt_inf _ _ _ _ h3, real_of_all_abs_lt_inf _ _ _ _ h4⟩

/-- So every entry of the point table is a real number. -/
theorem v4_finite (h : Cert.Pre_KernelIdeal (hPre_finite_inputs := Cert.Pre_finite_inputs.Gen.facts) m) (j : S4x40000x8.Idx) :
    ∃ q : ℝ, V m c main_v4 j = (q : EReal) := by
  obtain ⟨b, n, ch, rfl⟩ : ∃ (b : Fin 4) (n : Fin 40000) (ch : Fin 8), j = ix3 b n ch := ⟨j 0, j 1, j 2, eq_ix3 j⟩
  rw [v4_apply]
  obtain ⟨-, -, -, h3, h4⟩ := finite_args m c h
  unfold Cert.Spec.table
  split
  · exact h3 _
  · exact h4 _

end Cert.KernelIdeal.HV

end
-- ==== Proof.KernelIdeal.KTail.lean ====
/-
  The kernel program's two results against the specification. The transposes after the region re-index the two output
  arrays: the first result at (M, b, s, k) is output 5's array at (b, M, s, k), the second at (b, c, M, s) is output 6's at
  (b, M, s, c). With the region-entry arrays read as the arguments — the point table is the specification's table of the
  point cloud and the labels, the centres are argument 0, and the cosines and sines are the host's cosine and sine of
  argument 1 — these are the specification's two arrays: the rotation's second row is written (0 − sin)·X + cos·Y by the
  kernel and (−sin)·X + cos·Y by the specification, the same extended real.
-/
import proofs.«179565_j43817256354257_2_alg».proof.Proof.KernelIdeal.KFinal
import proofs.«179565_j43817256354257_2_alg».proof.Proof.KernelIdeal.HostVals
import proofs.«179565_j43817256354257_2_alg».proof.Proof.Spec

set_option maxRecDepth 16384

noncomputable section

namespace Cert.KernelIdeal.KV

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Fr

variable (m : (ℓ : Loc nD τ sig) → Buf (Elt Ideal) ℓ) (c : Dev nD)
variable (hP : ∀ j, ∃ q : ℝ, Pt m c j = (q : EReal))
variable (hI : ∀ j, (Ix m c j).toNat < 40000)

/-! ## The region-entry arrays as the arguments -/

theorem Pt_apply (b : Fin 4) (n : Fin 40000) (ch : Fin 8) :
    Pt m c (ix3 b n ch) = Cert.Spec.table (m ((c : Thread nD τ).loc main_arg3)) (m ((c : Thread nD τ).loc main_arg4)) b n ch := by
  rw [Pt_def]; exact Cert.KernelIdeal.HV.v4_apply m c b n ch
theorem Ct_apply (b : Fin 4) (M : Fin 256) (k : Fin 3) :
    Ct m c (ix4 b M (0 : Fin 1) k) = m ((c : Thread nD τ).loc main_arg0) (ix3 b M k) := by
  rw [Ct_def]; exact Cert.KernelIdeal.HV.v64_apply m c b M k
theorem Cs_apply (b : Fin 4) (M : Fin 256) :
    Cs m c (ix4 b M (0 : Fin 1) (0 : Fin 1)) = Host.cos (F := Ideal) (s := S4x256) (φ := .f32) (m ((c : Thread nD τ).loc main_arg1)) (ix2 b M) := by
  rw [Cs_def]; exact Cert.KernelIdeal.HV.v66_apply m c b M
theorem Sn_apply (b : Fin 4) (M : Fin 256) :
    Sn m c (ix4 b M (0 : Fin 1) (0 : Fin 1)) = Host.sin (F := Ideal) (s := S4x256) (φ := .f32) (m ((c : Thread nD τ).loc main_arg1)) (ix2 b M) := by
  rw [Sn_def]; exact Cert.KernelIdeal.HV.v68_apply m c b M

/-! ## The two arrays are the specification's, re-indexed -/

theorem xyzAt_0 (T : Fin 4 → Fin 40000 → Fin 8 → EReal) (ctr : (⟨3, ![4, 256, 3]⟩ : Shape).Idx → EReal)
    (cs sn : (⟨2, ![4, 256]⟩ : Shape).Idx → EReal) (b : Fin 4) (M : Fin 256) (n : Fin 40000) :
    Cert.Spec.xyzAt T ctr cs sn b M n (0 : Fin 3)
      = cs (ix2 b M) * (T b n 0 - ctr (ix3 b M 0)) + sn (ix2 b M) * (T b n 1 - ctr (ix3 b M 1)) := if_pos rfl
theorem xyzAt_1 (T : Fin 4 → Fin 40000 → Fin 8 → EReal) (ctr : (⟨3, ![4, 256, 3]⟩ : Shape).Idx → EReal)
    (cs sn : (⟨2, ![4, 256]⟩ : Shape).Idx → EReal) (b : Fin 4) (M : Fin 256) (n : Fin 40000) :
    Cert.Spec.xyzAt T ctr cs sn b M n (1 : Fin 3)
      = -(sn (ix2 b M)) * (T b n 0 - ctr (ix3 b M 0)) + cs (ix2 b M) * (T b n 1 - ctr (ix3 b M 1)) :=
  (if_neg (show ¬((1 : Fin 3) : ℕ) = 0 by decide)).trans (if_pos rfl)
theorem xyzAt_2 (T : Fin 4 → Fin 40000 → Fin 8 → EReal) (ctr : (⟨3, ![4, 256, 3]⟩ : Shape).Idx → EReal)
    (cs sn : (⟨2, ![4, 256]⟩ : Shape).Idx → EReal) (b : Fin 4) (M : Fin 256) (n : Fin 40000) :
    Cert.Spec.xyzAt T ctr cs sn b M n (2 : Fin 3) = T b n 2 - ctr (ix3 b M 2) :=
  (if_neg (show ¬((2 : Fin 3) : ℕ) = 0 by decide)).trans (if_neg (show ¬((2 : Fin 3) : ℕ) = 1 by decide))

theorem G5_spec (M : Fin 256) (b : Fin 4) (s : Fin 512) (k : Fin 3) :
    G5 m c hI (ix4 b M s k)
      = Cert.Spec.Gxyz (Cert.Spec.table (m ((c : Thread nD τ).loc main_arg3)) (m ((c : Thread nD τ).loc main_arg4)))
          (m ((c : Thread nD τ).loc main_arg0))
          (Host.cos (F := Ideal) (s := S4x256) (φ := .f32) (m ((c : Thread nD τ).loc main_arg1)))
          (Host.sin (F := Ideal) (s := S4x256) (φ := .f32) (m ((c : Thread nD τ).loc main_arg1))) (Ix m c) hI (ix4 M b s k) := by
  show _ = Cert.Spec.xyzAt (Cert.Spec.table (m ((c : Thread nD τ).loc main_arg3)) (m ((c : Thread nD τ).loc main_arg4))) (m ((c : Thread nD τ).loc main_arg0)) (Host.cos (F := Ideal) (s := S4x256) (φ := .f32) (m ((c : Thread nD τ).loc main_arg1))) (Host.sin (F := Ideal) (s := S4x256) (φ := .f32) (m ((c : Thread nD τ).loc main_arg1))) b M (Cert.Spec.pick (Ix m c) hI b M s) k
  match k with
  | ⟨0, _⟩ =>
    refine (G5_0 m c hI b M s).trans (Eq.trans ?_ (xyzAt_0 _ _ _ _ b M _).symm)
    unfold g5x
    rw [Cs_apply, Sn_apply, Pt_apply, Pt_apply, Ct_apply, Ct_apply]; rfl
  | ⟨1, _⟩ =>
    refine (G5_1 m c hI b M s).trans (Eq.trans ?_ (xyzAt_1 _ _ _ _ b M _).symm)
    unfold g5y
    rw [Cs_apply, Sn_apply, Pt_apply, Pt_apply, Ct_apply, Ct_apply, zero_sub]; rfl
  | ⟨2, _⟩ =>
    refine (G5_2 m c hI b M s).trans (Eq.trans ?_ (xyzAt_2 _ _ _ _ b M _).symm)
    unfold g5z
    rw [Pt_apply, Ct_apply]; rfl

theorem G6_spec (b : Fin 4) (cc : Fin 5) (M : Fin 256) (s : Fin 512) :
    G6 m c hI (ix4 b M s cc)
      = Cert.Spec.Gfeat (Cert.Spec.table (m ((c : Thread nD τ).loc main_arg3)) (m ((c : Thread nD τ).loc main_arg4))) (Ix m c) hI (ix4 b cc M s) := by
  show Pt m c (ix3 b (nOf m c hI b M s) (⟨cc.val + 3, by have := cc.isLt; omega⟩ : Fin 8))
    = Cert.Spec.table (m ((c : Thread nD τ).loc main_arg3)) (m ((c : Thread nD τ).loc main_arg4)) b (Cert.Spec.pick (Ix m c) hI b M s) (⟨cc.val + 3, by have := cc.isLt; omega⟩ : Fin 8)
  rw [Pt_apply]; rfl

/-! ## The results after the transposes -/

include hP in
theorem tail70 :
    Pipeline.afterTail₀ cfgs (dats m) 0 (V0 m) [hostOps1] c main_v70
      = Cert.Spec.Gxyz (Cert.Spec.table (m ((c : Thread nD τ).loc main_arg3)) (m ((c : Thread nD τ).loc main_arg4)))
          (m ((c : Thread nD τ).loc main_arg0))
          (Host.cos (F := Ideal) (s := S4x256) (φ := .f32) (m ((c : Thread nD τ).loc main_arg1)))
          (Host.sin (F := Ideal) (s := S4x256) (φ := .f32) (m ((c : Thread nD τ).loc main_arg1))) (Ix m c) hI := by
  unfold Pipeline.afterTail₀
  show StableHlo.after hostOps1 _ (Proc.devRef .tc main_v70) = _
  after_results
  have hw : (Pipeline.withArrays (cfgs 0).spec c (V0 m c) (fun w => (dats m 0 c).arrAt w (cfgs 0).N) (Proc.devRef .tc main_v69_0) : S4x256x512x3.Idx → EReal) = G5 m c hI :=
    (Pipeline.withArrays_arr spec0 launch0.win.arr_inj c (V0 m c) (fun w => (dats m 0 c).arrAt w cfg0.N) 5).trans (final5 m c hP hI)
  rw [hw]
  funext j
  obtain ⟨M, b, s, k, rfl⟩ : ∃ (M : Fin 256) (b : Fin 4) (s : Fin 512) (k : Fin 3), j = ix4 M b s k := ⟨j 0, j 1, j 2, j 3, eq_ix4 j⟩
  refine (transpose_apply _ _ _ (ix4 M b s k) (ix4 b M s k) (fun a => by fin_cases a <;> rfl)).trans ?_
  exact G5_spec m c hI M b s k

include hP in
theorem tail71 :
    Pipeline.afterTail₀ cfgs (dats m) 0 (V0 m) [hostOps1] c main_v71
      = Cert.Spec.Gfeat (Cert.Spec.table (m ((c : Thread nD τ).loc main_arg3)) (m ((c : Thread nD τ).loc main_arg4))) (Ix m c) hI := by
  unfold Pipeline.afterTail₀
  show StableHlo.after hostOps1 _ (Proc.devRef .tc main_v71) = _
  after_results
  have hw : (Pipeline.withArrays (cfgs 0).spec c (V0 m c) (fun w => (dats m 0 c).arrAt w (cfgs 0).N) (Proc.devRef .tc main_v69_1) : S4x256x512x5.Idx → EReal) = G6 m c hI :=
    (Pipeline.withArrays_arr spec0 launch0.win.arr_inj c (V0 m c) (fun w => (dats m 0 c).arrAt w cfg0.N) 6).trans (final6 m c hP hI)
  rw [hw]
  funext j
  obtain ⟨b, cc, M, s, rfl⟩ : ∃ (b : Fin 4) (cc : Fin 5) (M : Fin 256) (s : Fin 512), j = ix4 b cc M s := ⟨j 0, j 1, j 2, j 3, eq_ix4 j⟩
  refine (transpose_apply _ _ _ (ix4 b cc M s) (ix4 b M s cc) (fun a => by fin_cases a <;> rfl)).trans ?_
  exact G6_spec m c hI b cc M s

end Cert.KernelIdeal.KV

end
-- ==== Proof.RefStage.lean ====
/- The reference's two results as functions of the index array and the argument arrays.

   @main's line is cut where the ball query's index array (the result of the third call) is written. Everything
   after that point is read off, window by window, as a pure function of the contents at the cut: the two gathers'
   start indices (batch number and sample number, each with the normalisation of a negative index), the gathered
   coordinates centred and rotated, the gathered features. Everything before it — the ball query itself — is never
   opened: the index array stays the fold's value at its buffer. The float type is any. -/
import proofs.«179565_j43817256354257_2_alg».proof.Proof.RefRun

noncomputable section

namespace Cert.ReferenceIdeal.RefStage

open Cert.ReferenceIdeal Cert.ReferenceIdeal.RefRun Idealize.ShloMosaic Idealize.ShloMosaic.TcCoe Idealize.SL.Sem Idealize.ShloMosaic.StableHlo
open Facts₀ Facts

variable {F : FTy → Type} [FloatOps F] [Facts]

/-! ## The stages' functions

Everything @main computes after the index array, named: the start indices of the two gathers (the batch number and
the sample number, each with jnp's normalisation of a negative index), the feature table, the centred coordinates,
their three planes, the rotation's three broadcast factors, and the two results. -/

/-- jnp's normalisation of a batch number: 4 is added where it is negative. -/
def batchOf (i : IVec S4x1x1 32) : IVec S4x1x1 32 :=
  select (cmpi .slt i (broadcastInDim S4x1x1 ![] bcast_S_S4x1x1 (constantI S_ 32 0#32)))
    (addi i (broadcastInDim S4x1x1 ![] bcast_S_S4x1x1 (constantI S_ 32 4#32))) i

/-- The batch numbers 0 … 3 at [b, 0, 0]. -/
def batchIota : IVec S4x1x1 32 := broadcastInDim S4x1x1 ![0] bcast_S4_S4x1x1_0 (iotaInDim S4 32 0)

/-- jnp's normalisation of a sample number: 40000 is added where it is negative. -/
def wrapIx (idx : IVec S4x256x512 32) : IVec S4x256x512 32 :=
  select (cmpi .slt idx (broadcastInDim S4x256x512 ![] bcast_S_S4x256x512 (constantI S_ 32 0#32)))
    (addi idx (broadcastInDim S4x256x512 ![] bcast_S_S4x256x512 (constantI S_ 32 40000#32))) idx

/-- The gathers' start indices: at [b, m, s, ·] the pair (batch number, sample number), both normalised. -/
def startOf (i : IVec S4x1x1 32) (idx : IVec S4x256x512 32) : IVec S4x256x512x2 32 :=
  concatenate S4x256x512x2 3
    [⟨S4x256x512x1, broadcastInDim S4x256x512x1 ![0, 1, 2] bcast_S4x256x512_S4x256x512x1_0_1_2
        (broadcastInDim S4x256x512 ![0, 1, 2] bcast_S4x1x1_S4x256x512_0_1_2 (batchOf i))⟩,
     ⟨S4x256x512x1, broadcastInDim S4x256x512x1 ![0, 1, 2] bcast_S4x256x512_S4x256x512x1_0_1_2 (wrapIx idx)⟩]
    concatenates_S4x256x512x1_S4x256x512x1_S4x256x512x2_d3

/-- The feature rows before the last transpose: [b, c, n], c < 4 the point's features, c = 4 its label. -/
def featRows (a3 : FVec F S4x40000x7 .f32) (a4 : FVec F S4x40000 .f32) : FVec F S4x5x40000 .f32 :=
  concatenate S4x5x40000 1
    [⟨S4x4x40000, transpose S4x4x40000 [0, 2, 1] (extractStridedSlice S4x40000x4 ![0, 0, 3] a3 slices_S4x40000x7_S4x40000x4_0_0_3)
        transposes_S4x40000x4_S4x4x40000_0_2_1⟩,
     ⟨S4x1x40000, broadcastInDim S4x1x40000 ![0, 2] bcast_S4x40000_S4x1x40000_0_2 a4⟩]
    concatenates_S4x4x40000_S4x1x40000_S4x5x40000_d1

/-- The points' coordinates [b, n, k]. -/
def xyzRows (a3 : FVec F S4x40000x7 .f32) : FVec F S4x40000x3 .f32 :=
  extractStridedSlice S4x40000x3 ![0, 0, 0] a3 slices_S4x40000x7_S4x40000x3_0_0_0

/-- The second result from the feature rows and the start indices. -/
def featOf (rows : FVec F S4x5x40000 .f32) (st : IVec S4x256x512x2 32) : FVec F S4x5x256x512 .f32 :=
  transpose S4x5x256x512 [0, 3, 1, 2]
    (Host.gather gather_S4x40000x5_S4x256x512x2_S4x256x512x5_3_01_n_n_01_3_115
      (transpose S4x40000x5 [0, 2, 1] rows transposes_S4x5x40000_S4x40000x5_0_2_1) st)
    transposes_S4x256x512x5_S4x5x256x512_0_3_1_2

/-- The sampled points' coordinates minus the box centre: [b, m, s, k]. -/
def centred (x0 : FVec F S4x40000x3 .f32) (st : IVec S4x256x512x2 32) (a0 : FVec F S4x256x3 .f32) : FVec F S4x256x512x3 .f32 :=
  subf (Host.gather gather_S4x40000x3_S4x256x512x2_S4x256x512x3_3_01_n_n_01_3_113 x0 st)
    (broadcastInDim S4x256x512x3 ![0, 1, 2, 3] bcast_S4x256x1x3_S4x256x512x3_0_1_2_3
      (broadcastInDim S4x256x1x3 ![0, 1, 3] bcast_S4x256x3_S4x256x1x3_0_1_3 a0))

/-- Coordinate planes 0, 1, 2 of it: [b, m, s]. -/
def plane0 (P : FVec F S4x256x512x3 .f32) : FVec F S4x256x512 .f32 :=
  shapeCast S4x256x512 (extractStridedSlice S4x256x512x1 ![0, 0, 0, 0] P slices_S4x256x512x3_S4x256x512x1_0_0_0_0) shapeCasts_S4x256x512x1_S4x256x512
def plane1 (P : FVec F S4x256x512x3 .f32) : FVec F S4x256x512 .f32 :=
  shapeCast S4x256x512 (extractStridedSlice S4x256x512x1 ![0, 0, 0, 1] P slices_S4x256x512x3_S4x256x512x1_0_0_0_1) shapeCasts_S4x256x512x1_S4x256x512
def plane2 (P : FVec F S4x256x512x3 .f32) : FVec F S4x256x512 .f32 :=
  shapeCast S4x256x512 (extractStridedSlice S4x256x512x1 ![0, 0, 0, 2] P slices_S4x256x512x3_S4x256x512x1_0_0_0_2) shapeCasts_S4x256x512x1_S4x256x512

/-- A per-box number [b, m] at every sample: [b, m, s]. -/
def perBox (v : FVec F S4x256 .f32) : FVec F S4x256x512 .f32 :=
  broadcastInDim S4x256x512 ![0, 1, 2] bcast_S4x256x1_S4x256x512_0_1_2 (broadcastInDim S4x256x1 ![0, 1] bcast_S4x256_S4x256x1_0_1 v)
/-- The negated per-box number at every sample. -/
def perBoxNeg (v : FVec F S4x256 .f32) : FVec F S4x256x512 .f32 :=
  broadcastInDim S4x256x512 ![0, 1, 2] bcast_S4x256x1_S4x256x512_0_1_2 (Host.negf (broadcastInDim S4x256x1 ![0, 1] bcast_S4x256_S4x256x1_0_1 v))

/-- The first result from its three coordinate planes: stacked on a last axis, divided by one, transposed twice. -/
def xyzOf (p q z : FVec F S4x256x512 .f32) : FVec F S256x4x512x3 .f32 :=
  transpose S256x4x512x3 [2, 0, 3, 1]
    (transpose S4x3x256x512 [0, 3, 1, 2]
      (Host.divf
        (concatenate S4x256x512x3 3
          [⟨S4x256x512x1, broadcastInDim S4x256x512x1 ![0, 1, 2] bcast_S4x256x512_S4x256x512x1_0_1_2 p⟩,
           ⟨S4x256x512x1, broadcastInDim S4x256x512x1 ![0, 1, 2] bcast_S4x256x512_S4x256x512x1_0_1_2 q⟩,
           ⟨S4x256x512x1, broadcastInDim S4x256x512x1 ![0, 1, 2] bcast_S4x256x512_S4x256x512x1_0_1_2 z⟩]
          concatenates_S4x256x512x1_S4x256x512x1_S4x256x512x1_S4x256x512x3_d3)
        (broadcastInDim S4x256x512x3 ![] bcast_S_S4x256x512x3 (constant (F := F) S_ .f32 0x3F800000#32)))
      transposes_S4x256x512x3_S4x3x256x512_0_3_1_2)
    transposes_S4x3x256x512_S256x4x512x3_2_0_3_1

/-- The second result as a function of the index array and the two argument arrays it reads. -/
def res128 (idx : IVec S4x256x512 32) (a3 : FVec F S4x40000x7 .f32) (a4 : FVec F S4x40000 .f32) : FVec F S4x5x256x512 .f32 :=
  featOf (featRows a3 a4) (startOf batchIota idx)

/-- The first result as a function of the index array and the three argument arrays it reads. -/
def res129 (idx : IVec S4x256x512 32) (a0 : FVec F S4x256x3 .f32) (a1 : FVec F S4x256 .f32) (a3 : FVec F S4x40000x7 .f32) :
    FVec F S256x4x512x3 .f32 :=
  xyzOf
    (addf (mulf (perBox (Host.cos a1)) (plane0 (centred (xyzRows a3) (startOf batchIota idx) a0)))
      (mulf (perBox (Host.sin a1)) (plane1 (centred (xyzRows a3) (startOf batchIota idx) a0))))
    (addf (mulf (perBoxNeg (Host.sin a1)) (plane0 (centred (xyzRows a3) (startOf batchIota idx) a0)))
      (mulf (perBox (Host.cos a1)) (plane1 (centred (xyzRows a3) (startOf batchIota idx) a0))))
    (plane2 (centred (xyzRows a3) (startOf batchIota idx) a0))

/-! ## The line cut at the index array

The middle window writes the index array with its 18th operation; the operations after it are read as functions of
the contents at that point. -/

/-- The middle window up to and including the operation that writes the index array, and the rest of it. -/
abbrev ops1a : List (HloOp τ sig (Elt F)) := ops1.take 18
abbrev ops1b : List (HloOp τ sig (Elt F)) := ops1.drop 18

theorem ops1_split : (ops1 : List (HloOp τ sig (Elt F))) = ops1a ++ ops1b := (List.take_append_drop 18 ops1).symm

theorem after_ops (V : Valuation τ sig (Elt F)) :
    after ops V = after ops2 (after ops1b (after ops1a (after ops0 V))) := by
  rw [show (ops : List (HloOp τ sig (Elt F))) = ops0 ++ ((ops1a ++ ops1b) ++ ops2) from by rw [← ops1_split],
    after_append, after_append, after_append]

theorem ops1a_writes : (ops1a : List (HloOp τ sig (Elt F))).Forall fun op =>
    op.writes ⊆ ((W1.take 18).map (Proc.devRef (τ := τ) .tc)).toFinset := by
  simp only [ops1a, ops1, List.take_succ_cons, List.take_zero, List.Forall, nullary_writes, unary_writes, binary_writes, ternary_writes,
    reshape_writes, nary_writes, Finset.singleton_subset_iff, List.mem_toFinset]
  and_intros <;> exact List.mem_map_of_mem (by decide)
theorem ops1b_writes : (ops1b : List (HloOp τ sig (Elt F))).Forall fun op =>
    op.writes ⊆ ((W1.drop 18).map (Proc.devRef (τ := τ) .tc)).toFinset := by
  simp only [ops1b, ops1, List.drop_succ_cons, List.drop_zero, List.Forall, nullary_writes, unary_writes, binary_writes, ternary_writes,
    reshape_writes, nary_writes, Finset.singleton_subset_iff, List.mem_toFinset]
  and_intros <;> exact List.mem_map_of_mem (by decide)

/-! ## The stages read off

Each is one pass of the result lemmas over a literal window, from ANY contents W before the window: the window's
result at a buffer as a function of W at the buffers the window reads and does not write. -/

set_option maxRecDepth 8192 in
set_option maxHeartbeats 4000000 in
/-- The first window leaves the points' coordinates in %0. -/
theorem s0_v0 (W : Valuation τ sig (Elt F)) :
    after ops0 W (Proc.devRef .tc main_v0) = xyzRows (W (Proc.devRef .tc main_arg3)) := by
  simp only [ops0]
  after_results_simp <;> rfl

set_option maxRecDepth 8192 in
set_option maxHeartbeats 4000000 in
/-- The first window leaves the feature rows in %4. -/
theorem s0_v4 (W : Valuation τ sig (Elt F)) :
    after ops0 W (Proc.devRef .tc main_v4) = featRows (W (Proc.devRef .tc main_arg3)) (W (Proc.devRef .tc main_arg4)) := by
  simp only [ops0]
  after_results_simp <;> rfl

set_option maxRecDepth 8192 in
set_option maxHeartbeats 4000000 in
theorem s1_v65 (W : Valuation τ sig (Elt F)) : after ops1b W (Proc.devRef .tc main_v65) = batchIota := by
  simp only [ops1b, ops1, List.drop_succ_cons, List.drop_zero]
  after_results_simp <;> rfl

set_option maxRecDepth 8192 in
set_option maxHeartbeats 4000000 in
theorem s1_v91 (W : Valuation τ sig (Elt F)) : after ops1b W (Proc.devRef .tc main_v91)
    = plane1 (centred (W (Proc.devRef .tc main_v0)) (startOf batchIota (W (Proc.devRef .tc main_v63))) (W (Proc.devRef .tc main_arg0))) := by
  simp only [ops1b, ops1, List.drop_succ_cons, List.drop_zero]
  after_results_simp <;> rfl

set_option maxRecDepth 8192 in
set_option maxHeartbeats 4000000 in
theorem s1_v93 (W : Valuation τ sig (Elt F)) : after ops1b W (Proc.devRef .tc main_v93)
    = plane2 (centred (W (Proc.devRef .tc main_v0)) (startOf batchIota (W (Proc.devRef .tc main_v63))) (W (Proc.devRef .tc main_arg0))) := by
  simp only [ops1b, ops1, List.drop_succ_cons, List.drop_zero]
  after_results_simp <;> rfl

set_option maxRecDepth 8192 in
set_option maxHeartbeats 4000000 in
theorem s1_v98 (W : Valuation τ sig (Elt F)) : after ops1b W (Proc.devRef .tc main_v98)
    = addf (mulf (perBox (Host.cos (W (Proc.devRef .tc main_arg1))))
              (plane0 (centred (W (Proc.devRef .tc main_v0)) (startOf batchIota (W (Proc.devRef .tc main_v63))) (W (Proc.devRef .tc main_arg0)))))
        (mulf (perBox (Host.sin (W (Proc.devRef .tc main_arg1))))
              (plane1 (centred (W (Proc.devRef .tc main_v0)) (startOf batchIota (W (Proc.devRef .tc main_v63))) (W (Proc.devRef .tc main_arg0))))) := by
  simp only [ops1b, ops1, List.drop_succ_cons, List.drop_zero]
  after_results_simp <;> rfl

set_option maxRecDepth 8192 in
set_option maxHeartbeats 4000000 in
theorem s1_v101 (W : Valuation τ sig (Elt F)) : after ops1b W (Proc.devRef .tc main_v101)
    = mulf (perBoxNeg (Host.sin (W (Proc.devRef .tc main_arg1))))
        (plane0 (centred (W (Proc.devRef .tc main_v0)) (startOf batchIota (W (Proc.devRef .tc main_v63))) (W (Proc.devRef .tc main_arg0)))) := by
  simp only [ops1b, ops1, List.drop_succ_cons, List.drop_zero]
  after_results_simp <;> rfl

set_option maxRecDepth 8192 in
set_option maxHeartbeats 4000000 in
theorem s1_v102 (W : Valuation τ sig (Elt F)) : after ops1b W (Proc.devRef .tc main_v102)
    = perBox (Host.cos (W (Proc.devRef .tc main_arg1))) := by
  simp only [ops1b, ops1, List.drop_succ_cons, List.drop_zero]
  after_results_simp <;> rfl

set_option maxRecDepth 8192 in
set_option maxHeartbeats 4000000 in
theorem s2_v128 (W : Valuation τ sig (Elt F)) : after ops2 W (Proc.devRef .tc main_v128)
    = featOf (W (Proc.devRef .tc main_v4)) (startOf (W (Proc.devRef .tc main_v65)) (W (Proc.devRef .tc main_v63))) := by
  simp only [ops2]
  after_results_simp <;> rfl

set_option maxRecDepth 8192 in
set_option maxHeartbeats 4000000 in
theorem s2_v129 (W : Valuation τ sig (Elt F)) : after ops2 W (Proc.devRef .tc main_v129)
    = xyzOf (W (Proc.devRef .tc main_v98))
        (addf (W (Proc.devRef .tc main_v101)) (mulf (W (Proc.devRef .tc main_v102)) (W (Proc.devRef .tc main_v91))))
        (W (Proc.devRef .tc main_v93)) := by
  simp only [ops2]
  after_results_simp
  try dsimp only [Matrix.cons_val]
  try after_results_simp
  all_goals rfl

/-! ## The two results as functions of the index array and the arguments -/

/-- The index array is written in the first part of the middle window and by nothing after it. -/
theorem idx_eq (V : Valuation τ sig (Elt F)) :
    after ops V (Proc.devRef .tc main_v63) = after ops1a (after ops0 V) (Proc.devRef .tc main_v63) := by
  rw [after_ops, after_of_writes_sub ops2 _ ops2_writes (r := main_v63) (by decide),
    after_of_writes_sub ops1b _ ops1b_writes (r := main_v63) (by decide)]

theorem read_v128 (V : Valuation τ sig (Elt F)) :
    after ops V (Proc.devRef .tc main_v128)
      = res128 (after ops V (Proc.devRef .tc main_v63)) (V (Proc.devRef .tc main_arg3)) (V (Proc.devRef .tc main_arg4)) := by
  rw [idx_eq, after_ops, s2_v128, s1_v65,
    after_of_writes_sub ops1b _ ops1b_writes (r := main_v4) (by decide),
    after_of_writes_sub ops1b _ ops1b_writes (r := main_v63) (by decide),
    after_of_writes_sub ops1a _ ops1a_writes (r := main_v4) (by decide), s0_v4]
  rfl

theorem read_v129 (V : Valuation τ sig (Elt F)) :
    after ops V (Proc.devRef .tc main_v129)
      = res129 (after ops V (Proc.devRef .tc main_v63)) (V (Proc.devRef .tc main_arg0)) (V (Proc.devRef .tc main_arg1))
          (V (Proc.devRef .tc main_arg3)) := by
  rw [idx_eq, after_ops, s2_v129, s1_v98, s1_v101, s1_v102, s1_v91, s1_v93,
    after_of_writes_sub ops1a _ ops1a_writes (r := main_v0) (by decide), s0_v0,
    after_of_writes_sub ops1a _ ops1a_writes (r := main_arg0) (by decide),
    after_of_writes_sub ops0 _ ops0_writes (r := main_arg0) (by decide),
    after_of_writes_sub ops1a _ ops1a_writes (r := main_arg1) (by decide),
    after_of_writes_sub ops0 _ ops0_writes (r := main_arg1) (by decide)]
  rfl

end Cert.ReferenceIdeal.RefStage

end
-- ==== Proof.RefRead.lean ====
/- The reference's two results are the specification's, index by index on the extended reals.

   The two results are known as pure functions of the ball query's index array and the argument arrays. Read at an
   index: a transpose, a broadcast, a slice, a change of shape and a concatenation each move the index; the
   normalisation of a possibly negative index is the identity on the batch numbers 0 … 3 and on sample numbers below
   40000, so each gather reads the row (b, idx[b, m, s]) of its table; division by the literal one changes nothing;
   the host's negation is negation. What is left is the specification's formula: the sampled point's channels 3 … 7,
   and its coordinates centred on the box and rotated by the box's orientation. The index array itself is never
   opened: it is the value the operations leave in its buffer, assumed below 40000 everywhere. -/
import proofs.«179565_j43817256354257_2_alg».proof.Proof.RefStage
import proofs.«179565_j43817256354257_2_alg».proof.Proof.Spec
import proofs.«179565_j43817256354257_2_alg».proof.Proof.LibGatherOneHot
import Idealize.ShloMosaic.Lib.Pipeline.Value
import Idealize.ShloMosaic.Lib.ValueIdx

noncomputable section

namespace Cert.ReferenceIdeal.RefRead

open Cert.ReferenceIdeal Cert.ReferenceIdeal.RefRun Cert.ReferenceIdeal.RefStage Idealize.ShloMosaic Idealize.ShloMosaic.ValueIdx
  Idealize.ShloMosaic.StableHlo
open Facts₀ Facts

variable [Facts]

/-- Closes an index side condition "for every axis a, …": axis by axis, by computation or by arithmetic. -/
macro "ix_side" : tactic =>
  `(tactic| (intro a; fin_cases a <;> first | rfl | (simp; done) | (simp; omega)))

/-! ## The start indices at an index -/

theorem batchOf_apply (i : IVec S4x1x1 32) (j : S4x1x1.Idx) :
    batchOf i j = Scalar.select (IntOp.cmpi .slt (i j) 0#32) (IntOp.addi (i j) 4#32) (i j) := rfl

theorem batchIota_apply (b : Fin 4) : batchIota (ix3 b (0 : Fin 1) (0 : Fin 1)) = BitVec.ofNat 32 b.val := by
  unfold batchIota
  refine (broadcastInDim_apply _ _ _ _ (ix1 b) ?_).trans rfl
  ix_side

/-- The batch numbers 0 … 3 are not negative: their normalisation is the identity. -/
theorem batchOf_iota (b : Fin 4) : batchOf batchIota (ix3 b (0 : Fin 1) (0 : Fin 1)) = BitVec.ofNat 32 b.val := by
  rw [batchOf_apply, batchIota_apply]
  fin_cases b <;> decide

theorem wrapIx_apply' (idx : IVec S4x256x512 32) (j : S4x256x512.Idx) :
    wrapIx idx j = Scalar.select (IntOp.cmpi .slt (idx j) 0#32) (IntOp.addi (idx j) 40000#32) (idx j) := rfl

/-- A word below 2^31 is not negative read signed. -/
theorem cmpi_slt_zero (w : BitVec 32) (h : w.toNat < 2 ^ 31) : IntOp.cmpi .slt w 0#32 = 0#1 := by
  have hs : w.slt 0#32 = false := by
    simp only [BitVec.slt, BitVec.toInt_eq_toNat_cond, decide_eq_false_iff_not]
    rw [if_pos (by omega)]
    simp
  show BitVec.ofBool (w.slt 0#32) = 0#1
  rw [hs]; rfl

/-- A sample number below 40000 is not negative: its normalisation is the identity. -/
theorem wrapIx_apply (idx : IVec S4x256x512 32) (j : S4x256x512.Idx) (h : (idx j).toNat < 40000) : wrapIx idx j = idx j := by
  rw [wrapIx_apply', cmpi_slt_zero _ (by omega)]
  exact select_zero _ _

theorem startOf_apply0 (i : IVec S4x1x1 32) (idx : IVec S4x256x512 32) (b : Fin 4) (m : Fin 256) (s : Fin 512) :
    startOf i idx (ix4 b m s (0 : Fin 2)) = batchOf i (ix3 b (0 : Fin 1) (0 : Fin 1)) := by
  unfold startOf
  refine (concatenate_pair_apply_left _ _ _ _ (ix4 b m s (0 : Fin 2)) (by rfl) (ix4 b m s (0 : Fin 1)) ?_).trans ?_
  · ix_side
  refine (broadcastInDim_apply _ _ _ _ (ix3 b m s) ?_).trans ?_
  · ix_side
  exact broadcastInDim_apply _ _ _ _ (ix3 b (0 : Fin 1) (0 : Fin 1)) (by ix_side)

theorem startOf_apply1 (i : IVec S4x1x1 32) (idx : IVec S4x256x512 32) (b : Fin 4) (m : Fin 256) (s : Fin 512) :
    startOf i idx (ix4 b m s (1 : Fin 2)) = wrapIx idx (ix3 b m s) := by
  unfold startOf
  refine (concatenate_pair_apply_right _ _ _ _ (ix4 b m s (1 : Fin 2)) (by rfl) (by rfl) (ix4 b m s (0 : Fin 1)) ?_ (by rfl)).trans ?_
  · intro a ha; fin_cases a <;> first | rfl | exact absurd rfl ha
  exact broadcastInDim_apply _ _ _ _ (ix3 b m s) (by ix_side)

/-- With in-range sample numbers the start index at [b, m, s] is the pair (b, idx[b, m, s]). -/
theorem start_pair (I : IVec S4x256x512 32) (hidx : ∀ j, (I j).toNat < 40000) (b : Fin 4) (m : Fin 256) (s : Fin 512) :
    startOf batchIota I (ix4 b m s (0 : Fin 2)) = BitVec.ofNat 32 b.val
      ∧ startOf batchIota I (ix4 b m s (1 : Fin 2)) = I (ix3 b m s) :=
  ⟨(startOf_apply0 _ _ b m s).trans (batchOf_iota b), (startOf_apply1 _ _ b m s).trans (wrapIx_apply I _ (hidx _))⟩

theorem toNat_ofNat_fin4 (b : Fin 4) : (BitVec.ofNat 32 b.val).toNat = b.val := by
  rw [BitVec.toNat_ofNat]; have := b.isLt; omega

/-! ## The feature result at an index -/

theorem featOf_apply (rows : FVec Ideal S4x5x40000 .f32) (st : IVec S4x256x512x2 32) (b : Fin 4) (c : Fin 5) (m : Fin 256)
    (s : Fin 512) (hb : (st (ix4 b m s (0 : Fin 2))).toNat < 4) (hn : (st (ix4 b m s (1 : Fin 2))).toNat < 40000) :
    featOf rows st (ix4 b c m s)
      = rows (ix3 (⟨(st (ix4 b m s (0 : Fin 2))).toNat, hb⟩ : Fin 4) c (⟨(st (ix4 b m s (1 : Fin 2))).toNat, hn⟩ : Fin 40000)) := by
  unfold featOf
  refine (transpose_apply _ _ _ (ix4 b c m s) (ix4 b m s c) ?_).trans ?_
  · ix_side
  refine (Cert.Lib.GatherOneHot.gather_rows5_apply gather_S4x40000x5_S4x256x512x2_S4x256x512x5_3_01_n_n_01_3_115_wf _ st b m s c hb hn).trans ?_
  exact transpose_apply _ _ _ _ (ix3 _ c _) (by ix_side)

theorem featRows_apply_lt (a3 : FVec Ideal S4x40000x7 .f32) (a4 : FVec Ideal S4x40000 .f32) (b : Fin 4) (c : Fin 5) (n : Fin 40000)
    (h : c.val < 4) : featRows a3 a4 (ix3 b c n) = a3 (ix3 b n (⟨c.val + 3, by omega⟩ : Fin 7)) := by
  unfold featRows
  refine (concatenate_pair_apply_left _ _ _ _ (ix3 b c n) (by rfl) (ix3 b (⟨c.val, h⟩ : Fin 4) n) ?_).trans ?_
  · ix_side
  refine (transpose_apply _ _ _ _ (ix3 b n (⟨c.val, h⟩ : Fin 4)) ?_).trans ?_
  · ix_side
  exact extractStridedSlice_apply _ _ _ _ (ix3 b n (⟨c.val + 3, by omega⟩ : Fin 7)) (by ix_side)

theorem featRows_apply_ge (a3 : FVec Ideal S4x40000x7 .f32) (a4 : FVec Ideal S4x40000 .f32) (b : Fin 4) (c : Fin 5) (n : Fin 40000)
    (h : ¬ c.val < 4) : featRows a3 a4 (ix3 b c n) = a4 (ix2 b n) := by
  unfold featRows
  have hc : c.val = 4 := by have := c.isLt; omega
  refine (concatenate_pair_apply_right _ _ _ _ (ix3 b c n) (by rfl) (by rfl) (ix3 b (0 : Fin 1) n) ?_ ?_).trans ?_
  · intro a ha; fin_cases a <;> first | rfl | exact absurd rfl ha
  · show (0 : Nat) + 4 = c.val; omega
  exact broadcastInDim_apply _ _ _ _ (ix2 b n) (by ix_side)

/-- The second result is the specification's: the sampled point's channel c + 3 of the point table. -/
theorem res128_eq_spec (I : IVec S4x256x512 32) (hidx : ∀ j, (I j).toNat < 40000) (a3 : FVec Ideal S4x40000x7 .f32)
    (a4 : FVec Ideal S4x40000 .f32) :
    res128 (F := Ideal) I a3 a4 = Cert.Spec.Gfeat (Cert.Spec.table a3 a4) I hidx := by
  funext j
  obtain ⟨b, c, m, s, rfl⟩ : ∃ (b : Fin 4) (c : Fin 5) (m : Fin 256) (s : Fin 512), j = ix4 b c m s :=
    ⟨j 0, j 1, j 2, j 3, eq_ix4 j⟩
  obtain ⟨h0, h1⟩ := start_pair I hidx b m s
  have hb : (startOf batchIota I (ix4 b m s (0 : Fin 2))).toNat < 4 := by rw [h0, toNat_ofNat_fin4]; exact b.isLt
  have hn : (startOf batchIota I (ix4 b m s (1 : Fin 2))).toNat < 40000 := by rw [h1]; exact hidx _
  have eB : (⟨_, hb⟩ : Fin 4) = b :=
    Fin.ext (show (startOf batchIota I (ix4 b m s (0 : Fin 2))).toNat = b.val by rw [h0, toNat_ofNat_fin4])
  have eN : (⟨_, hn⟩ : Fin 40000) = ⟨(I (ix3 b m s)).toNat, hidx _⟩ := Fin.ext (congrArg BitVec.toNat h1)
  unfold res128
  rw [featOf_apply _ _ b c m s hb hn, eB, eN]
  show _ = Cert.Spec.table a3 a4 b ⟨(I (ix3 b m s)).toNat, hidx _⟩ ⟨c.val + 3, by have := c.isLt; omega⟩
  unfold Cert.Spec.table
  by_cases hc : c.val < 4
  · rw [featRows_apply_lt _ _ _ _ _ hc, dif_pos (show c.val + 3 < 7 by omega)]
  · rw [featRows_apply_ge _ _ _ _ _ hc, dif_neg (show ¬ c.val + 3 < 7 by omega)]

/-! ## The coordinate result at an index -/

theorem perBox_apply (v : FVec Ideal S4x256 .f32) (b : Fin 4) (m : Fin 256) (s : Fin 512) : perBox v (ix3 b m s) = v (ix2 b m) := by
  unfold perBox
  refine (broadcastInDim_apply _ _ _ _ (ix3 b m (0 : Fin 1)) ?_).trans ?_
  · ix_side
  exact broadcastInDim_apply _ _ _ _ (ix2 b m) (by ix_side)

theorem perBoxNeg_apply (v : FVec Ideal S4x256 .f32) (b : Fin 4) (m : Fin 256) (s : Fin 512) :
    perBoxNeg v (ix3 b m s) = -(v (ix2 b m)) := by
  unfold perBoxNeg
  refine (broadcastInDim_apply _ _ _ _ (ix3 b m (0 : Fin 1)) ?_).trans ?_
  · ix_side
  exact congrArg (fun x : EReal => -x) (broadcastInDim_apply _ _ _ _ (ix2 b m) (by ix_side))

theorem plane0_apply (P : FVec Ideal S4x256x512x3 .f32) (b : Fin 4) (m : Fin 256) (s : Fin 512) :
    plane0 P (ix3 b m s) = P (ix4 b m s (0 : Fin 3)) := by
  unfold plane0
  refine (shapeCast_apply _ _ (ix3 b m s) (ix4 b m s (0 : Fin 1)) ?_).trans ?_
  · rw [Shape.rowMajor_val_four, Shape.rowMajor_val_three]
    show (((b.val * 256 + m.val) * 512 + s.val) * 1 + 0 : Nat) = (b.val * 256 + m.val) * 512 + s.val
    omega
  exact extractStridedSlice_apply _ _ _ _ (ix4 b m s (0 : Fin 3)) (by ix_side)

theorem plane1_apply (P : FVec Ideal S4x256x512x3 .f32) (b : Fin 4) (m : Fin 256) (s : Fin 512) :
    plane1 P (ix3 b m s) = P (ix4 b m s (1 : Fin 3)) := by
  unfold plane1
  refine (shapeCast_apply _ _ (ix3 b m s) (ix4 b m s (0 : Fin 1)) ?_).trans ?_
  · rw [Shape.rowMajor_val_four, Shape.rowMajor_val_three]
    show (((b.val * 256 + m.val) * 512 + s.val) * 1 + 0 : Nat) = (b.val * 256 + m.val) * 512 + s.val
    omega
  exact extractStridedSlice_apply _ _ _ _ (ix4 b m s (1 : Fin 3)) (by ix_side)

theorem plane2_apply (P : FVec Ideal S4x256x512x3 .f32) (b : Fin 4) (m : Fin 256) (s : Fin 512) :
    plane2 P (ix3 b m s) = P (ix4 b m s (2 : Fin 3)) := by
  unfold plane2
  refine (shapeCast_apply _ _ (ix3 b m s) (ix4 b m s (0 : Fin 1)) ?_).trans ?_
  · rw [Shape.rowMajor_val_four, Shape.rowMajor_val_three]
    show (((b.val * 256 + m.val) * 512 + s.val) * 1 + 0 : Nat) = (b.val * 256 + m.val) * 512 + s.val
    omega
  exact extractStridedSlice_apply _ _ _ _ (ix4 b m s (2 : Fin 3)) (by ix_side)

theorem xyzRows_apply (a3 : FVec Ideal S4x40000x7 .f32) (b : Fin 4) (n : Fin 40000) (k : Fin 3) :
    xyzRows a3 (ix3 b n k) = a3 (ix3 b n (⟨k.val, by omega⟩ : Fin 7)) := by
  unfold xyzRows
  exact extractStridedSlice_apply _ _ _ _ (ix3 b n (⟨k.val, by omega⟩ : Fin 7)) (by ix_side)

/-- The centred coordinates at [b, m, s, k]: the gathered point's coordinate minus the box centre's. -/
theorem centred_apply (x0 : FVec Ideal S4x40000x3 .f32) (st : IVec S4x256x512x2 32) (a0 : FVec Ideal S4x256x3 .f32)
    (b : Fin 4) (m : Fin 256) (s : Fin 512) (k : Fin 3)
    (hb : (st (ix4 b m s (0 : Fin 2))).toNat < 4) (hn : (st (ix4 b m s (1 : Fin 2))).toNat < 40000) :
    centred x0 st a0 (ix4 b m s k)
      = x0 (ix3 (⟨(st (ix4 b m s (0 : Fin 2))).toNat, hb⟩ : Fin 4) (⟨(st (ix4 b m s (1 : Fin 2))).toNat, hn⟩ : Fin 40000) k)
        - a0 (ix3 b m k) := by
  unfold centred
  rw [subf_apply]
  congr 1
  · exact Cert.Lib.GatherOneHot.gather_rows3_apply gather_S4x40000x3_S4x256x512x2_S4x256x512x3_3_01_n_n_01_3_113_wf x0 st b m s k hb hn
  · refine (broadcastInDim_apply _ _ _ _ (ix4 b m (0 : Fin 1) k) ?_).trans ?_
    · ix_side
    exact broadcastInDim_apply _ _ _ _ (ix3 b m k) (by ix_side)

/-- One, the word of the divisor. -/
theorem ofBits_one : Ideal.ofBits .f32 0x3F800000#32 = 1 := by
  simp [Ideal.ofBits, Ideal.ieee, -EReal.coe_mul]; norm_num

/-- Division by one on the extended reals. -/
theorem div_one' (x : EReal) : Ideal.div x 1 = x := by
  rw [← EReal.coe_one, Ideal.div_coe (by norm_num)]
  simp

/-- The first result at [m, b, s, k]: plane k at [b, m, s] (stacked, divided by one, transposed twice). -/
theorem xyzOf_apply (p q z : FVec Ideal S4x256x512 .f32) (m : Fin 256) (b : Fin 4) (s : Fin 512) (k : Fin 3) :
    xyzOf p q z (ix4 m b s k) = if k.val = 0 then p (ix3 b m s) else if k.val = 1 then q (ix3 b m s) else z (ix3 b m s) := by
  unfold xyzOf
  refine (transpose_apply _ _ _ (ix4 m b s k) (ix4 b k m s) ?_).trans ?_
  · ix_side
  refine (transpose_apply _ _ _ (ix4 b k m s) (ix4 b m s k) ?_).trans ?_
  · ix_side
  show Ideal.div (concatenate S4x256x512x3 3 _ _ (ix4 b m s k)) (Ideal.ofBits .f32 0x3F800000#32) = _
  rw [ofBits_one, div_one']
  fin_cases k
  · refine (concatenate_apply_piece _ _ _ _ 0 (by simp) S4x256x512x1 _ (by rfl) (by rfl) 0 (by rfl) (ix4 b m s (0 : Fin 1)) ?_ (by rfl)).trans ?_
    · intro a ha; fin_cases a <;> first | rfl | exact absurd rfl ha
    exact broadcastInDim_apply _ _ _ _ (ix3 b m s) (by ix_side)
  · refine (concatenate_apply_piece _ _ _ _ 1 (by simp) S4x256x512x1 _ (by rfl) (by rfl) 1 (by rfl) (ix4 b m s (0 : Fin 1)) ?_ (by rfl)).trans ?_
    · intro a ha; fin_cases a <;> first | rfl | exact absurd rfl ha
    exact broadcastInDim_apply _ _ _ _ (ix3 b m s) (by ix_side)
  · refine (concatenate_apply_piece _ _ _ _ 2 (by simp) S4x256x512x1 _ (by rfl) (by rfl) 2 (by rfl) (ix4 b m s (0 : Fin 1)) ?_ (by rfl)).trans ?_
    · intro a ha; fin_cases a <;> first | rfl | exact absurd rfl ha
    exact broadcastInDim_apply _ _ _ _ (ix3 b m s) (by ix_side)

/-- The first result is the specification's: the sampled point centred on its box and rotated by the box's orientation. -/
theorem res129_eq_spec (I : IVec S4x256x512 32) (hidx : ∀ j, (I j).toNat < 40000) (a0 : FVec Ideal S4x256x3 .f32)
    (a1 : FVec Ideal S4x256 .f32) (a3 : FVec Ideal S4x40000x7 .f32) (a4 : FVec Ideal S4x40000 .f32) :
    res129 (F := Ideal) I a0 a1 a3
      = Cert.Spec.Gxyz (Cert.Spec.table a3 a4) a0 (Host.cos (F := Ideal) a1) (Host.sin (F := Ideal) a1) I hidx := by
  funext j
  obtain ⟨m, b, s, k, rfl⟩ : ∃ (m : Fin 256) (b : Fin 4) (s : Fin 512) (k : Fin 3), j = ix4 m b s k :=
    ⟨j 0, j 1, j 2, j 3, eq_ix4 j⟩
  obtain ⟨h0, h1⟩ := start_pair I hidx b m s
  have hb : (startOf batchIota I (ix4 b m s (0 : Fin 2))).toNat < 4 := by rw [h0, toNat_ofNat_fin4]; exact b.isLt
  have hn : (startOf batchIota I (ix4 b m s (1 : Fin 2))).toNat < 40000 := by rw [h1]; exact hidx _
  have eB : (⟨_, hb⟩ : Fin 4) = b :=
    Fin.ext (show (startOf batchIota I (ix4 b m s (0 : Fin 2))).toNat = b.val by rw [h0, toNat_ofNat_fin4])
  have eN : (⟨_, hn⟩ : Fin 40000) = ⟨(I (ix3 b m s)).toNat, hidx _⟩ := Fin.ext (congrArg BitVec.toNat h1)
  -- the centred coordinate k of the sampled point
  have hP : ∀ k' : Fin 3, centred (xyzRows a3) (startOf batchIota I) a0 (ix4 b m s k')
      = Cert.Spec.table a3 a4 b ⟨(I (ix3 b m s)).toNat, hidx _⟩ ⟨k'.val, by omega⟩ - a0 (ix3 b m k') := fun k' => by
    rw [centred_apply _ _ _ b m s k' hb hn, eB, eN, xyzRows_apply]
    unfold Cert.Spec.table
    rw [dif_pos (show k'.val < 7 by omega)]
  unfold res129
  rw [xyzOf_apply]
  show _ = Cert.Spec.xyzAt (Cert.Spec.table a3 a4) a0 (Host.cos (F := Ideal) a1) (Host.sin (F := Ideal) a1) b m
      ⟨(I (ix3 b m s)).toNat, hidx _⟩ k
  unfold Cert.Spec.xyzAt
  simp only [addf_apply, mulf_apply, perBox_apply, perBoxNeg_apply, plane0_apply, plane1_apply, plane2_apply, hP]
  rfl

/-! ## The two results of the run -/

/-- The second result of the reference's run is the specification's feature array, the index array being the value
    the operations leave in its buffer. -/
theorem res_feat_eq (V : Valuation τ sig (Elt Ideal))
    (hidx : ∀ j, ((after ops V (Proc.devRef .tc main_v63) : IVec S4x256x512 32) j).toNat < 40000) :
    after ops V (Proc.devRef .tc main_v128)
      = Cert.Spec.Gfeat (Cert.Spec.table (V (Proc.devRef .tc main_arg3)) (V (Proc.devRef .tc main_arg4)))
          (after ops V (Proc.devRef .tc main_v63)) hidx :=
  (read_v128 V).trans (res128_eq_spec _ hidx _ _)

/-- The first result of the reference's run is the specification's coordinate array, the cosines and sines being the
    host's cosine and sine of the orientations. -/
theorem res_xyz_eq (V : Valuation τ sig (Elt Ideal))
    (hidx : ∀ j, ((after ops V (Proc.devRef .tc main_v63) : IVec S4x256x512 32) j).toNat < 40000) :
    after ops V (Proc.devRef .tc main_v129)
      = Cert.Spec.Gxyz (Cert.Spec.table (V (Proc.devRef .tc main_arg3)) (V (Proc.devRef .tc main_arg4)))
          (V (Proc.devRef .tc main_arg0)) (Host.cos (F := Ideal) (φ := .f32) (V (Proc.devRef .tc main_arg1)))
          (Host.sin (F := Ideal) (φ := .f32) (V (Proc.devRef .tc main_arg1))) (after ops V (Proc.devRef .tc main_v63)) hidx :=
  (read_v129 V).trans (res129_eq_spec _ hidx _ _ _ _)

end Cert.ReferenceIdeal.RefRead

end
-- ==== Proof.IdxHalf1.lean ====
/- The first half of "the two programs compute the same index array": up to the slot numbers.

   The ball query is the same straight line of host operations in both programs. Its first half computes, from the box
   centres and the point cloud, the differences centre − point, their squared lengths compared with one (the in-ball
   mask), the running count of the mask along the points, the count capped at 512 and the slot of every point. The
   line is cut, in both programs at the same places, after every value that is read more than once; a stage says:
   from any two contents that agree on the buffers the stage reads, the two programs' stages leave contents that
   agree on the buffers read later. Inside a stage each fold is opened to the composition of its few operations, and
   the two compositions are the same tree, differing only in where the shapes' names and the side conditions' proofs
   were declared. -/
import proofs.«179565_j43817256354257_2_alg».proof.Proof.RefStage
import proofs.«179565_j43817256354257_2_alg».proof.Proof.KernelIdeal.Runs
import Idealize.ShloMosaic.PureOps.Ideal

noncomputable section

namespace Cert.Proof.IdxHalf1

open Idealize.ShloMosaic Idealize.ShloMosaic.TcCoe Idealize.SL.Sem Idealize.ShloMosaic.StableHlo

variable [Cert.ReferenceIdeal.Facts]

/-- A valuation of the reference program's buffers, and one of the kernel program's. -/
abbrev RVal := Valuation Cert.ReferenceIdeal.τ Cert.ReferenceIdeal.sig (Elt Ideal)
abbrev KVal := Valuation Cert.KernelIdeal.τ Cert.KernelIdeal.sig (Elt Ideal)

-- the buffers the stages pass on, in the reference program (r…) and in the kernel program (k…)
local notation "ra0" => (Proc.devRef Proc.tc Cert.ReferenceIdeal.main_arg0 : DevRef Cert.ReferenceIdeal.τ Cert.ReferenceIdeal.sig)
local notation "ra3" => (Proc.devRef Proc.tc Cert.ReferenceIdeal.main_arg3 : DevRef Cert.ReferenceIdeal.τ Cert.ReferenceIdeal.sig)
local notation "r9" => (Proc.devRef Proc.tc Cert.ReferenceIdeal.main_v9 : DevRef Cert.ReferenceIdeal.τ Cert.ReferenceIdeal.sig)
local notation "r13" => (Proc.devRef Proc.tc Cert.ReferenceIdeal.main_v13 : DevRef Cert.ReferenceIdeal.τ Cert.ReferenceIdeal.sig)
local notation "r15" => (Proc.devRef Proc.tc Cert.ReferenceIdeal.main_v15 : DevRef Cert.ReferenceIdeal.τ Cert.ReferenceIdeal.sig)
local notation "r19" => (Proc.devRef Proc.tc Cert.ReferenceIdeal.main_v19 : DevRef Cert.ReferenceIdeal.τ Cert.ReferenceIdeal.sig)
local notation "r25" => (Proc.devRef Proc.tc Cert.ReferenceIdeal.main_v25 : DevRef Cert.ReferenceIdeal.τ Cert.ReferenceIdeal.sig)
local notation "ka0" => (Proc.devRef Proc.tc Cert.KernelIdeal.main_arg0 : DevRef Cert.KernelIdeal.τ Cert.KernelIdeal.sig)
local notation "ka3" => (Proc.devRef Proc.tc Cert.KernelIdeal.main_arg3 : DevRef Cert.KernelIdeal.τ Cert.KernelIdeal.sig)
local notation "k9" => (Proc.devRef Proc.tc Cert.KernelIdeal.main_v9 : DevRef Cert.KernelIdeal.τ Cert.KernelIdeal.sig)
local notation "k13" => (Proc.devRef Proc.tc Cert.KernelIdeal.main_v13 : DevRef Cert.KernelIdeal.τ Cert.KernelIdeal.sig)
local notation "k15" => (Proc.devRef Proc.tc Cert.KernelIdeal.main_v15 : DevRef Cert.KernelIdeal.τ Cert.KernelIdeal.sig)
local notation "k19" => (Proc.devRef Proc.tc Cert.KernelIdeal.main_v19 : DevRef Cert.KernelIdeal.τ Cert.KernelIdeal.sig)
local notation "k25" => (Proc.devRef Proc.tc Cert.KernelIdeal.main_v25 : DevRef Cert.KernelIdeal.τ Cert.KernelIdeal.sig)

/-! ## The two lines, cut at the same places -/

def rA : List (HloOp Cert.ReferenceIdeal.τ Cert.ReferenceIdeal.sig (Elt Ideal)) := Cert.ReferenceIdeal.RefRun.ops0.take 10
def rB : List (HloOp Cert.ReferenceIdeal.τ Cert.ReferenceIdeal.sig (Elt Ideal)) := (Cert.ReferenceIdeal.RefRun.ops0.drop 10).take 6
def rC : List (HloOp Cert.ReferenceIdeal.τ Cert.ReferenceIdeal.sig (Elt Ideal)) := (Cert.ReferenceIdeal.RefRun.ops0.drop 16).take 4
def rD : List (HloOp Cert.ReferenceIdeal.τ Cert.ReferenceIdeal.sig (Elt Ideal)) := (Cert.ReferenceIdeal.RefRun.ops0.drop 20).take 16

def kA : List (HloOp Cert.KernelIdeal.τ Cert.KernelIdeal.sig (Elt Ideal)) := Cert.KernelIdeal.Gen.hostOps0.take 10
def kB : List (HloOp Cert.KernelIdeal.τ Cert.KernelIdeal.sig (Elt Ideal)) := (Cert.KernelIdeal.Gen.hostOps0.drop 10).take 6
def kC : List (HloOp Cert.KernelIdeal.τ Cert.KernelIdeal.sig (Elt Ideal)) := Cert.KernelIdeal.Gen.hostOps0.drop 16 ++ Cert.KernelIdeal.Gen.hostOps0_1
def kD : List (HloOp Cert.KernelIdeal.τ Cert.KernelIdeal.sig (Elt Ideal)) := Cert.KernelIdeal.Gen.hostOps0_2 ++ Cert.KernelIdeal.Gen.hostOps0_3

/-- Opens the segments to literal lists. -/
macro "open_segments" : tactic =>
  `(tactic| simp only [rA, rB, rC, rD, kA, kB, kC, kD,
      Cert.ReferenceIdeal.RefRun.ops0,
      Cert.KernelIdeal.Gen.hostOps0, Cert.KernelIdeal.Gen.hostOps0_1, Cert.KernelIdeal.Gen.hostOps0_2, Cert.KernelIdeal.Gen.hostOps0_3,
      List.take_succ_cons, List.take_zero, List.drop_succ_cons, List.drop_zero, List.cons_append, List.nil_append])

/-! ## The stages -/

section Stages

attribute [local irreducible] Host.reduceWindow Host.reduceAdd

set_option maxRecDepth 8192 in
set_option maxHeartbeats 4000000 in
/-- The differences centre − point: from equal box centres and point clouds. -/
theorem stageA (W' : RVal) (W : KVal) (h0 : W' ra0 = W ka0) (h3 : W' ra3 = W ka3) : after rA W' r9 = after kA W k9 := by
  open_segments
  after_results_simp
  all_goals (try simp only [h0, h3])
  all_goals (try rfl)

set_option maxRecDepth 8192 in
set_option maxHeartbeats 4000000 in
/-- The in-ball mask: from equal differences. -/
theorem stageB (W' : RVal) (W : KVal) (h9 : W' r9 = W k9) : after rB W' r13 = after kB W k13 := by
  open_segments
  after_results_simp
  all_goals (try simp only [h9])
  all_goals (try rfl)

set_option maxRecDepth 8192 in
set_option maxHeartbeats 4000000 in
/-- The running count: from equal masks (the mask is passed on). -/
theorem stageC (W' : RVal) (W : KVal) (h13 : W' r13 = W k13) :
    after rC W' r13 = after kC W k13 ∧ after rC W' r15 = after kC W k15 := by
  refine ⟨?_, ?_⟩ <;> (open_segments; after_results_simp; all_goals (try simp only [h13]); all_goals (try rfl))

set_option maxRecDepth 8192 in
set_option maxHeartbeats 4000000 in
/-- The number of points in the ball, capped, and the slot of each point: from equal masks and counts. -/
theorem stageD (W' : RVal) (W : KVal) (h13 : W' r13 = W k13) (h15 : W' r15 = W k15) :
    after rD W' r19 = after kD W k19 ∧ after rD W' r25 = after kD W k25 := by
  refine ⟨?_, ?_⟩ <;> (open_segments; after_results_simp; all_goals (try simp only [h13, h15]); all_goals (try rfl))

end Stages

/-! ## The first half -/

theorem ref_cut : Cert.ReferenceIdeal.RefRun.ops0.take 36 = rA ++ (rB ++ (rC ++ rD)) := by
  open_segments

theorem ker_cut : Cert.KernelIdeal.Gen.hostOps0 ++ Cert.KernelIdeal.Gen.hostOps0_1 ++ Cert.KernelIdeal.Gen.hostOps0_2 ++ Cert.KernelIdeal.Gen.hostOps0_3
    = kA ++ (kB ++ (kC ++ kD)) := by
  open_segments

/-- From contents that agree on the box centres and on the point cloud, the two programs' first 36 host operations
    leave the same capped counts and the same slot numbers. -/
theorem half1 (V' : Valuation Cert.ReferenceIdeal.τ Cert.ReferenceIdeal.sig (Elt Ideal))
    (V : Valuation Cert.KernelIdeal.τ Cert.KernelIdeal.sig (Elt Ideal))
    (h0 : (V' (Proc.devRef .tc Cert.ReferenceIdeal.main_arg0) : (⟨3, ![4, 256, 3]⟩ : Shape).Idx → EReal)
        = V (Proc.devRef .tc Cert.KernelIdeal.main_arg0))
    (h3 : (V' (Proc.devRef .tc Cert.ReferenceIdeal.main_arg3) : (⟨3, ![4, 40000, 7]⟩ : Shape).Idx → EReal)
        = V (Proc.devRef .tc Cert.KernelIdeal.main_arg3)) :
    ((StableHlo.after (Cert.ReferenceIdeal.RefRun.ops0.take 36) V' (Proc.devRef .tc Cert.ReferenceIdeal.main_v19)
          : (⟨2, ![4, 256]⟩ : Shape).Idx → BitVec 32)
        = StableHlo.after (Cert.KernelIdeal.Gen.hostOps0 ++ Cert.KernelIdeal.Gen.hostOps0_1 ++ Cert.KernelIdeal.Gen.hostOps0_2
            ++ Cert.KernelIdeal.Gen.hostOps0_3) V (Proc.devRef .tc Cert.KernelIdeal.main_v19))
      ∧ ((StableHlo.after (Cert.ReferenceIdeal.RefRun.ops0.take 36) V' (Proc.devRef .tc Cert.ReferenceIdeal.main_v25)
          : (⟨3, ![4, 256, 40000]⟩ : Shape).Idx → BitVec 32)
        = StableHlo.after (Cert.KernelIdeal.Gen.hostOps0 ++ Cert.KernelIdeal.Gen.hostOps0_1 ++ Cert.KernelIdeal.Gen.hostOps0_2
            ++ Cert.KernelIdeal.Gen.hostOps0_3) V (Proc.devRef .tc Cert.KernelIdeal.main_v25)) := by
  have hA := stageA V' V h0 h3
  have hB := stageB _ _ hA
  have hC := stageC _ _ hB
  have hD := stageD _ _ hC.1 hC.2
  rw [ref_cut, ker_cut]
  simp only [after_append]
  exact hD

end Cert.Proof.IdxHalf1

end
-- ==== Proof.IdxAgree.lean ====
/- The two programs compute the same index array.

   Each program's line of host operations is its first 36 operations (up to the slot numbers), then the rest of the
   ball query (the scatter of the point numbers and the fill of the unused slots), then operations that no longer
   write the index array. The first two parts agree buffer by buffer on what the next part reads; the last part is
   passed through. -/
import proofs.«179565_j43817256354257_2_alg».proof.Proof.IdxHalf1

noncomputable section

namespace Cert.Proof.IdxAgree

open Idealize.ShloMosaic Idealize.ShloMosaic.TcCoe Idealize.SL.Sem Idealize.ShloMosaic.StableHlo

variable [Cert.ReferenceIdeal.Facts]

/-- The kernel program's last host operations before its region do not write the index array. -/
theorem keep6 (W : Valuation Cert.KernelIdeal.τ Cert.KernelIdeal.sig (Elt Ideal)) :
    after Cert.KernelIdeal.Gen.hostOps0_6 W (Proc.devRef .tc Cert.KernelIdeal.main_v63)
      = W (Proc.devRef .tc Cert.KernelIdeal.main_v63) := by
  simp only [Cert.KernelIdeal.Gen.hostOps0_6]
  after_results_simp

/-- The kernel program's host operations before its region, bracketed as first half, second half, rest. -/
theorem ker_lists :
    List.flatten [Cert.KernelIdeal.Gen.hostOps0 (F := Ideal), Cert.KernelIdeal.Gen.hostOps0_1, Cert.KernelIdeal.Gen.hostOps0_2,
        Cert.KernelIdeal.Gen.hostOps0_3, Cert.KernelIdeal.Gen.hostOps0_4, Cert.KernelIdeal.Gen.hostOps0_5, Cert.KernelIdeal.Gen.hostOps0_6]
      = (Cert.KernelIdeal.Gen.hostOps0 ++ Cert.KernelIdeal.Gen.hostOps0_1 ++ Cert.KernelIdeal.Gen.hostOps0_2 ++ Cert.KernelIdeal.Gen.hostOps0_3)
          ++ ((Cert.KernelIdeal.Gen.hostOps0_4 ++ Cert.KernelIdeal.Gen.hostOps0_5) ++ Cert.KernelIdeal.Gen.hostOps0_6) := by
  simp only [List.flatten_cons, List.flatten_nil, List.append_nil, List.append_assoc]

/-- The kernel program's index array when its region is entered: the second half's, from the first half's contents. -/
theorem ker_idx (V : Valuation Cert.KernelIdeal.τ Cert.KernelIdeal.sig (Elt Ideal)) :
    after (List.flatten [Cert.KernelIdeal.Gen.hostOps0, Cert.KernelIdeal.Gen.hostOps0_1, Cert.KernelIdeal.Gen.hostOps0_2,
        Cert.KernelIdeal.Gen.hostOps0_3, Cert.KernelIdeal.Gen.hostOps0_4, Cert.KernelIdeal.Gen.hostOps0_5, Cert.KernelIdeal.Gen.hostOps0_6]) V
        (Proc.devRef .tc Cert.KernelIdeal.main_v63)
      = after (Cert.KernelIdeal.Gen.hostOps0_4 ++ Cert.KernelIdeal.Gen.hostOps0_5)
          (after (Cert.KernelIdeal.Gen.hostOps0 ++ Cert.KernelIdeal.Gen.hostOps0_1 ++ Cert.KernelIdeal.Gen.hostOps0_2
            ++ Cert.KernelIdeal.Gen.hostOps0_3) V) (Proc.devRef .tc Cert.KernelIdeal.main_v63) :=
  (congrFun (congrArg (fun L => after L V) ker_lists) _).trans
    ((congrFun (after_append _ _ V) _).trans
      ((congrFun (after_append _ _ _) _).trans (keep6 _)))

/-- The reference program's index array: the second half's, from the first half's contents. -/
theorem ref_idx (V' : Valuation Cert.ReferenceIdeal.τ Cert.ReferenceIdeal.sig (Elt Ideal)) :
    after Cert.ReferenceIdeal.RefRun.ops V' (Proc.devRef .tc Cert.ReferenceIdeal.main_v63)
      = after (Cert.ReferenceIdeal.RefRun.ops0.drop 36 ++ Cert.ReferenceIdeal.RefRun.ops1.take 18)
          (after (Cert.ReferenceIdeal.RefRun.ops0.take 36) V') (Proc.devRef .tc Cert.ReferenceIdeal.main_v63) := by
  have s0 : after Cert.ReferenceIdeal.RefRun.ops0 V'
      = after (Cert.ReferenceIdeal.RefRun.ops0.drop 36) (after (Cert.ReferenceIdeal.RefRun.ops0.take 36) V') :=
    (congrArg (fun L => after L V') (List.take_append_drop 36 Cert.ReferenceIdeal.RefRun.ops0).symm).trans (after_append _ _ V')
  exact (Cert.ReferenceIdeal.RefStage.idx_eq V').trans
    ((congrFun (congrArg (after Cert.ReferenceIdeal.RefStage.ops1a) s0) _).trans
      (congrFun (after_append (Cert.ReferenceIdeal.RefRun.ops0.drop 36) Cert.ReferenceIdeal.RefStage.ops1a
        (after (Cert.ReferenceIdeal.RefRun.ops0.take 36) V')).symm _))

/-- From memories that agree on the box centres and on the point cloud, the reference's index array is the kernel
    program's. -/
theorem idx_agree_of_half2
    (half2 : ∀ (W' : Valuation Cert.ReferenceIdeal.τ Cert.ReferenceIdeal.sig (Elt Ideal))
        (W : Valuation Cert.KernelIdeal.τ Cert.KernelIdeal.sig (Elt Ideal)),
        (W' (Proc.devRef .tc Cert.ReferenceIdeal.main_v19) : (⟨2, ![4, 256]⟩ : Shape).Idx → BitVec 32)
            = W (Proc.devRef .tc Cert.KernelIdeal.main_v19) →
        (W' (Proc.devRef .tc Cert.ReferenceIdeal.main_v25) : (⟨3, ![4, 256, 40000]⟩ : Shape).Idx → BitVec 32)
            = W (Proc.devRef .tc Cert.KernelIdeal.main_v25) →
        (StableHlo.after (Cert.ReferenceIdeal.RefRun.ops0.drop 36 ++ Cert.ReferenceIdeal.RefRun.ops1.take 18) W'
            (Proc.devRef .tc Cert.ReferenceIdeal.main_v63) : (⟨3, ![4, 256, 512]⟩ : Shape).Idx → BitVec 32)
          = StableHlo.after (Cert.KernelIdeal.Gen.hostOps0_4 ++ Cert.KernelIdeal.Gen.hostOps0_5) W
              (Proc.devRef .tc Cert.KernelIdeal.main_v63))
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev 1)
    (h0 : m' ((c.tc : Thread Cert.ReferenceIdeal.nD Cert.ReferenceIdeal.τ).loc Cert.ReferenceIdeal.main_arg0)
        = m ((c.tc : Thread Cert.KernelIdeal.nD Cert.KernelIdeal.τ).loc Cert.KernelIdeal.main_arg0))
    (h3 : m' ((c.tc : Thread Cert.ReferenceIdeal.nD Cert.ReferenceIdeal.τ).loc Cert.ReferenceIdeal.main_arg3)
        = m ((c.tc : Thread Cert.KernelIdeal.nD Cert.KernelIdeal.τ).loc Cert.KernelIdeal.main_arg3)) :
    (StableHlo.after Cert.ReferenceIdeal.RefRun.ops (launchContents m' c) (Proc.devRef .tc Cert.ReferenceIdeal.main_v63)
        : (⟨3, ![4, 256, 512]⟩ : Shape).Idx → BitVec 32)
      = (Cert.KernelIdeal.Fr.V m c Cert.KernelIdeal.main_v63 : (⟨3, ![4, 256, 512]⟩ : Shape).Idx → BitVec 32) := by
  have H1 := Cert.Proof.IdxHalf1.half1 (launchContents m' c) (launchContents m c) h0 h3
  have H2 := half2 _ _ H1.1 H1.2
  exact (ref_idx (launchContents m' c)).trans (H2.trans (ker_idx (launchContents m c)).symm)

end Cert.Proof.IdxAgree

end
-- ==== Proof.IdxHalf2.lean ====
/-
  The second half of the ball query — the point numbers, the index vectors, the scatter into slots, the two slices, the
  compare with the count and the final select — computes the same sample numbers in the two programs: their operation
  lists are the same operations over each program's own buffers, so stage by stage, from any contents agreeing on what a
  stage reads, the contents agree on what later stages read.
-/
import proofs.«179565_j43817256354257_2_alg».proof.Proof.RefOps
import proofs.«179565_j43817256354257_2_alg».proof.Proof.Gen.ReferenceIdeal
import proofs.«179565_j43817256354257_2_alg».proof.Proof.KernelIdeal.HostVals
import Idealize.ShloMosaic.PureOps.Ideal

set_option maxRecDepth 16384
set_option maxHeartbeats 4000000

noncomputable section

namespace Cert.Proof.IdxHalf2

open Idealize.ShloMosaic Idealize.ShloMosaic.StableHlo

/-- Contents of the reference program's buffers, and of the kernel program's. -/
abbrev RVal := Valuation Cert.ReferenceIdeal.τ Cert.ReferenceIdeal.sig (Elt Ideal)
abbrev KVal := Valuation Cert.KernelIdeal.τ Cert.KernelIdeal.sig (Elt Ideal)

/-! ## The two lists, stage by stage -/

/-- The point numbers, the zero slots, and the normalised batch and box numbers (22 operations). -/
abbrev RA : List (HloOp Cert.ReferenceIdeal.τ Cert.ReferenceIdeal.sig (Elt Ideal)) := (Cert.ReferenceIdeal.RefRun.ops0.drop 36).take 22
abbrev KA : List (HloOp Cert.KernelIdeal.τ Cert.KernelIdeal.sig (Elt Ideal)) := Cert.KernelIdeal.Gen.hostOps0_4.take 22
/-- The normalised slot numbers and the three components of the index vectors (12 operations). -/
abbrev RB1 : List (HloOp Cert.ReferenceIdeal.τ Cert.ReferenceIdeal.sig (Elt Ideal)) := Cert.ReferenceIdeal.RefRun.ops0.drop 58 ++ Cert.ReferenceIdeal.RefRun.ops1.take 6
abbrev KB1 : List (HloOp Cert.KernelIdeal.τ Cert.KernelIdeal.sig (Elt Ideal)) := (Cert.KernelIdeal.Gen.hostOps0_4.drop 22).take 12
/-- The index vectors: the three components joined (1 operation). -/
abbrev RB2 : List (HloOp Cert.ReferenceIdeal.τ Cert.ReferenceIdeal.sig (Elt Ideal)) := (Cert.ReferenceIdeal.RefRun.ops1.drop 6).take 1
abbrev KB2 : List (HloOp Cert.KernelIdeal.τ Cert.KernelIdeal.sig (Elt Ideal)) := (Cert.KernelIdeal.Gen.hostOps0_4.drop 34).take 1
/-- The scatter and the two slices (3 operations). -/
abbrev RC : List (HloOp Cert.ReferenceIdeal.τ Cert.ReferenceIdeal.sig (Elt Ideal)) := (Cert.ReferenceIdeal.RefRun.ops1.drop 7).take 3
abbrev KC : List (HloOp Cert.KernelIdeal.τ Cert.KernelIdeal.sig (Elt Ideal)) := (Cert.KernelIdeal.Gen.hostOps0_4.drop 35).take 3
/-- The compare with the count and the final select (8 operations). -/
abbrev RD : List (HloOp Cert.ReferenceIdeal.τ Cert.ReferenceIdeal.sig (Elt Ideal)) := (Cert.ReferenceIdeal.RefRun.ops1.drop 10).take 8
abbrev KD : List (HloOp Cert.KernelIdeal.τ Cert.KernelIdeal.sig (Elt Ideal)) := Cert.KernelIdeal.Gen.hostOps0_4.drop 38 ++ Cert.KernelIdeal.Gen.hostOps0_5

theorem R_split : Cert.ReferenceIdeal.RefRun.ops0.drop 36 ++ Cert.ReferenceIdeal.RefRun.ops1.take 18 = RA ++ (RB1 ++ (RB2 ++ (RC ++ RD))) := rfl
theorem K_split : Cert.KernelIdeal.Gen.hostOps0_4 ++ Cert.KernelIdeal.Gen.hostOps0_5 = KA ++ (KB1 ++ (KB2 ++ (KC ++ KD))) := rfl

section Nary3
variable {τ' : Topo} {sig' : RefSig} {Val : EltTy → Type} {x a b y : Ref sig' .tc}

/-- A three-operand operation over a LITERAL family of references: its result with each operand's contents at its own
    reference. -/
theorem nary3_result
    (f : ((k : Fin 3) → ((![x, a, b] : Fin 3 → Ref sig' .tc) k).ty.Contents Val) → y.ty.Contents Val) (hxs hy)
    (G : Valuation τ' sig' Val) :
    (nary (τ := τ') ![x, a, b] y f hxs hy).result G (Proc.devRef .tc y)
      = f (Fin.cons (G (Proc.devRef .tc x)) (Fin.cons (G (Proc.devRef .tc a)) (Fin.cons (G (Proc.devRef .tc b)) (fun i => i.elim0)))) := by
  rw [nary_result]; congr 1; funext k; fin_cases k <;> rfl
theorem nary3_result'
    (f : ((k : Fin 3) → ((![x, a, b] : Fin 3 → Ref sig' .tc) k).ty.Contents Val) → y.ty.Contents Val) (hxs hy)
    (G : Valuation τ' sig' Val) :
    (nary (τ := τ') ![x, a, b] y f hxs hy).result G (no_index (Proc.devRef .tc y))
      = f (Fin.cons (G (Proc.devRef .tc x)) (Fin.cons (G (Proc.devRef .tc a)) (Fin.cons (G (Proc.devRef .tc b)) (fun i => i.elim0)))) :=
  nary3_result f hxs hy G

end Nary3

/-- One pass of the operations' result lemmas. -/
macro "stage_simp" : tactic =>
  `(tactic| (simp (disch := decide) only [after_cons, after_nil,
      nullary_result', unary_result', binary_result', ternary_result', quaternary_result', reshape_result', nary3_result',
      nullary_result_ne', unary_result_ne', binary_result_ne', ternary_result_ne', quaternary_result_ne', reshape_result_ne',
      nary_result_ne']))

/-! ## What each stage leaves alone -/

theorem RA_keeps_v25 (X : RVal) : after RA X (Proc.devRef .tc Cert.ReferenceIdeal.main_v25) = X (Proc.devRef .tc Cert.ReferenceIdeal.main_v25) := by
  simp only [RA, RB1, RB2, RC, RD, KA, KB1, KB2, KC, KD, Cert.ReferenceIdeal.RefRun.ops0, Cert.ReferenceIdeal.RefRun.ops1, Cert.KernelIdeal.Gen.hostOps0_4, Cert.KernelIdeal.Gen.hostOps0_5, List.drop_succ_cons, List.drop_zero, List.take_succ_cons, List.take_zero, List.cons_append, List.nil_append]
  stage_simp

theorem KA_keeps_v25 (X : KVal) : after KA X (Proc.devRef .tc Cert.KernelIdeal.main_v25) = X (Proc.devRef .tc Cert.KernelIdeal.main_v25) := by
  simp only [RA, RB1, RB2, RC, RD, KA, KB1, KB2, KC, KD, Cert.ReferenceIdeal.RefRun.ops0, Cert.ReferenceIdeal.RefRun.ops1, Cert.KernelIdeal.Gen.hostOps0_4, Cert.KernelIdeal.Gen.hostOps0_5, List.drop_succ_cons, List.drop_zero, List.take_succ_cons, List.take_zero, List.cons_append, List.nil_append]
  stage_simp

theorem RA_keeps_v19 (X : RVal) : after RA X (Proc.devRef .tc Cert.ReferenceIdeal.main_v19) = X (Proc.devRef .tc Cert.ReferenceIdeal.main_v19) := by
  simp only [RA, RB1, RB2, RC, RD, KA, KB1, KB2, KC, KD, Cert.ReferenceIdeal.RefRun.ops0, Cert.ReferenceIdeal.RefRun.ops1, Cert.KernelIdeal.Gen.hostOps0_4, Cert.KernelIdeal.Gen.hostOps0_5, List.drop_succ_cons, List.drop_zero, List.take_succ_cons, List.take_zero, List.cons_append, List.nil_append]
  stage_simp

theorem KA_keeps_v19 (X : KVal) : after KA X (Proc.devRef .tc Cert.KernelIdeal.main_v19) = X (Proc.devRef .tc Cert.KernelIdeal.main_v19) := by
  simp only [RA, RB1, RB2, RC, RD, KA, KB1, KB2, KC, KD, Cert.ReferenceIdeal.RefRun.ops0, Cert.ReferenceIdeal.RefRun.ops1, Cert.KernelIdeal.Gen.hostOps0_4, Cert.KernelIdeal.Gen.hostOps0_5, List.drop_succ_cons, List.drop_zero, List.take_succ_cons, List.take_zero, List.cons_append, List.nil_append]
  stage_simp

theorem RB1_keeps_v27 (X : RVal) : after RB1 X (Proc.devRef .tc Cert.ReferenceIdeal.main_v27) = X (Proc.devRef .tc Cert.ReferenceIdeal.main_v27) := by
  simp only [RA, RB1, RB2, RC, RD, KA, KB1, KB2, KC, KD, Cert.ReferenceIdeal.RefRun.ops0, Cert.ReferenceIdeal.RefRun.ops1, Cert.KernelIdeal.Gen.hostOps0_4, Cert.KernelIdeal.Gen.hostOps0_5, List.drop_succ_cons, List.drop_zero, List.take_succ_cons, List.take_zero, List.cons_append, List.nil_append]
  stage_simp

theorem KB1_keeps_v27 (X : KVal) : after KB1 X (Proc.devRef .tc Cert.KernelIdeal.main_v27) = X (Proc.devRef .tc Cert.KernelIdeal.main_v27) := by
  simp only [RA, RB1, RB2, RC, RD, KA, KB1, KB2, KC, KD, Cert.ReferenceIdeal.RefRun.ops0, Cert.ReferenceIdeal.RefRun.ops1, Cert.KernelIdeal.Gen.hostOps0_4, Cert.KernelIdeal.Gen.hostOps0_5, List.drop_succ_cons, List.drop_zero, List.take_succ_cons, List.take_zero, List.cons_append, List.nil_append]
  stage_simp

theorem RB1_keeps_v32 (X : RVal) : after RB1 X (Proc.devRef .tc Cert.ReferenceIdeal.main_v32) = X (Proc.devRef .tc Cert.ReferenceIdeal.main_v32) := by
  simp only [RA, RB1, RB2, RC, RD, KA, KB1, KB2, KC, KD, Cert.ReferenceIdeal.RefRun.ops0, Cert.ReferenceIdeal.RefRun.ops1, Cert.KernelIdeal.Gen.hostOps0_4, Cert.KernelIdeal.Gen.hostOps0_5, List.drop_succ_cons, List.drop_zero, List.take_succ_cons, List.take_zero, List.cons_append, List.nil_append]
  stage_simp

theorem KB1_keeps_v32 (X : KVal) : after KB1 X (Proc.devRef .tc Cert.KernelIdeal.main_v32) = X (Proc.devRef .tc Cert.KernelIdeal.main_v32) := by
  simp only [RA, RB1, RB2, RC, RD, KA, KB1, KB2, KC, KD, Cert.ReferenceIdeal.RefRun.ops0, Cert.ReferenceIdeal.RefRun.ops1, Cert.KernelIdeal.Gen.hostOps0_4, Cert.KernelIdeal.Gen.hostOps0_5, List.drop_succ_cons, List.drop_zero, List.take_succ_cons, List.take_zero, List.cons_append, List.nil_append]
  stage_simp

theorem RB1_keeps_v19 (X : RVal) : after RB1 X (Proc.devRef .tc Cert.ReferenceIdeal.main_v19) = X (Proc.devRef .tc Cert.ReferenceIdeal.main_v19) := by
  simp only [RA, RB1, RB2, RC, RD, KA, KB1, KB2, KC, KD, Cert.ReferenceIdeal.RefRun.ops0, Cert.ReferenceIdeal.RefRun.ops1, Cert.KernelIdeal.Gen.hostOps0_4, Cert.KernelIdeal.Gen.hostOps0_5, List.drop_succ_cons, List.drop_zero, List.take_succ_cons, List.take_zero, List.cons_append, List.nil_append]
  stage_simp

theorem KB1_keeps_v19 (X : KVal) : after KB1 X (Proc.devRef .tc Cert.KernelIdeal.main_v19) = X (Proc.devRef .tc Cert.KernelIdeal.main_v19) := by
  simp only [RA, RB1, RB2, RC, RD, KA, KB1, KB2, KC, KD, Cert.ReferenceIdeal.RefRun.ops0, Cert.ReferenceIdeal.RefRun.ops1, Cert.KernelIdeal.Gen.hostOps0_4, Cert.KernelIdeal.Gen.hostOps0_5, List.drop_succ_cons, List.drop_zero, List.take_succ_cons, List.take_zero, List.cons_append, List.nil_append]
  stage_simp

theorem RB2_keeps_v27 (X : RVal) : after RB2 X (Proc.devRef .tc Cert.ReferenceIdeal.main_v27) = X (Proc.devRef .tc Cert.ReferenceIdeal.main_v27) := by
  simp only [RA, RB1, RB2, RC, RD, KA, KB1, KB2, KC, KD, Cert.ReferenceIdeal.RefRun.ops0, Cert.ReferenceIdeal.RefRun.ops1, Cert.KernelIdeal.Gen.hostOps0_4, Cert.KernelIdeal.Gen.hostOps0_5, List.drop_succ_cons, List.drop_zero, List.take_succ_cons, List.take_zero, List.cons_append, List.nil_append]
  stage_simp

theorem KB2_keeps_v27 (X : KVal) : after KB2 X (Proc.devRef .tc Cert.KernelIdeal.main_v27) = X (Proc.devRef .tc Cert.KernelIdeal.main_v27) := by
  simp only [RA, RB1, RB2, RC, RD, KA, KB1, KB2, KC, KD, Cert.ReferenceIdeal.RefRun.ops0, Cert.ReferenceIdeal.RefRun.ops1, Cert.KernelIdeal.Gen.hostOps0_4, Cert.KernelIdeal.Gen.hostOps0_5, List.drop_succ_cons, List.drop_zero, List.take_succ_cons, List.take_zero, List.cons_append, List.nil_append]
  stage_simp

theorem RB2_keeps_v32 (X : RVal) : after RB2 X (Proc.devRef .tc Cert.ReferenceIdeal.main_v32) = X (Proc.devRef .tc Cert.ReferenceIdeal.main_v32) := by
  simp only [RA, RB1, RB2, RC, RD, KA, KB1, KB2, KC, KD, Cert.ReferenceIdeal.RefRun.ops0, Cert.ReferenceIdeal.RefRun.ops1, Cert.KernelIdeal.Gen.hostOps0_4, Cert.KernelIdeal.Gen.hostOps0_5, List.drop_succ_cons, List.drop_zero, List.take_succ_cons, List.take_zero, List.cons_append, List.nil_append]
  stage_simp

theorem KB2_keeps_v32 (X : KVal) : after KB2 X (Proc.devRef .tc Cert.KernelIdeal.main_v32) = X (Proc.devRef .tc Cert.KernelIdeal.main_v32) := by
  simp only [RA, RB1, RB2, RC, RD, KA, KB1, KB2, KC, KD, Cert.ReferenceIdeal.RefRun.ops0, Cert.ReferenceIdeal.RefRun.ops1, Cert.KernelIdeal.Gen.hostOps0_4, Cert.KernelIdeal.Gen.hostOps0_5, List.drop_succ_cons, List.drop_zero, List.take_succ_cons, List.take_zero, List.cons_append, List.nil_append]
  stage_simp

theorem RB2_keeps_v19 (X : RVal) : after RB2 X (Proc.devRef .tc Cert.ReferenceIdeal.main_v19) = X (Proc.devRef .tc Cert.ReferenceIdeal.main_v19) := by
  simp only [RA, RB1, RB2, RC, RD, KA, KB1, KB2, KC, KD, Cert.ReferenceIdeal.RefRun.ops0, Cert.ReferenceIdeal.RefRun.ops1, Cert.KernelIdeal.Gen.hostOps0_4, Cert.KernelIdeal.Gen.hostOps0_5, List.drop_succ_cons, List.drop_zero, List.take_succ_cons, List.take_zero, List.cons_append, List.nil_append]
  stage_simp

theorem KB2_keeps_v19 (X : KVal) : after KB2 X (Proc.devRef .tc Cert.KernelIdeal.main_v19) = X (Proc.devRef .tc Cert.KernelIdeal.main_v19) := by
  simp only [RA, RB1, RB2, RC, RD, KA, KB1, KB2, KC, KD, Cert.ReferenceIdeal.RefRun.ops0, Cert.ReferenceIdeal.RefRun.ops1, Cert.KernelIdeal.Gen.hostOps0_4, Cert.KernelIdeal.Gen.hostOps0_5, List.drop_succ_cons, List.drop_zero, List.take_succ_cons, List.take_zero, List.cons_append, List.nil_append]
  stage_simp

theorem RC_keeps_v19 (X : RVal) : after RC X (Proc.devRef .tc Cert.ReferenceIdeal.main_v19) = X (Proc.devRef .tc Cert.ReferenceIdeal.main_v19) := by
  simp only [RA, RB1, RB2, RC, RD, KA, KB1, KB2, KC, KD, Cert.ReferenceIdeal.RefRun.ops0, Cert.ReferenceIdeal.RefRun.ops1, Cert.KernelIdeal.Gen.hostOps0_4, Cert.KernelIdeal.Gen.hostOps0_5, List.drop_succ_cons, List.drop_zero, List.take_succ_cons, List.take_zero, List.cons_append, List.nil_append]
  stage_simp

theorem KC_keeps_v19 (X : KVal) : after KC X (Proc.devRef .tc Cert.KernelIdeal.main_v19) = X (Proc.devRef .tc Cert.KernelIdeal.main_v19) := by
  simp only [RA, RB1, RB2, RC, RD, KA, KB1, KB2, KC, KD, Cert.ReferenceIdeal.RefRun.ops0, Cert.ReferenceIdeal.RefRun.ops1, Cert.KernelIdeal.Gen.hostOps0_4, Cert.KernelIdeal.Gen.hostOps0_5, List.drop_succ_cons, List.drop_zero, List.take_succ_cons, List.take_zero, List.cons_append, List.nil_append]
  stage_simp

/-! ## What each stage computes, the same in the two programs -/

/-- Stage A: the point numbers, spread over batches and boxes. -/
theorem A_v27 (X' : RVal) (X : KVal) :
    (after RA X' (Proc.devRef .tc Cert.ReferenceIdeal.main_v27) : (⟨3, ![4, 256, 40000]⟩ : Shape).Idx → BitVec 32) = after KA X (Proc.devRef .tc Cert.KernelIdeal.main_v27) := by
  simp only [RA, RB1, RB2, RC, RD, KA, KB1, KB2, KC, KD, Cert.ReferenceIdeal.RefRun.ops0, Cert.ReferenceIdeal.RefRun.ops1, Cert.KernelIdeal.Gen.hostOps0_4, Cert.KernelIdeal.Gen.hostOps0_5, List.drop_succ_cons, List.drop_zero, List.take_succ_cons, List.take_zero, List.cons_append, List.nil_append]
  stage_simp
  try rfl

/-- Stage A: the zero slots. -/
theorem A_v32 (X' : RVal) (X : KVal) :
    (after RA X' (Proc.devRef .tc Cert.ReferenceIdeal.main_v32) : (⟨3, ![4, 256, 513]⟩ : Shape).Idx → BitVec 32) = after KA X (Proc.devRef .tc Cert.KernelIdeal.main_v32) := by
  simp only [RA, RB1, RB2, RC, RD, KA, KB1, KB2, KC, KD, Cert.ReferenceIdeal.RefRun.ops0, Cert.ReferenceIdeal.RefRun.ops1, Cert.KernelIdeal.Gen.hostOps0_4, Cert.KernelIdeal.Gen.hostOps0_5, List.drop_succ_cons, List.drop_zero, List.take_succ_cons, List.take_zero, List.cons_append, List.nil_append]
  stage_simp
  try rfl

/-- Stage A: the normalised batch numbers. -/
theorem A_v37 (X' : RVal) (X : KVal) :
    (after RA X' (Proc.devRef .tc Cert.ReferenceIdeal.main_v37) : (⟨3, ![4, 1, 1]⟩ : Shape).Idx → BitVec 32) = after KA X (Proc.devRef .tc Cert.KernelIdeal.main_v37) := by
  simp only [RA, RB1, RB2, RC, RD, KA, KB1, KB2, KC, KD, Cert.ReferenceIdeal.RefRun.ops0, Cert.ReferenceIdeal.RefRun.ops1, Cert.KernelIdeal.Gen.hostOps0_4, Cert.KernelIdeal.Gen.hostOps0_5, List.drop_succ_cons, List.drop_zero, List.take_succ_cons, List.take_zero, List.cons_append, List.nil_append]
  stage_simp
  try rfl

/-- Stage A: the normalised box numbers. -/
theorem A_v42 (X' : RVal) (X : KVal) :
    (after RA X' (Proc.devRef .tc Cert.ReferenceIdeal.main_v42) : (⟨3, ![1, 256, 1]⟩ : Shape).Idx → BitVec 32) = after KA X (Proc.devRef .tc Cert.KernelIdeal.main_v42) := by
  simp only [RA, RB1, RB2, RC, RD, KA, KB1, KB2, KC, KD, Cert.ReferenceIdeal.RefRun.ops0, Cert.ReferenceIdeal.RefRun.ops1, Cert.KernelIdeal.Gen.hostOps0_4, Cert.KernelIdeal.Gen.hostOps0_5, List.drop_succ_cons, List.drop_zero, List.take_succ_cons, List.take_zero, List.cons_append, List.nil_append]
  stage_simp
  try rfl

/-- Stage B1: the batch component of the index vectors. -/
theorem B1_v50 (X' : RVal) (X : KVal)
    (h37 : (X' (Proc.devRef .tc Cert.ReferenceIdeal.main_v37) : (⟨3, ![4, 1, 1]⟩ : Shape).Idx → BitVec 32) = X (Proc.devRef .tc Cert.KernelIdeal.main_v37)) :
    (after RB1 X' (Proc.devRef .tc Cert.ReferenceIdeal.main_v50) : (⟨4, ![4, 256, 40000, 1]⟩ : Shape).Idx → BitVec 32) = after KB1 X (Proc.devRef .tc Cert.KernelIdeal.main_v50) := by
  simp only [RA, RB1, RB2, RC, RD, KA, KB1, KB2, KC, KD, Cert.ReferenceIdeal.RefRun.ops0, Cert.ReferenceIdeal.RefRun.ops1, Cert.KernelIdeal.Gen.hostOps0_4, Cert.KernelIdeal.Gen.hostOps0_5, List.drop_succ_cons, List.drop_zero, List.take_succ_cons, List.take_zero, List.cons_append, List.nil_append]
  stage_simp
  rw [h37]
  try rfl

/-- Stage B1: the box component of the index vectors. -/
theorem B1_v51 (X' : RVal) (X : KVal)
    (h42 : (X' (Proc.devRef .tc Cert.ReferenceIdeal.main_v42) : (⟨3, ![1, 256, 1]⟩ : Shape).Idx → BitVec 32) = X (Proc.devRef .tc Cert.KernelIdeal.main_v42)) :
    (after RB1 X' (Proc.devRef .tc Cert.ReferenceIdeal.main_v51) : (⟨4, ![4, 256, 40000, 1]⟩ : Shape).Idx → BitVec 32) = after KB1 X (Proc.devRef .tc Cert.KernelIdeal.main_v51) := by
  simp only [RA, RB1, RB2, RC, RD, KA, KB1, KB2, KC, KD, Cert.ReferenceIdeal.RefRun.ops0, Cert.ReferenceIdeal.RefRun.ops1, Cert.KernelIdeal.Gen.hostOps0_4, Cert.KernelIdeal.Gen.hostOps0_5, List.drop_succ_cons, List.drop_zero, List.take_succ_cons, List.take_zero, List.cons_append, List.nil_append]
  stage_simp
  rw [h42]
  try rfl

/-- Stage B1: the slot component of the index vectors, a negative slot number normalised. -/
theorem B1_v52 (X' : RVal) (X : KVal)
    (h25 : (X' (Proc.devRef .tc Cert.ReferenceIdeal.main_v25) : (⟨3, ![4, 256, 40000]⟩ : Shape).Idx → BitVec 32) = X (Proc.devRef .tc Cert.KernelIdeal.main_v25)) :
    (after RB1 X' (Proc.devRef .tc Cert.ReferenceIdeal.main_v52) : (⟨4, ![4, 256, 40000, 1]⟩ : Shape).Idx → BitVec 32) = after KB1 X (Proc.devRef .tc Cert.KernelIdeal.main_v52) := by
  simp only [RA, RB1, RB2, RC, RD, KA, KB1, KB2, KC, KD, Cert.ReferenceIdeal.RefRun.ops0, Cert.ReferenceIdeal.RefRun.ops1, Cert.KernelIdeal.Gen.hostOps0_4, Cert.KernelIdeal.Gen.hostOps0_5, List.drop_succ_cons, List.drop_zero, List.take_succ_cons, List.take_zero, List.cons_append, List.nil_append]
  stage_simp
  rw [h25]
  try rfl

/-- Stage B2: the index vectors (batch, box, slot). -/
theorem B2_v53 (X' : RVal) (X : KVal)
    (h50 : (X' (Proc.devRef .tc Cert.ReferenceIdeal.main_v50) : (⟨4, ![4, 256, 40000, 1]⟩ : Shape).Idx → BitVec 32) = X (Proc.devRef .tc Cert.KernelIdeal.main_v50))
    (h51 : (X' (Proc.devRef .tc Cert.ReferenceIdeal.main_v51) : (⟨4, ![4, 256, 40000, 1]⟩ : Shape).Idx → BitVec 32) = X (Proc.devRef .tc Cert.KernelIdeal.main_v51))
    (h52 : (X' (Proc.devRef .tc Cert.ReferenceIdeal.main_v52) : (⟨4, ![4, 256, 40000, 1]⟩ : Shape).Idx → BitVec 32) = X (Proc.devRef .tc Cert.KernelIdeal.main_v52)) :
    (after RB2 X' (Proc.devRef .tc Cert.ReferenceIdeal.main_v53) : (⟨4, ![4, 256, 40000, 3]⟩ : Shape).Idx → BitVec 32) = after KB2 X (Proc.devRef .tc Cert.KernelIdeal.main_v53) := by
  simp only [RA, RB1, RB2, RC, RD, KA, KB1, KB2, KC, KD, Cert.ReferenceIdeal.RefRun.ops0, Cert.ReferenceIdeal.RefRun.ops1, Cert.KernelIdeal.Gen.hostOps0_4, Cert.KernelIdeal.Gen.hostOps0_5, List.drop_succ_cons, List.drop_zero, List.take_succ_cons, List.take_zero, List.cons_append, List.nil_append]
  stage_simp
  show concatenate Cert.ReferenceIdeal.S4x256x40000x3 3
      [⟨Cert.ReferenceIdeal.S4x256x40000x1, (X' (Proc.devRef .tc Cert.ReferenceIdeal.main_v50) : (⟨4, ![4, 256, 40000, 1]⟩ : Shape).Idx → BitVec 32)⟩, ⟨Cert.ReferenceIdeal.S4x256x40000x1, (X' (Proc.devRef .tc Cert.ReferenceIdeal.main_v51) : (⟨4, ![4, 256, 40000, 1]⟩ : Shape).Idx → BitVec 32)⟩,
       ⟨Cert.ReferenceIdeal.S4x256x40000x1, (X' (Proc.devRef .tc Cert.ReferenceIdeal.main_v52) : (⟨4, ![4, 256, 40000, 1]⟩ : Shape).Idx → BitVec 32)⟩] _ =
    concatenate Cert.KernelIdeal.S4x256x40000x3 3
      [⟨Cert.KernelIdeal.S4x256x40000x1, (X (Proc.devRef .tc Cert.KernelIdeal.main_v50) : (⟨4, ![4, 256, 40000, 1]⟩ : Shape).Idx → BitVec 32)⟩, ⟨Cert.KernelIdeal.S4x256x40000x1, (X (Proc.devRef .tc Cert.KernelIdeal.main_v51) : (⟨4, ![4, 256, 40000, 1]⟩ : Shape).Idx → BitVec 32)⟩,
       ⟨Cert.KernelIdeal.S4x256x40000x1, (X (Proc.devRef .tc Cert.KernelIdeal.main_v52) : (⟨4, ![4, 256, 40000, 1]⟩ : Shape).Idx → BitVec 32)⟩] _
  rw [h50, h51, h52]
  try rfl

/-- Stage C: the first 512 slots of each row after the scatter. -/
theorem C_v55 (X' : RVal) (X : KVal)
    (h32 : (X' (Proc.devRef .tc Cert.ReferenceIdeal.main_v32) : (⟨3, ![4, 256, 513]⟩ : Shape).Idx → BitVec 32) = X (Proc.devRef .tc Cert.KernelIdeal.main_v32))
    (h53 : (X' (Proc.devRef .tc Cert.ReferenceIdeal.main_v53) : (⟨4, ![4, 256, 40000, 3]⟩ : Shape).Idx → BitVec 32) = X (Proc.devRef .tc Cert.KernelIdeal.main_v53))
    (h27 : (X' (Proc.devRef .tc Cert.ReferenceIdeal.main_v27) : (⟨3, ![4, 256, 40000]⟩ : Shape).Idx → BitVec 32) = X (Proc.devRef .tc Cert.KernelIdeal.main_v27)) :
    (after RC X' (Proc.devRef .tc Cert.ReferenceIdeal.main_v55) : (⟨3, ![4, 256, 512]⟩ : Shape).Idx → BitVec 32) = after KC X (Proc.devRef .tc Cert.KernelIdeal.main_v55) := by
  simp only [RA, RB1, RB2, RC, RD, KA, KB1, KB2, KC, KD, Cert.ReferenceIdeal.RefRun.ops0, Cert.ReferenceIdeal.RefRun.ops1, Cert.KernelIdeal.Gen.hostOps0_4, Cert.KernelIdeal.Gen.hostOps0_5, List.drop_succ_cons, List.drop_zero, List.take_succ_cons, List.take_zero, List.cons_append, List.nil_append]
  stage_simp
  rw [h32, h53, h27]
  try rfl

/-- Stage C: the first slot of each row after the scatter. -/
theorem C_v56 (X' : RVal) (X : KVal)
    (h32 : (X' (Proc.devRef .tc Cert.ReferenceIdeal.main_v32) : (⟨3, ![4, 256, 513]⟩ : Shape).Idx → BitVec 32) = X (Proc.devRef .tc Cert.KernelIdeal.main_v32))
    (h53 : (X' (Proc.devRef .tc Cert.ReferenceIdeal.main_v53) : (⟨4, ![4, 256, 40000, 3]⟩ : Shape).Idx → BitVec 32) = X (Proc.devRef .tc Cert.KernelIdeal.main_v53))
    (h27 : (X' (Proc.devRef .tc Cert.ReferenceIdeal.main_v27) : (⟨3, ![4, 256, 40000]⟩ : Shape).Idx → BitVec 32) = X (Proc.devRef .tc Cert.KernelIdeal.main_v27)) :
    (after RC X' (Proc.devRef .tc Cert.ReferenceIdeal.main_v56) : (⟨3, ![4, 256, 1]⟩ : Shape).Idx → BitVec 32) = after KC X (Proc.devRef .tc Cert.KernelIdeal.main_v56) := by
  simp only [RA, RB1, RB2, RC, RD, KA, KB1, KB2, KC, KD, Cert.ReferenceIdeal.RefRun.ops0, Cert.ReferenceIdeal.RefRun.ops1, Cert.KernelIdeal.Gen.hostOps0_4, Cert.KernelIdeal.Gen.hostOps0_5, List.drop_succ_cons, List.drop_zero, List.take_succ_cons, List.take_zero, List.cons_append, List.nil_append]
  stage_simp
  rw [h32, h53, h27]
  try rfl

/-- Stage D: the sample numbers. -/
theorem D_v63 (X' : RVal) (X : KVal)
    (h19 : (X' (Proc.devRef .tc Cert.ReferenceIdeal.main_v19) : (⟨2, ![4, 256]⟩ : Shape).Idx → BitVec 32) = X (Proc.devRef .tc Cert.KernelIdeal.main_v19))
    (h55 : (X' (Proc.devRef .tc Cert.ReferenceIdeal.main_v55) : (⟨3, ![4, 256, 512]⟩ : Shape).Idx → BitVec 32) = X (Proc.devRef .tc Cert.KernelIdeal.main_v55))
    (h56 : (X' (Proc.devRef .tc Cert.ReferenceIdeal.main_v56) : (⟨3, ![4, 256, 1]⟩ : Shape).Idx → BitVec 32) = X (Proc.devRef .tc Cert.KernelIdeal.main_v56)) :
    (after RD X' (Proc.devRef .tc Cert.ReferenceIdeal.main_v63) : (⟨3, ![4, 256, 512]⟩ : Shape).Idx → BitVec 32) = after KD X (Proc.devRef .tc Cert.KernelIdeal.main_v63) := by
  simp only [RA, RB1, RB2, RC, RD, KA, KB1, KB2, KC, KD, Cert.ReferenceIdeal.RefRun.ops0, Cert.ReferenceIdeal.RefRun.ops1, Cert.KernelIdeal.Gen.hostOps0_4, Cert.KernelIdeal.Gen.hostOps0_5, List.drop_succ_cons, List.drop_zero, List.take_succ_cons, List.take_zero, List.cons_append, List.nil_append]
  stage_simp
  rw [h19, h55, h56]
  try rfl

/-! ## The second half, assembled -/

theorem R_after (W' : RVal) :
    after (Cert.ReferenceIdeal.RefRun.ops0.drop 36 ++ Cert.ReferenceIdeal.RefRun.ops1.take 18) W' = after RD (after RC (after RB2 (after RB1 (after RA W')))) :=
  (congrArg (fun l => after l W') R_split).trans
    ((Cert.KernelIdeal.HV.after_append RA _ W').trans
      ((Cert.KernelIdeal.HV.after_append RB1 _ _).trans
        ((Cert.KernelIdeal.HV.after_append RB2 _ _).trans (Cert.KernelIdeal.HV.after_append RC RD _))))

theorem K_after (W : KVal) :
    after (Cert.KernelIdeal.Gen.hostOps0_4 ++ Cert.KernelIdeal.Gen.hostOps0_5) W = after KD (after KC (after KB2 (after KB1 (after KA W)))) :=
  (congrArg (fun l => after l W) K_split).trans
    ((Cert.KernelIdeal.HV.after_append KA _ W).trans
      ((Cert.KernelIdeal.HV.after_append KB1 _ _).trans
        ((Cert.KernelIdeal.HV.after_append KB2 _ _).trans (Cert.KernelIdeal.HV.after_append KC KD _))))

/-- THE SECOND HALF of the ball query computes the same sample numbers in the two programs, from any contents that agree
    on the clipped counts (%19) and the slot numbers (%25). -/
theorem half2 (W' : Valuation Cert.ReferenceIdeal.τ Cert.ReferenceIdeal.sig (Elt Ideal)) (W : Valuation Cert.KernelIdeal.τ Cert.KernelIdeal.sig (Elt Ideal))
    (h19 : (W' (Proc.devRef .tc Cert.ReferenceIdeal.main_v19) : (⟨2, ![4, 256]⟩ : Shape).Idx → BitVec 32) = W (Proc.devRef .tc Cert.KernelIdeal.main_v19))
    (h25 : (W' (Proc.devRef .tc Cert.ReferenceIdeal.main_v25) : (⟨3, ![4, 256, 40000]⟩ : Shape).Idx → BitVec 32) = W (Proc.devRef .tc Cert.KernelIdeal.main_v25)) :
    (after (Cert.ReferenceIdeal.RefRun.ops0.drop 36 ++ Cert.ReferenceIdeal.RefRun.ops1.take 18) W' (Proc.devRef .tc Cert.ReferenceIdeal.main_v63) : (⟨3, ![4, 256, 512]⟩ : Shape).Idx → BitVec 32)
      = after (Cert.KernelIdeal.Gen.hostOps0_4 ++ Cert.KernelIdeal.Gen.hostOps0_5) W (Proc.devRef .tc Cert.KernelIdeal.main_v63) := by
  -- after stage A
  have h25A : (after RA W' (Proc.devRef .tc Cert.ReferenceIdeal.main_v25) : (⟨3, ![4, 256, 40000]⟩ : Shape).Idx → BitVec 32) = after KA W (Proc.devRef .tc Cert.KernelIdeal.main_v25) := (RA_keeps_v25 W').trans (h25.trans (KA_keeps_v25 W).symm)
  have h19A : (after RA W' (Proc.devRef .tc Cert.ReferenceIdeal.main_v19) : (⟨2, ![4, 256]⟩ : Shape).Idx → BitVec 32) = after KA W (Proc.devRef .tc Cert.KernelIdeal.main_v19) := (RA_keeps_v19 W').trans (h19.trans (KA_keeps_v19 W).symm)
  -- after stage B1
  have h50 : (after RB1 (after RA W') (Proc.devRef .tc Cert.ReferenceIdeal.main_v50) : (⟨4, ![4, 256, 40000, 1]⟩ : Shape).Idx → BitVec 32) = after KB1 (after KA W) (Proc.devRef .tc Cert.KernelIdeal.main_v50) := B1_v50 (after RA W') (after KA W) (A_v37 W' W)
  have h51 : (after RB1 (after RA W') (Proc.devRef .tc Cert.ReferenceIdeal.main_v51) : (⟨4, ![4, 256, 40000, 1]⟩ : Shape).Idx → BitVec 32) = after KB1 (after KA W) (Proc.devRef .tc Cert.KernelIdeal.main_v51) := B1_v51 (after RA W') (after KA W) (A_v42 W' W)
  have h52 : (after RB1 (after RA W') (Proc.devRef .tc Cert.ReferenceIdeal.main_v52) : (⟨4, ![4, 256, 40000, 1]⟩ : Shape).Idx → BitVec 32) = after KB1 (after KA W) (Proc.devRef .tc Cert.KernelIdeal.main_v52) := B1_v52 (after RA W') (after KA W) h25A
  have h27B1 : (after RB1 (after RA W') (Proc.devRef .tc Cert.ReferenceIdeal.main_v27) : (⟨3, ![4, 256, 40000]⟩ : Shape).Idx → BitVec 32) = after KB1 (after KA W) (Proc.devRef .tc Cert.KernelIdeal.main_v27) := (RB1_keeps_v27 (after RA W')).trans ((A_v27 W' W).trans (KB1_keeps_v27 (after KA W)).symm)
  have h32B1 : (after RB1 (after RA W') (Proc.devRef .tc Cert.ReferenceIdeal.main_v32) : (⟨3, ![4, 256, 513]⟩ : Shape).Idx → BitVec 32) = after KB1 (after KA W) (Proc.devRef .tc Cert.KernelIdeal.main_v32) := (RB1_keeps_v32 (after RA W')).trans ((A_v32 W' W).trans (KB1_keeps_v32 (after KA W)).symm)
  have h19B1 : (after RB1 (after RA W') (Proc.devRef .tc Cert.ReferenceIdeal.main_v19) : (⟨2, ![4, 256]⟩ : Shape).Idx → BitVec 32) = after KB1 (after KA W) (Proc.devRef .tc Cert.KernelIdeal.main_v19) := (RB1_keeps_v19 (after RA W')).trans (h19A.trans (KB1_keeps_v19 (after KA W)).symm)
  -- after stage B2
  have h53 : (after RB2 (after RB1 (after RA W')) (Proc.devRef .tc Cert.ReferenceIdeal.main_v53) : (⟨4, ![4, 256, 40000, 3]⟩ : Shape).Idx → BitVec 32) = after KB2 (after KB1 (after KA W)) (Proc.devRef .tc Cert.KernelIdeal.main_v53) := B2_v53 (after RB1 (after RA W')) (after KB1 (after KA W)) h50 h51 h52
  have h27B2 : (after RB2 (after RB1 (after RA W')) (Proc.devRef .tc Cert.ReferenceIdeal.main_v27) : (⟨3, ![4, 256, 40000]⟩ : Shape).Idx → BitVec 32) = after KB2 (after KB1 (after KA W)) (Proc.devRef .tc Cert.KernelIdeal.main_v27) := (RB2_keeps_v27 (after RB1 (after RA W'))).trans (h27B1.trans (KB2_keeps_v27 (after KB1 (after KA W))).symm)
  have h32B2 : (after RB2 (after RB1 (after RA W')) (Proc.devRef .tc Cert.ReferenceIdeal.main_v32) : (⟨3, ![4, 256, 513]⟩ : Shape).Idx → BitVec 32) = after KB2 (after KB1 (after KA W)) (Proc.devRef .tc Cert.KernelIdeal.main_v32) := (RB2_keeps_v32 (after RB1 (after RA W'))).trans (h32B1.trans (KB2_keeps_v32 (after KB1 (after KA W))).symm)
  have h19B2 : (after RB2 (after RB1 (after RA W')) (Proc.devRef .tc Cert.ReferenceIdeal.main_v19) : (⟨2, ![4, 256]⟩ : Shape).Idx → BitVec 32) = after KB2 (after KB1 (after KA W)) (Proc.devRef .tc Cert.KernelIdeal.main_v19) := (RB2_keeps_v19 (after RB1 (after RA W'))).trans (h19B1.trans (KB2_keeps_v19 (after KB1 (after KA W))).symm)
  -- after stage C
  have h55 : (after RC (after RB2 (after RB1 (after RA W'))) (Proc.devRef .tc Cert.ReferenceIdeal.main_v55) : (⟨3, ![4, 256, 512]⟩ : Shape).Idx → BitVec 32) = after KC (after KB2 (after KB1 (after KA W))) (Proc.devRef .tc Cert.KernelIdeal.main_v55) := C_v55 (after RB2 (after RB1 (after RA W'))) (after KB2 (after KB1 (after KA W))) h32B2 h53 h27B2
  have h56 : (after RC (after RB2 (after RB1 (after RA W'))) (Proc.devRef .tc Cert.ReferenceIdeal.main_v56) : (⟨3, ![4, 256, 1]⟩ : Shape).Idx → BitVec 32) = after KC (after KB2 (after KB1 (after KA W))) (Proc.devRef .tc Cert.KernelIdeal.main_v56) := C_v56 (after RB2 (after RB1 (after RA W'))) (after KB2 (after KB1 (after KA W))) h32B2 h53 h27B2
  have h19C : (after RC (after RB2 (after RB1 (after RA W'))) (Proc.devRef .tc Cert.ReferenceIdeal.main_v19) : (⟨2, ![4, 256]⟩ : Shape).Idx → BitVec 32) = after KC (after KB2 (after KB1 (after KA W))) (Proc.devRef .tc Cert.KernelIdeal.main_v19) := (RC_keeps_v19 (after RB2 (after RB1 (after RA W')))).trans (h19B2.trans (KC_keeps_v19 (after KB2 (after KB1 (after KA W)))).symm)
  -- stage D, and the two lists as their stages
  exact (congrFun (R_after W') (Proc.devRef .tc Cert.ReferenceIdeal.main_v63)).trans
    ((D_v63 (after RC (after RB2 (after RB1 (after RA W')))) (after KC (after KB2 (after KB1 (after KA W)))) h19C h55 h56).trans (congrFun (K_after W) (Proc.devRef .tc Cert.KernelIdeal.main_v63)).symm)

end Cert.Proof.IdxHalf2

end
-- ==== Proof.Algebraic.lean ====
/-
  The value claim. From memories agreeing on the arguments, under the precondition that the float arguments are finite,
  both programs end with the specification's two arrays of the arguments and of the ball query's sample numbers: the kernel
  program by its region's run read through the one-hot accumulation (the point rows being finite, the sample numbers being
  below 40000), the reference by its run read through its gathers; and the two programs' sample-number arrays are the same
  function of the arguments, the host operations of the ball query being the same in both.
-/
import proofs.«179565_j43817256354257_2_alg».proof.Defs
import proofs.«179565_j43817256354257_2_alg».proof.Proof.Claims
import proofs.«179565_j43817256354257_2_alg».proof.Proof.KernelIdeal.KTail
import proofs.«179565_j43817256354257_2_alg».proof.Proof.RefRead
import proofs.«179565_j43817256354257_2_alg».proof.Proof.IdxAgree
import proofs.«179565_j43817256354257_2_alg».proof.Proof.IdxHalf2

noncomputable section

namespace Cert.Proof.Alg

open Idealize.ShloMosaic Idealize.ShloMosaic.TcCoe Idealize.SL.Sem

theorem Gxyz_congr {T T' : Fin 4 → Fin 40000 → Fin 8 → EReal} {ctr ctr' : (⟨3, ![4, 256, 3]⟩ : Shape).Idx → EReal}
    {cs cs' sn sn' : (⟨2, ![4, 256]⟩ : Shape).Idx → EReal} {I I' : (⟨3, ![4, 256, 512]⟩ : Shape).Idx → BitVec 32}
    {h : ∀ j, (I j).toNat < 40000} {h' : ∀ j, (I' j).toNat < 40000}
    (eT : T = T') (ec : ctr = ctr') (ecs : cs = cs') (esn : sn = sn') (eI : I = I') :
    Cert.Spec.Gxyz T ctr cs sn I h = Cert.Spec.Gxyz T' ctr' cs' sn' I' h' := by
  subst eT ec ecs esn eI; rfl

theorem Gfeat_congr {T T' : Fin 4 → Fin 40000 → Fin 8 → EReal} {I I' : (⟨3, ![4, 256, 512]⟩ : Shape).Idx → BitVec 32}
    {h : ∀ j, (I j).toNat < 40000} {h' : ∀ j, (I' j).toNat < 40000} (eT : T = T') (eI : I = I') :
    Cert.Spec.Gfeat T I h = Cert.Spec.Gfeat T' I' h' := by
  subst eT eI; rfl

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hP : ∀ (c : Dev Cert.KernelIdeal.nD) j, ∃ q : ℝ, Cert.KernelIdeal.KV.Pt m c j = (q : EReal) := fun c j => by
    rw [Cert.KernelIdeal.KV.Pt_def]; exact Cert.KernelIdeal.HV.v4_finite m c hpre j
  have hI : ∀ (c : Dev Cert.KernelIdeal.nD) j, (Cert.KernelIdeal.KV.Ix m c j).toNat < 40000 := fun c j => by
    rw [Cert.KernelIdeal.KV.Ix_def]; exact Cert.KernelIdeal.HV.v63_lt m c j
  refine ⟨fun c => Cert.Spec.Gxyz (Cert.Spec.table (m ((c.tc : Thread Cert.KernelIdeal.nD Cert.KernelIdeal.τ).loc Cert.KernelIdeal.main_arg3)) (m ((c.tc : Thread Cert.KernelIdeal.nD Cert.KernelIdeal.τ).loc Cert.KernelIdeal.main_arg4))) (m ((c.tc : Thread Cert.KernelIdeal.nD Cert.KernelIdeal.τ).loc Cert.KernelIdeal.main_arg0))
      (Host.cos (F := Ideal) (s := Cert.KernelIdeal.S4x256) (φ := .f32) (m ((c.tc : Thread Cert.KernelIdeal.nD Cert.KernelIdeal.τ).loc Cert.KernelIdeal.main_arg1)))
      (Host.sin (F := Ideal) (s := Cert.KernelIdeal.S4x256) (φ := .f32) (m ((c.tc : Thread Cert.KernelIdeal.nD Cert.KernelIdeal.τ).loc Cert.KernelIdeal.main_arg1))) (Cert.KernelIdeal.KV.Ix m c) (hI c),
    fun c => Cert.Spec.Gfeat (Cert.Spec.table (m ((c.tc : Thread Cert.KernelIdeal.nD Cert.KernelIdeal.τ).loc Cert.KernelIdeal.main_arg3)) (m ((c.tc : Thread Cert.KernelIdeal.nD Cert.KernelIdeal.τ).loc Cert.KernelIdeal.main_arg4))) (Cert.KernelIdeal.KV.Ix m c) (hI c), ?_, ?_⟩
  · exact (θ_run (Cert.KernelIdeal.defs (F := Ideal)) _ _).mono (fun r h c => ⟨
      ((h c).2 Cert.KernelIdeal.main_v70 (Pipeline.mem_restRefs_of Cert.KernelIdeal.main_v70 (by decide) (by decide))).trans
        (Cert.KernelIdeal.KV.tail70 m c (hP c) (hI c)),
      ((h c).2 Cert.KernelIdeal.main_v71 (Pipeline.mem_restRefs_of Cert.KernelIdeal.main_v71 (by decide) (by decide))).trans
        (Cert.KernelIdeal.KV.tail71 m c (hP c) (hI c)),
      ((h c).2 Cert.KernelIdeal.main_arg0 (Pipeline.mem_restRefs_of Cert.KernelIdeal.main_arg0 (by decide) (by decide))).trans (Cert.KernelIdeal.Fr.W_main_arg0 m (Cert.KernelIdeal.Fr.dats m) c),
      ((h c).2 Cert.KernelIdeal.main_arg1 (Pipeline.mem_restRefs_of Cert.KernelIdeal.main_arg1 (by decide) (by decide))).trans (Cert.KernelIdeal.Fr.W_main_arg1 m (Cert.KernelIdeal.Fr.dats m) c),
      ((h c).2 Cert.KernelIdeal.main_arg2 (Pipeline.mem_restRefs_of Cert.KernelIdeal.main_arg2 (by decide) (by decide))).trans (Cert.KernelIdeal.Fr.W_main_arg2 m (Cert.KernelIdeal.Fr.dats m) c),
      ((h c).2 Cert.KernelIdeal.main_arg3 (Pipeline.mem_restRefs_of Cert.KernelIdeal.main_arg3 (by decide) (by decide))).trans (Cert.KernelIdeal.Fr.W_main_arg3 m (Cert.KernelIdeal.Fr.dats m) c),
      ((h c).2 Cert.KernelIdeal.main_arg4 (Pipeline.mem_restRefs_of Cert.KernelIdeal.main_arg4 (by decide) (by decide))).trans (Cert.KernelIdeal.Fr.W_main_arg4 m (Cert.KernelIdeal.Fr.dats m) c),
      ((h c).2 Cert.KernelIdeal.main_arg5 (Pipeline.mem_restRefs_of Cert.KernelIdeal.main_arg5 (by decide) (by decide))).trans (Cert.KernelIdeal.Fr.W_main_arg5 m (Cert.KernelIdeal.Fr.dats m) c)⟩)
      (Cert.KernelIdeal.Fr.run_main m ρ)
  · refine (θ_run (Cert.ReferenceIdeal.defs (F := Ideal)) _ _).mono (fun r h c => ?_) (Cert.ReferenceIdeal.RefRun.run (F := Ideal) m' ρ')
    have e : (StableHlo.after Cert.ReferenceIdeal.RefRun.ops (StableHlo.launchContents m' c) (Proc.devRef .tc Cert.ReferenceIdeal.main_v63) : (⟨3, ![4, 256, 512]⟩ : Shape).Idx → BitVec 32)
        = Cert.KernelIdeal.KV.Ix m c :=
      (Cert.Proof.IdxAgree.idx_agree_of_half2 Cert.Proof.IdxHalf2.half2 m m' c (hagree c).1 (hagree c).2.2.2.1).trans (Cert.KernelIdeal.KV.Ix_def m c).symm
    have hidx : ∀ j, ((StableHlo.after Cert.ReferenceIdeal.RefRun.ops (StableHlo.launchContents m' c) (Proc.devRef .tc Cert.ReferenceIdeal.main_v63) : (⟨3, ![4, 256, 512]⟩ : Shape).Idx → BitVec 32) j).toNat < 40000 :=
      fun j => by rw [e]; exact hI c j
    refine ⟨?_, ?_, (h c).2.2⟩
    · rw [(h c).1, Cert.ReferenceIdeal.RefRead.res_xyz_eq (StableHlo.launchContents m' c) hidx]
      exact Gxyz_congr (congrArg₂ Cert.Spec.table (hagree c).2.2.2.1 (hagree c).2.2.2.2.1) (hagree c).1
        (congrArg _ (hagree c).2.1) (congrArg _ (hagree c).2.1) e
    · rw [(h c).2.1, Cert.ReferenceIdeal.RefRead.res_feat_eq (StableHlo.launchContents m' c) hidx]
      exact Gfeat_congr (congrArg₂ Cert.Spec.table (hagree c).2.2.2.1 (hagree c).2.2.2.2.1) e

end Cert.Proof.Alg

end
-- ==== Proof.lean ====
/-
  The certificate of the ball-query grouping kernel against its reference: the claims' assembly.
  The kernel gathers, for every box and sample position, the sampled point's eight channels by a one-hot matrix product
  accumulated over a hundred tiles of four hundred points, and rotates the three coordinates into the box's frame; the
  reference gathers the same rows directly. The three frames and the preserved rewrite are in Proof/Claims.lean, the value
  claim in Proof/Algebraic.lean.
-/
import proofs.«179565_j43817256354257_2_alg».proof.Defs
import proofs.«179565_j43817256354257_2_alg».proof.Proof.Claims
import proofs.«179565_j43817256354257_2_alg».proof.Proof.Algebraic
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Alg.algebraic⟩

end Cert.Proof

end
